-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x3 : Shape := ⟨2, ![80000, 3]⟩
abbrev S1280000x1 : Shape := ⟨2, ![1280000, 1]⟩
abbrev S2x1280000 : Shape := ⟨2, ![2, 1280000]⟩
abbrev S80000 : Shape := ⟨1, ![80000]⟩
abbrev S2x3x64 : Shape := ⟨3, ![2, 3, 64]⟩
abbrev S3x64 : Shape := ⟨2, ![3, 64]⟩
abbrev S64 : Shape := ⟨1, ![64]⟩
abbrev S2x64x64 : Shape := ⟨3, ![2, 64, 64]⟩
abbrev S64x64 : Shape := ⟨2, ![64, 64]⟩
abbrev S64x6 : Shape := ⟨2, ![64, 6]⟩
abbrev S6 : Shape := ⟨1, ![6]⟩
abbrev S_ : Shape := ⟨0, ![]⟩

class Facts : Prop where
  bcast_S_S80000x3 : S_.BroadcastsInDim S80000x3 (![] : Fin 0 → Fin S80000x3.rank)
  reducesTo_S80000x3_S_d0_1 : S80000x3.ReducesTo [0, 1] S_
  h_S_ : 0 < S_.numel
  bcast_S_S1280000x1 : S_.BroadcastsInDim S1280000x1 (![] : Fin 0 → Fin S1280000x1.rank)
  reducesTo_S1280000x1_S_d0_1 : S1280000x1.ReducesTo [0, 1] S_
  bcast_S_S2x3x64 : S_.BroadcastsInDim S2x3x64 (![] : Fin 0 → Fin S2x3x64.rank)
  reducesTo_S2x3x64_S_d0_1_2 : S2x3x64.ReducesTo [0, 1, 2] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg16 : FVec F S64x6 .f32) (main_arg17 : FVec F S6 .f32) (main_v63 : IVec S_ 1) (main_v67 : IVec S_ 1) : IVec S_ 1 :=
  let main_v68 : IVec S_ 1 := andi main_v63 main_v67
  let main_v69 : FVec F S64x6 .f32 := Host.absf main_arg16
  let main_cst_26 : FVec F S_ .f32 := constant S_ .f32 0x7F800000#32
  let main_v70 : FVec F S64x6 .f32 := broadcastInDim S64x6 ![] bcast_S_S64x6 main_cst_26
  let main_v71 : IVec S64x6 1 := cmpf .olt main_v69 main_v70
  let main_c_27 : IVec S_ 1 := constantI S_ 1 1#1
  let main_v72 : IVec S_ 1 := (fun x v => Host.reduce IntOp.andi x v reducesTo_S64x6_S_d0_1 h_S_) main_v71 main_c_27
  let main_v73 : IVec S_ 1 := andi main_v68 main_v72
  let main_v74 : FVec F S6 .f32 := Host.absf main_arg17
  let main_cst_28 : FVec F S_ .f32 := constant S_ .f32 0x7F800000#32
  let main_v75 : FVec F S6 .f32 := broadcastInDim S6 ![] bcast_S_S6 main_cst_28
  let main_v76 : IVec S6 1 := cmpf .olt main_v74 main_v75
  let main_c_29 : IVec S_ 1 := constantI S_ 1 1#1
  let main_v77 : IVec S_ 1 := (fun x v => Host.reduce IntOp.andi x v reducesTo_S6_S_d0 h_S_) main_v76 main_c_29
  let main_v78 : IVec S_ 1 := andi main_v73 main_v77
  main_v78

def fn_part3 {F : FTy → Type} [FloatOps F] (main_arg13 : FVec F S2x64x64 .f32) (main_arg14 : FVec F S64x64 .f32) (main_arg15 : FVec F S64 .f32) (main_arg16 : FVec F S64x6 .f32) (main_arg17 : FVec F S6 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S2x64x64 .f32 := Host.absf main_arg13
  let main_cst_20 : FVec F S_ .f32 := constant S_ .f32 0x7F800000#32
  let main_v55 : FVec F S2x64x64 .f32 := broadcastInDim S2x64x64 ![] bcast_S_S2x64x64 main_cst_20
  let main_v56 : IVec S2x64x64 1 := cmpf .olt main_v54 main_v55
  let main_c_21 : IVec S_ 1 := constantI S_ 1 1#1
  let main_v57 : IVec S_ 1 := (fun x v => Host.reduce IntOp.andi x v reducesTo_S2x64x64_S_d0_1_2 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S2x64x64 .f32) (main_arg11 : FVec F S64x64 .f32) (main_arg12 : FVec F S64 .f32) (main_arg13 : FVec F S2x64x64 .f32) (main_arg14 : FVec F S64x64 .f32) (main_arg15 : FVec F S64 .f32) (main_arg16 : FVec F S64x6 .f32) (main_arg17 : FVec F S6 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S2x64x64 .f32 := Host.absf main_arg10
  let main_cst_14 : FVec F S_ .f32 := constant S_ .f32 0x7F800000#32
  let main_v40 : FVec F S2x64x64 .f32 := broadcastInDim S2x64x64 ![] bcast_S_S2x64x64 main_cst_14
  let main_v41 : IVec S2x64x64 1 := cmpf .olt main_v39 main_v40
  let main_c_15 : IVec S_ 1 := constantI S_ 1 1#1
  let main_v42 : IVec S_ 1 := (fun x v => Host.reduce IntOp.andi x v reducesTo_S2x64x64_S_d0_1_2 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_v48 main_v49 main_v50

def fn_part1 {F : FTy → Type} [FloatOps F] (main_arg6 : FVec F S64 .f32) (main_arg7 : FVec F S2x64x64 .f32) (main_arg8 : FVec F S64x64 .f32) (main_arg9 : FVec F S64 .f32) (main_arg10 : FVec F S2x64x64 .f32) (main_arg11 : FVec F S64x64 .f32) (main_arg12 : FVec F S64 .f32) (main_arg13 : FVec F S2x64x64 .f32) (main_arg14 : FVec F S64x64 .f32) (main_arg15 : FVec F S64 .f32) (main_arg16 : FVec F S64x6 .f32) (main_arg17 : FVec F S6 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64x64 .f32 := Host.absf main_arg7
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S80000x3 .f32) (main_arg1 : FVec F S1280000x1 .f32) (main_arg2 : IVec S2x1280000 32) (main_arg3 : IVec S80000 32) (main_arg4 : FVec F S2x3x64 .f32) (main_arg5 : FVec F S3x64 .f32) (main_arg6 : FVec F S64 .f32) (main_arg7 : FVec F S2x64x64 .f32) (main_arg8 : FVec F S64x64 .f32) (main_arg9 : FVec F S64 .f32) (main_arg10 : FVec F S2x64x64 .f32) (main_arg11 : FVec F S64x64 .f32) (main_arg12 : FVec F S64 .f32) (main_arg13 : FVec F S2x64x64 .f32) (main_arg14 : FVec F S64x64 .f32) (main_arg15 : FVec F S64 .f32) (main_arg16 : FVec F S64x6 .f32) (main_arg17 : FVec F S6 .f32) : IVec S_ 1 :=
  let main_v0 : FVec F S80000x3 .f32 := Host.absf main_arg0
  let main_cst : FVec F S_ .f32 := constant S_ .f32 0x7F800000#32
  let main_v1 : FVec F S80000x3 .f32 := broadcastInDim S80000x3 ![] bcast_S_S80000x3 main_cst
  let main_v2 : IVec S80000x3 1 := cmpf .olt main_v0 main_v1
  let main_c : IVec S_ 1 := constantI S_ 1 1#1
  let main_v3 : IVec S_ 1 := (fun x v => Host.reduce IntOp.andi x v reducesTo_S80000x3_S_d0_1 h_S_) main_v2 main_c
  let main_v4 : FVec F S1280000x1 .f32 := Host.absf main_arg1
  let main_cst_0 : FVec F S_ .f32 := constant S_ .f32 0x7F800000#32
  let main_v5 : FVec F S1280000x1 .f32 := broadcastInDim S1280000x1 ![] bcast_S_S1280000x1 main_cst_0
  let main_v6 : IVec S1280000x1 1 := cmpf .olt main_v4 main_v5
  let main_c_1 : IVec S_ 1 := constantI S_ 1 1#1
  let main_v7 : IVec S_ 1 := (fun x v => Host.reduce IntOp.andi x v reducesTo_S1280000x1_S_d0_1 h_S_) main_v6 main_c_1
  let main_v8 : IVec S_ 1 := andi main_v3 main_v7
  let main_v9 : FVec F S2x3x64 .f32 := Host.absf main_arg4
  let main_cst_2 : FVec F S_ .f32 := constant S_ .f32 0x7F800000#32
  let main_v10 : FVec F S2x3x64 .f32 := broadcastInDim S2x3x64 ![] bcast_S_S2x3x64 main_cst_2
  let main_v11 : IVec S2x3x64 1 := cmpf .olt main_v9 main_v10
  let main_c_3 : IVec S_ 1 := constantI S_ 1 1#1
  let main_v12 : IVec S_ 1 := (fun x v => Host.reduce IntOp.andi x v reducesTo_S2x3x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S80000x3 : Shape := ⟨2, ![80000, 3]⟩
abbrev S1280000x1 : Shape := ⟨2, ![1280000, 1]⟩
abbrev S2x1280000 : Shape := ⟨2, ![2, 1280000]⟩
abbrev S80000 : Shape := ⟨1, ![80000]⟩
abbrev S2x3x64 : Shape := ⟨3, ![2, 3, 64]⟩
abbrev S3x64 : Shape := ⟨2, ![3, 64]⟩
abbrev S64 : Shape := ⟨1, ![64]⟩
abbrev S2x64x64 : Shape := ⟨3, ![2, 64, 64]⟩
abbrev S64x64 : Shape := ⟨2, ![64, 64]⟩
abbrev S64x6 : Shape := ⟨2, ![64, 6]⟩
abbrev S6 : Shape := ⟨1, ![6]⟩
abbrev S1x1280000 : Shape := ⟨2, ![1, 1280000]⟩
abbrev S1280000 : Shape := ⟨1, ![1280000]⟩
abbrev S_ : Shape := ⟨0, ![]⟩
abbrev S80000x1 : Shape := ⟨2, ![80000, 1]⟩
abbrev S1280000x3 : Shape := ⟨2, ![1280000, 3]⟩
abbrev S1x3x64 : Shape := ⟨3, ![1, 3, 64]⟩
abbrev S1280000x64 : Shape := ⟨2, ![1280000, 64]⟩
abbrev S10000x3 : Shape := ⟨2, ![10000, 3]⟩
abbrev S10000x1 : Shape := ⟨2, ![10000, 1]⟩
abbrev S10000x64 : Shape := ⟨2, ![10000, 64]⟩
abbrev S80000x64 : Shape := ⟨2, ![80000, 64]⟩
abbrev S1x64 : Shape := ⟨2, ![1, 64]⟩
abbrev S8000x64 : Shape := ⟨2, ![8000, 64]⟩
abbrev S8000x1 : Shape := ⟨2, ![8000, 1]⟩
abbrev S8000x3 : Shape := ⟨2, ![8000, 3]⟩
abbrev S1x64x64 : Shape := ⟨3, ![1, 64, 64]⟩
abbrev S512x64 : Shape := ⟨2, ![512, 64]⟩
abbrev S512 : Shape := ⟨1, ![512]⟩
abbrev S512x1 : Shape := ⟨2, ![512, 1]⟩
abbrev S512x6 : Shape := ⟨2, ![512, 6]⟩
abbrev S1x6 : Shape := ⟨2, ![1, 6]⟩

abbrev nBuf : Space → Nat
  | .hbm => 145
  | .vmem => 72
  | .smem => 0
  | _ => 0

abbrev hbmTy0_0 (i : Nat) : BufTy := match i % 128 with
  | 0 => ⟨S80000x3, .f32⟩
  | 1 => ⟨S1280000x1, .f32⟩
  | 2 => ⟨S2x1280000, .i32⟩
  | 3 => ⟨S80000, .i32⟩
  | 4 => ⟨S2x3x64, .f32⟩
  | 5 => ⟨S3x64, .f32⟩
  | 6 => ⟨S64, .f32⟩
  | 7 => ⟨S2x64x64, .f32⟩
  | 8 => ⟨S64x64, .f32⟩
  | 9 => ⟨S64, .f32⟩
  | 10 => ⟨S2x64x64, .f32⟩
  | 11 => ⟨S64x64, .f32⟩
  | 12 => ⟨S64, .f32⟩
  | 13 => ⟨S2x64x64, .f32⟩
  | 14 => ⟨S64x64, .f32⟩
  | 15 => ⟨S64, .f32⟩
  | 16 => ⟨S64x6, .f32⟩
  | 17 => ⟨S6, .f32⟩
  | 18 => ⟨S1x1280000, .i32⟩
  | 19 => ⟨S1280000, .i32⟩
  | 20 => ⟨S1x1280000, .i32⟩
  | 21 => ⟨S1280000, .i32⟩
  | 22 => ⟨S_, .f32⟩
  | 23 => ⟨S1280000, .f32⟩
  | 24 => ⟨S_, .f32⟩
  | 25 => ⟨S80000, .f32⟩
  | 26 => ⟨S1280000x1, .i32⟩
  | 27 => ⟨S80000, .f32⟩
  | 28 => ⟨S80000x1, .f32⟩
  | 29 => ⟨S_, .i32⟩
  | 30 => ⟨S1280000, .i32⟩
  | 31 => ⟨S1280000, .i1⟩
  | 32 => ⟨S_, .i32⟩
  | 33 => ⟨S1280000, .i32⟩
  | 34 => ⟨S1280000, .i32⟩
  | 35 => ⟨S1280000, .i32⟩
  | 36 => ⟨S1280000x1, .i32⟩
  | 37 => ⟨S1280000x3, .f32⟩
  | 38 => ⟨S1x3x64, .f32⟩
  | 39 => ⟨S3x64, .f32⟩
  | 40 => ⟨S1x3x64, .f32⟩
  | 41 => ⟨S3x64, .f32⟩
  | 42 => ⟨S1280000x64, .f32⟩
  | 43 => ⟨S_, .f32⟩
  | 44 => ⟨S80000x64, .f32⟩
  | 45 => ⟨S1280000x1, .i32⟩
  | 46 => ⟨S80000x64, .f32⟩
  | 47 => ⟨S1x64, .f32⟩
  | 48 => ⟨S80000x64, .f32⟩
  | 49 => ⟨S_, .i32⟩
  | 50 => ⟨S1280000, .i32⟩
  | 51 => ⟨S1280000, .i1⟩
  | 52 => ⟨S_, .i32⟩
  | 53 => ⟨S1280000, .i32⟩
  | 54 => ⟨S1280000, .i32⟩
  | 55 => ⟨S1280000, .i32⟩
  | 56 => ⟨S1280000x1, .i32⟩
  | 57 => ⟨S1280000x64, .f32⟩
  | 58 => ⟨S1x64x64, .f32⟩
  | 59 => ⟨S64x64, .f32⟩
  | 60 => ⟨S1x64x64, .f32⟩
  | 61 => ⟨S64x64, .f32⟩
  | 62 => ⟨S1280000x64, .f32⟩
  | 63 => ⟨S_, .f32⟩
  | 64 => ⟨S80000x64, .f32⟩
  | 65 => ⟨S1280000x1, .i32⟩
  | 66 => ⟨S80000x64, .f32⟩
  | 67 => ⟨S1x64, .f32⟩
  | 68 => ⟨S80000x64, .f32⟩
  | 69 => ⟨S_, .i32⟩
  | 70 => ⟨S1280000, .i32⟩
  | 71 => ⟨S1280000, .i1⟩
  | 72 => ⟨S_, .i32⟩
  | 73 => ⟨S1280000, .i32⟩
  | 74 => ⟨S1280000, .i32⟩
  | 75 => ⟨S1280000, .i32⟩
  | 76 => ⟨S1280000x1, .i32⟩
  | 77 => ⟨S1280000x64, .f32⟩
  | 78 => ⟨S1x64x64, .f32⟩
  | 79 => ⟨S64x64, .f32⟩
  | 80 => ⟨S1x64x64, .f32⟩
  | 81 => ⟨S64x64, .f32⟩
  | 82 => ⟨S1280000x64, .f32⟩
  | 83 => ⟨S_, .f32⟩
  | 84 => ⟨S80000x64, .f32⟩
  | 85 => ⟨S1280000x1, .i32⟩
  | 86 => ⟨S80000x64, .f32⟩
  | 87 => ⟨S1x64, .f32⟩
  | 88 => ⟨S80000x64, .f32⟩
  | 89 => ⟨S_, .i32⟩
  | 90 => ⟨S1280000, .i32⟩
  | 91 => ⟨S1280000, .i1⟩
  | 92 => ⟨S_, .i32⟩
  | 93 => ⟨S1280000, .i32⟩
  | 94 => ⟨S1280000, .i32⟩
  | 95 => ⟨S1280000, .i32⟩
  | 96 => ⟨S1280000x1, .i32⟩
  | 97 => ⟨S1280000x64, .f32⟩
  | 98 => ⟨S1x64x64, .f32⟩
  | 99 => ⟨S64x64, .f32⟩
  | 100 => ⟨S1x64x64, .f32⟩
  | 101 => ⟨S64x64, .f32⟩
  | 102 => ⟨S1280000x64, .f32⟩
  | 103 => ⟨S_, .f32⟩
  | 104 => ⟨S80000x64, .f32⟩
  | 105 => ⟨S1280000x1, .i32⟩
  | 106 => ⟨S80000x64, .f32⟩
  | 107 => ⟨S1x64, .f32⟩
  | 108 => ⟨S80000x64, .f32⟩
  | 109 => ⟨S_, .f32⟩
  | 110 => ⟨S512x64, .f32⟩
  | 111 => ⟨S80000x1, .i32⟩
  | 112 => ⟨S512x64, .f32⟩
  | 113 => ⟨S_, .f32⟩
  | 114 => ⟨S80000, .f32⟩
  | 115 => ⟨S_, .f32⟩
  | 116 => ⟨S512, .f32⟩
  | 117 => ⟨S80000x1, .i32⟩
  | 118 => ⟨S512, .f32⟩
  | 119 => ⟨S_, .f32⟩
  | 120 => ⟨S_, .f32⟩
  | 121 => ⟨S512, .f32⟩
  | 122 => ⟨S512, .f32⟩
  | 123 => ⟨S512x1, .f32⟩
  | 124 => ⟨S512x64, .f32⟩
  | 125 => ⟨S512x64, .f32⟩
  | 126 => ⟨S512x6, .f32⟩
  | 127 => ⟨S1x6, .f32⟩
  | _ => ⟨S80000x3, .f32⟩

abbrev hbmTy0_1 (i : Nat) : BufTy := match i % 128 with
  | 0 => ⟨S512x6, .f32⟩
  | 1 => ⟨S512x6, .f32⟩
  | 2 => ⟨S_, .f32⟩
  | 3 => ⟨S512, .f32⟩
  | 4 => ⟨S_, .f32⟩
  | 5 => ⟨S512, .f32⟩
  | 6 => ⟨S512, .f32⟩
  | 7 => ⟨S512x1, .f32⟩
  | 8 => ⟨S512x6, .f32⟩
  | 9 => ⟨S512x6, .f32⟩
  | 10 => ⟨S512x6, .f32⟩
  | 11 => ⟨S_, .f32⟩
  | 12 => ⟨S512, .f32⟩
  | 13 => ⟨S512x1, .f32⟩
  | 14 => ⟨S512x1, .f32⟩
  | 15 => ⟨S512x6, .f32⟩
  | 16 => ⟨S512x6, .f32⟩
  | _ => ⟨S80000x3, .f32⟩

abbrev hbmTy (i : Nat) : BufTy := match i / 128 with
  | 0 => hbmTy0_0 i
  | 1 => hbmTy0_1 i
  | _ => ⟨S80000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S10000x1, .f32⟩
  | .local _ .vmem, ⟨3, _⟩ => ⟨S10000x1, .f32⟩
  | .local _ .vmem, ⟨4, _⟩ => ⟨S3x64, .f32⟩
  | .local _ .vmem, ⟨5, _⟩ => ⟨S3x64, .f32⟩
  | .local _ .vmem, ⟨6, _⟩ => ⟨S10000x64, .f32⟩
  | .local _ .vmem, ⟨7, _⟩ => ⟨S10000x64, .f32⟩
  | .local _ .vmem, ⟨8, _⟩ => ⟨S8000x64, .f32⟩
  | .local _ .vmem, ⟨9, _⟩ => ⟨S8000x64, .f32⟩
  | .local _ .vmem, ⟨10, _⟩ => ⟨S8000x1, .f32⟩
  | .local _ .vmem, ⟨11, _⟩ => ⟨S8000x1, .f32⟩
  | .local _ .vmem, ⟨12, _⟩ => ⟨S8000x3, .f32⟩
  | .local _ .vmem, ⟨13, _⟩ => ⟨S8000x3, .f32⟩
  | .local _ .vmem, ⟨14, _⟩ => ⟨S3x64, .f32⟩
  | .local _ .vmem, ⟨15, _⟩ => ⟨S1x64, .f32⟩
  | .local _ .vmem, ⟨16, _⟩ => ⟨S8000x64, .f32⟩
  | .local _ .vmem, ⟨17, _⟩ => ⟨S8000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .f32⟩
  | .local _ .vmem, ⟨21, _⟩ => ⟨S10000x1, .f32⟩
  | .local _ .vmem, ⟨22, _⟩ => ⟨S64x64, .f32⟩
  | .local _ .vmem, ⟨23, _⟩ => ⟨S64x64, .f32⟩
  | .local _ .vmem, ⟨24, _⟩ => ⟨S10000x64, .f32⟩
  | .local _ .vmem, ⟨25, _⟩ => ⟨S10000x64, .f32⟩
  | .local _ .vmem, ⟨26, _⟩ => ⟨S8000x64, .f32⟩
  | .local _ .vmem, ⟨27, _⟩ => ⟨S8000x64, .f32⟩
  | .local _ .vmem, ⟨28, _⟩ => ⟨S8000x1, .f32⟩
  | .local _ .vmem, ⟨29, _⟩ => ⟨S8000x1, .f32⟩
  | .local _ .vmem, ⟨30, _⟩ => ⟨S8000x64, .f32⟩
  | .local _ .vmem, ⟨31, _⟩ => ⟨S8000x64, .f32⟩
  | .local _ .vmem, ⟨32, _⟩ => ⟨S64x64, .f32⟩
  | .local _ .vmem, ⟨33, _⟩ => ⟨S1x64, .f32⟩
  | .local _ .vmem, ⟨34, _⟩ => ⟨S8000x64, .f32⟩
  | .local _ .vmem, ⟨35, _⟩ => ⟨S8000x64, .f32⟩
  | .local _ .vmem, ⟨36, _⟩ => ⟨S10000x64, .f32⟩
  | .local _ .vmem, ⟨37, _⟩ => ⟨S10000x64, .f32⟩
  | .local _ .vmem, ⟨38, _⟩ => ⟨S10000x1, .f32⟩
  | .local _ .vmem, ⟨39, _⟩ => ⟨S10000x1, .f32⟩
  | .local _ .vmem, ⟨40, _⟩ => ⟨S64x64, .f32⟩
  | .local _ .vmem, ⟨41, _⟩ => ⟨S64x64, .f32⟩
  | .local _ .vmem, ⟨42, _⟩ => ⟨S10000x64, .f32⟩
  | .local _ .vmem, ⟨43, _⟩ => ⟨S10000x64, .f32⟩
  | .local _ .vmem, ⟨44, _⟩ => ⟨S8000x64, .f32⟩
  | .local _ .vmem, ⟨45, _⟩ => ⟨S8000x64, .f32⟩
  | .local _ .vmem, ⟨46, _⟩ => ⟨S8000x1, .f32⟩
  | .local _ .vmem, ⟨47, _⟩ => ⟨S8000x1, .f32⟩
  | .local _ .vmem, ⟨48, _⟩ => ⟨S8000x64, .f32⟩
  | .local _ .vmem, ⟨49, _⟩ => ⟨S8000x64, .f32⟩
  | .local _ .vmem, ⟨50, _⟩ => ⟨S64x64, .f32⟩
  | .local _ .vmem, ⟨51, _⟩ => ⟨S1x64, .f32⟩
  | .local _ .vmem, ⟨52, _⟩ => ⟨S8000x64, .f32⟩
  | .local _ .vmem, ⟨53, _⟩ => ⟨S8000x64, .f32⟩
  | .local _ .vmem, ⟨54, _⟩ => ⟨S10000x64, .f32⟩
  | .local _ .vmem, ⟨55, _⟩ => ⟨S10000x64, .f32⟩
  | .local _ .vmem, ⟨56, _⟩ => ⟨S10000x1, .f32⟩
  | .local _ .vmem, ⟨57, _⟩ => ⟨S10000x1, .f32⟩
  | .local _ .vmem, ⟨58, _⟩ => ⟨S64x64, .f32⟩
  | .local _ .vmem, ⟨59, _⟩ => ⟨S64x64, .f32⟩
  | .local _ .vmem, ⟨60, _⟩ => ⟨S10000x64, .f32⟩
  | .local _ .vmem, ⟨61, _⟩ => ⟨S10000x64, .f32⟩
  | .local _ .vmem, ⟨62, _⟩ => ⟨S8000x64, .f32⟩
  | .local _ .vmem, ⟨63, _⟩ => ⟨S8000x64, .f32⟩
  | .local _ .vmem, ⟨64, _⟩ => ⟨S8000x1, .f32⟩
  | .local _ .vmem, ⟨65, _⟩ => ⟨S8000x1, .f32⟩
  | .local _ .vmem, ⟨66, _⟩ => ⟨S8000x64, .f32⟩
  | .local _ .vmem, ⟨67, _⟩ => ⟨S8000x64, .f32⟩
  | .local _ .vmem, ⟨68, _⟩ => ⟨S64x64, .f32⟩
  | .local _ .vmem, ⟨69, _⟩ => ⟨S1x64, .f32⟩
  | .local _ .vmem, ⟨70, _⟩ => ⟨S8000x64, .f32⟩
  | .local _ .vmem, ⟨71, _⟩ => ⟨S8000x64, .f32⟩
  | _, _ => ⟨S80000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_6 : Ref sig .tc := ⟨.hbm, 69, rfl⟩
abbrev main_v43 : Ref sig .tc := ⟨.hbm, 70, rfl⟩
abbrev main_v44 : Ref sig .tc := ⟨.hbm, 71, rfl⟩
abbrev main_c_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_9 : Ref sig .tc := ⟨.hbm, 89, rfl⟩
abbrev main_v60 : Ref sig .tc := ⟨.hbm, 90, rfl⟩
abbrev main_v61 : Ref sig .tc := ⟨.hbm, 91, rfl⟩
abbrev main_c_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_11 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_13 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_15 : Ref sig .tc := ⟨.hbm, 119, rfl⟩
abbrev main_call0_v0 : Ref sig .tc := ⟨.hbm, 120, rfl⟩
abbrev main_call0_v1 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call1_cst : Ref sig .tc := ⟨.hbm, 130, rfl⟩
abbrev main_call1_v0 : Ref sig .tc := ⟨.hbm, 131, rfl⟩
abbrev main_call1_cst_0 : Ref sig .tc := ⟨.hbm, 132, rfl⟩
abbrev main_call1_v1 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_cst_1 : Ref sig .tc := ⟨.hbm, 139, rfl⟩
abbrev main_call1_v7 : Ref sig .tc := ⟨.hbm, 140, rfl⟩
abbrev main_call1_v8 : Ref sig .tc := ⟨.hbm, 141, rfl⟩
abbrev main_call1_v9 : Ref sig .tc := ⟨.hbm, 142, rfl⟩
abbrev main_call1_v10 : Ref sig .tc := ⟨.hbm, 143, rfl⟩
abbrev main_v92 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg4_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem4_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem4_0 : DmaSem sig := 69
abbrev cc7_sem5_0 : DmaSem sig := 70
abbrev cc7_sem5_1 : DmaSem sig := 71

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![128], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S80000 : S_.BroadcastsInDim S80000 (![] : Fin 0 → Fin S80000.rank)
  bcast_S1280000_S1280000x1_0 : S1280000.BroadcastsInDim S1280000x1 (![0] : Fin 1 → Fin S1280000x1.rank)
  bcast_S80000_S80000x1_0 : S80000.BroadcastsInDim S80000x1 (![0] : Fin 1 → Fin S80000x1.rank)
  slices_S2x3x64_S1x3x64_0_0_0 : S2x3x64.Slices ![0, 0, 0] S1x3x64
  shapeCasts_S1x3x64_S3x64 : S1x3x64.ShapeCasts S3x64
  slices_S2x3x64_S1x3x64_1_0_0 : S2x3x64.Slices ![1, 0, 0] S1x3x64
  inb_S10000x3_S10000x3_0_0 : ∀ a, (![0, 0] : Fin 2 → Nat) a + S10000x3.size a ≤ S10000x3.size a
  h_S10000x3 : 0 < S10000x3.numel
  shapeCasts_S10000x3_S10000x3 : S10000x3.ShapeCasts S10000x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S10000x1_S10000x1_0_0 : ∀ a, (![0, 0] : Fin 2 → Nat) a + S10000x1.size a ≤ S10000x1.size a
  h_S10000x1 : 0 < S10000x1.numel
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S80000x64 : S_.BroadcastsInDim S80000x64 (![] : Fin 0 → Fin S80000x64.rank)
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x3_S8000x3_0_0 : ∀ a, (![0, 0] : Fin 2 → Nat) a + S8000x3.size a ≤ S8000x3.size a
  h_S8000x3 : 0 < S8000x3.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  reducesTo_S512x6_S512_d1 : S512x6.ReducesTo [1] S512
  h_S_ : 0 < S_.numel
  bcast_S512x1_S512x6_0_1 : S512x1.BroadcastsInDim S512x6 (![0, 1] : Fin 2 → Fin S512x6.rank)
  scatter_S80000_S1280000x1_S1280000_n_0_0_1_wf : ScatterDims.WF S80000 S1280000x1 S1280000 [] [0] [0] 1
  gather_S80000x3_S1280000x1_S1280000x3_1_0_n_n_0_1_13_wf : GatherDims.WF S80000x3 S1280000x1 S1280000x3 [1] [0] [] [0] [] 1 ![1, 3]
  dot_S10000x3_S3x64_S10000x64_1_0_0_1_n_n_wf : DotDims.WF S10000x3 S3x64 S10000x64 [1] [0] [0] [1] [] []
  scatter_S80000x64_S1280000x1_S1280000x64_1_0_0_1_wf : ScatterDims.WF S80000x64 S1280000x1 S1280000x64 [1] [0] [0] 1
  dot_S8000x3_S3x64_S8000x64_1_0_0_1_n_n_wf : DotDims.WF S8000x3 S3x64 S8000x64 [1] [0] [0] [1] [] []
  gather_S80000x64_S1280000x1_S1280000x64_1_0_n_n_0_1_164_wf : GatherDims.WF S80000x64 S1280000x1 S1280000x64 [1] [0] [] [0] [] 1 ![1, 64]
  dot_S10000x64_S64x64_S10000x64_1_0_0_1_n_n_wf : DotDims.WF S10000x64 S64x64 S10000x64 [1] [0] [0] [1] [] []
  dot_S8000x64_S64x64_S8000x64_1_0_0_1_n_n_wf : DotDims.WF S8000x64 S64x64 S8000x64 [1] [0] [0] [1] [] []
  scatter_S512x64_S80000x1_S80000x64_1_0_0_1_wf : ScatterDims.WF S512x64 S80000x1 S80000x64 [1] [0] [0] 1
  scatter_S512_S80000x1_S80000_n_0_0_1_wf : ScatterDims.WF S512 S80000x1 S80000 [] [0] [0] 1
  dot_S512x64_S64x6_S512x6_1_0_0_1_n_n_wf : DotDims.WF S512x64 S64x6 S512x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S1280000x3.size a
  hwx0_0 : ∀ i : grid0.Coords, EltTy.bits .f32 = 32 ∨ (Rect.block (s := S1280000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1280000x1.size a
  hwx0_1 : ∀ i : grid0.Coords, EltTy.bits .f32 = 32 ∨ (Rect.block (s := S1280000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S1280000x64.size a
  hwx0_4 : ∀ i : grid0.Coords, EltTy.bits .f32 = 32 ∨ (Rect.block (s := S1280000x64) S10000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S80000x64.size a
  hwx1_0 : ∀ i : grid1.Coords, EltTy.bits .f32 = 32 ∨ (Rect.block (s := S80000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S80000x1.size a
  hwx1_1 : ∀ i : grid1.Coords, EltTy.bits .f32 = 32 ∨ (Rect.block (s := S80000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x3.size a ≤ S80000x3.size a
  hwx1_2 : ∀ i : grid1.Coords, EltTy.bits .f32 = 32 ∨ (Rect.block (s := S80000x3) S8000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64.size a ≤ S3x64.size a
  hwx1_3 : ∀ i : grid1.Coords, EltTy.bits .f32 = 32 ∨ (Rect.block (s := S3x64) S3x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S80000x64.size a
  hwx1_5 : ∀ i : grid1.Coords, EltTy.bits .f32 = 32 ∨ (Rect.block (s := S80000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1280000x64.size a
  hwx2_0 : ∀ i : grid2.Coords, EltTy.bits .f32 = 32 ∨ (Rect.block (s := S1280000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1280000x1.size a
  hwx2_1 : ∀ i : grid2.Coords, EltTy.bits .f32 = 32 ∨ (Rect.block (s := S1280000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S1280000x64.size a
  hwx2_4 : ∀ i : grid2.Coords, EltTy.bits .f32 = 32 ∨ (Rect.block (s := S1280000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S80000x64.size a
  hwx3_0 : ∀ i : grid3.Coords, EltTy.bits .f32 = 32 ∨ (Rect.block (s := S80000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S80000x1.size a
  hwx3_1 : ∀ i : grid3.Coords, EltTy.bits .f32 = 32 ∨ (Rect.block (s := S80000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S80000x64.size a
  hwx3_2 : ∀ i : grid3.Coords, EltTy.bits .f32 = 32 ∨ (Rect.block (s := S80000x64) S8000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x64.size a ≤ S80000x64.size a
  hwx3_5 : ∀ i : grid3.Coords, EltTy.bits .f32 = 32 ∨ (Rect.block (s := S80000x64) S8000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1280000x64.size a
  hwx4_0 : ∀ i : grid4.Coords, EltTy.bits .f32 = 32 ∨ (Rect.block (s := S1280000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1280000x1.size a
  hwx4_1 : ∀ i : grid4.Coords, EltTy.bits .f32 = 32 ∨ (Rect.block (s := S1280000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S1280000x64.size a
  hwx4_4 : ∀ i : grid4.Coords, EltTy.bits .f32 = 32 ∨ (Rect.block (s := S1280000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S80000x64.size a
  hwx5_0 : ∀ i : grid5.Coords, EltTy.bits .f32 = 32 ∨ (Rect.block (s := S80000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x1.size a ≤ S80000x1.size a
  hwx5_1 : ∀ i : grid5.Coords, EltTy.bits .f32 = 32 ∨ (Rect.block (s := S80000x1) S8000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x64.size a ≤ S80000x64.size a
  hwx5_2 : ∀ i : grid5.Coords, EltTy.bits .f32 = 32 ∨ (Rect.block (s := S80000x64) S8000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8000x64.size a ≤ S80000x64.size a
  hwx5_5 : ∀ i : grid5.Coords, EltTy.bits .f32 = 32 ∨ (Rect.block (s := S80000x64) S8000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S1280000x64.size a
  hwx6_0 : ∀ i : grid6.Coords, EltTy.bits .f32 = 32 ∨ (Rect.block (s := S1280000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S1280000x1.size a
  hwx6_1 : ∀ i : grid6.Coords, EltTy.bits .f32 = 32 ∨ (Rect.block (s := S1280000x1) S10000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x64.size a ≤ S1280000x64.size a
  hwx6_4 : ∀ i : grid6.Coords, EltTy.bits .f32 = 32 ∨ (Rect.block (s := S1280000x64) S10000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x64.size a ≤ S80000x64.size a
  hwx7_0 : ∀ i : grid7.Coords, EltTy.bits .f32 = 32 ∨ (Rect.block (s := S80000x64) S8000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x1.size a ≤ S80000x1.size a
  hwx7_1 : ∀ i : grid7.Coords, EltTy.bits .f32 = 32 ∨ (Rect.block (s := S80000x1) S8000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x64.size a ≤ S80000x64.size a
  hwx7_2 : ∀ i : grid7.Coords, EltTy.bits .f32 = 32 ∨ (Rect.block (s := S80000x64) S8000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8000x64.size a ≤ S80000x64.size a
  hwx7_5 : ∀ i : grid7.Coords, EltTy.bits .f32 = 32 ∨ (Rect.block (s := S80000x64) S8000x64.size (cc7_transform_5 i) (hinb7_5 i)).WholeWords (EltTy.packing .f32)

variable [Facts₀]

def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def gather_S80000x3_S1280000x1_S1280000x3_1_0_n_n_0_1_13 : GatherDims S80000x3 S1280000x1 S1280000x3 where
  offsetDims := [1]
  collapsedSliceDims := [0]
  operandBatchingDims := []
  startIndicesBatchingDims := []
  startIndexMap := [0]
  indexVectorDim := 1
  sliceSizes := ![1, 3]
  wf := gather_S80000x3_S1280000x1_S1280000x3_1_0_n_n_0_1_13_wf
def dot_S10000x3_S3x64_S10000x64_1_0_0_1_n_n : DotDims S10000x3 S3x64 S10000x64 where
  lhsContracting := [1]
  rhsContracting := [0]
  lhsNonContracting := [0]
  rhsNonContracting := [1]
  lhsBatch := []
  rhsBatch := []
  wf := dot_S10000x3_S3x64_S10000x64_1_0_0_1_n_n_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8000x3_S3x64_S8000x64_1_0_0_1_n_n : DotDims S8000x3 S3x64 S8000x64 where
  lhsContracting := [1]
  rhsContracting := [0]
  lhsNonContracting := [0]
  rhsNonContracting := [1]
  lhsBatch := []
  rhsBatch := []
  wf := dot_S8000x3_S3x64_S8000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S512x64_S80000x1_S80000x64_1_0_0_1 : ScatterDims S512x64 S80000x1 S80000x64 where
  updateWindowDims := [1]
  insertedWindowDims := [0]
  scatterDimsToOperandDims := [0]
  indexVectorDim := 1
  wf := scatter_S512x64_S80000x1_S80000x64_1_0_0_1_wf
def scatter_S512_S80000x1_S80000_n_0_0_1 : ScatterDims S512 S80000x1 S80000 where
  updateWindowDims := []
  insertedWindowDims := [0]
  scatterDimsToOperandDims := [0]
  indexVectorDim := 1
  wf := scatter_S512_S80000x1_S80000_n_0_0_1_wf
def dot_S512x64_S64x6_S512x6_1_0_0_1_n_n : DotDims S512x64 S64x6 S512x6 where
  lhsContracting := [1]
  rhsContracting := [0]
  lhsNonContracting := [0]
  rhsNonContracting := [1]
  lhsBatch := []
  rhsBatch := []
  wf := dot_S512x64_S64x6_S512x6_1_0_0_1_n_n_wf

abbrev win0_0 : Pipeline.Window sig grid0 :=
  Pipeline.Window.ofSpec (Memref.whole main_v15) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S8000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S3x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v32) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S8000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S8000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v57) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S8000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S8000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v59) S8000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v66) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v68) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v70) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v71) S10000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v74) S8000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S8000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v59) S8000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg14) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v75) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v76) S8000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S80000x3 : Shape := ⟨2, ![80000, 3]⟩
abbrev S1280000x1 : Shape := ⟨2, ![1280000, 1]⟩
abbrev S2x1280000 : Shape := ⟨2, ![2, 1280000]⟩
abbrev S80000 : Shape := ⟨1, ![80000]⟩
abbrev S2x3x64 : Shape := ⟨3, ![2, 3, 64]⟩
abbrev S3x64 : Shape := ⟨2, ![3, 64]⟩
abbrev S64 : Shape := ⟨1, ![64]⟩
abbrev S2x64x64 : Shape := ⟨3, ![2, 64, 64]⟩
abbrev S64x64 : Shape := ⟨2, ![64, 64]⟩
abbrev S64x6 : Shape := ⟨2, ![64, 6]⟩
abbrev S6 : Shape := ⟨1, ![6]⟩
abbrev S1x1280000 : Shape := ⟨2, ![1, 1280000]⟩
abbrev S1280000 : Shape := ⟨1, ![1280000]⟩
abbrev S_ : Shape := ⟨0, ![]⟩
abbrev S1280000x3 : Shape := ⟨2, ![1280000, 3]⟩
abbrev S1x3x64 : Shape := ⟨3, ![1, 3, 64]⟩
abbrev S1280000x64 : Shape := ⟨2, ![1280000, 64]⟩
abbrev S80000x64 : Shape := ⟨2, ![80000, 64]⟩
abbrev S80000x1 : Shape := ⟨2, ![80000, 1]⟩
abbrev S1x64 : Shape := ⟨2, ![1, 64]⟩
abbrev S1x64x64 : Shape := ⟨3, ![1, 64, 64]⟩
abbrev S512x64 : Shape := ⟨2, ![512, 64]⟩
abbrev S512 : Shape := ⟨1, ![512]⟩
abbrev S512x1 : Shape := ⟨2, ![512, 1]⟩
abbrev S512x6 : Shape := ⟨2, ![512, 6]⟩
abbrev S1x6 : Shape := ⟨2, ![1, 6]⟩

abbrev nBuf : Space → Nat
  | .hbm => 298
  | .vmem => 0
  | .smem => 0
  | _ => 0

abbrev hbmTy0_0 (i : Nat) : BufTy := match i % 128 with
  | 0 => ⟨S80000x3, .f32⟩
  | 1 => ⟨S1280000x1, .f32⟩
  | 2 => ⟨S2x1280000, .i32⟩
  | 3 => ⟨S80000, .i32⟩
  | 4 => ⟨S2x3x64, .f32⟩
  | 5 => ⟨S3x64, .f32⟩
  | 6 => ⟨S64, .f32⟩
  | 7 => ⟨S2x64x64, .f32⟩
  | 8 => ⟨S64x64, .f32⟩
  | 9 => ⟨S64, .f32⟩
  | 10 => ⟨S2x64x64, .f32⟩
  | 11 => ⟨S64x64, .f32⟩
  | 12 => ⟨S64, .f32⟩
  | 13 => ⟨S2x64x64, .f32⟩
  | 14 => ⟨S64x64, .f32⟩
  | 15 => ⟨S64, .f32⟩
  | 16 => ⟨S64x6, .f32⟩
  | 17 => ⟨S6, .f32⟩
  | 18 => ⟨S1x1280000, .i32⟩
  | 19 => ⟨S1280000, .i32⟩
  | 20 => ⟨S1x1280000, .i32⟩
  | 21 => ⟨S1280000, .i32⟩
  | 22 => ⟨S_, .i32⟩
  | 23 => ⟨S1280000, .i32⟩
  | 24 => ⟨S1280000, .i1⟩
  | 25 => ⟨S_, .i32⟩
  | 26 => ⟨S1280000, .i32⟩
  | 27 => ⟨S1280000, .i32⟩
  | 28 => ⟨S1280000, .i32⟩
  | 29 => ⟨S1280000x1, .i32⟩
  | 30 => ⟨S1280000x3, .f32⟩
  | 31 => ⟨S1x3x64, .f32⟩
  | 32 => ⟨S3x64, .f32⟩
  | 33 => ⟨S1280000x64, .f32⟩
  | 34 => ⟨S_, .f32⟩
  | 35 => ⟨S1280000x1, .f32⟩
  | 36 => ⟨S1280000x1, .f32⟩
  | 37 => ⟨S1280000x64, .f32⟩
  | 38 => ⟨S1280000x64, .f32⟩
  | 39 => ⟨S1x3x64, .f32⟩
  | 40 => ⟨S3x64, .f32⟩
  | 41 => ⟨S1280000x64, .f32⟩
  | 42 => ⟨S1280000x64, .f32⟩
  | 43 => ⟨S1280000x64, .f32⟩
  | 44 => ⟨S1280000x64, .f32⟩
  | 45 => ⟨S_, .f32⟩
  | 46 => ⟨S80000x64, .f32⟩
  | 47 => ⟨S1280000x1, .i32⟩
  | 48 => ⟨S80000x64, .f32⟩
  | 49 => ⟨S_, .f32⟩
  | 50 => ⟨S1280000, .f32⟩
  | 51 => ⟨S_, .f32⟩
  | 52 => ⟨S80000, .f32⟩
  | 53 => ⟨S1280000x1, .i32⟩
  | 54 => ⟨S80000, .f32⟩
  | 55 => ⟨S_, .f32⟩
  | 56 => ⟨S_, .f32⟩
  | 57 => ⟨S80000, .f32⟩
  | 58 => ⟨S80000, .f32⟩
  | 59 => ⟨S80000x1, .f32⟩
  | 60 => ⟨S80000x64, .f32⟩
  | 61 => ⟨S80000x64, .f32⟩
  | 62 => ⟨S80000x64, .f32⟩
  | 63 => ⟨S80000x64, .f32⟩
  | 64 => ⟨S1x64, .f32⟩
  | 65 => ⟨S80000x64, .f32⟩
  | 66 => ⟨S80000x64, .f32⟩
  | 67 => ⟨S_, .f32⟩
  | 68 => ⟨S80000x64, .f32⟩
  | 69 => ⟨S80000x64, .i1⟩
  | 70 => ⟨S_, .f32⟩
  | 71 => ⟨S80000x64, .f32⟩
  | 72 => ⟨S80000x64, .i1⟩
  | 73 => ⟨S_, .f32⟩
  | 74 => ⟨S_, .f32⟩
  | 75 => ⟨S80000x64, .f32⟩
  | 76 => ⟨S80000x64, .f32⟩
  | 77 => ⟨S80000x64, .f32⟩
  | 78 => ⟨S_, .f32⟩
  | 79 => ⟨S80000x64, .f32⟩
  | 80 => ⟨S80000x64, .f32⟩
  | 81 => ⟨S80000x64, .f32⟩
  | 82 => ⟨S_, .i32⟩
  | 83 => ⟨S1280000, .i32⟩
  | 84 => ⟨S1280000, .i1⟩
  | 85 => ⟨S_, .i32⟩
  | 86 => ⟨S1280000, .i32⟩
  | 87 => ⟨S1280000, .i32⟩
  | 88 => ⟨S1280000, .i32⟩
  | 89 => ⟨S1280000x1, .i32⟩
  | 90 => ⟨S1280000x64, .f32⟩
  | 91 => ⟨S1x64x64, .f32⟩
  | 92 => ⟨S64x64, .f32⟩
  | 93 => ⟨S1280000x64, .f32⟩
  | 94 => ⟨S_, .f32⟩
  | 95 => ⟨S1280000x1, .f32⟩
  | 96 => ⟨S1280000x1, .f32⟩
  | 97 => ⟨S1280000x64, .f32⟩
  | 98 => ⟨S1280000x64, .f32⟩
  | 99 => ⟨S1x64x64, .f32⟩
  | 100 => ⟨S64x64, .f32⟩
  | 101 => ⟨S1280000x64, .f32⟩
  | 102 => ⟨S1280000x64, .f32⟩
  | 103 => ⟨S1280000x64, .f32⟩
  | 104 => ⟨S1280000x64, .f32⟩
  | 105 => ⟨S_, .f32⟩
  | 106 => ⟨S80000x64, .f32⟩
  | 107 => ⟨S1280000x1, .i32⟩
  | 108 => ⟨S80000x64, .f32⟩
  | 109 => ⟨S_, .f32⟩
  | 110 => ⟨S1280000, .f32⟩
  | 111 => ⟨S_, .f32⟩
  | 112 => ⟨S80000, .f32⟩
  | 113 => ⟨S1280000x1, .i32⟩
  | 114 => ⟨S80000, .f32⟩
  | 115 => ⟨S_, .f32⟩
  | 116 => ⟨S_, .f32⟩
  | 117 => ⟨S80000, .f32⟩
  | 118 => ⟨S80000, .f32⟩
  | 119 => ⟨S80000x1, .f32⟩
  | 120 => ⟨S80000x64, .f32⟩
  | 121 => ⟨S80000x64, .f32⟩
  | 122 => ⟨S80000x64, .f32⟩
  | 123 => ⟨S80000x64, .f32⟩
  | 124 => ⟨S1x64, .f32⟩
  | 125 => ⟨S80000x64, .f32⟩
  | 126 => ⟨S80000x64, .f32⟩
  | 127 => ⟨S_, .f32⟩
  | _ => ⟨S80000x3, .f32⟩

abbrev hbmTy0_1 (i : Nat) : BufTy := match i % 128 with
  | 0 => ⟨S80000x64, .f32⟩
  | 1 => ⟨S80000x64, .i1⟩
  | 2 => ⟨S_, .f32⟩
  | 3 => ⟨S80000x64, .f32⟩
  | 4 => ⟨S80000x64, .i1⟩
  | 5 => ⟨S_, .f32⟩
  | 6 => ⟨S_, .f32⟩
  | 7 => ⟨S80000x64, .f32⟩
  | 8 => ⟨S80000x64, .f32⟩
  | 9 => ⟨S80000x64, .f32⟩
  | 10 => ⟨S_, .f32⟩
  | 11 => ⟨S80000x64, .f32⟩
  | 12 => ⟨S80000x64, .f32⟩
  | 13 => ⟨S80000x64, .f32⟩
  | 14 => ⟨S_, .i32⟩
  | 15 => ⟨S1280000, .i32⟩
  | 16 => ⟨S1280000, .i1⟩
  | 17 => ⟨S_, .i32⟩
  | 18 => ⟨S1280000, .i32⟩
  | 19 => ⟨S1280000, .i32⟩
  | 20 => ⟨S1280000, .i32⟩
  | 21 => ⟨S1280000x1, .i32⟩
  | 22 => ⟨S1280000x64, .f32⟩
  | 23 => ⟨S1x64x64, .f32⟩
  | 24 => ⟨S64x64, .f32⟩
  | 25 => ⟨S1280000x64, .f32⟩
  | 26 => ⟨S_, .f32⟩
  | 27 => ⟨S1280000x1, .f32⟩
  | 28 => ⟨S1280000x1, .f32⟩
  | 29 => ⟨S1280000x64, .f32⟩
  | 30 => ⟨S1280000x64, .f32⟩
  | 31 => ⟨S1x64x64, .f32⟩
  | 32 => ⟨S64x64, .f32⟩
  | 33 => ⟨S1280000x64, .f32⟩
  | 34 => ⟨S1280000x64, .f32⟩
  | 35 => ⟨S1280000x64, .f32⟩
  | 36 => ⟨S1280000x64, .f32⟩
  | 37 => ⟨S_, .f32⟩
  | 38 => ⟨S80000x64, .f32⟩
  | 39 => ⟨S1280000x1, .i32⟩
  | 40 => ⟨S80000x64, .f32⟩
  | 41 => ⟨S_, .f32⟩
  | 42 => ⟨S1280000, .f32⟩
  | 43 => ⟨S_, .f32⟩
  | 44 => ⟨S80000, .f32⟩
  | 45 => ⟨S1280000x1, .i32⟩
  | 46 => ⟨S80000, .f32⟩
  | 47 => ⟨S_, .f32⟩
  | 48 => ⟨S_, .f32⟩
  | 49 => ⟨S80000, .f32⟩
  | 50 => ⟨S80000, .f32⟩
  | 51 => ⟨S80000x1, .f32⟩
  | 52 => ⟨S80000x64, .f32⟩
  | 53 => ⟨S80000x64, .f32⟩
  | 54 => ⟨S80000x64, .f32⟩
  | 55 => ⟨S80000x64, .f32⟩
  | 56 => ⟨S1x64, .f32⟩
  | 57 => ⟨S80000x64, .f32⟩
  | 58 => ⟨S80000x64, .f32⟩
  | 59 => ⟨S_, .f32⟩
  | 60 => ⟨S80000x64, .f32⟩
  | 61 => ⟨S80000x64, .i1⟩
  | 62 => ⟨S_, .f32⟩
  | 63 => ⟨S80000x64, .f32⟩
  | 64 => ⟨S80000x64, .i1⟩
  | 65 => ⟨S_, .f32⟩
  | 66 => ⟨S_, .f32⟩
  | 67 => ⟨S80000x64, .f32⟩
  | 68 => ⟨S80000x64, .f32⟩
  | 69 => ⟨S80000x64, .f32⟩
  | 70 => ⟨S_, .f32⟩
  | 71 => ⟨S80000x64, .f32⟩
  | 72 => ⟨S80000x64, .f32⟩
  | 73 => ⟨S80000x64, .f32⟩
  | 74 => ⟨S_, .i32⟩
  | 75 => ⟨S1280000, .i32⟩
  | 76 => ⟨S1280000, .i1⟩
  | 77 => ⟨S_, .i32⟩
  | 78 => ⟨S1280000, .i32⟩
  | 79 => ⟨S1280000, .i32⟩
  | 80 => ⟨S1280000, .i32⟩
  | 81 => ⟨S1280000x1, .i32⟩
  | 82 => ⟨S1280000x64, .f32⟩
  | 83 => ⟨S1x64x64, .f32⟩
  | 84 => ⟨S64x64, .f32⟩
  | 85 => ⟨S1280000x64, .f32⟩
  | 86 => ⟨S_, .f32⟩
  | 87 => ⟨S1280000x1, .f32⟩
  | 88 => ⟨S1280000x1, .f32⟩
  | 89 => ⟨S1280000x64, .f32⟩
  | 90 => ⟨S1280000x64, .f32⟩
  | 91 => ⟨S1x64x64, .f32⟩
  | 92 => ⟨S64x64, .f32⟩
  | 93 => ⟨S1280000x64, .f32⟩
  | 94 => ⟨S1280000x64, .f32⟩
  | 95 => ⟨S1280000x64, .f32⟩
  | 96 => ⟨S1280000x64, .f32⟩
  | 97 => ⟨S_, .f32⟩
  | 98 => ⟨S80000x64, .f32⟩
  | 99 => ⟨S1280000x1, .i32⟩
  | 100 => ⟨S80000x64, .f32⟩
  | 101 => ⟨S_, .f32⟩
  | 102 => ⟨S1280000, .f32⟩
  | 103 => ⟨S_, .f32⟩
  | 104 => ⟨S80000, .f32⟩
  | 105 => ⟨S1280000x1, .i32⟩
  | 106 => ⟨S80000, .f32⟩
  | 107 => ⟨S_, .f32⟩
  | 108 => ⟨S_, .f32⟩
  | 109 => ⟨S80000, .f32⟩
  | 110 => ⟨S80000, .f32⟩
  | 111 => ⟨S80000x1, .f32⟩
  | 112 => ⟨S80000x64, .f32⟩
  | 113 => ⟨S80000x64, .f32⟩
  | 114 => ⟨S80000x64, .f32⟩
  | 115 => ⟨S80000x64, .f32⟩
  | 116 => ⟨S1x64, .f32⟩
  | 117 => ⟨S80000x64, .f32⟩
  | 118 => ⟨S80000x64, .f32⟩
  | 119 => ⟨S_, .f32⟩
  | 120 => ⟨S80000x64, .f32⟩
  | 121 => ⟨S80000x64, .i1⟩
  | 122 => ⟨S_, .f32⟩
  | 123 => ⟨S80000x64, .f32⟩
  | 124 => ⟨S80000x64, .i1⟩
  | 125 => ⟨S_, .f32⟩
  | 126 => ⟨S_, .f32⟩
  | 127 => ⟨S80000x64, .f32⟩
  | _ => ⟨S80000x3, .f32⟩

abbrev hbmTy0_2 (i : Nat) : BufTy := match i % 128 with
  | 0 => ⟨S80000x64, .f32⟩
  | 1 => ⟨S80000x64, .f32⟩
  | 2 => ⟨S_, .f32⟩
  | 3 => ⟨S80000x64, .f32⟩
  | 4 => ⟨S80000x64, .f32⟩
  | 5 => ⟨S80000x64, .f32⟩
  | 6 => ⟨S_, .f32⟩
  | 7 => ⟨S512x64, .f32⟩
  | 8 => ⟨S80000x1, .i32⟩
  | 9 => ⟨S512x64, .f32⟩
  | 10 => ⟨S_, .f32⟩
  | 11 => ⟨S80000, .f32⟩
  | 12 => ⟨S_, .f32⟩
  | 13 => ⟨S512, .f32⟩
  | 14 => ⟨S80000x1, .i32⟩
  | 15 => ⟨S512, .f32⟩
  | 16 => ⟨S_, .f32⟩
  | 17 => ⟨S_, .f32⟩
  | 18 => ⟨S512, .f32⟩
  | 19 => ⟨S512, .f32⟩
  | 20 => ⟨S512x1, .f32⟩
  | 21 => ⟨S512x64, .f32⟩
  | 22 => ⟨S512x64, .f32⟩
  | 23 => ⟨S512x6, .f32⟩
  | 24 => ⟨S1x6, .f32⟩
  | 25 => ⟨S512x6, .f32⟩
  | 26 => ⟨S512x6, .f32⟩
  | 27 => ⟨S_, .f32⟩
  | 28 => ⟨S512, .f32⟩
  | 29 => ⟨S_, .f32⟩
  | 30 => ⟨S512, .f32⟩
  | 31 => ⟨S512, .f32⟩
  | 32 => ⟨S512x1, .f32⟩
  | 33 => ⟨S512x6, .f32⟩
  | 34 => ⟨S512x6, .f32⟩
  | 35 => ⟨S512x6, .f32⟩
  | 36 => ⟨S_, .f32⟩
  | 37 => ⟨S512, .f32⟩
  | 38 => ⟨S512x1, .f32⟩
  | 39 => ⟨S512x1, .f32⟩
  | 40 => ⟨S512x6, .f32⟩
  | 41 => ⟨S512x6, .f32⟩
  | _ => ⟨S80000x3, .f32⟩

abbrev hbmTy (i : Nat) : BufTy := match i / 128 with
  | 0 => hbmTy0_0 i
  | 1 => hbmTy0_1 i
  | 2 => hbmTy0_2 i
  | _ => ⟨S80000x3, .f32⟩

abbrev bufTy : (tb : Table) → Fin (tcTables nBuf tb) → BufTy
  | .hbm, ⟨i, _⟩ => hbmTy i
  | _, _ => ⟨S80000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_call0_v0 : Ref sig .tc := ⟨.hbm, 56, rfl⟩
abbrev main_call0_v1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_cst_1 : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_v4 : Ref sig .tc := ⟨.hbm, 76, rfl⟩
abbrev main_call1_v5 : Ref sig .tc := ⟨.hbm, 77, rfl⟩
abbrev main_call1_cst_2 : Ref sig .tc := ⟨.hbm, 78, rfl⟩
abbrev main_call1_v6 : Ref sig .tc := ⟨.hbm, 79, rfl⟩
abbrev main_call1_v7 : Ref sig .tc := ⟨.hbm, 80, rfl⟩
abbrev main_v40 : Ref sig .tc := ⟨.hbm, 81, rfl⟩
abbrev main_c_5 : Ref sig .tc := ⟨.hbm, 82, rfl⟩
abbrev main_v41 : Ref sig .tc := ⟨.hbm, 83, rfl⟩
abbrev main_v42 : Ref sig .tc := ⟨.hbm, 84, rfl⟩
abbrev main_c_6 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_cst_7 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_8 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_9 : Ref sig .tc := ⟨.hbm, 109, rfl⟩
abbrev main_v64 : Ref sig .tc := ⟨.hbm, 110, rfl⟩
abbrev main_cst_10 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_11 : Ref sig .tc := ⟨.hbm, 115, rfl⟩
abbrev main_call2_v0 : Ref sig .tc := ⟨.hbm, 116, rfl⟩
abbrev main_call2_v1 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_call3_cst : Ref sig .tc := ⟨.hbm, 127, rfl⟩
abbrev main_call3_v0 : Ref sig .tc := ⟨.hbm, 128, rfl⟩
abbrev main_call3_v1 : Ref sig .tc := ⟨.hbm, 129, rfl⟩
abbrev main_call3_cst_0 : Ref sig .tc := ⟨.hbm, 130, rfl⟩
abbrev main_call3_v2 : Ref sig .tc := ⟨.hbm, 131, rfl⟩
abbrev main_call3_v3 : Ref sig .tc := ⟨.hbm, 132, rfl⟩
abbrev main_call3_cst_1 : Ref sig .tc := ⟨.hbm, 133, rfl⟩
abbrev main_call3_call0_v0 : Ref sig .tc := ⟨.hbm, 134, rfl⟩
abbrev main_call3_call0_v1 : Ref sig .tc := ⟨.hbm, 135, rfl⟩
abbrev main_call3_v4 : Ref sig .tc := ⟨.hbm, 136, rfl⟩
abbrev main_call3_v5 : Ref sig .tc := ⟨.hbm, 137, rfl⟩
abbrev main_call3_cst_2 : Ref sig .tc := ⟨.hbm, 138, rfl⟩
abbrev main_call3_v6 : Ref sig .tc := ⟨.hbm, 139, rfl⟩
abbrev main_call3_v7 : Ref sig .tc := ⟨.hbm, 140, rfl⟩
abbrev main_v77 : Ref sig .tc := ⟨.hbm, 141, rfl⟩
abbrev main_c_12 : Ref sig .tc := ⟨.hbm, 142, rfl⟩
abbrev main_v78 : Ref sig .tc := ⟨.hbm, 143, rfl⟩
abbrev main_v79 : Ref sig .tc := ⟨.hbm, 144, rfl⟩
abbrev main_c_13 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst_14 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_15 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_cst_16 : Ref sig .tc := ⟨.hbm, 169, rfl⟩
abbrev main_v101 : Ref sig .tc := ⟨.hbm, 170, rfl⟩
abbrev main_cst_17 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_cst_18 : Ref sig .tc := ⟨.hbm, 175, rfl⟩
abbrev main_call4_v0 : Ref sig .tc := ⟨.hbm, 176, rfl⟩
abbrev main_call4_v1 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_call5_cst : Ref sig .tc := ⟨.hbm, 187, rfl⟩
abbrev main_call5_v0 : Ref sig .tc := ⟨.hbm, 188, rfl⟩
abbrev main_call5_v1 : Ref sig .tc := ⟨.hbm, 189, rfl⟩
abbrev main_call5_cst_0 : Ref sig .tc := ⟨.hbm, 190, rfl⟩
abbrev main_call5_v2 : Ref sig .tc := ⟨.hbm, 191, rfl⟩
abbrev main_call5_v3 : Ref sig .tc := ⟨.hbm, 192, rfl⟩
abbrev main_call5_cst_1 : Ref sig .tc := ⟨.hbm, 193, rfl⟩
abbrev main_call5_call0_v0 : Ref sig .tc := ⟨.hbm, 194, rfl⟩
abbrev main_call5_call0_v1 : Ref sig .tc := ⟨.hbm, 195, rfl⟩
abbrev main_call5_v4 : Ref sig .tc := ⟨.hbm, 196, rfl⟩
abbrev main_call5_v5 : Ref sig .tc := ⟨.hbm, 197, rfl⟩
abbrev main_call5_cst_2 : Ref sig .tc := ⟨.hbm, 198, rfl⟩
abbrev main_call5_v6 : Ref sig .tc := ⟨.hbm, 199, rfl⟩
abbrev main_call5_v7 : Ref sig .tc := ⟨.hbm, 200, rfl⟩
abbrev main_v114 : Ref sig .tc := ⟨.hbm, 201, rfl⟩
abbrev main_c_19 : Ref sig .tc := ⟨.hbm, 202, rfl⟩
abbrev main_v115 : Ref sig .tc := ⟨.hbm, 203, rfl⟩
abbrev main_v116 : Ref sig .tc := ⟨.hbm, 204, rfl⟩
abbrev main_c_20 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_cst_21 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_cst_22 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_cst_23 : Ref sig .tc := ⟨.hbm, 229, rfl⟩
abbrev main_v138 : Ref sig .tc := ⟨.hbm, 230, rfl⟩
abbrev main_cst_24 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_25 : Ref sig .tc := ⟨.hbm, 235, rfl⟩
abbrev main_call6_v0 : Ref sig .tc := ⟨.hbm, 236, rfl⟩
abbrev main_call6_v1 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_call7_cst : Ref sig .tc := ⟨.hbm, 247, rfl⟩
abbrev main_call7_v0 : Ref sig .tc := ⟨.hbm, 248, rfl⟩
abbrev main_call7_v1 : Ref sig .tc := ⟨.hbm, 249, rfl⟩
abbrev main_call7_cst_0 : Ref sig .tc := ⟨.hbm, 250, rfl⟩
abbrev main_call7_v2 : Ref sig .tc := ⟨.hbm, 251, rfl⟩
abbrev main_call7_v3 : Ref sig .tc := ⟨.hbm, 252, rfl⟩
abbrev main_call7_cst_1 : Ref sig .tc := ⟨.hbm, 253, rfl⟩
abbrev main_call7_call0_v0 : Ref sig .tc := ⟨.hbm, 254, rfl⟩
abbrev main_call7_call0_v1 : Ref sig .tc := ⟨.hbm, 255, rfl⟩
abbrev main_call7_v4 : Ref sig .tc := ⟨.hbm, 256, rfl⟩
abbrev main_call7_v5 : Ref sig .tc := ⟨.hbm, 257, rfl⟩
abbrev main_call7_cst_2 : Ref sig .tc := ⟨.hbm, 258, rfl⟩
abbrev main_call7_v6 : Ref sig .tc := ⟨.hbm, 259, rfl⟩
abbrev main_call7_v7 : Ref sig .tc := ⟨.hbm, 260, rfl⟩
abbrev main_v151 : Ref sig .tc := ⟨.hbm, 261, rfl⟩
abbrev main_cst_26 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_cst_27 : Ref sig .tc := ⟨.hbm, 266, rfl⟩
abbrev main_v155 : Ref sig .tc := ⟨.hbm, 267, rfl⟩
abbrev main_cst_28 : Ref sig .tc := ⟨.hbm, 268, rfl⟩
abbrev main_v156 : Ref sig .tc := ⟨.hbm, 269, rfl⟩
abbrev main_v157 : Ref sig .tc := ⟨.hbm, 270, rfl⟩
abbrev main_v158 : Ref sig .tc := ⟨.hbm, 271, rfl⟩
abbrev main_cst_29 : Ref sig .tc := ⟨.hbm, 272, rfl⟩
abbrev main_call8_v0 : Ref sig .tc := ⟨.hbm, 273, rfl⟩
abbrev main_call8_v1 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_call9_cst : Ref sig .tc := ⟨.hbm, 283, rfl⟩
abbrev main_call9_v0 : Ref sig .tc := ⟨.hbm, 284, rfl⟩
abbrev main_call9_cst_0 : Ref sig .tc := ⟨.hbm, 285, rfl⟩
abbrev main_call9_v1 : Ref sig .tc := ⟨.hbm, 286, rfl⟩
abbrev main_call9_v2 : Ref sig .tc := ⟨.hbm, 287, rfl⟩
abbrev main_call9_v3 : Ref sig .tc := ⟨.hbm, 288, rfl⟩
abbrev main_call9_v4 : Ref sig .tc := ⟨.hbm, 289, rfl⟩
abbrev main_call9_v5 : Ref sig .tc := ⟨.hbm, 290, rfl⟩
abbrev main_call9_v6 : Ref sig .tc := ⟨.hbm, 291, rfl⟩
abbrev main_call9_cst_1 : Ref sig .tc := ⟨.hbm, 292, rfl⟩
abbrev main_call9_v7 : Ref sig .tc := ⟨.hbm, 293, rfl⟩
abbrev main_call9_v8 : Ref sig .tc := ⟨.hbm, 294, rfl⟩
abbrev main_call9_v9 : Ref sig .tc := ⟨.hbm, 295, rfl⟩
abbrev main_call9_v10 : Ref sig .tc := ⟨.hbm, 296, rfl⟩
abbrev main_v167 : Ref sig .tc := ⟨.hbm, 297, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  slices_S2x3x64_S1x3x64_0_0_0 : S2x3x64.Slices ![0, 0, 0] S1x3x64
  shapeCasts_S1x3x64_S3x64 : S1x3x64.ShapeCasts S3x64
  bcast_S_S1280000x1 : S_.BroadcastsInDim S1280000x1 (![] : Fin 0 → Fin S1280000x1.rank)
  bcast_S1280000x1_S1280000x64_0_1 : S1280000x1.BroadcastsInDim S1280000x64 (![0, 1] : Fin 2 → Fin S1280000x64.rank)
  slices_S2x3x64_S1x3x64_1_0_0 : S2x3x64.Slices ![1, 0, 0] S1x3x64
  bcast_S_S80000x64 : S_.BroadcastsInDim S80000x64 (![] : Fin 0 → Fin S80000x64.rank)
  bcast_S_S80000 : S_.BroadcastsInDim S80000 (![] : Fin 0 → Fin S80000.rank)
  bcast_S80000_S80000x1_0 : S80000.BroadcastsInDim S80000x1 (![0] : Fin 1 → Fin S80000x1.rank)
  bcast_S80000x1_S80000x64_0_1 : S80000x1.BroadcastsInDim S80000x64 (![0, 1] : Fin 2 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  slices_S2x64x64_S1x64x64_0_0_0 : S2x64x64.Slices ![0, 0, 0] S1x64x64
  shapeCasts_S1x64x64_S64x64 : S1x64x64.ShapeCasts S64x64
  slices_S2x64x64_S1x64x64_1_0_0 : S2x64x64.Slices ![1, 0, 0] S1x64x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S6_S1x6_1 : S6.BroadcastsInDim S1x6 (![1] : Fin 1 → Fin S1x6.rank)
  bcast_S1x6_S512x6_0_1 : S1x6.BroadcastsInDim S512x6 (![0, 1] : Fin 2 → Fin S512x6.rank)
  reducesTo_S512x6_S512_d1 : S512x6.ReducesTo [1] S512
  h_S_ : 0 < S_.numel
  bcast_S512x1_S512x6_0_1 : S512x1.BroadcastsInDim S512x6 (![0, 1] : Fin 2 → Fin S512x6.rank)
  gather_S80000x3_S1280000x1_S1280000x3_1_0_n_n_0_1_13_wf : GatherDims.WF S80000x3 S1280000x1 S1280000x3 [1] [0] [] [0] [] 1 ![1, 3]
  dot_S1280000x3_S3x64_S1280000x64_1_0_0_1_n_n_wf : DotDims.WF S1280000x3 S3x64 S1280000x64 [1] [0] [0] [1] [] []
  scatter_S80000x64_S1280000x1_S1280000x64_1_0_0_1_wf : ScatterDims.WF S80000x64 S1280000x1 S1280000x64 [1] [0] [0] 1
  scatter_S80000_S1280000x1_S1280000_n_0_0_1_wf : ScatterDims.WF S80000 S1280000x1 S1280000 [] [0] [0] 1
  dot_S80000x3_S3x64_S80000x64_1_0_0_1_n_n_wf : DotDims.WF S80000x3 S3x64 S80000x64 [1] [0] [0] [1] [] []
  gather_S80000x64_S1280000x1_S1280000x64_1_0_n_n_0_1_164_wf : GatherDims.WF S80000x64 S1280000x1 S1280000x64 [1] [0] [] [0] [] 1 ![1, 64]
  dot_S1280000x64_S64x64_S1280000x64_1_0_0_1_n_n_wf : DotDims.WF S1280000x64 S64x64 S1280000x64 [1] [0] [0] [1] [] []
  dot_S80000x64_S64x64_S80000x64_1_0_0_1_n_n_wf : DotDims.WF S80000x64 S64x64 S80000x64 [1] [0] [0] [1] [] []
  scatter_S512x64_S80000x1_S80000x64_1_0_0_1_wf : ScatterDims.WF S512x64 S80000x1 S80000x64 [1] [0] [0] 1
  scatter_S512_S80000x1_S80000_n_0_0_1_wf : ScatterDims.WF S512 S80000x1 S80000 [] [0] [0] 1
  dot_S512x64_S64x6_S512x6_1_0_0_1_n_n_wf : DotDims.WF S512x64 S64x6 S512x6 [1] [0] [0] [1] [] []

variable [Facts₀]

def gather_S80000x3_S1280000x1_S1280000x3_1_0_n_n_0_1_13 : GatherDims S80000x3 S1280000x1 S1280000x3 where
  offsetDims := [1]
  collapsedSliceDims := [0]
  operandBatchingDims := []
  startIndicesBatchingDims := []
  startIndexMap := [0]
  indexVectorDim := 1
  sliceSizes := ![1, 3]
  wf := gather_S80000x3_S1280000x1_S1280000x3_1_0_n_n_0_1_13_wf
def dot_S1280000x3_S3x64_S1280000x64_1_0_0_1_n_n : DotDims S1280000x3 S3x64 S1280000x64 where
  lhsContracting := [1]
  rhsContracting := [0]
  lhsNonContracting := [0]
  rhsNonContracting := [1]
  lhsBatch := []
  rhsBatch := []
  wf := dot_S1280000x3_S3x64_S1280000x64_1_0_0_1_n_n_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def dot_S80000x3_S3x64_S80000x64_1_0_0_1_n_n : DotDims S80000x3 S3x64 S80000x64 where
  lhsContracting := [1]
  rhsContracting := [0]
  lhsNonContracting := [0]
  rhsNonContracting := [1]
  lhsBatch := []
  rhsBatch := []
  wf := dot_S80000x3_S3x64_S80000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def dot_S1280000x64_S64x64_S1280000x64_1_0_0_1_n_n : DotDims S1280000x64 S64x64 S1280000x64 where
  lhsContracting := [1]
  rhsContracting := [0]
  lhsNonContracting := [0]
  rhsNonContracting := [1]
  lhsBatch := []
  rhsBatch := []
  wf := dot_S1280000x64_S64x64_S1280000x64_1_0_0_1_n_n_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def scatter_S512x64_S80000x1_S80000x64_1_0_0_1 : ScatterDims S512x64 S80000x1 S80000x64 where
  updateWindowDims := [1]
  insertedWindowDims := [0]
  scatterDimsToOperandDims := [0]
  indexVectorDim := 1
  wf := scatter_S512x64_S80000x1_S80000x64_1_0_0_1_wf
def scatter_S512_S80000x1_S80000_n_0_0_1 : ScatterDims S512 S80000x1 S80000 where
  updateWindowDims := []
  insertedWindowDims := [0]
  scatterDimsToOperandDims := [0]
  indexVectorDim := 1
  wf := scatter_S512_S80000x1_S80000_n_0_0_1_wf
def dot_S512x64_S64x6_S512x6_1_0_0_1_n_n : DotDims S512x64 S64x6 S512x6 where
  lhsContracting := [1]
  rhsContracting := [0]
  lhsNonContracting := [0]
  rhsNonContracting := [1]
  lhsBatch := []
  rhsBatch := []
  wf := dot_S512x64_S64x6_S512x6_1_0_0_1_n_n_wf

class Facts : Prop extends Facts₀ where

variable [Facts]
-- ==== Proof.KerRun.lean ====
import proofs.«170515_j51196010168472_1_alg».proof.Proof.Gen.KernelIdeal.Frame
import Idealize.ShloMosaic.PureOps.Ideal

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The run of the kernel program at exact extended reals: every weakly fair execution of @main terminates without a
    fault, the result buffer ends at the last boundary's contents of the fold, and every argument array ends as
    launched. -/
theorem run : θ_run (defs (F := Ideal)) (onTc (τ := τ) (main (F := Ideal))) ⟨m, fun _ => 0, ρ⟩ (fun r => ∀ c : Dev nD,
      r.2.mem ((c.tc : Thread nD τ).loc main_v92) = Gen.W20 (F := Ideal) m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v92 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c)⟩)

end Cert.KernelIdeal.KerRun

end
-- ==== Proof.RefOps.lean ====
/- The reference program's host operations, listed in program order in seven consecutive stretches: layer 1; layer 2 in
   two stretches; layer 3 in two stretches; layer 4; the pooling head. A function the program calls is listed at the call,
   its operations over that call's own buffers. -/
import proofs.«170515_j51196010168472_1_alg».proof.ReferenceIdeal
import Idealize.ShloMosaic.Lib.StableHlo.Run

noncomputable section

namespace Cert.ReferenceIdeal.RefOps

open Idealize.ShloMosaic Idealize.ShloMosaic.TcCoe Idealize.SL.Sem Cert.ReferenceIdeal Idealize.ShloMosaic.StableHlo

variable [Facts]
open Facts₀ Facts

variable {F : FTy → Type} [FloatOps F]

/-- Operations 1 to 64 of the 280. -/
abbrev Q0 : List (HloOp τ sig (Elt F)) :=
  [ StableHlo.unary main_arg2 main_v0 ((extractStridedSlice S1x1280000 ![0, 0] · slices_S2x1280000_S1x1280000_0_0) : (⟨S2x1280000, .i32⟩ : BufTy).Contents (Elt F) → (⟨S1x1280000, .i32⟩ : BufTy).Contents (Elt F)),
    StableHlo.reshape main_v0 main_v1 rfl shapeCasts_S1x1280000_S1280000,
    StableHlo.unary main_arg2 main_v2 ((extractStridedSlice S1x1280000 ![1, 0] · slices_S2x1280000_S1x1280000_1_0) : (⟨S2x1280000, .i32⟩ : BufTy).Contents (Elt F) → (⟨S1x1280000, .i32⟩ : BufTy).Contents (Elt F)),
    StableHlo.reshape main_v2 main_v3 rfl shapeCasts_S1x1280000_S1280000,
    StableHlo.nullary main_c (constantI S_ 32 0#32),
    StableHlo.unary main_c main_v4 (broadcastInDim S1280000 ![] bcast_S_S1280000 : (⟨S_, .i32⟩ : BufTy).Contents (Elt F) → (⟨S1280000, .i32⟩ : BufTy).Contents (Elt F)),
    StableHlo.binary main_v1 main_v4 main_v5 (cmpi .slt : (⟨S1280000, .i32⟩ : BufTy).Contents (Elt F) → (⟨S1280000, .i32⟩ : BufTy).Contents (Elt F) → (⟨S1280000, .i1⟩ : BufTy).Contents (Elt F)),
    StableHlo.nullary main_c_0 (constantI S_ 32 80000#32),
    StableHlo.unary main_c_0 main_v6 (broadcastInDim S1280000 ![] bcast_S_S1280000 : (⟨S_, .i32⟩ : BufTy).Contents (Elt F) → (⟨S1280000, .i32⟩ : BufTy).Contents (Elt F)),
    StableHlo.binary main_v1 main_v6 main_v7 (addi : (⟨S1280000, .i32⟩ : BufTy).Contents (Elt F) → (⟨S1280000, .i32⟩ : BufTy).Contents (Elt F) → (⟨S1280000, .i32⟩ : BufTy).Contents (Elt F)),
    StableHlo.ternary main_v5 main_v7 main_v1 main_v8 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v8 main_v9 (broadcastInDim S1280000x1 ![0] bcast_S1280000_S1280000x1_0 : (⟨S1280000, .i32⟩ : BufTy).Contents (Elt F) → (⟨S1280000x1, .i32⟩ : BufTy).Contents (Elt F)),
    StableHlo.binary main_arg0 main_v9 main_v10 ((fun x i => Host.gather gather_S80000x3_S1280000x1_S1280000x3_1_0_n_n_0_1_13 x i) : (⟨S80000x3, .f32⟩ : BufTy).Contents (Elt F) → (⟨S1280000x1, .i32⟩ : BufTy).Contents (Elt F) → (⟨S1280000x3, .f32⟩ : BufTy).Contents (Elt F)),
    StableHlo.unary main_arg4 main_v11 ((extractStridedSlice S1x3x64 ![0, 0, 0] · slices_S2x3x64_S1x3x64_0_0_0) : (⟨S2x3x64, .f32⟩ : BufTy).Contents (Elt F) → (⟨S1x3x64, .f32⟩ : BufTy).Contents (Elt F)),
    StableHlo.reshape main_v11 main_v12 rfl shapeCasts_S1x3x64_S3x64,
    StableHlo.binary main_v10 main_v12 main_v13 ((fun l r => Host.dotGeneral dot_S1280000x3_S3x64_S1280000x64_1_0_0_1_n_n none l r) : (⟨S1280000x3, .f32⟩ : BufTy).Contents (Elt F) → (⟨S3x64, .f32⟩ : BufTy).Contents (Elt F) → (⟨S1280000x64, .f32⟩ : BufTy).Contents (Elt F)),
    StableHlo.nullary main_cst (constant S_ .f32 0x3F800000#32),
    StableHlo.unary main_cst main_v14 (broadcastInDim S1280000x1 ![] bcast_S_S1280000x1 : (⟨S_, .f32⟩ : BufTy).Contents (Elt F) → (⟨S1280000x1, .f32⟩ : BufTy).Contents (Elt F)),
    StableHlo.binary main_v14 main_arg1 main_v15 (subf : (⟨S1280000x1, .f32⟩ : BufTy).Contents (Elt F) → (⟨S1280000x1, .f32⟩ : BufTy).Contents (Elt F) → (⟨S1280000x1, .f32⟩ : BufTy).Contents (Elt F)),
    StableHlo.unary main_v15 main_v16 (broadcastInDim S1280000x64 ![0, 1] bcast_S1280000x1_S1280000x64_0_1 : (⟨S1280000x1, .f32⟩ : BufTy).Contents (Elt F) → (⟨S1280000x64, .f32⟩ : BufTy).Contents (Elt F)),
    StableHlo.binary main_v13 main_v16 main_v17 (mulf : (⟨S1280000x64, .f32⟩ : BufTy).Contents (Elt F) → (⟨S1280000x64, .f32⟩ : BufTy).Contents (Elt F) → (⟨S1280000x64, .f32⟩ : BufTy).Contents (Elt F)),
    StableHlo.unary main_arg4 main_v18 ((extractStridedSlice S1x3x64 ![1, 0, 0] · slices_S2x3x64_S1x3x64_1_0_0) : (⟨S2x3x64, .f32⟩ : BufTy).Contents (Elt F) → (⟨S1x3x64, .f32⟩ : BufTy).Contents (Elt F)),
    StableHlo.reshape main_v18 main_v19 rfl shapeCasts_S1x3x64_S3x64,
    StableHlo.binary main_v10 main_v19 main_v20 ((fun l r => Host.dotGeneral dot_S1280000x3_S3x64_S1280000x64_1_0_0_1_n_n none l r) : (⟨S1280000x3, .f32⟩ : BufTy).Contents (Elt F) → (⟨S3x64, .f32⟩ : BufTy).Contents (Elt F) → (⟨S1280000x64, .f32⟩ : BufTy).Contents (Elt F)),
    StableHlo.unary main_arg1 main_v21 (broadcastInDim S1280000x64 ![0, 1] bcast_S1280000x1_S1280000x64_0_1 : (⟨S1280000x1, .f32⟩ : BufTy).Contents (Elt F) → (⟨S1280000x64, .f32⟩ : BufTy).Contents (Elt F)),
    StableHlo.binary main_v20 main_v21 main_v22 (mulf : (⟨S1280000x64, .f32⟩ : BufTy).Contents (Elt F) → (⟨S1280000x64, .f32⟩ : BufTy).Contents (Elt F) → (⟨S1280000x64, .f32⟩ : BufTy).Contents (Elt F)),
    StableHlo.binary main_v17 main_v22 main_v23 (addf : (⟨S1280000x64, .f32⟩ : BufTy).Contents (Elt F) → (⟨S1280000x64, .f32⟩ : BufTy).Contents (Elt F) → (⟨S1280000x64, .f32⟩ : BufTy).Contents (Elt F)),
    StableHlo.nullary main_cst_1 (constant S_ .f32 0x00000000#32),
    StableHlo.unary main_cst_1 main_v24 (broadcastInDim S80000x64 ![] bcast_S_S80000x64 : (⟨S_, .f32⟩ : BufTy).Contents (Elt F) → (⟨S80000x64, .f32⟩ : BufTy).Contents (Elt F)),
    StableHlo.unary main_v3 main_v25 (broadcastInDim S1280000x1 ![0] bcast_S1280000_S1280000x1_0 : (⟨S1280000, .i32⟩ : BufTy).Contents (Elt F) → (⟨S1280000x1, .i32⟩ : BufTy).Contents (Elt F)),
    StableHlo.ternary main_v24 main_v25 main_v23 main_v26 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.nullary main_cst_2 (constant S_ .f32 0x3F800000#32),
    StableHlo.unary main_cst_2 main_v27 (broadcastInDim S1280000 ![] bcast_S_S1280000 : (⟨S_, .f32⟩ : BufTy).Contents (Elt F) → (⟨S1280000, .f32⟩ : BufTy).Contents (Elt F)),
    StableHlo.nullary main_cst_3 (constant S_ .f32 0x00000000#32),
    StableHlo.unary main_cst_3 main_v28 (broadcastInDim S80000 ![] bcast_S_S80000 : (⟨S_, .f32⟩ : BufTy).Contents (Elt F) → (⟨S80000, .f32⟩ : BufTy).Contents (Elt F)),
    StableHlo.unary main_v3 main_v29 (broadcastInDim S1280000x1 ![0] bcast_S1280000_S1280000x1_0 : (⟨S1280000, .i32⟩ : BufTy).Contents (Elt F) → (⟨S1280000x1, .i32⟩ : BufTy).Contents (Elt F)),
    StableHlo.ternary main_v28 main_v29 main_v27 main_v30 ((fun x i u => Host.scatterAdd scatter_S80000_S1280000x1_S1280000_n_0_0_1 x i u) : (⟨S80000, .f32⟩ : BufTy).Contents (Elt F) → (⟨S1280000x1, .i32⟩ : BufTy).Contents (Elt F) → (⟨S1280000, .f32⟩ : BufTy).Contents (Elt F) → (⟨S80000, .f32⟩ : BufTy).Contents (Elt F)),
    StableHlo.nullary main_cst_4 (constant S_ .f32 0x3F800000#32),
    StableHlo.TRef.unary (.of main_cst_4 : StableHlo.TRef sig ⟨S_, .f32⟩) main_call0.v0 id,
    StableHlo.TRef.unary main_call0.v0 main_call0.v1 (broadcastInDim S80000 ![] bcast_S_S80000),
    StableHlo.TRef.binary main_call0.v1 (.of main_v30 : StableHlo.TRef sig ⟨S80000, .f32⟩) main_call0.v2 maximumf,
    StableHlo.unary main_v31 main_v32 (broadcastInDim S80000x1 ![0] bcast_S80000_S80000x1_0 : (⟨S80000, .f32⟩ : BufTy).Contents (Elt F) → (⟨S80000x1, .f32⟩ : BufTy).Contents (Elt F)),
    StableHlo.unary main_v32 main_v33 (broadcastInDim S80000x64 ![0, 1] bcast_S80000x1_S80000x64_0_1 : (⟨S80000x1, .f32⟩ : BufTy).Contents (Elt F) → (⟨S80000x64, .f32⟩ : BufTy).Contents (Elt F)),
    StableHlo.binary main_v26 main_v33 main_v34 (Host.divf : (⟨S80000x64, .f32⟩ : BufTy).Contents (Elt F) → (⟨S80000x64, .f32⟩ : BufTy).Contents (Elt F) → (⟨S80000x64, .f32⟩ : BufTy).Contents (Elt F)),
    StableHlo.binary main_arg0 main_arg5 main_v35 ((fun l r => Host.dotGeneral dot_S80000x3_S3x64_S80000x64_1_0_0_1_n_n none l r) : (⟨S80000x3, .f32⟩ : BufTy).Contents (Elt F) → (⟨S3x64, .f32⟩ : BufTy).Contents (Elt F) → (⟨S80000x64, .f32⟩ : BufTy).Contents (Elt F)),
    StableHlo.binary main_v34 main_v35 main_v36 (addf : (⟨S80000x64, .f32⟩ : BufTy).Contents (Elt F) → (⟨S80000x64, .f32⟩ : BufTy).Contents (Elt F) → (⟨S80000x64, .f32⟩ : BufTy).Contents (Elt F)),
    StableHlo.unary main_arg6 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S80000x64 ![0, 1] bcast_S1x64_S80000x64_0_1 : (⟨S1x64, .f32⟩ : BufTy).Contents (Elt F) → (⟨S80000x64, .f32⟩ : BufTy).Contents (Elt F)),
    StableHlo.binary main_v36 main_v38 main_v39 (addf : (⟨S80000x64, .f32⟩ : BufTy).Contents (Elt F) → (⟨S80000x64, .f32⟩ : BufTy).Contents (Elt F) → (⟨S80000x64, .f32⟩ : BufTy).Contents (Elt F)),
    StableHlo.TRef.nullary main_call1.cst (constant S_ .f32 0x00000000#32),
    StableHlo.TRef.unary main_call1.cst main_call1.v0 (broadcastInDim S80000x64 ![] bcast_S_S80000x64),
    StableHlo.TRef.binary (.of main_v39 : StableHlo.TRef sig ⟨S80000x64, .f32⟩) main_call1.v0 main_call1.v1 (cmpf .ogt),
    StableHlo.TRef.nullary main_call1.cst_0 (constant S_ .f32 0x00000000#32),
    StableHlo.TRef.unary main_call1.cst_0 main_call1.v2 (broadcastInDim S80000x64 ![] bcast_S_S80000x64),
    StableHlo.TRef.binary (.of main_v39 : StableHlo.TRef sig ⟨S80000x64, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S80000x64 ![] bcast_S_S80000x64),
    StableHlo.TRef.ternary main_call1.v3 main_call1.call0.v1 (.of main_v39 : StableHlo.TRef sig ⟨S80000x64, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S80000x64 ![] bcast_S_S80000x64),
    StableHlo.TRef.binary main_call1.v6 main_call1.v5 main_call1.v7 mulf,
    StableHlo.TRef.ternary main_call1.v1 (.of main_v39 : StableHlo.TRef sig ⟨S80000x64, .f32⟩) main_call1.v7 main_call1.call1.v0 select ]

theorem Q0_sub : (Q0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., unary_bufs_sub .., binary_bufs_sub .., unary_bufs_sub .., reshape_bufs_sub .., binary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Operations 65 to 76 of the 280. -/
abbrev Q1 : List (HloOp τ sig (Elt F)) :=
  [ StableHlo.nullary main_c_5 (constantI S_ 32 0#32),
    StableHlo.unary main_c_5 main_v41 (broadcastInDim S1280000 ![] bcast_S_S1280000 : (⟨S_, .i32⟩ : BufTy).Contents (Elt F) → (⟨S1280000, .i32⟩ : BufTy).Contents (Elt F)),
    StableHlo.binary main_v1 main_v41 main_v42 (cmpi .slt : (⟨S1280000, .i32⟩ : BufTy).Contents (Elt F) → (⟨S1280000, .i32⟩ : BufTy).Contents (Elt F) → (⟨S1280000, .i1⟩ : BufTy).Contents (Elt F)),
    StableHlo.nullary main_c_6 (constantI S_ 32 80000#32),
    StableHlo.unary main_c_6 main_v43 (broadcastInDim S1280000 ![] bcast_S_S1280000 : (⟨S_, .i32⟩ : BufTy).Contents (Elt F) → (⟨S1280000, .i32⟩ : BufTy).Contents (Elt F)),
    StableHlo.binary main_v1 main_v43 main_v44 (addi : (⟨S1280000, .i32⟩ : BufTy).Contents (Elt F) → (⟨S1280000, .i32⟩ : BufTy).Contents (Elt F) → (⟨S1280000, .i32⟩ : BufTy).Contents (Elt F)),
    StableHlo.ternary main_v42 main_v44 main_v1 main_v45 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v45 main_v46 (broadcastInDim S1280000x1 ![0] bcast_S1280000_S1280000x1_0 : (⟨S1280000, .i32⟩ : BufTy).Contents (Elt F) → (⟨S1280000x1, .i32⟩ : BufTy).Contents (Elt F)),
    StableHlo.binary main_v40 main_v46 main_v47 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.unary main_arg7 main_v48 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v48 main_v49 rfl shapeCasts_S1x64x64_S64x64,
    StableHlo.binary main_v47 main_v49 main_v50 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)) ]

theorem Q1_sub : (Q1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub ..⟩

/-- Operations 77 to 124 of the 280. -/
abbrev Q2 : List (HloOp τ sig (Elt F)) :=
  [ StableHlo.nullary main_cst_7 (constant S_ .f32 0x3F800000#32),
    StableHlo.unary main_cst_7 main_v51 (broadcastInDim S1280000x1 ![] bcast_S_S1280000x1 : (⟨S_, .f32⟩ : BufTy).Contents (Elt F) → (⟨S1280000x1, .f32⟩ : BufTy).Contents (Elt F)),
    StableHlo.binary main_v51 main_arg1 main_v52 (subf : (⟨S1280000x1, .f32⟩ : BufTy).Contents (Elt F) → (⟨S1280000x1, .f32⟩ : BufTy).Contents (Elt F) → (⟨S1280000x1, .f32⟩ : BufTy).Contents (Elt F)),
    StableHlo.unary main_v52 main_v53 (broadcastInDim S1280000x64 ![0, 1] bcast_S1280000x1_S1280000x64_0_1 : (⟨S1280000x1, .f32⟩ : BufTy).Contents (Elt F) → (⟨S1280000x64, .f32⟩ : BufTy).Contents (Elt F)),
    StableHlo.binary main_v50 main_v53 main_v54 (mulf : (⟨S1280000x64, .f32⟩ : BufTy).Contents (Elt F) → (⟨S1280000x64, .f32⟩ : BufTy).Contents (Elt F) → (⟨S1280000x64, .f32⟩ : BufTy).Contents (Elt F)),
    StableHlo.unary main_arg7 main_v55 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v55 main_v56 rfl shapeCasts_S1x64x64_S64x64,
    StableHlo.binary main_v47 main_v56 main_v57 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)),
    StableHlo.unary main_arg1 main_v58 (broadcastInDim S1280000x64 ![0, 1] bcast_S1280000x1_S1280000x64_0_1 : (⟨S1280000x1, .f32⟩ : BufTy).Contents (Elt F) → (⟨S1280000x64, .f32⟩ : BufTy).Contents (Elt F)),
    StableHlo.binary main_v57 main_v58 main_v59 (mulf : (⟨S1280000x64, .f32⟩ : BufTy).Contents (Elt F) → (⟨S1280000x64, .f32⟩ : BufTy).Contents (Elt F) → (⟨S1280000x64, .f32⟩ : BufTy).Contents (Elt F)),
    StableHlo.binary main_v54 main_v59 main_v60 (addf : (⟨S1280000x64, .f32⟩ : BufTy).Contents (Elt F) → (⟨S1280000x64, .f32⟩ : BufTy).Contents (Elt F) → (⟨S1280000x64, .f32⟩ : BufTy).Contents (Elt F)),
    StableHlo.nullary main_cst_8 (constant S_ .f32 0x00000000#32),
    StableHlo.unary main_cst_8 main_v61 (broadcastInDim S80000x64 ![] bcast_S_S80000x64 : (⟨S_, .f32⟩ : BufTy).Contents (Elt F) → (⟨S80000x64, .f32⟩ : BufTy).Contents (Elt F)),
    StableHlo.unary main_v3 main_v62 (broadcastInDim S1280000x1 ![0] bcast_S1280000_S1280000x1_0 : (⟨S1280000, .i32⟩ : BufTy).Contents (Elt F) → (⟨S1280000x1, .i32⟩ : BufTy).Contents (Elt F)),
    StableHlo.ternary main_v61 main_v62 main_v60 main_v63 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.nullary main_cst_9 (constant S_ .f32 0x3F800000#32),
    StableHlo.unary main_cst_9 main_v64 (broadcastInDim S1280000 ![] bcast_S_S1280000 : (⟨S_, .f32⟩ : BufTy).Contents (Elt F) → (⟨S1280000, .f32⟩ : BufTy).Contents (Elt F)),
    StableHlo.nullary main_cst_10 (constant S_ .f32 0x00000000#32),
    StableHlo.unary main_cst_10 main_v65 (broadcastInDim S80000 ![] bcast_S_S80000 : (⟨S_, .f32⟩ : BufTy).Contents (Elt F) → (⟨S80000, .f32⟩ : BufTy).Contents (Elt F)),
    StableHlo.unary main_v3 main_v66 (broadcastInDim S1280000x1 ![0] bcast_S1280000_S1280000x1_0 : (⟨S1280000, .i32⟩ : BufTy).Contents (Elt F) → (⟨S1280000x1, .i32⟩ : BufTy).Contents (Elt F)),
    StableHlo.ternary main_v65 main_v66 main_v64 main_v67 ((fun x i u => Host.scatterAdd scatter_S80000_S1280000x1_S1280000_n_0_0_1 x i u) : (⟨S80000, .f32⟩ : BufTy).Contents (Elt F) → (⟨S1280000x1, .i32⟩ : BufTy).Contents (Elt F) → (⟨S1280000, .f32⟩ : BufTy).Contents (Elt F) → (⟨S80000, .f32⟩ : BufTy).Contents (Elt F)),
    StableHlo.nullary main_cst_11 (constant S_ .f32 0x3F800000#32),
    StableHlo.TRef.unary (.of main_cst_11 : StableHlo.TRef sig ⟨S_, .f32⟩) main_call2.v0 id,
    StableHlo.TRef.unary main_call2.v0 main_call2.v1 (broadcastInDim S80000 ![] bcast_S_S80000),
    StableHlo.TRef.binary main_call2.v1 (.of main_v67 : StableHlo.TRef sig ⟨S80000, .f32⟩) main_call2.v2 maximumf,
    StableHlo.unary main_v68 main_v69 (broadcastInDim S80000x1 ![0] bcast_S80000_S80000x1_0 : (⟨S80000, .f32⟩ : BufTy).Contents (Elt F) → (⟨S80000x1, .f32⟩ : BufTy).Contents (Elt F)),
    StableHlo.unary main_v69 main_v70 (broadcastInDim S80000x64 ![0, 1] bcast_S80000x1_S80000x64_0_1 : (⟨S80000x1, .f32⟩ : BufTy).Contents (Elt F) → (⟨S80000x64, .f32⟩ : BufTy).Contents (Elt F)),
    StableHlo.binary main_v63 main_v70 main_v71 (Host.divf : (⟨S80000x64, .f32⟩ : BufTy).Contents (Elt F) → (⟨S80000x64, .f32⟩ : BufTy).Contents (Elt F) → (⟨S80000x64, .f32⟩ : BufTy).Contents (Elt F)),
    StableHlo.binary main_v40 main_arg8 main_v72 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    StableHlo.binary main_v71 main_v72 main_v73 (addf : (⟨S80000x64, .f32⟩ : BufTy).Contents (Elt F) → (⟨S80000x64, .f32⟩ : BufTy).Contents (Elt F) → (⟨S80000x64, .f32⟩ : BufTy).Contents (Elt F)),
    StableHlo.unary main_arg9 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S80000x64 ![0, 1] bcast_S1x64_S80000x64_0_1 : (⟨S1x64, .f32⟩ : BufTy).Contents (Elt F) → (⟨S80000x64, .f32⟩ : BufTy).Contents (Elt F)),
    StableHlo.binary main_v73 main_v75 main_v76 (addf : (⟨S80000x64, .f32⟩ : BufTy).Contents (Elt F) → (⟨S80000x64, .f32⟩ : BufTy).Contents (Elt F) → (⟨S80000x64, .f32⟩ : BufTy).Contents (Elt F)),
    StableHlo.TRef.nullary main_call3.cst (constant S_ .f32 0x00000000#32),
    StableHlo.TRef.unary main_call3.cst main_call3.v0 (broadcastInDim S80000x64 ![] bcast_S_S80000x64),
    StableHlo.TRef.binary (.of main_v76 : StableHlo.TRef sig ⟨S80000x64, .f32⟩) main_call3.v0 main_call3.v1 (cmpf .ogt),
    StableHlo.TRef.nullary main_call3.cst_0 (constant S_ .f32 0x00000000#32),
    StableHlo.TRef.unary main_call3.cst_0 main_call3.v2 (broadcastInDim S80000x64 ![] bcast_S_S80000x64),
    StableHlo.TRef.binary (.of main_v76 : StableHlo.TRef sig ⟨S80000x64, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S80000x64 ![] bcast_S_S80000x64),
    StableHlo.TRef.ternary main_call3.v3 main_call3.call0.v1 (.of main_v76 : StableHlo.TRef sig ⟨S80000x64, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S80000x64 ![] bcast_S_S80000x64),
    StableHlo.TRef.binary main_call3.v6 main_call3.v5 main_call3.v7 mulf,
    StableHlo.TRef.ternary main_call3.v1 (.of main_v76 : StableHlo.TRef sig ⟨S80000x64, .f32⟩) main_call3.v7 main_call3.call1.v0 select ]

theorem Q2_sub : (Q2 : List (HloOp τ sig (Elt F))).Forall fun op => op.bufs ⊆ tcRefs τ sig :=
  ⟨nullary_bufs_sub .., unary_bufs_sub .., binary_bufs_sub .., unary_bufs_sub .., binary_bufs_sub .., unary_bufs_sub .., reshape_bufs_sub .., binary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Operations 125 to 152 of the 280. -/
abbrev Q3 : List (HloOp τ sig (Elt F)) :=
  [ StableHlo.nullary main_c_12 (constantI S_ 32 0#32),
    StableHlo.unary main_c_12 main_v78 (broadcastInDim S1280000 ![] bcast_S_S1280000 : (⟨S_, .i32⟩ : BufTy).Contents (Elt F) → (⟨S1280000, .i32⟩ : BufTy).Contents (Elt F)),
    StableHlo.binary main_v1 main_v78 main_v79 (cmpi .slt : (⟨S1280000, .i32⟩ : BufTy).Contents (Elt F) → (⟨S1280000, .i32⟩ : BufTy).Contents (Elt F) → (⟨S1280000, .i1⟩ : BufTy).Contents (Elt F)),
    StableHlo.nullary main_c_13 (constantI S_ 32 80000#32),
    StableHlo.unary main_c_13 main_v80 (broadcastInDim S1280000 ![] bcast_S_S1280000 : (⟨S_, .i32⟩ : BufTy).Contents (Elt F) → (⟨S1280000, .i32⟩ : BufTy).Contents (Elt F)),
    StableHlo.binary main_v1 main_v80 main_v81 (addi : (⟨S1280000, .i32⟩ : BufTy).Contents (Elt F) → (⟨S1280000, .i32⟩ : BufTy).Contents (Elt F) → (⟨S1280000, .i32⟩ : BufTy).Contents (Elt F)),
    StableHlo.ternary main_v79 main_v81 main_v1 main_v82 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v82 main_v83 (broadcastInDim S1280000x1 ![0] bcast_S1280000_S1280000x1_0 : (⟨S1280000, .i32⟩ : BufTy).Contents (Elt F) → (⟨S1280000x1, .i32⟩ : BufTy).Contents (Elt F)),
    StableHlo.binary main_v77 main_v83 main_v84 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.unary main_arg10 main_v85 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v85 main_v86 rfl shapeCasts_S1x64x64_S64x64,
    StableHlo.binary main_v84 main_v86 main_v87 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)),
    StableHlo.nullary main_cst_14 (constant S_ .f32 0x3F800000#32),
    StableHlo.unary main_cst_14 main_v88 (broadcastInDim S1280000x1 ![] bcast_S_S1280000x1 : (⟨S_, .f32⟩ : BufTy).Contents (Elt F) → (⟨S1280000x1, .f32⟩ : BufTy).Contents (Elt F)),
    StableHlo.binary main_v88 main_arg1 main_v89 (subf : (⟨S1280000x1, .f32⟩ : BufTy).Contents (Elt F) → (⟨S1280000x1, .f32⟩ : BufTy).Contents (Elt F) → (⟨S1280000x1, .f32⟩ : BufTy).Contents (Elt F)),
    StableHlo.unary main_v89 main_v90 (broadcastInDim S1280000x64 ![0, 1] bcast_S1280000x1_S1280000x64_0_1 : (⟨S1280000x1, .f32⟩ : BufTy).Contents (Elt F) → (⟨S1280000x64, .f32⟩ : BufTy).Contents (Elt F)),
    StableHlo.binary main_v87 main_v90 main_v91 (mulf : (⟨S1280000x64, .f32⟩ : BufTy).Contents (Elt F) → (⟨S1280000x64, .f32⟩ : BufTy).Contents (Elt F) → (⟨S1280000x64, .f32⟩ : BufTy).Contents (Elt F)),
    StableHlo.unary main_arg10 main_v92 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v92 main_v93 rfl shapeCasts_S1x64x64_S64x64,
    StableHlo.binary main_v84 main_v93 main_v94 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)),
    StableHlo.unary main_arg1 main_v95 (broadcastInDim S1280000x64 ![0, 1] bcast_S1280000x1_S1280000x64_0_1 : (⟨S1280000x1, .f32⟩ : BufTy).Contents (Elt F) → (⟨S1280000x64, .f32⟩ : BufTy).Contents (Elt F)),
    StableHlo.binary main_v94 main_v95 main_v96 (mulf : (⟨S1280000x64, .f32⟩ : BufTy).Contents (Elt F) → (⟨S1280000x64, .f32⟩ : BufTy).Contents (Elt F) → (⟨S1280000x64, .f32⟩ : BufTy).Contents (Elt F)),
    StableHlo.binary main_v91 main_v96 main_v97 (addf : (⟨S1280000x64, .f32⟩ : BufTy).Contents (Elt F) → (⟨S1280000x64, .f32⟩ : BufTy).Contents (Elt F) → (⟨S1280000x64, .f32⟩ : BufTy).Contents (Elt F)),
    StableHlo.nullary main_cst_15 (constant S_ .f32 0x00000000#32),
    StableHlo.unary main_cst_15 main_v98 (broadcastInDim S80000x64 ![] bcast_S_S80000x64 : (⟨S_, .f32⟩ : BufTy).Contents (Elt F) → (⟨S80000x64, .f32⟩ : BufTy).Contents (Elt F)),
    StableHlo.unary main_v3 main_v99 (broadcastInDim S1280000x1 ![0] bcast_S1280000_S1280000x1_0 : (⟨S1280000, .i32⟩ : BufTy).Contents (Elt F) → (⟨S1280000x1, .i32⟩ : BufTy).Contents (Elt F)),
    StableHlo.ternary main_v98 main_v99 main_v97 main_v100 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.nullary main_cst_16 (constant S_ .f32 0x3F800000#32) ]

theorem Q3_sub : (Q3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., unary_bufs_sub .., binary_bufs_sub .., unary_bufs_sub .., reshape_bufs_sub .., binary_bufs_sub .., unary_bufs_sub .., binary_bufs_sub .., binary_bufs_sub .., nullary_bufs_sub .., unary_bufs_sub .., unary_bufs_sub .., ternary_bufs_sub .., nullary_bufs_sub ..⟩

/-- Operations 153 to 184 of the 280. -/
abbrev Q4 : List (HloOp τ sig (Elt F)) :=
  [ StableHlo.unary main_cst_16 main_v101 (broadcastInDim S1280000 ![] bcast_S_S1280000 : (⟨S_, .f32⟩ : BufTy).Contents (Elt F) → (⟨S1280000, .f32⟩ : BufTy).Contents (Elt F)),
    StableHlo.nullary main_cst_17 (constant S_ .f32 0x00000000#32),
    StableHlo.unary main_cst_17 main_v102 (broadcastInDim S80000 ![] bcast_S_S80000 : (⟨S_, .f32⟩ : BufTy).Contents (Elt F) → (⟨S80000, .f32⟩ : BufTy).Contents (Elt F)),
    StableHlo.unary main_v3 main_v103 (broadcastInDim S1280000x1 ![0] bcast_S1280000_S1280000x1_0 : (⟨S1280000, .i32⟩ : BufTy).Contents (Elt F) → (⟨S1280000x1, .i32⟩ : BufTy).Contents (Elt F)),
    StableHlo.ternary main_v102 main_v103 main_v101 main_v104 ((fun x i u => Host.scatterAdd scatter_S80000_S1280000x1_S1280000_n_0_0_1 x i u) : (⟨S80000, .f32⟩ : BufTy).Contents (Elt F) → (⟨S1280000x1, .i32⟩ : BufTy).Contents (Elt F) → (⟨S1280000, .f32⟩ : BufTy).Contents (Elt F) → (⟨S80000, .f32⟩ : BufTy).Contents (Elt F)),
    StableHlo.nullary main_cst_18 (constant S_ .f32 0x3F800000#32),
    StableHlo.TRef.unary (.of main_cst_18 : StableHlo.TRef sig ⟨S_, .f32⟩) main_call4.v0 id,
    StableHlo.TRef.unary main_call4.v0 main_call4.v1 (broadcastInDim S80000 ![] bcast_S_S80000),
    StableHlo.TRef.binary main_call4.v1 (.of main_v104 : StableHlo.TRef sig ⟨S80000, .f32⟩) main_call4.v2 maximumf,
    StableHlo.unary main_v105 main_v106 (broadcastInDim S80000x1 ![0] bcast_S80000_S80000x1_0 : (⟨S80000, .f32⟩ : BufTy).Contents (Elt F) → (⟨S80000x1, .f32⟩ : BufTy).Contents (Elt F)),
    StableHlo.unary main_v106 main_v107 (broadcastInDim S80000x64 ![0, 1] bcast_S80000x1_S80000x64_0_1 : (⟨S80000x1, .f32⟩ : BufTy).Contents (Elt F) → (⟨S80000x64, .f32⟩ : BufTy).Contents (Elt F)),
    StableHlo.binary main_v100 main_v107 main_v108 (Host.divf : (⟨S80000x64, .f32⟩ : BufTy).Contents (Elt F) → (⟨S80000x64, .f32⟩ : BufTy).Contents (Elt F) → (⟨S80000x64, .f32⟩ : BufTy).Contents (Elt F)),
    StableHlo.binary main_v77 main_arg11 main_v109 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    StableHlo.binary main_v108 main_v109 main_v110 (addf : (⟨S80000x64, .f32⟩ : BufTy).Contents (Elt F) → (⟨S80000x64, .f32⟩ : BufTy).Contents (Elt F) → (⟨S80000x64, .f32⟩ : BufTy).Contents (Elt F)),
    StableHlo.unary main_arg12 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S80000x64 ![0, 1] bcast_S1x64_S80000x64_0_1 : (⟨S1x64, .f32⟩ : BufTy).Contents (Elt F) → (⟨S80000x64, .f32⟩ : BufTy).Contents (Elt F)),
    StableHlo.binary main_v110 main_v112 main_v113 (addf : (⟨S80000x64, .f32⟩ : BufTy).Contents (Elt F) → (⟨S80000x64, .f32⟩ : BufTy).Contents (Elt F) → (⟨S80000x64, .f32⟩ : BufTy).Contents (Elt F)),
    StableHlo.TRef.nullary main_call5.cst (constant S_ .f32 0x00000000#32),
    StableHlo.TRef.unary main_call5.cst main_call5.v0 (broadcastInDim S80000x64 ![] bcast_S_S80000x64),
    StableHlo.TRef.binary (.of main_v113 : StableHlo.TRef sig ⟨S80000x64, .f32⟩) main_call5.v0 main_call5.v1 (cmpf .ogt),
    StableHlo.TRef.nullary main_call5.cst_0 (constant S_ .f32 0x00000000#32),
    StableHlo.TRef.unary main_call5.cst_0 main_call5.v2 (broadcastInDim S80000x64 ![] bcast_S_S80000x64),
    StableHlo.TRef.binary (.of main_v113 : StableHlo.TRef sig ⟨S80000x64, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S80000x64 ![] bcast_S_S80000x64),
    StableHlo.TRef.ternary main_call5.v3 main_call5.call0.v1 (.of main_v113 : StableHlo.TRef sig ⟨S80000x64, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S80000x64 ![] bcast_S_S80000x64),
    StableHlo.TRef.binary main_call5.v6 main_call5.v5 main_call5.v7 mulf,
    StableHlo.TRef.ternary main_call5.v1 (.of main_v113 : StableHlo.TRef sig ⟨S80000x64, .f32⟩) main_call5.v7 main_call5.call1.v0 select ]

theorem Q4_sub : (Q4 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Operations 185 to 244 of the 280. -/
abbrev Q5 : List (HloOp τ sig (Elt F)) :=
  [ StableHlo.nullary main_c_19 (constantI S_ 32 0#32),
    StableHlo.unary main_c_19 main_v115 (broadcastInDim S1280000 ![] bcast_S_S1280000 : (⟨S_, .i32⟩ : BufTy).Contents (Elt F) → (⟨S1280000, .i32⟩ : BufTy).Contents (Elt F)),
    StableHlo.binary main_v1 main_v115 main_v116 (cmpi .slt : (⟨S1280000, .i32⟩ : BufTy).Contents (Elt F) → (⟨S1280000, .i32⟩ : BufTy).Contents (Elt F) → (⟨S1280000, .i1⟩ : BufTy).Contents (Elt F)),
    StableHlo.nullary main_c_20 (constantI S_ 32 80000#32),
    StableHlo.unary main_c_20 main_v117 (broadcastInDim S1280000 ![] bcast_S_S1280000 : (⟨S_, .i32⟩ : BufTy).Contents (Elt F) → (⟨S1280000, .i32⟩ : BufTy).Contents (Elt F)),
    StableHlo.binary main_v1 main_v117 main_v118 (addi : (⟨S1280000, .i32⟩ : BufTy).Contents (Elt F) → (⟨S1280000, .i32⟩ : BufTy).Contents (Elt F) → (⟨S1280000, .i32⟩ : BufTy).Contents (Elt F)),
    StableHlo.ternary main_v116 main_v118 main_v1 main_v119 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    StableHlo.unary main_v119 main_v120 (broadcastInDim S1280000x1 ![0] bcast_S1280000_S1280000x1_0 : (⟨S1280000, .i32⟩ : BufTy).Contents (Elt F) → (⟨S1280000x1, .i32⟩ : BufTy).Contents (Elt F)),
    StableHlo.binary main_v114 main_v120 main_v121 ((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)),
    StableHlo.unary main_arg13 main_v122 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v122 main_v123 rfl shapeCasts_S1x64x64_S64x64,
    StableHlo.binary main_v121 main_v123 main_v124 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)),
    StableHlo.nullary main_cst_21 (constant S_ .f32 0x3F800000#32),
    StableHlo.unary main_cst_21 main_v125 (broadcastInDim S1280000x1 ![] bcast_S_S1280000x1 : (⟨S_, .f32⟩ : BufTy).Contents (Elt F) → (⟨S1280000x1, .f32⟩ : BufTy).Contents (Elt F)),
    StableHlo.binary main_v125 main_arg1 main_v126 (subf : (⟨S1280000x1, .f32⟩ : BufTy).Contents (Elt F) → (⟨S1280000x1, .f32⟩ : BufTy).Contents (Elt F) → (⟨S1280000x1, .f32⟩ : BufTy).Contents (Elt F)),
    StableHlo.unary main_v126 main_v127 (broadcastInDim S1280000x64 ![0, 1] bcast_S1280000x1_S1280000x64_0_1 : (⟨S1280000x1, .f32⟩ : BufTy).Contents (Elt F) → (⟨S1280000x64, .f32⟩ : BufTy).Contents (Elt F)),
    StableHlo.binary main_v124 main_v127 main_v128 (mulf : (⟨S1280000x64, .f32⟩ : BufTy).Contents (Elt F) → (⟨S1280000x64, .f32⟩ : BufTy).Contents (Elt F) → (⟨S1280000x64, .f32⟩ : BufTy).Contents (Elt F)),
    StableHlo.unary main_arg13 main_v129 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v129 main_v130 rfl shapeCasts_S1x64x64_S64x64,
    StableHlo.binary main_v121 main_v130 main_v131 ((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)),
    StableHlo.unary main_arg1 main_v132 (broadcastInDim S1280000x64 ![0, 1] bcast_S1280000x1_S1280000x64_0_1 : (⟨S1280000x1, .f32⟩ : BufTy).Contents (Elt F) → (⟨S1280000x64, .f32⟩ : BufTy).Contents (Elt F)),
    StableHlo.binary main_v131 main_v132 main_v133 (mulf : (⟨S1280000x64, .f32⟩ : BufTy).Contents (Elt F) → (⟨S1280000x64, .f32⟩ : BufTy).Contents (Elt F) → (⟨S1280000x64, .f32⟩ : BufTy).Contents (Elt F)),
    StableHlo.binary main_v128 main_v133 main_v134 (addf : (⟨S1280000x64, .f32⟩ : BufTy).Contents (Elt F) → (⟨S1280000x64, .f32⟩ : BufTy).Contents (Elt F) → (⟨S1280000x64, .f32⟩ : BufTy).Contents (Elt F)),
    StableHlo.nullary main_cst_22 (constant S_ .f32 0x00000000#32),
    StableHlo.unary main_cst_22 main_v135 (broadcastInDim S80000x64 ![] bcast_S_S80000x64 : (⟨S_, .f32⟩ : BufTy).Contents (Elt F) → (⟨S80000x64, .f32⟩ : BufTy).Contents (Elt F)),
    StableHlo.unary main_v3 main_v136 (broadcastInDim S1280000x1 ![0] bcast_S1280000_S1280000x1_0 : (⟨S1280000, .i32⟩ : BufTy).Contents (Elt F) → (⟨S1280000x1, .i32⟩ : BufTy).Contents (Elt F)),
    StableHlo.ternary main_v135 main_v136 main_v134 main_v137 ((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)),
    StableHlo.nullary main_cst_23 (constant S_ .f32 0x3F800000#32),
    StableHlo.unary main_cst_23 main_v138 (broadcastInDim S1280000 ![] bcast_S_S1280000 : (⟨S_, .f32⟩ : BufTy).Contents (Elt F) → (⟨S1280000, .f32⟩ : BufTy).Contents (Elt F)),
    StableHlo.nullary main_cst_24 (constant S_ .f32 0x00000000#32),
    StableHlo.unary main_cst_24 main_v139 (broadcastInDim S80000 ![] bcast_S_S80000 : (⟨S_, .f32⟩ : BufTy).Contents (Elt F) → (⟨S80000, .f32⟩ : BufTy).Contents (Elt F)),
    StableHlo.unary main_v3 main_v140 (broadcastInDim S1280000x1 ![0] bcast_S1280000_S1280000x1_0 : (⟨S1280000, .i32⟩ : BufTy).Contents (Elt F) → (⟨S1280000x1, .i32⟩ : BufTy).Contents (Elt F)),
    StableHlo.ternary main_v139 main_v140 main_v138 main_v141 ((fun x i u => Host.scatterAdd scatter_S80000_S1280000x1_S1280000_n_0_0_1 x i u) : (⟨S80000, .f32⟩ : BufTy).Contents (Elt F) → (⟨S1280000x1, .i32⟩ : BufTy).Contents (Elt F) → (⟨S1280000, .f32⟩ : BufTy).Contents (Elt F) → (⟨S80000, .f32⟩ : BufTy).Contents (Elt F)),
    StableHlo.nullary main_cst_25 (constant S_ .f32 0x3F800000#32),
    StableHlo.TRef.unary (.of main_cst_25 : StableHlo.TRef sig ⟨S_, .f32⟩) main_call6.v0 id,
    StableHlo.TRef.unary main_call6.v0 main_call6.v1 (broadcastInDim S80000 ![] bcast_S_S80000),
    StableHlo.TRef.binary main_call6.v1 (.of main_v141 : StableHlo.TRef sig ⟨S80000, .f32⟩) main_call6.v2 maximumf,
    StableHlo.unary main_v142 main_v143 (broadcastInDim S80000x1 ![0] bcast_S80000_S80000x1_0 : (⟨S80000, .f32⟩ : BufTy).Contents (Elt F) → (⟨S80000x1, .f32⟩ : BufTy).Contents (Elt F)),
    StableHlo.unary main_v143 main_v144 (broadcastInDim S80000x64 ![0, 1] bcast_S80000x1_S80000x64_0_1 : (⟨S80000x1, .f32⟩ : BufTy).Contents (Elt F) → (⟨S80000x64, .f32⟩ : BufTy).Contents (Elt F)),
    StableHlo.binary main_v137 main_v144 main_v145 (Host.divf : (⟨S80000x64, .f32⟩ : BufTy).Contents (Elt F) → (⟨S80000x64, .f32⟩ : BufTy).Contents (Elt F) → (⟨S80000x64, .f32⟩ : BufTy).Contents (Elt F)),
    StableHlo.binary main_v114 main_arg14 main_v146 ((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)),
    StableHlo.binary main_v145 main_v146 main_v147 (addf : (⟨S80000x64, .f32⟩ : BufTy).Contents (Elt F) → (⟨S80000x64, .f32⟩ : BufTy).Contents (Elt F) → (⟨S80000x64, .f32⟩ : BufTy).Contents (Elt F)),
    StableHlo.unary main_arg15 main_v148 (broadcastInDim S1x64 ![1] bcast_S64_S1x64_1 : (⟨S64, .f32⟩ : BufTy).Contents (Elt F) → (⟨S1x64, .f32⟩ : BufTy).Contents (Elt F)),
    StableHlo.unary main_v148 main_v149 (broadcastInDim S80000x64 ![0, 1] bcast_S1x64_S80000x64_0_1 : (⟨S1x64, .f32⟩ : BufTy).Contents (Elt F) → (⟨S80000x64, .f32⟩ : BufTy).Contents (Elt F)),
    StableHlo.binary main_v147 main_v149 main_v150 (addf : (⟨S80000x64, .f32⟩ : BufTy).Contents (Elt F) → (⟨S80000x64, .f32⟩ : BufTy).Contents (Elt F) → (⟨S80000x64, .f32⟩ : BufTy).Contents (Elt F)),
    StableHlo.TRef.nullary main_call7.cst (constant S_ .f32 0x00000000#32),
    StableHlo.TRef.unary main_call7.cst main_call7.v0 (broadcastInDim S80000x64 ![] bcast_S_S80000x64),
    StableHlo.TRef.binary (.of main_v150 : StableHlo.TRef sig ⟨S80000x64, .f32⟩) main_call7.v0 main_call7.v1 (cmpf .ogt),
    StableHlo.TRef.nullary main_call7.cst_0 (constant S_ .f32 0x00000000#32),
    StableHlo.TRef.unary main_call7.cst_0 main_call7.v2 (broadcastInDim S80000x64 ![] bcast_S_S80000x64),
    StableHlo.TRef.binary (.of main_v150 : StableHlo.TRef sig ⟨S80000x64, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S80000x64 ![] bcast_S_S80000x64),
    StableHlo.TRef.ternary main_call7.v3 main_call7.call0.v1 (.of main_v150 : StableHlo.TRef sig ⟨S80000x64, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S80000x64 ![] bcast_S_S80000x64),
    StableHlo.TRef.binary main_call7.v6 main_call7.v5 main_call7.v7 mulf,
    StableHlo.TRef.ternary main_call7.v1 (.of main_v150 : StableHlo.TRef sig ⟨S80000x64, .f32⟩) main_call7.v7 main_call7.call1.v0 select ]

theorem Q5_sub : (Q5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., nullary_bufs_sub .., unary_bufs_sub .., binary_bufs_sub .., unary_bufs_sub .., binary_bufs_sub .., unary_bufs_sub .., reshape_bufs_sub .., binary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Operations 245 to 280 of the 280. -/
abbrev Q6 : List (HloOp τ sig (Elt F)) :=
  [ StableHlo.nullary main_cst_26 (constant S_ .f32 0x00000000#32),
    StableHlo.unary main_cst_26 main_v152 (broadcastInDim S512x64 ![] bcast_S_S512x64 : (⟨S_, .f32⟩ : BufTy).Contents (Elt F) → (⟨S512x64, .f32⟩ : BufTy).Contents (Elt F)),
    StableHlo.unary main_arg3 main_v153 (broadcastInDim S80000x1 ![0] bcast_S80000_S80000x1_0 : (⟨S80000, .i32⟩ : BufTy).Contents (Elt F) → (⟨S80000x1, .i32⟩ : BufTy).Contents (Elt F)),
    StableHlo.ternary main_v152 main_v153 main_v151 main_v154 ((fun x i u => Host.scatterAdd scatter_S512x64_S80000x1_S80000x64_1_0_0_1 x i u) : (⟨S512x64, .f32⟩ : BufTy).Contents (Elt F) → (⟨S80000x1, .i32⟩ : BufTy).Contents (Elt F) → (⟨S80000x64, .f32⟩ : BufTy).Contents (Elt F) → (⟨S512x64, .f32⟩ : BufTy).Contents (Elt F)),
    StableHlo.nullary main_cst_27 (constant S_ .f32 0x3F800000#32),
    StableHlo.unary main_cst_27 main_v155 (broadcastInDim S80000 ![] bcast_S_S80000 : (⟨S_, .f32⟩ : BufTy).Contents (Elt F) → (⟨S80000, .f32⟩ : BufTy).Contents (Elt F)),
    StableHlo.nullary main_cst_28 (constant S_ .f32 0x00000000#32),
    StableHlo.unary main_cst_28 main_v156 (broadcastInDim S512 ![] bcast_S_S512 : (⟨S_, .f32⟩ : BufTy).Contents (Elt F) → (⟨S512, .f32⟩ : BufTy).Contents (Elt F)),
    StableHlo.unary main_arg3 main_v157 (broadcastInDim S80000x1 ![0] bcast_S80000_S80000x1_0 : (⟨S80000, .i32⟩ : BufTy).Contents (Elt F) → (⟨S80000x1, .i32⟩ : BufTy).Contents (Elt F)),
    StableHlo.ternary main_v156 main_v157 main_v155 main_v158 ((fun x i u => Host.scatterAdd scatter_S512_S80000x1_S80000_n_0_0_1 x i u) : (⟨S512, .f32⟩ : BufTy).Contents (Elt F) → (⟨S80000x1, .i32⟩ : BufTy).Contents (Elt F) → (⟨S80000, .f32⟩ : BufTy).Contents (Elt F) → (⟨S512, .f32⟩ : BufTy).Contents (Elt F)),
    StableHlo.nullary main_cst_29 (constant S_ .f32 0x3F800000#32),
    StableHlo.TRef.unary (.of main_cst_29 : StableHlo.TRef sig ⟨S_, .f32⟩) main_call8.v0 id,
    StableHlo.TRef.unary main_call8.v0 main_call8.v1 (broadcastInDim S512 ![] bcast_S_S512),
    StableHlo.TRef.binary main_call8.v1 (.of main_v158 : StableHlo.TRef sig ⟨S512, .f32⟩) main_call8.v2 maximumf,
    StableHlo.unary main_v159 main_v160 (broadcastInDim S512x1 ![0] bcast_S512_S512x1_0 : (⟨S512, .f32⟩ : BufTy).Contents (Elt F) → (⟨S512x1, .f32⟩ : BufTy).Contents (Elt F)),
    StableHlo.unary main_v160 main_v161 (broadcastInDim S512x64 ![0, 1] bcast_S512x1_S512x64_0_1 : (⟨S512x1, .f32⟩ : BufTy).Contents (Elt F) → (⟨S512x64, .f32⟩ : BufTy).Contents (Elt F)),
    StableHlo.binary main_v154 main_v161 main_v162 (Host.divf : (⟨S512x64, .f32⟩ : BufTy).Contents (Elt F) → (⟨S512x64, .f32⟩ : BufTy).Contents (Elt F) → (⟨S512x64, .f32⟩ : BufTy).Contents (Elt F)),
    StableHlo.binary main_v162 main_arg16 main_v163 ((fun l r => Host.dotGeneral dot_S512x64_S64x6_S512x6_1_0_0_1_n_n none l r) : (⟨S512x64, .f32⟩ : BufTy).Contents (Elt F) → (⟨S64x6, .f32⟩ : BufTy).Contents (Elt F) → (⟨S512x6, .f32⟩ : BufTy).Contents (Elt F)),
    StableHlo.unary main_arg17 main_v164 (broadcastInDim S1x6 ![1] bcast_S6_S1x6_1 : (⟨S6, .f32⟩ : BufTy).Contents (Elt F) → (⟨S1x6, .f32⟩ : BufTy).Contents (Elt F)),
    StableHlo.unary main_v164 main_v165 (broadcastInDim S512x6 ![0, 1] bcast_S1x6_S512x6_0_1 : (⟨S1x6, .f32⟩ : BufTy).Contents (Elt F) → (⟨S512x6, .f32⟩ : BufTy).Contents (Elt F)),
    StableHlo.binary main_v163 main_v165 main_v166 (addf : (⟨S512x6, .f32⟩ : BufTy).Contents (Elt F) → (⟨S512x6, .f32⟩ : BufTy).Contents (Elt F) → (⟨S512x6, .f32⟩ : BufTy).Contents (Elt F)),
    StableHlo.TRef.nullary main_call9.cst (constant S_ .f32 0xFF800000#32),
    StableHlo.TRef.binary (.of main_v166 : StableHlo.TRef sig ⟨S512x6, .f32⟩) main_call9.cst main_call9.v0 (fun x v => Host.reduce FloatOps.maximumf x v reducesTo_S512x6_S512_d1 h_S_),
    StableHlo.TRef.nullary main_call9.cst_0 (constant S_ .f32 0xFF800000#32),
    StableHlo.TRef.unary main_call9.cst_0 main_call9.v1 (broadcastInDim S512 ![] bcast_S_S512),
    StableHlo.TRef.binary main_call9.v1 main_call9.v0 main_call9.v2 maximumf,
    StableHlo.TRef.unary main_call9.v2 main_call9.v3 (broadcastInDim S512x1 ![0] bcast_S512_S512x1_0),
    StableHlo.TRef.unary main_call9.v3 main_call9.v4 (broadcastInDim S512x6 ![0, 1] bcast_S512x1_S512x6_0_1),
    StableHlo.TRef.binary (.of main_v166 : StableHlo.TRef sig ⟨S512x6, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S512x6_S512_d1 h_S_),
    StableHlo.TRef.unary main_call9.v7 main_call9.v8 (broadcastInDim S512x1 ![0] bcast_S512_S512x1_0),
    StableHlo.TRef.unary main_call9.v8 main_call9.v9 Host.log,
    StableHlo.TRef.unary main_call9.v9 main_call9.v10 (broadcastInDim S512x6 ![0, 1] bcast_S512x1_S512x6_0_1),
    StableHlo.TRef.binary main_call9.v5 main_call9.v10 main_call9.v11 subf ]

theorem Q6_sub : (Q6 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.RefOps

end
-- ==== Proof.RefSpec.lean ====
/- The reference's pieces as functions of whole arrays: each is the composition, in program order, of the operations the
   reference program lists for that piece, with nothing simplified. Four graph convolution layers share these pieces
   (layer 1 at width 3, layers 2-4 at width 64); the pooling head follows. Namespace `G` states them for any float
   values; below it the same at the exact extended reals. -/
import proofs.«170515_j51196010168472_1_alg».proof.ReferenceIdeal
import Idealize.ShloMosaic.PureOps.Ideal

noncomputable section

namespace Cert.ReferenceIdeal.RefSpec

open Idealize.ShloMosaic Idealize.ShloMosaic.TcCoe Idealize.SL.Sem Cert.ReferenceIdeal

variable [Facts]
open Facts₀ Facts

namespace G

variable {F : FTy → Type} [FloatOps F]

/-- Row 0 of the edge table as a vector (the slice of row 0, reshaped): the source node of each edge. -/
def row0 (ei : (⟨S2x1280000, .i32⟩ : BufTy).Contents (Elt F)) :
    (⟨S1280000, .i32⟩ : BufTy).Contents (Elt F) :=
  (fun i => shapeCast S1280000 (((extractStridedSlice S1x1280000 ![0, 0] · slices_S2x1280000_S1x1280000_0_0) : (⟨S2x1280000, .i32⟩ : BufTy).Contents (Elt F) → (⟨S1x1280000, .i32⟩ : BufTy).Contents (Elt F)) ei) shapeCasts_S1x1280000_S1280000 i)

/-- Row 1 of the edge table as a vector: the destination node of each edge. -/
def row1 (ei : (⟨S2x1280000, .i32⟩ : BufTy).Contents (Elt F)) :
    (⟨S1280000, .i32⟩ : BufTy).Contents (Elt F) :=
  (fun i => shapeCast S1280000 (((extractStridedSlice S1x1280000 ![1, 0] · slices_S2x1280000_S1x1280000_1_0) : (⟨S2x1280000, .i32⟩ : BufTy).Contents (Elt F) → (⟨S1x1280000, .i32⟩ : BufTy).Contents (Elt F)) ei) shapeCasts_S1x1280000_S1280000 i)

/-- The gather's index column: a negative index has 80000 added (the wrap of a negative index), then the vector is read as a column. -/
def wrap (s : (⟨S1280000, .i32⟩ : BufTy).Contents (Elt F)) :
    (⟨S1280000x1, .i32⟩ : BufTy).Contents (Elt F) :=
  ((broadcastInDim S1280000x1 ![0] bcast_S1280000_S1280000x1_0 : (⟨S1280000, .i32⟩ : BufTy).Contents (Elt F) → (⟨S1280000x1, .i32⟩ : BufTy).Contents (Elt F)) ((select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)) ((cmpi .slt : (⟨S1280000, .i32⟩ : BufTy).Contents (Elt F) → (⟨S1280000, .i32⟩ : BufTy).Contents (Elt F) → (⟨S1280000, .i1⟩ : BufTy).Contents (Elt F)) s ((broadcastInDim S1280000 ![] bcast_S_S1280000 : (⟨S_, .i32⟩ : BufTy).Contents (Elt F) → (⟨S1280000, .i32⟩ : BufTy).Contents (Elt F)) (constantI S_ 32 0#32))) ((addi : (⟨S1280000, .i32⟩ : BufTy).Contents (Elt F) → (⟨S1280000, .i32⟩ : BufTy).Contents (Elt F) → (⟨S1280000, .i32⟩ : BufTy).Contents (Elt F)) s ((broadcastInDim S1280000 ![] bcast_S_S1280000 : (⟨S_, .i32⟩ : BufTy).Contents (Elt F) → (⟨S1280000, .i32⟩ : BufTy).Contents (Elt F)) (constantI S_ 32 80000#32))) s))

/-- A vector of indices read as a one-column matrix. -/
def col (s : (⟨S1280000, .i32⟩ : BufTy).Contents (Elt F)) :
    (⟨S1280000x1, .i32⟩ : BufTy).Contents (Elt F) :=
  ((broadcastInDim S1280000x1 ![0] bcast_S1280000_S1280000x1_0 : (⟨S1280000, .i32⟩ : BufTy).Contents (Elt F) → (⟨S1280000x1, .i32⟩ : BufTy).Contents (Elt F)) s)

/-- The degree vector: ones added into zeros at the destination indices. -/
def degOf (s : (⟨S1280000, .i32⟩ : BufTy).Contents (Elt F)) :
    (⟨S80000, .f32⟩ : BufTy).Contents (Elt F) :=
  (((fun x i u => Host.scatterAdd scatter_S80000_S1280000x1_S1280000_n_0_0_1 x i u) : (⟨S80000, .f32⟩ : BufTy).Contents (Elt F) → (⟨S1280000x1, .i32⟩ : BufTy).Contents (Elt F) → (⟨S1280000, .f32⟩ : BufTy).Contents (Elt F) → (⟨S80000, .f32⟩ : BufTy).Contents (Elt F)) ((broadcastInDim S80000 ![] bcast_S_S80000 : (⟨S_, .f32⟩ : BufTy).Contents (Elt F) → (⟨S80000, .f32⟩ : BufTy).Contents (Elt F)) (constant S_ .f32 0x00000000#32)) ((broadcastInDim S1280000x1 ![0] bcast_S1280000_S1280000x1_0 : (⟨S1280000, .i32⟩ : BufTy).Contents (Elt F) → (⟨S1280000x1, .i32⟩ : BufTy).Contents (Elt F)) s) ((broadcastInDim S1280000 ![] bcast_S_S1280000 : (⟨S_, .f32⟩ : BufTy).Contents (Elt F) → (⟨S1280000, .f32⟩ : BufTy).Contents (Elt F)) (constant S_ .f32 0x3F800000#32)))

/-- The rows of `x` at the index column. -/
def gather3 (x : (⟨S80000x3, .f32⟩ : BufTy).Contents (Elt F)) (idx : (⟨S1280000x1, .i32⟩ : BufTy).Contents (Elt F)) :
    (⟨S1280000x3, .f32⟩ : BufTy).Contents (Elt F) :=
  (((fun x i => Host.gather gather_S80000x3_S1280000x1_S1280000x3_1_0_n_n_0_1_13 x i) : (⟨S80000x3, .f32⟩ : BufTy).Contents (Elt F) → (⟨S1280000x1, .i32⟩ : BufTy).Contents (Elt F) → (⟨S1280000x3, .f32⟩ : BufTy).Contents (Elt F)) x idx)

/-- Slab 0 of the layer-1 spline weights. -/
def w0of3 (W : (⟨S2x3x64, .f32⟩ : BufTy).Contents (Elt F)) :
    (⟨S3x64, .f32⟩ : BufTy).Contents (Elt F) :=
  (fun i => shapeCast S3x64 (((extractStridedSlice S1x3x64 ![0, 0, 0] · slices_S2x3x64_S1x3x64_0_0_0) : (⟨S2x3x64, .f32⟩ : BufTy).Contents (Elt F) → (⟨S1x3x64, .f32⟩ : BufTy).Contents (Elt F)) W) shapeCasts_S1x3x64_S3x64 i)

/-- Slab 1 of the layer-1 spline weights. -/
def w1of3 (W : (⟨S2x3x64, .f32⟩ : BufTy).Contents (Elt F)) :
    (⟨S3x64, .f32⟩ : BufTy).Contents (Elt F) :=
  (fun i => shapeCast S3x64 (((extractStridedSlice S1x3x64 ![1, 0, 0] · slices_S2x3x64_S1x3x64_1_0_0) : (⟨S2x3x64, .f32⟩ : BufTy).Contents (Elt F) → (⟨S1x3x64, .f32⟩ : BufTy).Contents (Elt F)) W) shapeCasts_S1x3x64_S3x64 i)

/-- The layer-1 messages: (xj·w0)·(1−u) + (xj·w1)·u. -/
def msg3 (xj : (⟨S1280000x3, .f32⟩ : BufTy).Contents (Elt F)) (u : (⟨S1280000x1, .f32⟩ : BufTy).Contents (Elt F)) (w0 : (⟨S3x64, .f32⟩ : BufTy).Contents (Elt F)) (w1 : (⟨S3x64, .f32⟩ : BufTy).Contents (Elt F)) :
    (⟨S1280000x64, .f32⟩ : BufTy).Contents (Elt F) :=
  ((addf : (⟨S1280000x64, .f32⟩ : BufTy).Contents (Elt F) → (⟨S1280000x64, .f32⟩ : BufTy).Contents (Elt F) → (⟨S1280000x64, .f32⟩ : BufTy).Contents (Elt F)) ((mulf : (⟨S1280000x64, .f32⟩ : BufTy).Contents (Elt F) → (⟨S1280000x64, .f32⟩ : BufTy).Contents (Elt F) → (⟨S1280000x64, .f32⟩ : BufTy).Contents (Elt F)) (((fun l r => Host.dotGeneral dot_S1280000x3_S3x64_S1280000x64_1_0_0_1_n_n none l r) : (⟨S1280000x3, .f32⟩ : BufTy).Contents (Elt F) → (⟨S3x64, .f32⟩ : BufTy).Contents (Elt F) → (⟨S1280000x64, .f32⟩ : BufTy).Contents (Elt F)) xj w0) ((broadcastInDim S1280000x64 ![0, 1] bcast_S1280000x1_S1280000x64_0_1 : (⟨S1280000x1, .f32⟩ : BufTy).Contents (Elt F) → (⟨S1280000x64, .f32⟩ : BufTy).Contents (Elt F)) ((subf : (⟨S1280000x1, .f32⟩ : BufTy).Contents (Elt F) → (⟨S1280000x1, .f32⟩ : BufTy).Contents (Elt F) → (⟨S1280000x1, .f32⟩ : BufTy).Contents (Elt F)) ((broadcastInDim S1280000x1 ![] bcast_S_S1280000x1 : (⟨S_, .f32⟩ : BufTy).Contents (Elt F) → (⟨S1280000x1, .f32⟩ : BufTy).Contents (Elt F)) (constant S_ .f32 0x3F800000#32)) u))) ((mulf : (⟨S1280000x64, .f32⟩ : BufTy).Contents (Elt F) → (⟨S1280000x64, .f32⟩ : BufTy).Contents (Elt F) → (⟨S1280000x64, .f32⟩ : BufTy).Contents (Elt F)) (((fun l r => Host.dotGeneral dot_S1280000x3_S3x64_S1280000x64_1_0_0_1_n_n none l r) : (⟨S1280000x3, .f32⟩ : BufTy).Contents (Elt F) → (⟨S3x64, .f32⟩ : BufTy).Contents (Elt F) → (⟨S1280000x64, .f32⟩ : BufTy).Contents (Elt F)) xj w1) ((broadcastInDim S1280000x64 ![0, 1] bcast_S1280000x1_S1280000x64_0_1 : (⟨S1280000x1, .f32⟩ : BufTy).Contents (Elt F) → (⟨S1280000x64, .f32⟩ : BufTy).Contents (Elt F)) u)))

/-- The messages added into zeros at the destination indices. -/
def agg (msg : (⟨S1280000x64, .f32⟩ : BufTy).Contents (Elt F)) (idx : (⟨S1280000x1, .i32⟩ : BufTy).Contents (Elt F)) :
    (⟨S80000x64, .f32⟩ : BufTy).Contents (Elt F) :=
  (((fun x i u => Host.scatterAdd scatter_S80000x64_S1280000x1_S1280000x64_1_0_0_1 x i u) : (⟨S80000x64, .f32⟩ : BufTy).Contents (Elt F) → (⟨S1280000x1, .i32⟩ : BufTy).Contents (Elt F) → (⟨S1280000x64, .f32⟩ : BufTy).Contents (Elt F) → (⟨S80000x64, .f32⟩ : BufTy).Contents (Elt F)) ((broadcastInDim S80000x64 ![] bcast_S_S80000x64 : (⟨S_, .f32⟩ : BufTy).Contents (Elt F) → (⟨S80000x64, .f32⟩ : BufTy).Contents (Elt F)) (constant S_ .f32 0x00000000#32)) idx msg)

/-- The layer-1 node update: ELU of a / max(1, d) + x·root + b. -/
def node3 (a : (⟨S80000x64, .f32⟩ : BufTy).Contents (Elt F)) (d : (⟨S80000, .f32⟩ : BufTy).Contents (Elt F)) (x : (⟨S80000x3, .f32⟩ : BufTy).Contents (Elt F)) (root : (⟨S3x64, .f32⟩ : BufTy).Contents (Elt F)) (b : (⟨S64, .f32⟩ : BufTy).Contents (Elt F)) :
    (⟨S80000x64, .f32⟩ : BufTy).Contents (Elt F) :=
  (select ((cmpf .ogt) ((addf : (⟨S80000x64, .f32⟩ : BufTy).Contents (Elt F) → (⟨S80000x64, .f32⟩ : BufTy).Contents (Elt F) → (⟨S80000x64, .f32⟩ : BufTy).Contents (Elt F)) ((addf : (⟨S80000x64, .f32⟩ : BufTy).Contents (Elt F) → (⟨S80000x64, .f32⟩ : BufTy).Contents (Elt F) → (⟨S80000x64, .f32⟩ : BufTy).Contents (Elt F)) ((Host.divf : (⟨S80000x64, .f32⟩ : BufTy).Contents (Elt F) → (⟨S80000x64, .f32⟩ : BufTy).Contents (Elt F) → (⟨S80000x64, .f32⟩ : BufTy).Contents (Elt F)) a ((broadcastInDim S80000x64 ![0, 1] bcast_S80000x1_S80000x64_0_1 : (⟨S80000x1, .f32⟩ : BufTy).Contents (Elt F) → (⟨S80000x64, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((maximumf) ((broadcastInDim S80000 ![] bcast_S_S80000) (id (constant S_ .f32 0x3F800000#32))) d)))) (((fun l r => Host.dotGeneral dot_S80000x3_S3x64_S80000x64_1_0_0_1_n_n none l r) : (⟨S80000x3, .f32⟩ : BufTy).Contents (Elt F) → (⟨S3x64, .f32⟩ : BufTy).Contents (Elt F) → (⟨S80000x64, .f32⟩ : BufTy).Contents (Elt F)) x root)) ((broadcastInDim S80000x64 ![0, 1] bcast_S1x64_S80000x64_0_1 : (⟨S1x64, .f32⟩ : BufTy).Contents (Elt F) → (⟨S80000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S80000x64 ![] bcast_S_S80000x64) (constant S_ .f32 0x00000000#32))) ((addf : (⟨S80000x64, .f32⟩ : BufTy).Contents (Elt F) → (⟨S80000x64, .f32⟩ : BufTy).Contents (Elt F) → (⟨S80000x64, .f32⟩ : BufTy).Contents (Elt F)) ((addf : (⟨S80000x64, .f32⟩ : BufTy).Contents (Elt F) → (⟨S80000x64, .f32⟩ : BufTy).Contents (Elt F) → (⟨S80000x64, .f32⟩ : BufTy).Contents (Elt F)) ((Host.divf : (⟨S80000x64, .f32⟩ : BufTy).Contents (Elt F) → (⟨S80000x64, .f32⟩ : BufTy).Contents (Elt F) → (⟨S80000x64, .f32⟩ : BufTy).Contents (Elt F)) a ((broadcastInDim S80000x64 ![0, 1] bcast_S80000x1_S80000x64_0_1 : (⟨S80000x1, .f32⟩ : BufTy).Contents (Elt F) → (⟨S80000x64, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((maximumf) ((broadcastInDim S80000 ![] bcast_S_S80000) (id (constant S_ .f32 0x3F800000#32))) d)))) (((fun l r => Host.dotGeneral dot_S80000x3_S3x64_S80000x64_1_0_0_1_n_n none l r) : (⟨S80000x3, .f32⟩ : BufTy).Contents (Elt F) → (⟨S3x64, .f32⟩ : BufTy).Contents (Elt F) → (⟨S80000x64, .f32⟩ : BufTy).Contents (Elt F)) x root)) ((broadcastInDim S80000x64 ![0, 1] bcast_S1x64_S80000x64_0_1 : (⟨S1x64, .f32⟩ : BufTy).Contents (Elt F) → (⟨S80000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((mulf) ((broadcastInDim S80000x64 ![] bcast_S_S80000x64) (constant S_ .f32 0x3F800000#32)) ((Host.expm1) (select ((cmpf .ogt) ((addf : (⟨S80000x64, .f32⟩ : BufTy).Contents (Elt F) → (⟨S80000x64, .f32⟩ : BufTy).Contents (Elt F) → (⟨S80000x64, .f32⟩ : BufTy).Contents (Elt F)) ((addf : (⟨S80000x64, .f32⟩ : BufTy).Contents (Elt F) → (⟨S80000x64, .f32⟩ : BufTy).Contents (Elt F) → (⟨S80000x64, .f32⟩ : BufTy).Contents (Elt F)) ((Host.divf : (⟨S80000x64, .f32⟩ : BufTy).Contents (Elt F) → (⟨S80000x64, .f32⟩ : BufTy).Contents (Elt F) → (⟨S80000x64, .f32⟩ : BufTy).Contents (Elt F)) a ((broadcastInDim S80000x64 ![0, 1] bcast_S80000x1_S80000x64_0_1 : (⟨S80000x1, .f32⟩ : BufTy).Contents (Elt F) → (⟨S80000x64, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((maximumf) ((broadcastInDim S80000 ![] bcast_S_S80000) (id (constant S_ .f32 0x3F800000#32))) d)))) (((fun l r => Host.dotGeneral dot_S80000x3_S3x64_S80000x64_1_0_0_1_n_n none l r) : (⟨S80000x3, .f32⟩ : BufTy).Contents (Elt F) → (⟨S3x64, .f32⟩ : BufTy).Contents (Elt F) → (⟨S80000x64, .f32⟩ : BufTy).Contents (Elt F)) x root)) ((broadcastInDim S80000x64 ![0, 1] bcast_S1x64_S80000x64_0_1 : (⟨S1x64, .f32⟩ : BufTy).Contents (Elt F) → (⟨S80000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S80000x64 ![] bcast_S_S80000x64) (constant S_ .f32 0x00000000#32))) ((broadcastInDim S80000x64 ![] bcast_S_S80000x64) (id (constant S_ .f32 0x00000000#32))) ((addf : (⟨S80000x64, .f32⟩ : BufTy).Contents (Elt F) → (⟨S80000x64, .f32⟩ : BufTy).Contents (Elt F) → (⟨S80000x64, .f32⟩ : BufTy).Contents (Elt F)) ((addf : (⟨S80000x64, .f32⟩ : BufTy).Contents (Elt F) → (⟨S80000x64, .f32⟩ : BufTy).Contents (Elt F) → (⟨S80000x64, .f32⟩ : BufTy).Contents (Elt F)) ((Host.divf : (⟨S80000x64, .f32⟩ : BufTy).Contents (Elt F) → (⟨S80000x64, .f32⟩ : BufTy).Contents (Elt F) → (⟨S80000x64, .f32⟩ : BufTy).Contents (Elt F)) a ((broadcastInDim S80000x64 ![0, 1] bcast_S80000x1_S80000x64_0_1 : (⟨S80000x1, .f32⟩ : BufTy).Contents (Elt F) → (⟨S80000x64, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((maximumf) ((broadcastInDim S80000 ![] bcast_S_S80000) (id (constant S_ .f32 0x3F800000#32))) d)))) (((fun l r => Host.dotGeneral dot_S80000x3_S3x64_S80000x64_1_0_0_1_n_n none l r) : (⟨S80000x3, .f32⟩ : BufTy).Contents (Elt F) → (⟨S3x64, .f32⟩ : BufTy).Contents (Elt F) → (⟨S80000x64, .f32⟩ : BufTy).Contents (Elt F)) x root)) ((broadcastInDim S80000x64 ![0, 1] bcast_S1x64_S80000x64_0_1 : (⟨S1x64, .f32⟩ : BufTy).Contents (Elt F) → (⟨S80000x64, .f32⟩ : BufTy).Contents (Elt F)) ((broadcastInDim S1x64 ![1] bcast_S64_S1x64_1 : (⟨S64, .f32⟩ : BufTy).Contents (Elt F) → (⟨S1x64, .f32⟩ : BufTy).Contents (Elt F)) b)))))))

/-- The rows of `h` at the index column. -/
def gather64 (h : (⟨S80000x64, .f32⟩ : BufTy).Contents (Elt F)) (idx : (⟨S1280000x1, .i32⟩ : BufTy).Contents (Elt F)) :
    (⟨S1280000x64, .f32⟩ : BufTy).Contents (Elt F) :=
  (((fun x i => Host.gather gather_S80000x64_S1280000x1_S1280000x64_1_0_n_n_0_1_164 x i) : (⟨S80000x64, .f32⟩ : BufTy).Contents (Elt F) → (⟨S1280000x1, .i32⟩ : BufTy).Contents (Elt F) → (⟨S1280000x64, .f32⟩ : BufTy).Contents (Elt F)) h idx)

/-- Slab 0 of a 64-wide layer's spline weights. -/
def w0of64 (W : (⟨S2x64x64, .f32⟩ : BufTy).Contents (Elt F)) :
    (⟨S64x64, .f32⟩ : BufTy).Contents (Elt F) :=
  (fun i => shapeCast S64x64 (((extractStridedSlice S1x64x64 ![0, 0, 0] · slices_S2x64x64_S1x64x64_0_0_0) : (⟨S2x64x64, .f32⟩ : BufTy).Contents (Elt F) → (⟨S1x64x64, .f32⟩ : BufTy).Contents (Elt F)) W) shapeCasts_S1x64x64_S64x64 i)

/-- Slab 1 of a 64-wide layer's spline weights. -/
def w1of64 (W : (⟨S2x64x64, .f32⟩ : BufTy).Contents (Elt F)) :
    (⟨S64x64, .f32⟩ : BufTy).Contents (Elt F) :=
  (fun i => shapeCast S64x64 (((extractStridedSlice S1x64x64 ![1, 0, 0] · slices_S2x64x64_S1x64x64_1_0_0) : (⟨S2x64x64, .f32⟩ : BufTy).Contents (Elt F) → (⟨S1x64x64, .f32⟩ : BufTy).Contents (Elt F)) W) shapeCasts_S1x64x64_S64x64 i)

/-- A 64-wide layer's messages: (xj·w0)·(1−u) + (xj·w1)·u. -/
def msg64 (xj : (⟨S1280000x64, .f32⟩ : BufTy).Contents (Elt F)) (u : (⟨S1280000x1, .f32⟩ : BufTy).Contents (Elt F)) (w0 : (⟨S64x64, .f32⟩ : BufTy).Contents (Elt F)) (w1 : (⟨S64x64, .f32⟩ : BufTy).Contents (Elt F)) :
    (⟨S1280000x64, .f32⟩ : BufTy).Contents (Elt F) :=
  ((addf : (⟨S1280000x64, .f32⟩ : BufTy).Contents (Elt F) → (⟨S1280000x64, .f32⟩ : BufTy).Contents (Elt F) → (⟨S1280000x64, .f32⟩ : BufTy).Contents (Elt F)) ((mulf : (⟨S1280000x64, .f32⟩ : BufTy).Contents (Elt F) → (⟨S1280000x64, .f32⟩ : BufTy).Contents (Elt F) → (⟨S1280000x64, .f32⟩ : BufTy).Contents (Elt F)) (((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)) xj w0) ((broadcastInDim S1280000x64 ![0, 1] bcast_S1280000x1_S1280000x64_0_1 : (⟨S1280000x1, .f32⟩ : BufTy).Contents (Elt F) → (⟨S1280000x64, .f32⟩ : BufTy).Contents (Elt F)) ((subf : (⟨S1280000x1, .f32⟩ : BufTy).Contents (Elt F) → (⟨S1280000x1, .f32⟩ : BufTy).Contents (Elt F) → (⟨S1280000x1, .f32⟩ : BufTy).Contents (Elt F)) ((broadcastInDim S1280000x1 ![] bcast_S_S1280000x1 : (⟨S_, .f32⟩ : BufTy).Contents (Elt F) → (⟨S1280000x1, .f32⟩ : BufTy).Contents (Elt F)) (constant S_ .f32 0x3F800000#32)) u))) ((mulf : (⟨S1280000x64, .f32⟩ : BufTy).Contents (Elt F) → (⟨S1280000x64, .f32⟩ : BufTy).Contents (Elt F) → (⟨S1280000x64, .f32⟩ : BufTy).Contents (Elt F)) (((fun l r => Host.dotGeneral dot_S1280000x64_S64x64_S1280000x64_1_0_0_1_n_n none l r) : (⟨S1280000x64, .f32⟩ : BufTy).Contents (Elt F) → (⟨S64x64, .f32⟩ : BufTy).Contents (Elt F) → (⟨S1280000x64, .f32⟩ : BufTy).Contents (Elt F)) xj w1) ((broadcastInDim S1280000x64 ![0, 1] bcast_S1280000x1_S1280000x64_0_1 : (⟨S1280000x1, .f32⟩ : BufTy).Contents (Elt F) → (⟨S1280000x64, .f32⟩ : BufTy).Contents (Elt F)) u)))

/-- A 64-wide layer's node update: ELU of a / max(1, d) + x·root + b. -/
def node64 (a : (⟨S80000x64, .f32⟩ : BufTy).Contents (Elt F)) (d : (⟨S80000, .f32⟩ : BufTy).Contents (Elt F)) (x : (⟨S80000x64, .f32⟩ : BufTy).Contents (Elt F)) (root : (⟨S64x64, .f32⟩ : BufTy).Contents (Elt F)) (b : (⟨S64, .f32⟩ : BufTy).Contents (Elt F)) :
    (⟨S80000x64, .f32⟩ : BufTy).Contents (Elt F) :=
  (select ((cmpf .ogt) ((addf : (⟨S80000x64, .f32⟩ : BufTy).Contents (Elt F) → (⟨S80000x64, .f32⟩ : BufTy).Contents (Elt F) → (⟨S80000x64, .f32⟩ : BufTy).Contents (Elt F)) ((addf : (⟨S80000x64, .f32⟩ : BufTy).Contents (Elt F) → (⟨S80000x64, .f32⟩ : BufTy).Contents (Elt F) → (⟨S80000x64, .f32⟩ : BufTy).Contents (Elt F)) ((Host.divf : (⟨S80000x64, .f32⟩ : BufTy).Contents (Elt F) → (⟨S80000x64, .f32⟩ : BufTy).Contents (Elt F) → (⟨S80000x64, .f32⟩ : BufTy).Contents (Elt F)) a ((broadcastInDim S80000x64 ![0, 1] bcast_S80000x1_S80000x64_0_1 : (⟨S80000x1, .f32⟩ : BufTy).Contents (Elt F) → (⟨S80000x64, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((maximumf) ((broadcastInDim S80000 ![] bcast_S_S80000) (id (constant S_ .f32 0x3F800000#32))) d)))) (((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)) x root)) ((broadcastInDim S80000x64 ![0, 1] bcast_S1x64_S80000x64_0_1 : (⟨S1x64, .f32⟩ : BufTy).Contents (Elt F) → (⟨S80000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S80000x64 ![] bcast_S_S80000x64) (constant S_ .f32 0x00000000#32))) ((addf : (⟨S80000x64, .f32⟩ : BufTy).Contents (Elt F) → (⟨S80000x64, .f32⟩ : BufTy).Contents (Elt F) → (⟨S80000x64, .f32⟩ : BufTy).Contents (Elt F)) ((addf : (⟨S80000x64, .f32⟩ : BufTy).Contents (Elt F) → (⟨S80000x64, .f32⟩ : BufTy).Contents (Elt F) → (⟨S80000x64, .f32⟩ : BufTy).Contents (Elt F)) ((Host.divf : (⟨S80000x64, .f32⟩ : BufTy).Contents (Elt F) → (⟨S80000x64, .f32⟩ : BufTy).Contents (Elt F) → (⟨S80000x64, .f32⟩ : BufTy).Contents (Elt F)) a ((broadcastInDim S80000x64 ![0, 1] bcast_S80000x1_S80000x64_0_1 : (⟨S80000x1, .f32⟩ : BufTy).Contents (Elt F) → (⟨S80000x64, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((maximumf) ((broadcastInDim S80000 ![] bcast_S_S80000) (id (constant S_ .f32 0x3F800000#32))) d)))) (((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)) x root)) ((broadcastInDim S80000x64 ![0, 1] bcast_S1x64_S80000x64_0_1 : (⟨S1x64, .f32⟩ : BufTy).Contents (Elt F) → (⟨S80000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((mulf) ((broadcastInDim S80000x64 ![] bcast_S_S80000x64) (constant S_ .f32 0x3F800000#32)) ((Host.expm1) (select ((cmpf .ogt) ((addf : (⟨S80000x64, .f32⟩ : BufTy).Contents (Elt F) → (⟨S80000x64, .f32⟩ : BufTy).Contents (Elt F) → (⟨S80000x64, .f32⟩ : BufTy).Contents (Elt F)) ((addf : (⟨S80000x64, .f32⟩ : BufTy).Contents (Elt F) → (⟨S80000x64, .f32⟩ : BufTy).Contents (Elt F) → (⟨S80000x64, .f32⟩ : BufTy).Contents (Elt F)) ((Host.divf : (⟨S80000x64, .f32⟩ : BufTy).Contents (Elt F) → (⟨S80000x64, .f32⟩ : BufTy).Contents (Elt F) → (⟨S80000x64, .f32⟩ : BufTy).Contents (Elt F)) a ((broadcastInDim S80000x64 ![0, 1] bcast_S80000x1_S80000x64_0_1 : (⟨S80000x1, .f32⟩ : BufTy).Contents (Elt F) → (⟨S80000x64, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((maximumf) ((broadcastInDim S80000 ![] bcast_S_S80000) (id (constant S_ .f32 0x3F800000#32))) d)))) (((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)) x root)) ((broadcastInDim S80000x64 ![0, 1] bcast_S1x64_S80000x64_0_1 : (⟨S1x64, .f32⟩ : BufTy).Contents (Elt F) → (⟨S80000x64, .f32⟩ : BufTy).Contents (Elt F)) ((broadcastInDim S1x64 ![1] bcast_S64_S1x64_1 : (⟨S64, .f32⟩ : BufTy).Contents (Elt F) → (⟨S1x64, .f32⟩ : BufTy).Contents (Elt F)) b))) ((broadcastInDim S80000x64 ![] bcast_S_S80000x64) (constant S_ .f32 0x00000000#32))) ((broadcastInDim S80000x64 ![] bcast_S_S80000x64) (id (constant S_ .f32 0x00000000#32))) ((addf : (⟨S80000x64, .f32⟩ : BufTy).Contents (Elt F) → (⟨S80000x64, .f32⟩ : BufTy).Contents (Elt F) → (⟨S80000x64, .f32⟩ : BufTy).Contents (Elt F)) ((addf : (⟨S80000x64, .f32⟩ : BufTy).Contents (Elt F) → (⟨S80000x64, .f32⟩ : BufTy).Contents (Elt F) → (⟨S80000x64, .f32⟩ : BufTy).Contents (Elt F)) ((Host.divf : (⟨S80000x64, .f32⟩ : BufTy).Contents (Elt F) → (⟨S80000x64, .f32⟩ : BufTy).Contents (Elt F) → (⟨S80000x64, .f32⟩ : BufTy).Contents (Elt F)) a ((broadcastInDim S80000x64 ![0, 1] bcast_S80000x1_S80000x64_0_1 : (⟨S80000x1, .f32⟩ : BufTy).Contents (Elt F) → (⟨S80000x64, .f32⟩ : BufTy).Contents (Elt F)) ((broadcastInDim S80000x1 ![0] bcast_S80000_S80000x1_0 : (⟨S80000, .f32⟩ : BufTy).Contents (Elt F) → (⟨S80000x1, .f32⟩ : BufTy).Contents (Elt F)) ((maximumf) ((broadcastInDim S80000 ![] bcast_S_S80000) (id (constant S_ .f32 0x3F800000#32))) d)))) (((fun l r => Host.dotGeneral dot_S80000x64_S64x64_S80000x64_1_0_0_1_n_n none l r) : (⟨S80000x64, .f32⟩ : BufTy).Contents (Elt F) → (⟨S64x64, .f32⟩ : BufTy).Contents (Elt F) → (⟨S80000x64, .f32⟩ : BufTy).Contents (Elt F)) x root)) ((broadcastInDim S80000x64 ![0, 1] bcast_S1x64_S80000x64_0_1 : (⟨S1x64, .f32⟩ : BufTy).Contents (Elt F) → (⟨S80000x64, .f32⟩ : BufTy).Contents (Elt F)) ((broadcastInDim S1x64 ![1] bcast_S64_S1x64_1 : (⟨S64, .f32⟩ : BufTy).Contents (Elt F) → (⟨S1x64, .f32⟩ : BufTy).Contents (Elt F)) b)))))))

/-- The pooling head: per-graph mean of the node rows, the final linear map, log-softmax along the classes. -/
def head (h : (⟨S80000x64, .f32⟩ : BufTy).Contents (Elt F)) (batch : (⟨S80000, .i32⟩ : BufTy).Contents (Elt F)) (fcw : (⟨S64x6, .f32⟩ : BufTy).Contents (Elt F)) (fcb : (⟨S6, .f32⟩ : BufTy).Contents (Elt F)) :
    (⟨S512x6, .f32⟩ : BufTy).Contents (Elt F) :=
  ((subf) ((subf) ((addf : (⟨S512x6, .f32⟩ : BufTy).Contents (Elt F) → (⟨S512x6, .f32⟩ : BufTy).Contents (Elt F) → (⟨S512x6, .f32⟩ : BufTy).Contents (Elt F)) (((fun l r => Host.dotGeneral dot_S512x64_S64x6_S512x6_1_0_0_1_n_n none l r) : (⟨S512x64, .f32⟩ : BufTy).Contents (Elt F) → (⟨S64x6, .f32⟩ : BufTy).Contents (Elt F) → (⟨S512x6, .f32⟩ : BufTy).Contents (Elt F)) ((Host.divf : (⟨S512x64, .f32⟩ : BufTy).Contents (Elt F) → (⟨S512x64, .f32⟩ : BufTy).Contents (Elt F) → (⟨S512x64, .f32⟩ : BufTy).Contents (Elt F)) (((fun x i u => Host.scatterAdd scatter_S512x64_S80000x1_S80000x64_1_0_0_1 x i u) : (⟨S512x64, .f32⟩ : BufTy).Contents (Elt F) → (⟨S80000x1, .i32⟩ : BufTy).Contents (Elt F) → (⟨S80000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) batch) h) ((broadcastInDim S512x64 ![0, 1] bcast_S512x1_S512x64_0_1 : (⟨S512x1, .f32⟩ : BufTy).Contents (Elt F) → (⟨S512x64, .f32⟩ : BufTy).Contents (Elt F)) ((broadcastInDim S512x1 ![0] bcast_S512_S512x1_0 : (⟨S512, .f32⟩ : BufTy).Contents (Elt F) → (⟨S512x1, .f32⟩ : BufTy).Contents (Elt F)) ((maximumf) ((broadcastInDim S512 ![] bcast_S_S512) (id (constant S_ .f32 0x3F800000#32))) (((fun x i u => Host.scatterAdd scatter_S512_S80000x1_S80000_n_0_0_1 x i u) : (⟨S512, .f32⟩ : BufTy).Contents (Elt F) → (⟨S80000x1, .i32⟩ : BufTy).Contents (Elt F) → (⟨S80000, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) batch) ((broadcastInDim S80000 ![] bcast_S_S80000 : (⟨S_, .f32⟩ : BufTy).Contents (Elt F) → (⟨S80000, .f32⟩ : BufTy).Contents (Elt F)) (constant S_ .f32 0x3F800000#32))))))) fcw) ((broadcastInDim S512x6 ![0, 1] bcast_S1x6_S512x6_0_1 : (⟨S1x6, .f32⟩ : BufTy).Contents (Elt F) → (⟨S512x6, .f32⟩ : BufTy).Contents (Elt F)) ((broadcastInDim S1x6 ![1] bcast_S6_S1x6_1 : (⟨S6, .f32⟩ : BufTy).Contents (Elt F) → (⟨S1x6, .f32⟩ : BufTy).Contents (Elt F)) fcb))) ((broadcastInDim S512x6 ![0, 1] bcast_S512x1_S512x6_0_1) ((broadcastInDim S512x1 ![0] bcast_S512_S512x1_0) ((maximumf) ((broadcastInDim S512 ![] bcast_S_S512) (constant S_ .f32 0xFF800000#32)) ((fun x v => Host.reduce FloatOps.maximumf x v reducesTo_S512x6_S512_d1 h_S_) ((addf : (⟨S512x6, .f32⟩ : BufTy).Contents (Elt F) → (⟨S512x6, .f32⟩ : BufTy).Contents (Elt F) → (⟨S512x6, .f32⟩ : BufTy).Contents (Elt F)) (((fun l r => Host.dotGeneral dot_S512x64_S64x6_S512x6_1_0_0_1_n_n none l r) : (⟨S512x64, .f32⟩ : BufTy).Contents (Elt F) → (⟨S64x6, .f32⟩ : BufTy).Contents (Elt F) → (⟨S512x6, .f32⟩ : BufTy).Contents (Elt F)) ((Host.divf : (⟨S512x64, .f32⟩ : BufTy).Contents (Elt F) → (⟨S512x64, .f32⟩ : BufTy).Contents (Elt F) → (⟨S512x64, .f32⟩ : BufTy).Contents (Elt F)) (((fun x i u => Host.scatterAdd scatter_S512x64_S80000x1_S80000x64_1_0_0_1 x i u) : (⟨S512x64, .f32⟩ : BufTy).Contents (Elt F) → (⟨S80000x1, .i32⟩ : BufTy).Contents (Elt F) → (⟨S80000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) batch) h) ((broadcastInDim S512x64 ![0, 1] bcast_S512x1_S512x64_0_1 : (⟨S512x1, .f32⟩ : BufTy).Contents (Elt F) → (⟨S512x64, .f32⟩ : BufTy).Contents (Elt F)) ((broadcastInDim S512x1 ![0] bcast_S512_S512x1_0 : (⟨S512, .f32⟩ : BufTy).Contents (Elt F) → (⟨S512x1, .f32⟩ : BufTy).Contents (Elt F)) ((maximumf) ((broadcastInDim S512 ![] bcast_S_S512) (id (constant S_ .f32 0x3F800000#32))) (((fun x i u => Host.scatterAdd scatter_S512_S80000x1_S80000_n_0_0_1 x i u) : (⟨S512, .f32⟩ : BufTy).Contents (Elt F) → (⟨S80000x1, .i32⟩ : BufTy).Contents (Elt F) → (⟨S80000, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) batch) ((broadcastInDim S80000 ![] bcast_S_S80000 : (⟨S_, .f32⟩ : BufTy).Contents (Elt F) → (⟨S80000, .f32⟩ : BufTy).Contents (Elt F)) (constant S_ .f32 0x3F800000#32))))))) fcw) ((broadcastInDim S512x6 ![0, 1] bcast_S1x6_S512x6_0_1 : (⟨S1x6, .f32⟩ : BufTy).Contents (Elt F) → (⟨S512x6, .f32⟩ : BufTy).Contents (Elt F)) ((broadcastInDim S1x6 ![1] bcast_S6_S1x6_1 : (⟨S6, .f32⟩ : BufTy).Contents (Elt F) → (⟨S1x6, .f32⟩ : BufTy).Contents (Elt F)) fcb))) (constant S_ .f32 0xFF800000#32)))))) ((broadcastInDim S512x6 ![0, 1] bcast_S512x1_S512x6_0_1) ((Host.log) ((broadcastInDim S512x1 ![0] bcast_S512_S512x1_0) ((fun x v => Host.reduceAdd x v reducesTo_S512x6_S512_d1 h_S_) ((Host.exp) ((subf) ((addf : (⟨S512x6, .f32⟩ : BufTy).Contents (Elt F) → (⟨S512x6, .f32⟩ : BufTy).Contents (Elt F) → (⟨S512x6, .f32⟩ : BufTy).Contents (Elt F)) (((fun l r => Host.dotGeneral dot_S512x64_S64x6_S512x6_1_0_0_1_n_n none l r) : (⟨S512x64, .f32⟩ : BufTy).Contents (Elt F) → (⟨S64x6, .f32⟩ : BufTy).Contents (Elt F) → (⟨S512x6, .f32⟩ : BufTy).Contents (Elt F)) ((Host.divf : (⟨S512x64, .f32⟩ : BufTy).Contents (Elt F) → (⟨S512x64, .f32⟩ : BufTy).Contents (Elt F) → (⟨S512x64, .f32⟩ : BufTy).Contents (Elt F)) (((fun x i u => Host.scatterAdd scatter_S512x64_S80000x1_S80000x64_1_0_0_1 x i u) : (⟨S512x64, .f32⟩ : BufTy).Contents (Elt F) → (⟨S80000x1, .i32⟩ : BufTy).Contents (Elt F) → (⟨S80000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) batch) h) ((broadcastInDim S512x64 ![0, 1] bcast_S512x1_S512x64_0_1 : (⟨S512x1, .f32⟩ : BufTy).Contents (Elt F) → (⟨S512x64, .f32⟩ : BufTy).Contents (Elt F)) ((broadcastInDim S512x1 ![0] bcast_S512_S512x1_0 : (⟨S512, .f32⟩ : BufTy).Contents (Elt F) → (⟨S512x1, .f32⟩ : BufTy).Contents (Elt F)) ((maximumf) ((broadcastInDim S512 ![] bcast_S_S512) (id (constant S_ .f32 0x3F800000#32))) (((fun x i u => Host.scatterAdd scatter_S512_S80000x1_S80000_n_0_0_1 x i u) : (⟨S512, .f32⟩ : BufTy).Contents (Elt F) → (⟨S80000x1, .i32⟩ : BufTy).Contents (Elt F) → (⟨S80000, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) batch) ((broadcastInDim S80000 ![] bcast_S_S80000 : (⟨S_, .f32⟩ : BufTy).Contents (Elt F) → (⟨S80000, .f32⟩ : BufTy).Contents (Elt F)) (constant S_ .f32 0x3F800000#32))))))) fcw) ((broadcastInDim S512x6 ![0, 1] bcast_S1x6_S512x6_0_1 : (⟨S1x6, .f32⟩ : BufTy).Contents (Elt F) → (⟨S512x6, .f32⟩ : BufTy).Contents (Elt F)) ((broadcastInDim S1x6 ![1] bcast_S6_S1x6_1 : (⟨S6, .f32⟩ : BufTy).Contents (Elt F) → (⟨S1x6, .f32⟩ : BufTy).Contents (Elt F)) fcb))) ((broadcastInDim S512x6 ![0, 1] bcast_S512x1_S512x6_0_1) ((broadcastInDim S512x1 ![0] bcast_S512_S512x1_0) ((maximumf) ((broadcastInDim S512 ![] bcast_S_S512) (constant S_ .f32 0xFF800000#32)) ((fun x v => Host.reduce FloatOps.maximumf x v reducesTo_S512x6_S512_d1 h_S_) ((addf : (⟨S512x6, .f32⟩ : BufTy).Contents (Elt F) → (⟨S512x6, .f32⟩ : BufTy).Contents (Elt F) → (⟨S512x6, .f32⟩ : BufTy).Contents (Elt F)) (((fun l r => Host.dotGeneral dot_S512x64_S64x6_S512x6_1_0_0_1_n_n none l r) : (⟨S512x64, .f32⟩ : BufTy).Contents (Elt F) → (⟨S64x6, .f32⟩ : BufTy).Contents (Elt F) → (⟨S512x6, .f32⟩ : BufTy).Contents (Elt F)) ((Host.divf : (⟨S512x64, .f32⟩ : BufTy).Contents (Elt F) → (⟨S512x64, .f32⟩ : BufTy).Contents (Elt F) → (⟨S512x64, .f32⟩ : BufTy).Contents (Elt F)) (((fun x i u => Host.scatterAdd scatter_S512x64_S80000x1_S80000x64_1_0_0_1 x i u) : (⟨S512x64, .f32⟩ : BufTy).Contents (Elt F) → (⟨S80000x1, .i32⟩ : BufTy).Contents (Elt F) → (⟨S80000x64, .f32⟩ : BufTy).Contents (Elt F) → (⟨S512x64, .f32⟩ : BufTy).Contents (Elt F)) ((broadcastInDim S512x64 ![] bcast_S_S512x64 : (⟨S_, .f32⟩ : BufTy).Contents (Elt F) → (⟨S512x64, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) batch) h) ((broadcastInDim S512x64 ![0, 1] bcast_S512x1_S512x64_0_1 : (⟨S512x1, .f32⟩ : BufTy).Contents (Elt F) → (⟨S512x64, .f32⟩ : BufTy).Contents (Elt F)) ((broadcastInDim S512x1 ![0] bcast_S512_S512x1_0 : (⟨S512, .f32⟩ : BufTy).Contents (Elt F) → (⟨S512x1, .f32⟩ : BufTy).Contents (Elt F)) ((maximumf) ((broadcastInDim S512 ![] bcast_S_S512) (id (constant S_ .f32 0x3F800000#32))) (((fun x i u => Host.scatterAdd scatter_S512_S80000x1_S80000_n_0_0_1 x i u) : (⟨S512, .f32⟩ : BufTy).Contents (Elt F) → (⟨S80000x1, .i32⟩ : BufTy).Contents (Elt F) → (⟨S80000, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) (constant S_ .f32 0x00000000#32)) ((broadcastInDim S80000x1 ![0] bcast_S80000_S80000x1_0 : (⟨S80000, .i32⟩ : BufTy).Contents (Elt F) → (⟨S80000x1, .i32⟩ : BufTy).Contents (Elt F)) batch) ((broadcastInDim S80000 ![] bcast_S_S80000 : (⟨S_, .f32⟩ : BufTy).Contents (Elt F) → (⟨S80000, .f32⟩ : BufTy).Contents (Elt F)) (constant S_ .f32 0x3F800000#32))))))) fcw) ((broadcastInDim S512x6 ![0, 1] bcast_S1x6_S512x6_0_1 : (⟨S1x6, .f32⟩ : BufTy).Contents (Elt F) → (⟨S512x6, .f32⟩ : BufTy).Contents (Elt F)) ((broadcastInDim S1x6 ![1] bcast_S6_S1x6_1 : (⟨S6, .f32⟩ : BufTy).Contents (Elt F) → (⟨S1x6, .f32⟩ : BufTy).Contents (Elt F)) fcb))) (constant S_ .f32 0xFF800000#32))))))) (constant S_ .f32 0x00000000#32))))))

/-- The gather's index column of the edge table: the wrapped source nodes. -/
def srcIdx (ei : (⟨S2x1280000, .i32⟩ : BufTy).Contents (Elt F)) : (⟨S1280000x1, .i32⟩ : BufTy).Contents (Elt F) := wrap (row0 ei)

/-- The scatter's index column of the edge table: the destination nodes. -/
def dstIdx (ei : (⟨S2x1280000, .i32⟩ : BufTy).Contents (Elt F)) : (⟨S1280000x1, .i32⟩ : BufTy).Contents (Elt F) := col (row1 ei)

/-- The in-degree of every node. -/
def degRow (ei : (⟨S2x1280000, .i32⟩ : BufTy).Contents (Elt F)) : (⟨S80000, .f32⟩ : BufTy).Contents (Elt F) := degOf (row1 ei)

/-- Layer 1 from the inputs. -/
def layer1 (x : (⟨S80000x3, .f32⟩ : BufTy).Contents (Elt F)) (u : (⟨S1280000x1, .f32⟩ : BufTy).Contents (Elt F)) (ei : (⟨S2x1280000, .i32⟩ : BufTy).Contents (Elt F)) (W : (⟨S2x3x64, .f32⟩ : BufTy).Contents (Elt F)) (root : (⟨S3x64, .f32⟩ : BufTy).Contents (Elt F)) (b : (⟨S64, .f32⟩ : BufTy).Contents (Elt F)) : (⟨S80000x64, .f32⟩ : BufTy).Contents (Elt F) :=
  node3 (agg (msg3 (gather3 x (srcIdx ei)) u (w0of3 W) (w1of3 W)) (dstIdx ei)) (degRow ei) x root b

/-- A 64-wide layer from the previous layer's rows. -/
def layer64 (h : (⟨S80000x64, .f32⟩ : BufTy).Contents (Elt F)) (u : (⟨S1280000x1, .f32⟩ : BufTy).Contents (Elt F)) (ei : (⟨S2x1280000, .i32⟩ : BufTy).Contents (Elt F)) (W : (⟨S2x64x64, .f32⟩ : BufTy).Contents (Elt F)) (root : (⟨S64x64, .f32⟩ : BufTy).Contents (Elt F)) (b : (⟨S64, .f32⟩ : BufTy).Contents (Elt F)) : (⟨S80000x64, .f32⟩ : BufTy).Contents (Elt F) :=
  node64 (agg (msg64 (gather64 h (srcIdx ei)) u (w0of64 W) (w1of64 W)) (dstIdx ei)) (degRow ei) h root b

/-- The reference's result as one function of its eighteen arguments. -/
def result (a0 : (⟨S80000x3, .f32⟩ : BufTy).Contents (Elt F)) (a1 : (⟨S1280000x1, .f32⟩ : BufTy).Contents (Elt F)) (a2 : (⟨S2x1280000, .i32⟩ : BufTy).Contents (Elt F)) (a3 : (⟨S80000, .i32⟩ : BufTy).Contents (Elt F)) (a4 : (⟨S2x3x64, .f32⟩ : BufTy).Contents (Elt F)) (a5 : (⟨S3x64, .f32⟩ : BufTy).Contents (Elt F)) (a6 : (⟨S64, .f32⟩ : BufTy).Contents (Elt F)) (a7 : (⟨S2x64x64, .f32⟩ : BufTy).Contents (Elt F)) (a8 : (⟨S64x64, .f32⟩ : BufTy).Contents (Elt F)) (a9 : (⟨S64, .f32⟩ : BufTy).Contents (Elt F)) (a10 : (⟨S2x64x64, .f32⟩ : BufTy).Contents (Elt F)) (a11 : (⟨S64x64, .f32⟩ : BufTy).Contents (Elt F)) (a12 : (⟨S64, .f32⟩ : BufTy).Contents (Elt F)) (a13 : (⟨S2x64x64, .f32⟩ : BufTy).Contents (Elt F)) (a14 : (⟨S64x64, .f32⟩ : BufTy).Contents (Elt F)) (a15 : (⟨S64, .f32⟩ : BufTy).Contents (Elt F)) (a16 : (⟨S64x6, .f32⟩ : BufTy).Contents (Elt F)) (a17 : (⟨S6, .f32⟩ : BufTy).Contents (Elt F)) :
    (⟨S512x6, .f32⟩ : BufTy).Contents (Elt F) :=
  head (layer64 (layer64 (layer64 (layer1 a0 a1 a2 a4 a5 a6) a1 a2 a7 a8 a9) a1 a2 a10 a11 a12) a1 a2 a13 a14 a15) a3 a16 a17

end G

/-! The same at the exact extended reals. -/

/-- Row 0 of the edge table as a vector (the slice of row 0, reshaped): the source node of each edge. -/
def row0 (ei : (⟨S2x1280000, .i32⟩ : BufTy).Contents (Elt Ideal)) :
    (⟨S1280000, .i32⟩ : BufTy).Contents (Elt Ideal) :=
  G.row0 (F := Ideal) ei

/-- Row 1 of the edge table as a vector: the destination node of each edge. -/
def row1 (ei : (⟨S2x1280000, .i32⟩ : BufTy).Contents (Elt Ideal)) :
    (⟨S1280000, .i32⟩ : BufTy).Contents (Elt Ideal) :=
  G.row1 (F := Ideal) ei

/-- The gather's index column: a negative index has 80000 added (the wrap of a negative index), then the vector is read as a column. -/
def wrap (s : (⟨S1280000, .i32⟩ : BufTy).Contents (Elt Ideal)) :
    (⟨S1280000x1, .i32⟩ : BufTy).Contents (Elt Ideal) :=
  G.wrap (F := Ideal) s

/-- A vector of indices read as a one-column matrix. -/
def col (s : (⟨S1280000, .i32⟩ : BufTy).Contents (Elt Ideal)) :
    (⟨S1280000x1, .i32⟩ : BufTy).Contents (Elt Ideal) :=
  G.col (F := Ideal) s

/-- The degree vector: ones added into zeros at the destination indices. -/
def degOf (s : (⟨S1280000, .i32⟩ : BufTy).Contents (Elt Ideal)) :
    (⟨S80000, .f32⟩ : BufTy).Contents (Elt Ideal) :=
  G.degOf (F := Ideal) s

/-- The rows of `x` at the index column. -/
def gather3 (x : (⟨S80000x3, .f32⟩ : BufTy).Contents (Elt Ideal)) (idx : (⟨S1280000x1, .i32⟩ : BufTy).Contents (Elt Ideal)) :
    (⟨S1280000x3, .f32⟩ : BufTy).Contents (Elt Ideal) :=
  G.gather3 (F := Ideal) x idx

/-- Slab 0 of the layer-1 spline weights. -/
def w0of3 (W : (⟨S2x3x64, .f32⟩ : BufTy).Contents (Elt Ideal)) :
    (⟨S3x64, .f32⟩ : BufTy).Contents (Elt Ideal) :=
  G.w0of3 (F := Ideal) W

/-- Slab 1 of the layer-1 spline weights. -/
def w1of3 (W : (⟨S2x3x64, .f32⟩ : BufTy).Contents (Elt Ideal)) :
    (⟨S3x64, .f32⟩ : BufTy).Contents (Elt Ideal) :=
  G.w1of3 (F := Ideal) W

/-- The layer-1 messages: (xj·w0)·(1−u) + (xj·w1)·u. -/
def msg3 (xj : (⟨S1280000x3, .f32⟩ : BufTy).Contents (Elt Ideal)) (u : (⟨S1280000x1, .f32⟩ : BufTy).Contents (Elt Ideal)) (w0 : (⟨S3x64, .f32⟩ : BufTy).Contents (Elt Ideal)) (w1 : (⟨S3x64, .f32⟩ : BufTy).Contents (Elt Ideal)) :
    (⟨S1280000x64, .f32⟩ : BufTy).Contents (Elt Ideal) :=
  G.msg3 (F := Ideal) xj u w0 w1

/-- The messages added into zeros at the destination indices. -/
def agg (msg : (⟨S1280000x64, .f32⟩ : BufTy).Contents (Elt Ideal)) (idx : (⟨S1280000x1, .i32⟩ : BufTy).Contents (Elt Ideal)) :
    (⟨S80000x64, .f32⟩ : BufTy).Contents (Elt Ideal) :=
  G.agg (F := Ideal) msg idx

/-- The layer-1 node update: ELU of a / max(1, d) + x·root + b. -/
def node3 (a : (⟨S80000x64, .f32⟩ : BufTy).Contents (Elt Ideal)) (d : (⟨S80000, .f32⟩ : BufTy).Contents (Elt Ideal)) (x : (⟨S80000x3, .f32⟩ : BufTy).Contents (Elt Ideal)) (root : (⟨S3x64, .f32⟩ : BufTy).Contents (Elt Ideal)) (b : (⟨S64, .f32⟩ : BufTy).Contents (Elt Ideal)) :
    (⟨S80000x64, .f32⟩ : BufTy).Contents (Elt Ideal) :=
  G.node3 (F := Ideal) a d x root b

/-- The rows of `h` at the index column. -/
def gather64 (h : (⟨S80000x64, .f32⟩ : BufTy).Contents (Elt Ideal)) (idx : (⟨S1280000x1, .i32⟩ : BufTy).Contents (Elt Ideal)) :
    (⟨S1280000x64, .f32⟩ : BufTy).Contents (Elt Ideal) :=
  G.gather64 (F := Ideal) h idx

/-- Slab 0 of a 64-wide layer's spline weights. -/
def w0of64 (W : (⟨S2x64x64, .f32⟩ : BufTy).Contents (Elt Ideal)) :
    (⟨S64x64, .f32⟩ : BufTy).Contents (Elt Ideal) :=
  G.w0of64 (F := Ideal) W

/-- Slab 1 of a 64-wide layer's spline weights. -/
def w1of64 (W : (⟨S2x64x64, .f32⟩ : BufTy).Contents (Elt Ideal)) :
    (⟨S64x64, .f32⟩ : BufTy).Contents (Elt Ideal) :=
  G.w1of64 (F := Ideal) W

/-- A 64-wide layer's messages: (xj·w0)·(1−u) + (xj·w1)·u. -/
def msg64 (xj : (⟨S1280000x64, .f32⟩ : BufTy).Contents (Elt Ideal)) (u : (⟨S1280000x1, .f32⟩ : BufTy).Contents (Elt Ideal)) (w0 : (⟨S64x64, .f32⟩ : BufTy).Contents (Elt Ideal)) (w1 : (⟨S64x64, .f32⟩ : BufTy).Contents (Elt Ideal)) :
    (⟨S1280000x64, .f32⟩ : BufTy).Contents (Elt Ideal) :=
  G.msg64 (F := Ideal) xj u w0 w1

/-- A 64-wide layer's node update: ELU of a / max(1, d) + x·root + b. -/
def node64 (a : (⟨S80000x64, .f32⟩ : BufTy).Contents (Elt Ideal)) (d : (⟨S80000, .f32⟩ : BufTy).Contents (Elt Ideal)) (x : (⟨S80000x64, .f32⟩ : BufTy).Contents (Elt Ideal)) (root : (⟨S64x64, .f32⟩ : BufTy).Contents (Elt Ideal)) (b : (⟨S64, .f32⟩ : BufTy).Contents (Elt Ideal)) :
    (⟨S80000x64, .f32⟩ : BufTy).Contents (Elt Ideal) :=
  G.node64 (F := Ideal) a d x root b

/-- The pooling head: per-graph mean of the node rows, the final linear map, log-softmax along the classes. -/
def head (h : (⟨S80000x64, .f32⟩ : BufTy).Contents (Elt Ideal)) (batch : (⟨S80000, .i32⟩ : BufTy).Contents (Elt Ideal)) (fcw : (⟨S64x6, .f32⟩ : BufTy).Contents (Elt Ideal)) (fcb : (⟨S6, .f32⟩ : BufTy).Contents (Elt Ideal)) :
    (⟨S512x6, .f32⟩ : BufTy).Contents (Elt Ideal) :=
  G.head (F := Ideal) h batch fcw fcb

/-- The gather's index column of the edge table: the wrapped source nodes. -/
def srcIdx (ei : (⟨S2x1280000, .i32⟩ : BufTy).Contents (Elt Ideal)) :
    (⟨S1280000x1, .i32⟩ : BufTy).Contents (Elt Ideal) :=
  G.srcIdx (F := Ideal) ei

/-- The scatter's index column of the edge table: the destination nodes. -/
def dstIdx (ei : (⟨S2x1280000, .i32⟩ : BufTy).Contents (Elt Ideal)) :
    (⟨S1280000x1, .i32⟩ : BufTy).Contents (Elt Ideal) :=
  G.dstIdx (F := Ideal) ei

/-- The in-degree of every node. -/
def degRow (ei : (⟨S2x1280000, .i32⟩ : BufTy).Contents (Elt Ideal)) :
    (⟨S80000, .f32⟩ : BufTy).Contents (Elt Ideal) :=
  G.degRow (F := Ideal) ei

/-- Layer 1 from the inputs. -/
def layer1 (x : (⟨S80000x3, .f32⟩ : BufTy).Contents (Elt Ideal)) (u : (⟨S1280000x1, .f32⟩ : BufTy).Contents (Elt Ideal)) (ei : (⟨S2x1280000, .i32⟩ : BufTy).Contents (Elt Ideal)) (W : (⟨S2x3x64, .f32⟩ : BufTy).Contents (Elt Ideal)) (root : (⟨S3x64, .f32⟩ : BufTy).Contents (Elt Ideal)) (b : (⟨S64, .f32⟩ : BufTy).Contents (Elt Ideal)) : (⟨S80000x64, .f32⟩ : BufTy).Contents (Elt Ideal) :=
  node3 (agg (msg3 (gather3 x (srcIdx ei)) u (w0of3 W) (w1of3 W)) (dstIdx ei)) (degRow ei) x root b

/-- A 64-wide layer from the previous layer's rows. -/
def layer64 (h : (⟨S80000x64, .f32⟩ : BufTy).Contents (Elt Ideal)) (u : (⟨S1280000x1, .f32⟩ : BufTy).Contents (Elt Ideal)) (ei : (⟨S2x1280000, .i32⟩ : BufTy).Contents (Elt Ideal)) (W : (⟨S2x64x64, .f32⟩ : BufTy).Contents (Elt Ideal)) (root : (⟨S64x64, .f32⟩ : BufTy).Contents (Elt Ideal)) (b : (⟨S64, .f32⟩ : BufTy).Contents (Elt Ideal)) : (⟨S80000x64, .f32⟩ : BufTy).Contents (Elt Ideal) :=
  node64 (agg (msg64 (gather64 h (srcIdx ei)) u (w0of64 W) (w1of64 W)) (dstIdx ei)) (degRow ei) h root b

/-- The reference's result as one function of its eighteen arguments. -/
def result (a0 : (⟨S80000x3, .f32⟩ : BufTy).Contents (Elt Ideal)) (a1 : (⟨S1280000x1, .f32⟩ : BufTy).Contents (Elt Ideal)) (a2 : (⟨S2x1280000, .i32⟩ : BufTy).Contents (Elt Ideal)) (a3 : (⟨S80000, .i32⟩ : BufTy).Contents (Elt Ideal)) (a4 : (⟨S2x3x64, .f32⟩ : BufTy).Contents (Elt Ideal)) (a5 : (⟨S3x64, .f32⟩ : BufTy).Contents (Elt Ideal)) (a6 : (⟨S64, .f32⟩ : BufTy).Contents (Elt Ideal)) (a7 : (⟨S2x64x64, .f32⟩ : BufTy).Contents (Elt Ideal)) (a8 : (⟨S64x64, .f32⟩ : BufTy).Contents (Elt Ideal)) (a9 : (⟨S64, .f32⟩ : BufTy).Contents (Elt Ideal)) (a10 : (⟨S2x64x64, .f32⟩ : BufTy).Contents (Elt Ideal)) (a11 : (⟨S64x64, .f32⟩ : BufTy).Contents (Elt Ideal)) (a12 : (⟨S64, .f32⟩ : BufTy).Contents (Elt Ideal)) (a13 : (⟨S2x64x64, .f32⟩ : BufTy).Contents (Elt Ideal)) (a14 : (⟨S64x64, .f32⟩ : BufTy).Contents (Elt Ideal)) (a15 : (⟨S64, .f32⟩ : BufTy).Contents (Elt Ideal)) (a16 : (⟨S64x6, .f32⟩ : BufTy).Contents (Elt Ideal)) (a17 : (⟨S6, .f32⟩ : BufTy).Contents (Elt Ideal)) :
    (⟨S512x6, .f32⟩ : BufTy).Contents (Elt Ideal) :=
  head (layer64 (layer64 (layer64 (layer1 a0 a1 a2 a4 a5 a6) a1 a2 a7 a8 a9) a1 a2 a10 a11 a12) a1 a2 a13 a14 a15) a3 a16 a17

/-- The two spellings of the result agree: the pieces at the extended reals are the general pieces there. -/
theorem result_eq_G (a0 : (⟨S80000x3, .f32⟩ : BufTy).Contents (Elt Ideal)) (a1 : (⟨S1280000x1, .f32⟩ : BufTy).Contents (Elt Ideal)) (a2 : (⟨S2x1280000, .i32⟩ : BufTy).Contents (Elt Ideal)) (a3 : (⟨S80000, .i32⟩ : BufTy).Contents (Elt Ideal)) (a4 : (⟨S2x3x64, .f32⟩ : BufTy).Contents (Elt Ideal)) (a5 : (⟨S3x64, .f32⟩ : BufTy).Contents (Elt Ideal)) (a6 : (⟨S64, .f32⟩ : BufTy).Contents (Elt Ideal)) (a7 : (⟨S2x64x64, .f32⟩ : BufTy).Contents (Elt Ideal)) (a8 : (⟨S64x64, .f32⟩ : BufTy).Contents (Elt Ideal)) (a9 : (⟨S64, .f32⟩ : BufTy).Contents (Elt Ideal)) (a10 : (⟨S2x64x64, .f32⟩ : BufTy).Contents (Elt Ideal)) (a11 : (⟨S64x64, .f32⟩ : BufTy).Contents (Elt Ideal)) (a12 : (⟨S64, .f32⟩ : BufTy).Contents (Elt Ideal)) (a13 : (⟨S2x64x64, .f32⟩ : BufTy).Contents (Elt Ideal)) (a14 : (⟨S64x64, .f32⟩ : BufTy).Contents (Elt Ideal)) (a15 : (⟨S64, .f32⟩ : BufTy).Contents (Elt Ideal)) (a16 : (⟨S64x6, .f32⟩ : BufTy).Contents (Elt Ideal)) (a17 : (⟨S6, .f32⟩ : BufTy).Contents (Elt Ideal)) :
    result a0 a1 a2 a3 a4 a5 a6 a7 a8 a9 a10 a11 a12 a13 a14 a15 a16 a17 = G.result (F := Ideal) a0 a1 a2 a3 a4 a5 a6 a7 a8 a9 a10 a11 a12 a13 a14 a15 a16 a17 := rfl

end Cert.ReferenceIdeal.RefSpec

end
-- ==== Proof.RefVal1.lean ====
/- Layer 1's stretch of the operation list: what it leaves at the layer's output and at the two index rows, and that it leaves the arguments alone. -/
import proofs.«170515_j51196010168472_1_alg».proof.Proof.RefOps
import proofs.«170515_j51196010168472_1_alg».proof.Proof.RefSpec

noncomputable section

namespace Cert.ReferenceIdeal.RefRun

open Idealize.ShloMosaic Idealize.ShloMosaic.TcCoe Idealize.SL.Sem Cert.ReferenceIdeal Cert.ReferenceIdeal.RefOps Cert.ReferenceIdeal.RefSpec Idealize.ShloMosaic.StableHlo

variable [Facts]
open Facts₀ Facts

variable {F : FTy → Type} [FloatOps F]

set_option maxRecDepth 16384 in
set_option maxHeartbeats 4000000 in
theorem L1_v40 (W : Valuation τ sig (Elt F)) :
    after Q0 W (main_v40 : DevRef τ sig) = G.layer1 (W (main_arg0 : DevRef τ sig)) (W (main_arg1 : DevRef τ sig)) (W (main_arg2 : DevRef τ sig)) (W (main_arg4 : DevRef τ sig)) (W (main_arg5 : DevRef τ sig)) (W (main_arg6 : DevRef τ sig)) := by
  simp only [Q0, List.cons_append, List.nil_append]
  after_results_simp
  rfl

set_option maxRecDepth 16384 in
set_option maxHeartbeats 4000000 in
theorem L1_v1 (W : Valuation τ sig (Elt F)) :
    after Q0 W (main_v1 : DevRef τ sig) = G.row0 (W (main_arg2 : DevRef τ sig)) := by
  simp only [Q0, List.cons_append, List.nil_append]
  after_results_simp
  rfl

set_option maxRecDepth 16384 in
set_option maxHeartbeats 4000000 in
theorem L1_v3 (W : Valuation τ sig (Elt F)) :
    after Q0 W (main_v3 : DevRef τ sig) = G.row1 (W (main_arg2 : DevRef τ sig)) := by
  simp only [Q0, List.cons_append, List.nil_append]
  after_results_simp
  rfl

set_option maxRecDepth 16384 in
theorem L1_arg0 (W : Valuation τ sig (Elt F)) :
    after Q0 W (main_arg0 : DevRef τ sig) = W (main_arg0 : DevRef τ sig) := by
  simp only [Q0, List.cons_append, List.nil_append]
  after_results_simp

set_option maxRecDepth 16384 in
theorem L1_arg1 (W : Valuation τ sig (Elt F)) :
    after Q0 W (main_arg1 : DevRef τ sig) = W (main_arg1 : DevRef τ sig) := by
  simp only [Q0, List.cons_append, List.nil_append]
  after_results_simp

set_option maxRecDepth 16384 in
theorem L1_arg2 (W : Valuation τ sig (Elt F)) :
    after Q0 W (main_arg2 : DevRef τ sig) = W (main_arg2 : DevRef τ sig) := by
  simp only [Q0, List.cons_append, List.nil_append]
  after_results_simp

set_option maxRecDepth 16384 in
theorem L1_arg3 (W : Valuation τ sig (Elt F)) :
    after Q0 W (main_arg3 : DevRef τ sig) = W (main_arg3 : DevRef τ sig) := by
  simp only [Q0, List.cons_append, List.nil_append]
  after_results_simp

set_option maxRecDepth 16384 in
theorem L1_arg4 (W : Valuation τ sig (Elt F)) :
    after Q0 W (main_arg4 : DevRef τ sig) = W (main_arg4 : DevRef τ sig) := by
  simp only [Q0, List.cons_append, List.nil_append]
  after_results_simp

set_option maxRecDepth 16384 in
theorem L1_arg5 (W : Valuation τ sig (Elt F)) :
    after Q0 W (main_arg5 : DevRef τ sig) = W (main_arg5 : DevRef τ sig) := by
  simp only [Q0, List.cons_append, List.nil_append]
  after_results_simp

set_option maxRecDepth 16384 in
theorem L1_arg6 (W : Valuation τ sig (Elt F)) :
    after Q0 W (main_arg6 : DevRef τ sig) = W (main_arg6 : DevRef τ sig) := by
  simp only [Q0, List.cons_append, List.nil_append]
  after_results_simp

set_option maxRecDepth 16384 in
theorem L1_arg7 (W : Valuation τ sig (Elt F)) :
    after Q0 W (main_arg7 : DevRef τ sig) = W (main_arg7 : DevRef τ sig) := by
  simp only [Q0, List.cons_append, List.nil_append]
  after_results_simp

set_option maxRecDepth 16384 in
theorem L1_arg8 (W : Valuation τ sig (Elt F)) :
    after Q0 W (main_arg8 : DevRef τ sig) = W (main_arg8 : DevRef τ sig) := by
  simp only [Q0, List.cons_append, List.nil_append]
  after_results_simp

set_option maxRecDepth 16384 in
theorem L1_arg9 (W : Valuation τ sig (Elt F)) :
    after Q0 W (main_arg9 : DevRef τ sig) = W (main_arg9 : DevRef τ sig) := by
  simp only [Q0, List.cons_append, List.nil_append]
  after_results_simp

set_option maxRecDepth 16384 in
theorem L1_arg10 (W : Valuation τ sig (Elt F)) :
    after Q0 W (main_arg10 : DevRef τ sig) = W (main_arg10 : DevRef τ sig) := by
  simp only [Q0, List.cons_append, List.nil_append]
  after_results_simp

set_option maxRecDepth 16384 in
theorem L1_arg11 (W : Valuation τ sig (Elt F)) :
    after Q0 W (main_arg11 : DevRef τ sig) = W (main_arg11 : DevRef τ sig) := by
  simp only [Q0, List.cons_append, List.nil_append]
  after_results_simp

set_option maxRecDepth 16384 in
theorem L1_arg12 (W : Valuation τ sig (Elt F)) :
    after Q0 W (main_arg12 : DevRef τ sig) = W (main_arg12 : DevRef τ sig) := by
  simp only [Q0, List.cons_append, List.nil_append]
  after_results_simp

set_option maxRecDepth 16384 in
theorem L1_arg13 (W : Valuation τ sig (Elt F)) :
    after Q0 W (main_arg13 : DevRef τ sig) = W (main_arg13 : DevRef τ sig) := by
  simp only [Q0, List.cons_append, List.nil_append]
  after_results_simp

set_option maxRecDepth 16384 in
theorem L1_arg14 (W : Valuation τ sig (Elt F)) :
    after Q0 W (main_arg14 : DevRef τ sig) = W (main_arg14 : DevRef τ sig) := by
  simp only [Q0, List.cons_append, List.nil_append]
  after_results_simp

set_option maxRecDepth 16384 in
theorem L1_arg15 (W : Valuation τ sig (Elt F)) :
    after Q0 W (main_arg15 : DevRef τ sig) = W (main_arg15 : DevRef τ sig) := by
  simp only [Q0, List.cons_append, List.nil_append]
  after_results_simp

set_option maxRecDepth 16384 in
theorem L1_arg16 (W : Valuation τ sig (Elt F)) :
    after Q0 W (main_arg16 : DevRef τ sig) = W (main_arg16 : DevRef τ sig) := by
  simp only [Q0, List.cons_append, List.nil_append]
  after_results_simp

set_option maxRecDepth 16384 in
theorem L1_arg17 (W : Valuation τ sig (Elt F)) :
    after Q0 W (main_arg17 : DevRef τ sig) = W (main_arg17 : DevRef τ sig) := by
  simp only [Q0, List.cons_append, List.nil_append]
  after_results_simp

end Cert.ReferenceIdeal.RefRun

end
-- ==== Proof.RefVal2.lean ====
/- Layer 2's stretch of the operation list: what it leaves at the layer's output, and that it leaves the arguments and the two index rows alone. -/
import proofs.«170515_j51196010168472_1_alg».proof.Proof.RefOps
import proofs.«170515_j51196010168472_1_alg».proof.Proof.RefSpec

noncomputable section

namespace Cert.ReferenceIdeal.RefRun

open Idealize.ShloMosaic Idealize.ShloMosaic.TcCoe Idealize.SL.Sem Cert.ReferenceIdeal Cert.ReferenceIdeal.RefOps Cert.ReferenceIdeal.RefSpec Idealize.ShloMosaic.StableHlo

variable [Facts]
open Facts₀ Facts

variable {F : FTy → Type} [FloatOps F]

set_option maxRecDepth 16384 in
set_option maxHeartbeats 4000000 in
theorem L2_v77 (W : Valuation τ sig (Elt F)) :
    after (Q1 ++ Q2) W (main_v77 : DevRef τ sig) = G.node64 (G.agg (G.msg64 (G.gather64 (W (main_v40 : DevRef τ sig)) (G.wrap (W (main_v1 : DevRef τ sig)))) (W (main_arg1 : DevRef τ sig)) (G.w0of64 (W (main_arg7 : DevRef τ sig))) (G.w1of64 (W (main_arg7 : DevRef τ sig)))) (G.col (W (main_v3 : DevRef τ sig)))) (G.degOf (W (main_v3 : DevRef τ sig))) (W (main_v40 : DevRef τ sig)) (W (main_arg8 : DevRef τ sig)) (W (main_arg9 : DevRef τ sig)) := by
  simp only [Q1, Q2, List.cons_append, List.nil_append]
  after_results_simp
  rfl

set_option maxRecDepth 16384 in
theorem L2_arg0 (W : Valuation τ sig (Elt F)) :
    after (Q1 ++ Q2) W (main_arg0 : DevRef τ sig) = W (main_arg0 : DevRef τ sig) := by
  simp only [Q1, Q2, List.cons_append, List.nil_append]
  after_results_simp

set_option maxRecDepth 16384 in
theorem L2_arg1 (W : Valuation τ sig (Elt F)) :
    after (Q1 ++ Q2) W (main_arg1 : DevRef τ sig) = W (main_arg1 : DevRef τ sig) := by
  simp only [Q1, Q2, List.cons_append, List.nil_append]
  after_results_simp

set_option maxRecDepth 16384 in
theorem L2_arg2 (W : Valuation τ sig (Elt F)) :
    after (Q1 ++ Q2) W (main_arg2 : DevRef τ sig) = W (main_arg2 : DevRef τ sig) := by
  simp only [Q1, Q2, List.cons_append, List.nil_append]
  after_results_simp

set_option maxRecDepth 16384 in
theorem L2_arg3 (W : Valuation τ sig (Elt F)) :
    after (Q1 ++ Q2) W (main_arg3 : DevRef τ sig) = W (main_arg3 : DevRef τ sig) := by
  simp only [Q1, Q2, List.cons_append, List.nil_append]
  after_results_simp

set_option maxRecDepth 16384 in
theorem L2_arg4 (W : Valuation τ sig (Elt F)) :
    after (Q1 ++ Q2) W (main_arg4 : DevRef τ sig) = W (main_arg4 : DevRef τ sig) := by
  simp only [Q1, Q2, List.cons_append, List.nil_append]
  after_results_simp

set_option maxRecDepth 16384 in
theorem L2_arg5 (W : Valuation τ sig (Elt F)) :
    after (Q1 ++ Q2) W (main_arg5 : DevRef τ sig) = W (main_arg5 : DevRef τ sig) := by
  simp only [Q1, Q2, List.cons_append, List.nil_append]
  after_results_simp

set_option maxRecDepth 16384 in
theorem L2_arg6 (W : Valuation τ sig (Elt F)) :
    after (Q1 ++ Q2) W (main_arg6 : DevRef τ sig) = W (main_arg6 : DevRef τ sig) := by
  simp only [Q1, Q2, List.cons_append, List.nil_append]
  after_results_simp

set_option maxRecDepth 16384 in
theorem L2_arg7 (W : Valuation τ sig (Elt F)) :
    after (Q1 ++ Q2) W (main_arg7 : DevRef τ sig) = W (main_arg7 : DevRef τ sig) := by
  simp only [Q1, Q2, List.cons_append, List.nil_append]
  after_results_simp

set_option maxRecDepth 16384 in
theorem L2_arg8 (W : Valuation τ sig (Elt F)) :
    after (Q1 ++ Q2) W (main_arg8 : DevRef τ sig) = W (main_arg8 : DevRef τ sig) := by
  simp only [Q1, Q2, List.cons_append, List.nil_append]
  after_results_simp

set_option maxRecDepth 16384 in
theorem L2_arg9 (W : Valuation τ sig (Elt F)) :
    after (Q1 ++ Q2) W (main_arg9 : DevRef τ sig) = W (main_arg9 : DevRef τ sig) := by
  simp only [Q1, Q2, List.cons_append, List.nil_append]
  after_results_simp

set_option maxRecDepth 16384 in
theorem L2_arg10 (W : Valuation τ sig (Elt F)) :
    after (Q1 ++ Q2) W (main_arg10 : DevRef τ sig) = W (main_arg10 : DevRef τ sig) := by
  simp only [Q1, Q2, List.cons_append, List.nil_append]
  after_results_simp

set_option maxRecDepth 16384 in
theorem L2_arg11 (W : Valuation τ sig (Elt F)) :
    after (Q1 ++ Q2) W (main_arg11 : DevRef τ sig) = W (main_arg11 : DevRef τ sig) := by
  simp only [Q1, Q2, List.cons_append, List.nil_append]
  after_results_simp

set_option maxRecDepth 16384 in
theorem L2_arg12 (W : Valuation τ sig (Elt F)) :
    after (Q1 ++ Q2) W (main_arg12 : DevRef τ sig) = W (main_arg12 : DevRef τ sig) := by
  simp only [Q1, Q2, List.cons_append, List.nil_append]
  after_results_simp

set_option maxRecDepth 16384 in
theorem L2_arg13 (W : Valuation τ sig (Elt F)) :
    after (Q1 ++ Q2) W (main_arg13 : DevRef τ sig) = W (main_arg13 : DevRef τ sig) := by
  simp only [Q1, Q2, List.cons_append, List.nil_append]
  after_results_simp

set_option maxRecDepth 16384 in
theorem L2_arg14 (W : Valuation τ sig (Elt F)) :
    after (Q1 ++ Q2) W (main_arg14 : DevRef τ sig) = W (main_arg14 : DevRef τ sig) := by
  simp only [Q1, Q2, List.cons_append, List.nil_append]
  after_results_simp

set_option maxRecDepth 16384 in
theorem L2_arg15 (W : Valuation τ sig (Elt F)) :
    after (Q1 ++ Q2) W (main_arg15 : DevRef τ sig) = W (main_arg15 : DevRef τ sig) := by
  simp only [Q1, Q2, List.cons_append, List.nil_append]
  after_results_simp

set_option maxRecDepth 16384 in
theorem L2_arg16 (W : Valuation τ sig (Elt F)) :
    after (Q1 ++ Q2) W (main_arg16 : DevRef τ sig) = W (main_arg16 : DevRef τ sig) := by
  simp only [Q1, Q2, List.cons_append, List.nil_append]
  after_results_simp

set_option maxRecDepth 16384 in
theorem L2_arg17 (W : Valuation τ sig (Elt F)) :
    after (Q1 ++ Q2) W (main_arg17 : DevRef τ sig) = W (main_arg17 : DevRef τ sig) := by
  simp only [Q1, Q2, List.cons_append, List.nil_append]
  after_results_simp

set_option maxRecDepth 16384 in
theorem L2_v1 (W : Valuation τ sig (Elt F)) :
    after (Q1 ++ Q2) W (main_v1 : DevRef τ sig) = W (main_v1 : DevRef τ sig) := by
  simp only [Q1, Q2, List.cons_append, List.nil_append]
  after_results_simp

set_option maxRecDepth 16384 in
theorem L2_v3 (W : Valuation τ sig (Elt F)) :
    after (Q1 ++ Q2) W (main_v3 : DevRef τ sig) = W (main_v3 : DevRef τ sig) := by
  simp only [Q1, Q2, List.cons_append, List.nil_append]
  after_results_simp

end Cert.ReferenceIdeal.RefRun

end
-- ==== Proof.RefVal3.lean ====
/- Layer 3's stretch of the operation list: what it leaves at the layer's output, and that it leaves the arguments and the two index rows alone. -/
import proofs.«170515_j51196010168472_1_alg».proof.Proof.RefOps
import proofs.«170515_j51196010168472_1_alg».proof.Proof.RefSpec

noncomputable section

namespace Cert.ReferenceIdeal.RefRun

open Idealize.ShloMosaic Idealize.ShloMosaic.TcCoe Idealize.SL.Sem Cert.ReferenceIdeal Cert.ReferenceIdeal.RefOps Cert.ReferenceIdeal.RefSpec Idealize.ShloMosaic.StableHlo

variable [Facts]
open Facts₀ Facts

variable {F : FTy → Type} [FloatOps F]

set_option maxRecDepth 16384 in
set_option maxHeartbeats 4000000 in
theorem L3_v114 (W : Valuation τ sig (Elt F)) :
    after (Q3 ++ Q4) W (main_v114 : DevRef τ sig) = G.node64 (G.agg (G.msg64 (G.gather64 (W (main_v77 : DevRef τ sig)) (G.wrap (W (main_v1 : DevRef τ sig)))) (W (main_arg1 : DevRef τ sig)) (G.w0of64 (W (main_arg10 : DevRef τ sig))) (G.w1of64 (W (main_arg10 : DevRef τ sig)))) (G.col (W (main_v3 : DevRef τ sig)))) (G.degOf (W (main_v3 : DevRef τ sig))) (W (main_v77 : DevRef τ sig)) (W (main_arg11 : DevRef τ sig)) (W (main_arg12 : DevRef τ sig)) := by
  simp only [Q3, Q4, List.cons_append, List.nil_append]
  after_results_simp
  rfl

set_option maxRecDepth 16384 in
theorem L3_arg0 (W : Valuation τ sig (Elt F)) :
    after (Q3 ++ Q4) W (main_arg0 : DevRef τ sig) = W (main_arg0 : DevRef τ sig) := by
  simp only [Q3, Q4, List.cons_append, List.nil_append]
  after_results_simp

set_option maxRecDepth 16384 in
theorem L3_arg1 (W : Valuation τ sig (Elt F)) :
    after (Q3 ++ Q4) W (main_arg1 : DevRef τ sig) = W (main_arg1 : DevRef τ sig) := by
  simp only [Q3, Q4, List.cons_append, List.nil_append]
  after_results_simp

set_option maxRecDepth 16384 in
theorem L3_arg2 (W : Valuation τ sig (Elt F)) :
    after (Q3 ++ Q4) W (main_arg2 : DevRef τ sig) = W (main_arg2 : DevRef τ sig) := by
  simp only [Q3, Q4, List.cons_append, List.nil_append]
  after_results_simp

set_option maxRecDepth 16384 in
theorem L3_arg3 (W : Valuation τ sig (Elt F)) :
    after (Q3 ++ Q4) W (main_arg3 : DevRef τ sig) = W (main_arg3 : DevRef τ sig) := by
  simp only [Q3, Q4, List.cons_append, List.nil_append]
  after_results_simp

set_option maxRecDepth 16384 in
theorem L3_arg4 (W : Valuation τ sig (Elt F)) :
    after (Q3 ++ Q4) W (main_arg4 : DevRef τ sig) = W (main_arg4 : DevRef τ sig) := by
  simp only [Q3, Q4, List.cons_append, List.nil_append]
  after_results_simp

set_option maxRecDepth 16384 in
theorem L3_arg5 (W : Valuation τ sig (Elt F)) :
    after (Q3 ++ Q4) W (main_arg5 : DevRef τ sig) = W (main_arg5 : DevRef τ sig) := by
  simp only [Q3, Q4, List.cons_append, List.nil_append]
  after_results_simp

set_option maxRecDepth 16384 in
theorem L3_arg6 (W : Valuation τ sig (Elt F)) :
    after (Q3 ++ Q4) W (main_arg6 : DevRef τ sig) = W (main_arg6 : DevRef τ sig) := by
  simp only [Q3, Q4, List.cons_append, List.nil_append]
  after_results_simp

set_option maxRecDepth 16384 in
theorem L3_arg7 (W : Valuation τ sig (Elt F)) :
    after (Q3 ++ Q4) W (main_arg7 : DevRef τ sig) = W (main_arg7 : DevRef τ sig) := by
  simp only [Q3, Q4, List.cons_append, List.nil_append]
  after_results_simp

set_option maxRecDepth 16384 in
theorem L3_arg8 (W : Valuation τ sig (Elt F)) :
    after (Q3 ++ Q4) W (main_arg8 : DevRef τ sig) = W (main_arg8 : DevRef τ sig) := by
  simp only [Q3, Q4, List.cons_append, List.nil_append]
  after_results_simp

set_option maxRecDepth 16384 in
theorem L3_arg9 (W : Valuation τ sig (Elt F)) :
    after (Q3 ++ Q4) W (main_arg9 : DevRef τ sig) = W (main_arg9 : DevRef τ sig) := by
  simp only [Q3, Q4, List.cons_append, List.nil_append]
  after_results_simp

set_option maxRecDepth 16384 in
theorem L3_arg10 (W : Valuation τ sig (Elt F)) :
    after (Q3 ++ Q4) W (main_arg10 : DevRef τ sig) = W (main_arg10 : DevRef τ sig) := by
  simp only [Q3, Q4, List.cons_append, List.nil_append]
  after_results_simp

set_option maxRecDepth 16384 in
theorem L3_arg11 (W : Valuation τ sig (Elt F)) :
    after (Q3 ++ Q4) W (main_arg11 : DevRef τ sig) = W (main_arg11 : DevRef τ sig) := by
  simp only [Q3, Q4, List.cons_append, List.nil_append]
  after_results_simp

set_option maxRecDepth 16384 in
theorem L3_arg12 (W : Valuation τ sig (Elt F)) :
    after (Q3 ++ Q4) W (main_arg12 : DevRef τ sig) = W (main_arg12 : DevRef τ sig) := by
  simp only [Q3, Q4, List.cons_append, List.nil_append]
  after_results_simp

set_option maxRecDepth 16384 in
theorem L3_arg13 (W : Valuation τ sig (Elt F)) :
    after (Q3 ++ Q4) W (main_arg13 : DevRef τ sig) = W (main_arg13 : DevRef τ sig) := by
  simp only [Q3, Q4, List.cons_append, List.nil_append]
  after_results_simp

set_option maxRecDepth 16384 in
theorem L3_arg14 (W : Valuation τ sig (Elt F)) :
    after (Q3 ++ Q4) W (main_arg14 : DevRef τ sig) = W (main_arg14 : DevRef τ sig) := by
  simp only [Q3, Q4, List.cons_append, List.nil_append]
  after_results_simp

set_option maxRecDepth 16384 in
theorem L3_arg15 (W : Valuation τ sig (Elt F)) :
    after (Q3 ++ Q4) W (main_arg15 : DevRef τ sig) = W (main_arg15 : DevRef τ sig) := by
  simp only [Q3, Q4, List.cons_append, List.nil_append]
  after_results_simp

set_option maxRecDepth 16384 in
theorem L3_arg16 (W : Valuation τ sig (Elt F)) :
    after (Q3 ++ Q4) W (main_arg16 : DevRef τ sig) = W (main_arg16 : DevRef τ sig) := by
  simp only [Q3, Q4, List.cons_append, List.nil_append]
  after_results_simp

set_option maxRecDepth 16384 in
theorem L3_arg17 (W : Valuation τ sig (Elt F)) :
    after (Q3 ++ Q4) W (main_arg17 : DevRef τ sig) = W (main_arg17 : DevRef τ sig) := by
  simp only [Q3, Q4, List.cons_append, List.nil_append]
  after_results_simp

set_option maxRecDepth 16384 in
theorem L3_v1 (W : Valuation τ sig (Elt F)) :
    after (Q3 ++ Q4) W (main_v1 : DevRef τ sig) = W (main_v1 : DevRef τ sig) := by
  simp only [Q3, Q4, List.cons_append, List.nil_append]
  after_results_simp

set_option maxRecDepth 16384 in
theorem L3_v3 (W : Valuation τ sig (Elt F)) :
    after (Q3 ++ Q4) W (main_v3 : DevRef τ sig) = W (main_v3 : DevRef τ sig) := by
  simp only [Q3, Q4, List.cons_append, List.nil_append]
  after_results_simp

end Cert.ReferenceIdeal.RefRun

end
-- ==== Proof.RefVal4.lean ====
/- Layer 4's stretch of the operation list: what it leaves at the layer's output, and that it leaves the arguments alone. -/
import proofs.«170515_j51196010168472_1_alg».proof.Proof.RefOps
import proofs.«170515_j51196010168472_1_alg».proof.Proof.RefSpec

noncomputable section

namespace Cert.ReferenceIdeal.RefRun

open Idealize.ShloMosaic Idealize.ShloMosaic.TcCoe Idealize.SL.Sem Cert.ReferenceIdeal Cert.ReferenceIdeal.RefOps Cert.ReferenceIdeal.RefSpec Idealize.ShloMosaic.StableHlo

variable [Facts]
open Facts₀ Facts

variable {F : FTy → Type} [FloatOps F]

set_option maxRecDepth 16384 in
set_option maxHeartbeats 4000000 in
theorem L4_v151 (W : Valuation τ sig (Elt F)) :
    after Q5 W (main_v151 : DevRef τ sig) = G.node64 (G.agg (G.msg64 (G.gather64 (W (main_v114 : DevRef τ sig)) (G.wrap (W (main_v1 : DevRef τ sig)))) (W (main_arg1 : DevRef τ sig)) (G.w0of64 (W (main_arg13 : DevRef τ sig))) (G.w1of64 (W (main_arg13 : DevRef τ sig)))) (G.col (W (main_v3 : DevRef τ sig)))) (G.degOf (W (main_v3 : DevRef τ sig))) (W (main_v114 : DevRef τ sig)) (W (main_arg14 : DevRef τ sig)) (W (main_arg15 : DevRef τ sig)) := by
  simp only [Q5, List.cons_append, List.nil_append]
  after_results_simp
  rfl

set_option maxRecDepth 16384 in
theorem L4_arg0 (W : Valuation τ sig (Elt F)) :
    after Q5 W (main_arg0 : DevRef τ sig) = W (main_arg0 : DevRef τ sig) := by
  simp only [Q5, List.cons_append, List.nil_append]
  after_results_simp

set_option maxRecDepth 16384 in
theorem L4_arg1 (W : Valuation τ sig (Elt F)) :
    after Q5 W (main_arg1 : DevRef τ sig) = W (main_arg1 : DevRef τ sig) := by
  simp only [Q5, List.cons_append, List.nil_append]
  after_results_simp

set_option maxRecDepth 16384 in
theorem L4_arg2 (W : Valuation τ sig (Elt F)) :
    after Q5 W (main_arg2 : DevRef τ sig) = W (main_arg2 : DevRef τ sig) := by
  simp only [Q5, List.cons_append, List.nil_append]
  after_results_simp

set_option maxRecDepth 16384 in
theorem L4_arg3 (W : Valuation τ sig (Elt F)) :
    after Q5 W (main_arg3 : DevRef τ sig) = W (main_arg3 : DevRef τ sig) := by
  simp only [Q5, List.cons_append, List.nil_append]
  after_results_simp

set_option maxRecDepth 16384 in
theorem L4_arg4 (W : Valuation τ sig (Elt F)) :
    after Q5 W (main_arg4 : DevRef τ sig) = W (main_arg4 : DevRef τ sig) := by
  simp only [Q5, List.cons_append, List.nil_append]
  after_results_simp

set_option maxRecDepth 16384 in
theorem L4_arg5 (W : Valuation τ sig (Elt F)) :
    after Q5 W (main_arg5 : DevRef τ sig) = W (main_arg5 : DevRef τ sig) := by
  simp only [Q5, List.cons_append, List.nil_append]
  after_results_simp

set_option maxRecDepth 16384 in
theorem L4_arg6 (W : Valuation τ sig (Elt F)) :
    after Q5 W (main_arg6 : DevRef τ sig) = W (main_arg6 : DevRef τ sig) := by
  simp only [Q5, List.cons_append, List.nil_append]
  after_results_simp

set_option maxRecDepth 16384 in
theorem L4_arg7 (W : Valuation τ sig (Elt F)) :
    after Q5 W (main_arg7 : DevRef τ sig) = W (main_arg7 : DevRef τ sig) := by
  simp only [Q5, List.cons_append, List.nil_append]
  after_results_simp

set_option maxRecDepth 16384 in
theorem L4_arg8 (W : Valuation τ sig (Elt F)) :
    after Q5 W (main_arg8 : DevRef τ sig) = W (main_arg8 : DevRef τ sig) := by
  simp only [Q5, List.cons_append, List.nil_append]
  after_results_simp

set_option maxRecDepth 16384 in
theorem L4_arg9 (W : Valuation τ sig (Elt F)) :
    after Q5 W (main_arg9 : DevRef τ sig) = W (main_arg9 : DevRef τ sig) := by
  simp only [Q5, List.cons_append, List.nil_append]
  after_results_simp

set_option maxRecDepth 16384 in
theorem L4_arg10 (W : Valuation τ sig (Elt F)) :
    after Q5 W (main_arg10 : DevRef τ sig) = W (main_arg10 : DevRef τ sig) := by
  simp only [Q5, List.cons_append, List.nil_append]
  after_results_simp

set_option maxRecDepth 16384 in
theorem L4_arg11 (W : Valuation τ sig (Elt F)) :
    after Q5 W (main_arg11 : DevRef τ sig) = W (main_arg11 : DevRef τ sig) := by
  simp only [Q5, List.cons_append, List.nil_append]
  after_results_simp

set_option maxRecDepth 16384 in
theorem L4_arg12 (W : Valuation τ sig (Elt F)) :
    after Q5 W (main_arg12 : DevRef τ sig) = W (main_arg12 : DevRef τ sig) := by
  simp only [Q5, List.cons_append, List.nil_append]
  after_results_simp

set_option maxRecDepth 16384 in
theorem L4_arg13 (W : Valuation τ sig (Elt F)) :
    after Q5 W (main_arg13 : DevRef τ sig) = W (main_arg13 : DevRef τ sig) := by
  simp only [Q5, List.cons_append, List.nil_append]
  after_results_simp

set_option maxRecDepth 16384 in
theorem L4_arg14 (W : Valuation τ sig (Elt F)) :
    after Q5 W (main_arg14 : DevRef τ sig) = W (main_arg14 : DevRef τ sig) := by
  simp only [Q5, List.cons_append, List.nil_append]
  after_results_simp

set_option maxRecDepth 16384 in
theorem L4_arg15 (W : Valuation τ sig (Elt F)) :
    after Q5 W (main_arg15 : DevRef τ sig) = W (main_arg15 : DevRef τ sig) := by
  simp only [Q5, List.cons_append, List.nil_append]
  after_results_simp

set_option maxRecDepth 16384 in
theorem L4_arg16 (W : Valuation τ sig (Elt F)) :
    after Q5 W (main_arg16 : DevRef τ sig) = W (main_arg16 : DevRef τ sig) := by
  simp only [Q5, List.cons_append, List.nil_append]
  after_results_simp

set_option maxRecDepth 16384 in
theorem L4_arg17 (W : Valuation τ sig (Elt F)) :
    after Q5 W (main_arg17 : DevRef τ sig) = W (main_arg17 : DevRef τ sig) := by
  simp only [Q5, List.cons_append, List.nil_append]
  after_results_simp

end Cert.ReferenceIdeal.RefRun

end
-- ==== Proof.RefVal5.lean ====
/- The pooling head's stretch of the operation list: what it leaves at the result, and that it leaves the arguments alone. -/
import proofs.«170515_j51196010168472_1_alg».proof.Proof.RefOps
import proofs.«170515_j51196010168472_1_alg».proof.Proof.RefSpec

noncomputable section

namespace Cert.ReferenceIdeal.RefRun

open Idealize.ShloMosaic Idealize.ShloMosaic.TcCoe Idealize.SL.Sem Cert.ReferenceIdeal Cert.ReferenceIdeal.RefOps Cert.ReferenceIdeal.RefSpec Idealize.ShloMosaic.StableHlo

variable [Facts]
open Facts₀ Facts

variable {F : FTy → Type} [FloatOps F]

set_option maxRecDepth 16384 in
set_option maxHeartbeats 4000000 in
theorem H_v167 (W : Valuation τ sig (Elt F)) :
    after Q6 W (main_v167 : DevRef τ sig) = G.head (W (main_v151 : DevRef τ sig)) (W (main_arg3 : DevRef τ sig)) (W (main_arg16 : DevRef τ sig)) (W (main_arg17 : DevRef τ sig)) := by
  simp only [Q6, List.cons_append, List.nil_append]
  after_results_simp
  rfl

set_option maxRecDepth 16384 in
theorem H_arg0 (W : Valuation τ sig (Elt F)) :
    after Q6 W (main_arg0 : DevRef τ sig) = W (main_arg0 : DevRef τ sig) := by
  simp only [Q6, List.cons_append, List.nil_append]
  after_results_simp

set_option maxRecDepth 16384 in
theorem H_arg1 (W : Valuation τ sig (Elt F)) :
    after Q6 W (main_arg1 : DevRef τ sig) = W (main_arg1 : DevRef τ sig) := by
  simp only [Q6, List.cons_append, List.nil_append]
  after_results_simp

set_option maxRecDepth 16384 in
theorem H_arg2 (W : Valuation τ sig (Elt F)) :
    after Q6 W (main_arg2 : DevRef τ sig) = W (main_arg2 : DevRef τ sig) := by
  simp only [Q6, List.cons_append, List.nil_append]
  after_results_simp

set_option maxRecDepth 16384 in
theorem H_arg3 (W : Valuation τ sig (Elt F)) :
    after Q6 W (main_arg3 : DevRef τ sig) = W (main_arg3 : DevRef τ sig) := by
  simp only [Q6, List.cons_append, List.nil_append]
  after_results_simp

set_option maxRecDepth 16384 in
theorem H_arg4 (W : Valuation τ sig (Elt F)) :
    after Q6 W (main_arg4 : DevRef τ sig) = W (main_arg4 : DevRef τ sig) := by
  simp only [Q6, List.cons_append, List.nil_append]
  after_results_simp

set_option maxRecDepth 16384 in
theorem H_arg5 (W : Valuation τ sig (Elt F)) :
    after Q6 W (main_arg5 : DevRef τ sig) = W (main_arg5 : DevRef τ sig) := by
  simp only [Q6, List.cons_append, List.nil_append]
  after_results_simp

set_option maxRecDepth 16384 in
theorem H_arg6 (W : Valuation τ sig (Elt F)) :
    after Q6 W (main_arg6 : DevRef τ sig) = W (main_arg6 : DevRef τ sig) := by
  simp only [Q6, List.cons_append, List.nil_append]
  after_results_simp

set_option maxRecDepth 16384 in
theorem H_arg7 (W : Valuation τ sig (Elt F)) :
    after Q6 W (main_arg7 : DevRef τ sig) = W (main_arg7 : DevRef τ sig) := by
  simp only [Q6, List.cons_append, List.nil_append]
  after_results_simp

set_option maxRecDepth 16384 in
theorem H_arg8 (W : Valuation τ sig (Elt F)) :
    after Q6 W (main_arg8 : DevRef τ sig) = W (main_arg8 : DevRef τ sig) := by
  simp only [Q6, List.cons_append, List.nil_append]
  after_results_simp

set_option maxRecDepth 16384 in
theorem H_arg9 (W : Valuation τ sig (Elt F)) :
    after Q6 W (main_arg9 : DevRef τ sig) = W (main_arg9 : DevRef τ sig) := by
  simp only [Q6, List.cons_append, List.nil_append]
  after_results_simp

set_option maxRecDepth 16384 in
theorem H_arg10 (W : Valuation τ sig (Elt F)) :
    after Q6 W (main_arg10 : DevRef τ sig) = W (main_arg10 : DevRef τ sig) := by
  simp only [Q6, List.cons_append, List.nil_append]
  after_results_simp

set_option maxRecDepth 16384 in
theorem H_arg11 (W : Valuation τ sig (Elt F)) :
    after Q6 W (main_arg11 : DevRef τ sig) = W (main_arg11 : DevRef τ sig) := by
  simp only [Q6, List.cons_append, List.nil_append]
  after_results_simp

set_option maxRecDepth 16384 in
theorem H_arg12 (W : Valuation τ sig (Elt F)) :
    after Q6 W (main_arg12 : DevRef τ sig) = W (main_arg12 : DevRef τ sig) := by
  simp only [Q6, List.cons_append, List.nil_append]
  after_results_simp

set_option maxRecDepth 16384 in
theorem H_arg13 (W : Valuation τ sig (Elt F)) :
    after Q6 W (main_arg13 : DevRef τ sig) = W (main_arg13 : DevRef τ sig) := by
  simp only [Q6, List.cons_append, List.nil_append]
  after_results_simp

set_option maxRecDepth 16384 in
theorem H_arg14 (W : Valuation τ sig (Elt F)) :
    after Q6 W (main_arg14 : DevRef τ sig) = W (main_arg14 : DevRef τ sig) := by
  simp only [Q6, List.cons_append, List.nil_append]
  after_results_simp

set_option maxRecDepth 16384 in
theorem H_arg15 (W : Valuation τ sig (Elt F)) :
    after Q6 W (main_arg15 : DevRef τ sig) = W (main_arg15 : DevRef τ sig) := by
  simp only [Q6, List.cons_append, List.nil_append]
  after_results_simp

set_option maxRecDepth 16384 in
theorem H_arg16 (W : Valuation τ sig (Elt F)) :
    after Q6 W (main_arg16 : DevRef τ sig) = W (main_arg16 : DevRef τ sig) := by
  simp only [Q6, List.cons_append, List.nil_append]
  after_results_simp

set_option maxRecDepth 16384 in
theorem H_arg17 (W : Valuation τ sig (Elt F)) :
    after Q6 W (main_arg17 : DevRef τ sig) = W (main_arg17 : DevRef τ sig) := by
  simp only [Q6, List.cons_append, List.nil_append]
  after_results_simp

end Cert.ReferenceIdeal.RefRun

end
-- ==== Proof.RefPart0.lean ====
/- Window 0 of the reference's @main is the straight line of its stretch of the operation list: the called functions'
   definitions unfolded at their calls, both sides are one chain of steps once sequencing is re-associated. -/
import proofs.«170515_j51196010168472_1_alg».proof.Proof.RefOps

noncomputable section

namespace Cert.ReferenceIdeal.RefRun

open Idealize.ShloMosaic Idealize.ShloMosaic.TcCoe Idealize.SL.Sem Cert.ReferenceIdeal Cert.ReferenceIdeal.RefOps Idealize.ShloMosaic.StableHlo

variable [Facts]
open Facts₀ Facts

variable {F : FTy → Type} [FloatOps F]

set_option maxRecDepth 16384 in
set_option maxHeartbeats 4000000 in
theorem part0_eq (c : Dev nD) : main_part0 (F := F) c = seq (Q0 ++ Q1) := by
  rw [seq_append]
  simp only [main_part0, Q0, Q1, fn_clip.body, fn_elu.body, fn_where.body, fn_where_0.body, fn_clip_1.body, fn_log_softmax.body, seq, bind_assoc, pure_bind] <;> rfl

end Cert.ReferenceIdeal.RefRun

end
-- ==== Proof.RefPart1.lean ====
/- Window 1 of the reference's @main is the straight line of its stretch of the operation list: the called functions'
   definitions unfolded at their calls, both sides are one chain of steps once sequencing is re-associated. -/
import proofs.«170515_j51196010168472_1_alg».proof.Proof.RefOps

noncomputable section

namespace Cert.ReferenceIdeal.RefRun

open Idealize.ShloMosaic Idealize.ShloMosaic.TcCoe Idealize.SL.Sem Cert.ReferenceIdeal Cert.ReferenceIdeal.RefOps Idealize.ShloMosaic.StableHlo

variable [Facts]
open Facts₀ Facts

variable {F : FTy → Type} [FloatOps F]

set_option maxRecDepth 16384 in
set_option maxHeartbeats 4000000 in
theorem part1_eq (c : Dev nD) : main_part1 (F := F) c = seq (Q2 ++ Q3) := by
  rw [seq_append]
  simp only [main_part1, Q2, Q3, fn_clip.body, fn_elu.body, fn_where.body, fn_where_0.body, fn_clip_1.body, fn_log_softmax.body, seq, bind_assoc, pure_bind] <;> rfl

end Cert.ReferenceIdeal.RefRun

end
-- ==== Proof.RefPart2.lean ====
/- Window 2 of the reference's @main is the straight line of its stretch of the operation list: the called functions'
   definitions unfolded at their calls, both sides are one chain of steps once sequencing is re-associated. -/
import proofs.«170515_j51196010168472_1_alg».proof.Proof.RefOps

noncomputable section

namespace Cert.ReferenceIdeal.RefRun

open Idealize.ShloMosaic Idealize.ShloMosaic.TcCoe Idealize.SL.Sem Cert.ReferenceIdeal Cert.ReferenceIdeal.RefOps Idealize.ShloMosaic.StableHlo

variable [Facts]
open Facts₀ Facts

variable {F : FTy → Type} [FloatOps F]

set_option maxRecDepth 16384 in
set_option maxHeartbeats 4000000 in
theorem part2_eq (c : Dev nD) : main_part2 (F := F) c = seq (Q4 ++ Q5) := by
  rw [seq_append]
  simp only [main_part2, Q4, Q5, fn_clip.body, fn_elu.body, fn_where.body, fn_where_0.body, fn_clip_1.body, fn_log_softmax.body, seq, bind_assoc, pure_bind] <;> rfl

end Cert.ReferenceIdeal.RefRun

end
-- ==== Proof.RefPart3.lean ====
/- Window 3 of the reference's @main is the straight line of its stretch of the operation list: the called functions'
   definitions unfolded at their calls, both sides are one chain of steps once sequencing is re-associated. -/
import proofs.«170515_j51196010168472_1_alg».proof.Proof.RefOps

noncomputable section

namespace Cert.ReferenceIdeal.RefRun

open Idealize.ShloMosaic Idealize.ShloMosaic.TcCoe Idealize.SL.Sem Cert.ReferenceIdeal Cert.ReferenceIdeal.RefOps Idealize.ShloMosaic.StableHlo

variable [Facts]
open Facts₀ Facts

variable {F : FTy → Type} [FloatOps F]

set_option maxRecDepth 16384 in
set_option maxHeartbeats 4000000 in
theorem part3_eq (c : Dev nD) : main_part3 (F := F) c = seq Q6 := by
  simp only [main_part3, Q6, fn_clip.body, fn_elu.body, fn_where.body, fn_where_0.body, fn_clip_1.body, fn_log_softmax.body, seq, bind_assoc, pure_bind] <;> rfl

end Cert.ReferenceIdeal.RefRun

end
-- ==== Proof.RefScoped.lean ====
/- The reference's signature scopes no buffer and no semaphore: every buffer is a tensor value's, live for the whole run. -/
import proofs.«170515_j51196010168472_1_alg».proof.ReferenceIdeal
import Idealize.ShloMosaic.Lib.StableHlo.Run

noncomputable section

namespace Cert.ReferenceIdeal.RefRun

open Idealize.ShloMosaic Idealize.ShloMosaic.TcCoe Idealize.SL.Sem Cert.ReferenceIdeal Idealize.ShloMosaic.StableHlo

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefRun

end
-- ==== Proof.RefFresh.lean ====
/- None of the reference's operations allocates a buffer: each determines its result from its operands. -/
import proofs.«170515_j51196010168472_1_alg».proof.Proof.RefOps

noncomputable section

namespace Cert.ReferenceIdeal.RefRun

open Idealize.ShloMosaic Idealize.ShloMosaic.TcCoe Idealize.SL.Sem Cert.ReferenceIdeal Cert.ReferenceIdeal.RefOps Idealize.ShloMosaic.StableHlo

variable [Facts]
open Facts₀ Facts

variable {F : FTy → Type} [FloatOps F]

theorem Q0_fresh : (Q0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem Q1_fresh : (Q1 : List (HloOp τ sig (Elt F))).Forall fun op => op.fresh = ∅ :=
  ⟨rfl, rfl, rfl, rfl, rfl, rfl, rfl, rfl, rfl, rfl, rfl, rfl⟩

theorem Q2_fresh : (Q2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem Q3_fresh : (Q3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem Q4_fresh : (Q4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem Q5_fresh : (Q5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem Q6_fresh : (Q6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefRun

end
-- ==== Proof.RefRun.lean ====
/- The reference's run: @main is the straight line of its 280 host operations, so every weakly fair execution ends with
   each buffer at the fold of the operations over the launch contents; the fold at the result buffer is, layer by layer,
   the composition of the layer functions, and no operation writes an argument. -/
import proofs.«170515_j51196010168472_1_alg».proof.Proof.RefVal1
import proofs.«170515_j51196010168472_1_alg».proof.Proof.RefVal2
import proofs.«170515_j51196010168472_1_alg».proof.Proof.RefVal3
import proofs.«170515_j51196010168472_1_alg».proof.Proof.RefVal4
import proofs.«170515_j51196010168472_1_alg».proof.Proof.RefVal5
import proofs.«170515_j51196010168472_1_alg».proof.Proof.RefPart0
import proofs.«170515_j51196010168472_1_alg».proof.Proof.RefPart1
import proofs.«170515_j51196010168472_1_alg».proof.Proof.RefPart2
import proofs.«170515_j51196010168472_1_alg».proof.Proof.RefPart3
import proofs.«170515_j51196010168472_1_alg».proof.Proof.RefScoped
import proofs.«170515_j51196010168472_1_alg».proof.Proof.RefFresh

noncomputable section

namespace Cert.ReferenceIdeal.RefRun

open Idealize.ShloMosaic Idealize.ShloMosaic.TcCoe Idealize.SL.Sem Cert.ReferenceIdeal Cert.ReferenceIdeal.RefOps Cert.ReferenceIdeal.RefSpec Idealize.ShloMosaic.StableHlo

variable [Facts]
open Facts₀ Facts

section AnyFloat

variable {F : FTy → Type} [FloatOps F]

/-- @main's 280 operations, in order: the four windows' stretches. -/
abbrev ops : List (HloOp τ sig (Elt F)) := (Q0 ++ Q1) ++ ((Q2 ++ Q3) ++ ((Q4 ++ Q5) ++ Q6))

/-- @main runs its four windows in order, each the straight line of its stretch. -/
theorem main_eq (c : Dev nD) : main (F := F) c = seq ops := by
  show main (F := F) c = seq ((Q0 ++ Q1) ++ ((Q2 ++ Q3) ++ ((Q4 ++ Q5) ++ Q6)))
  rw [seq_append (Q0 ++ Q1), seq_append (Q2 ++ Q3), seq_append (Q4 ++ Q5),
    ← part0_eq c, ← part1_eq c, ← part2_eq c, ← part3_eq c]
  rfl

theorem ops_sub : (ops : List (HloOp τ sig (Elt F))).Forall fun op => op.bufs ⊆ tcRefs τ sig :=
  List.forall_append.mpr ⟨List.forall_append.mpr ⟨Q0_sub, Q1_sub⟩,
    List.forall_append.mpr ⟨List.forall_append.mpr ⟨Q2_sub, Q3_sub⟩,
      List.forall_append.mpr ⟨List.forall_append.mpr ⟨Q4_sub, Q5_sub⟩, Q6_sub⟩⟩⟩

theorem ops_fresh : ∀ op ∈ (ops : List (HloOp τ sig (Elt F))), op.fresh = ∅ :=
  List.forall_iff_forall_mem.1 (List.forall_append.mpr ⟨List.forall_append.mpr ⟨Q0_fresh, Q1_fresh⟩,
    List.forall_append.mpr ⟨List.forall_append.mpr ⟨Q2_fresh, Q3_fresh⟩,
      List.forall_append.mpr ⟨List.forall_append.mpr ⟨Q4_fresh, Q5_fresh⟩, Q6_fresh⟩⟩⟩)

/-- The fold over two lines in a row is the fold over the second after the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over the whole list is the fold over the five layers' stretches in turn. -/
theorem after_ops (V : Valuation τ sig (Elt F)) :
    after ops V = after Q6 (after Q5 (after (Q3 ++ Q4) (after (Q1 ++ Q2) (after Q0 V)))) := by
  show after ((Q0 ++ Q1) ++ ((Q2 ++ Q3) ++ ((Q4 ++ Q5) ++ Q6))) V = _
  rw [after_app (Q0 ++ Q1), after_app Q0 Q1, after_app (Q2 ++ Q3), after_app Q2 Q3, after_app (Q4 ++ Q5),
    after_app Q4 Q5, after_app Q1 Q2, after_app Q3 Q4]

/-- The fold at the result buffer: the head of layer 4 of layer 3 of layer 2 of layer 1 of the arguments. -/
theorem result_eq (V : Valuation τ sig (Elt F)) :
    after ops V (main_v167 : DevRef τ sig) = G.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [after_ops]
  rw [H_v167, L4_v151, L4_arg3, L4_arg16, L4_arg17,
    L3_v114, L3_v1, L3_v3, L3_arg1, L3_arg13, L3_arg14, L3_arg15, L3_arg3, L3_arg16, L3_arg17,
    L2_v77, L2_v1, L2_v3, L2_arg1, L2_arg10, L2_arg11, L2_arg12, L2_arg13, L2_arg14, L2_arg15, L2_arg3, L2_arg16, L2_arg17,
    L1_v40, L1_v1, L1_v3, L1_arg1, L1_arg7, L1_arg8, L1_arg9, L1_arg10, L1_arg11, L1_arg12, L1_arg13, L1_arg14, L1_arg15, L1_arg3, L1_arg16, L1_arg17]
  rfl

theorem arg0_eq (V : Valuation τ sig (Elt F)) : after ops V (main_arg0 : DevRef τ sig) = V (main_arg0 : DevRef τ sig) := by
  rw [after_ops, H_arg0, L4_arg0, L3_arg0, L2_arg0, L1_arg0]
theorem arg1_eq (V : Valuation τ sig (Elt F)) : after ops V (main_arg1 : DevRef τ sig) = V (main_arg1 : DevRef τ sig) := by
  rw [after_ops, H_arg1, L4_arg1, L3_arg1, L2_arg1, L1_arg1]
theorem arg2_eq (V : Valuation τ sig (Elt F)) : after ops V (main_arg2 : DevRef τ sig) = V (main_arg2 : DevRef τ sig) := by
  rw [after_ops, H_arg2, L4_arg2, L3_arg2, L2_arg2, L1_arg2]
theorem arg3_eq (V : Valuation τ sig (Elt F)) : after ops V (main_arg3 : DevRef τ sig) = V (main_arg3 : DevRef τ sig) := by
  rw [after_ops, H_arg3, L4_arg3, L3_arg3, L2_arg3, L1_arg3]
theorem arg4_eq (V : Valuation τ sig (Elt F)) : after ops V (main_arg4 : DevRef τ sig) = V (main_arg4 : DevRef τ sig) := by
  rw [after_ops, H_arg4, L4_arg4, L3_arg4, L2_arg4, L1_arg4]
theorem arg5_eq (V : Valuation τ sig (Elt F)) : after ops V (main_arg5 : DevRef τ sig) = V (main_arg5 : DevRef τ sig) := by
  rw [after_ops, H_arg5, L4_arg5, L3_arg5, L2_arg5, L1_arg5]
theorem arg6_eq (V : Valuation τ sig (Elt F)) : after ops V (main_arg6 : DevRef τ sig) = V (main_arg6 : DevRef τ sig) := by
  rw [after_ops, H_arg6, L4_arg6, L3_arg6, L2_arg6, L1_arg6]
theorem arg7_eq (V : Valuation τ sig (Elt F)) : after ops V (main_arg7 : DevRef τ sig) = V (main_arg7 : DevRef τ sig) := by
  rw [after_ops, H_arg7, L4_arg7, L3_arg7, L2_arg7, L1_arg7]
theorem arg8_eq (V : Valuation τ sig (Elt F)) : after ops V (main_arg8 : DevRef τ sig) = V (main_arg8 : DevRef τ sig) := by
  rw [after_ops, H_arg8, L4_arg8, L3_arg8, L2_arg8, L1_arg8]
theorem arg9_eq (V : Valuation τ sig (Elt F)) : after ops V (main_arg9 : DevRef τ sig) = V (main_arg9 : DevRef τ sig) := by
  rw [after_ops, H_arg9, L4_arg9, L3_arg9, L2_arg9, L1_arg9]
theorem arg10_eq (V : Valuation τ sig (Elt F)) : after ops V (main_arg10 : DevRef τ sig) = V (main_arg10 : DevRef τ sig) := by
  rw [after_ops, H_arg10, L4_arg10, L3_arg10, L2_arg10, L1_arg10]
theorem arg11_eq (V : Valuation τ sig (Elt F)) : after ops V (main_arg11 : DevRef τ sig) = V (main_arg11 : DevRef τ sig) := by
  rw [after_ops, H_arg11, L4_arg11, L3_arg11, L2_arg11, L1_arg11]
theorem arg12_eq (V : Valuation τ sig (Elt F)) : after ops V (main_arg12 : DevRef τ sig) = V (main_arg12 : DevRef τ sig) := by
  rw [after_ops, H_arg12, L4_arg12, L3_arg12, L2_arg12, L1_arg12]
theorem arg13_eq (V : Valuation τ sig (Elt F)) : after ops V (main_arg13 : DevRef τ sig) = V (main_arg13 : DevRef τ sig) := by
  rw [after_ops, H_arg13, L4_arg13, L3_arg13, L2_arg13, L1_arg13]
theorem arg14_eq (V : Valuation τ sig (Elt F)) : after ops V (main_arg14 : DevRef τ sig) = V (main_arg14 : DevRef τ sig) := by
  rw [after_ops, H_arg14, L4_arg14, L3_arg14, L2_arg14, L1_arg14]
theorem arg15_eq (V : Valuation τ sig (Elt F)) : after ops V (main_arg15 : DevRef τ sig) = V (main_arg15 : DevRef τ sig) := by
  rw [after_ops, H_arg15, L4_arg15, L3_arg15, L2_arg15, L1_arg15]
theorem arg16_eq (V : Valuation τ sig (Elt F)) : after ops V (main_arg16 : DevRef τ sig) = V (main_arg16 : DevRef τ sig) := by
  rw [after_ops, H_arg16, L4_arg16, L3_arg16, L2_arg16, L1_arg16]
theorem arg17_eq (V : Valuation τ sig (Elt F)) : after ops V (main_arg17 : DevRef τ sig) = V (main_arg17 : DevRef τ sig) := by
  rw [after_ops, H_arg17, L4_arg17, L3_arg17, L2_arg17, L1_arg17]

end AnyFloat

/-- On every device, at the exact extended reals, from any memory with zero counters: every weakly fair execution of the
    reference's @main terminates with the result buffer at `RefSpec.result` of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v167) = RefSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_v167).trans ((result_eq (F := Ideal) _).trans (RefSpec.result_eq_G ..).symm),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _)⟩)
    (run_seq scopedRefs_eq scopedSems_eq defs main (fun _ => ops) main_eq (fun _ => ops_sub) m ρ (fun _ => ops_fresh))

end Cert.ReferenceIdeal.RefRun

end
-- ==== Proof.KerFoldDefs.lean ====
import proofs.«170515_j51196010168472_1_alg».proof.Proof.Gen.KernelIdeal
import Idealize.ShloMosaic.PureOps.Ideal
import Idealize.ShloMosaic.PureOps.IdealRules

noncomputable section

namespace Cert.KernelIdeal.KerFold

open Idealize.ShloMosaic Idealize.ShloMosaic.TcCoe Idealize.SL.Sem
open Cert.KernelIdeal Cert.KernelIdeal.Facts₀

/-- An array of shape `S` and element type `e`, floats read as exact extended reals. -/
abbrev T (S : Shape) (e : EltTy) : Type := (⟨S, e⟩ : BufTy).Contents (Elt Ideal)

/-! ## The edge index: its two rows, the wrapped source column, the target column -/

/-- Row 0 of the edge index (the sources), as a vector. -/
def row0 (ei : T S2x1280000 .i32) : T S1280000 .i32 :=
  fun i => shapeCast S1280000 (extractStridedSlice S1x1280000 ![0, 0] ei slices_S2x1280000_S1x1280000_0_0) shapeCasts_S1x1280000_S1280000 i

/-- Row 1 of the edge index (the targets), as a vector. -/
def row1 (ei : T S2x1280000 .i32) : T S1280000 .i32 :=
  fun i => shapeCast S1280000 (extractStridedSlice S1x1280000 ![1, 0] ei slices_S2x1280000_S1x1280000_1_0) shapeCasts_S1x1280000_S1280000 i

/-- A vector of edge-many indices as a column. -/
def colOf (v : T S1280000 .i32) : T S1280000x1 .i32 :=
  (broadcastInDim S1280000x1 ![0] bcast_S1280000_S1280000x1_0 : T S1280000 .i32 → T S1280000x1 .i32) v

/-- A vector of node indices with the negative ones wrapped by the node count, as a column. -/
def wrapIdx (v : T S1280000 .i32) : T S1280000x1 .i32 :=
  colOf
    ((select : T S1280000 .i1 → T S1280000 .i32 → T S1280000 .i32 → T S1280000 .i32)
      ((cmpi .slt : T S1280000 .i32 → T S1280000 .i32 → T S1280000 .i1) v
        ((broadcastInDim S1280000 ![] bcast_S_S1280000 : T S_ .i32 → T S1280000 .i32) (constantI S_ 32 0#32)))
      ((addi : T S1280000 .i32 → T S1280000 .i32 → T S1280000 .i32) v
        ((broadcastInDim S1280000 ![] bcast_S_S1280000 : T S_ .i32 → T S1280000 .i32) (constantI S_ 32 80000#32)))
      v)

/-- The gather's index column: the sources, wrapped. -/
def srcIdx (ei : T S2x1280000 .i32) : T S1280000x1 .i32 := wrapIdx (row0 ei)

/-- The scatter's index column: the targets. -/
def dstIdx (ei : T S2x1280000 .i32) : T S1280000x1 .i32 := colOf (row1 ei)

/-- The in-degree of every node: ones summed at the targets. -/
def degRow (ei : T S2x1280000 .i32) : T S80000 .f32 :=
  ((fun x i u => Host.scatterAdd (F := Ideal) (φ := .f32) scatter_S80000_S1280000x1_S1280000_n_0_0_1 x i u) : T S80000 .f32 → T S1280000x1 .i32 → T S1280000 .f32 → T S80000 .f32)
    ((broadcastInDim S80000 ![] bcast_S_S80000 : T S_ .f32 → T S80000 .f32) (constant (F := Ideal) S_ .f32 0x00000000#32))
    (dstIdx ei)
    ((broadcastInDim S1280000 ![] bcast_S_S1280000 : T S_ .f32 → T S1280000 .f32) (constant (F := Ideal) S_ .f32 0x3F800000#32))

/-- The in-degrees as a column. -/
def degCol (ei : T S2x1280000 .i32) : T S80000x1 .f32 :=
  (broadcastInDim S80000x1 ![0] bcast_S80000_S80000x1_0 : T S80000 .f32 → T S80000x1 .f32) (degRow ei)

/-! ## Gathers, weight slices, aggregation, bias -/

/-- The rows of a 3-feature node array at an index column. -/
def gather3 (x : T S80000x3 .f32) (idx : T S1280000x1 .i32) : T S1280000x3 .f32 :=
  ((fun x i => Host.gather gather_S80000x3_S1280000x1_S1280000x3_1_0_n_n_0_1_13 x i) : T S80000x3 .f32 → T S1280000x1 .i32 → T S1280000x3 .f32) x idx

/-- The rows of a 64-feature node array at an index column. -/
def gather64 (h : T S80000x64 .f32) (idx : T S1280000x1 .i32) : T S1280000x64 .f32 :=
  ((fun x i => Host.gather gather_S80000x64_S1280000x1_S1280000x64_1_0_n_n_0_1_164 x i) : T S80000x64 .f32 → T S1280000x1 .i32 → T S1280000x64 .f32) h idx

/-- The first of the two 3×64 weight matrices. -/
def w0of3 (W : T S2x3x64 .f32) : T S3x64 .f32 :=
  fun i => shapeCast S3x64 (extractStridedSlice S1x3x64 ![0, 0, 0] W slices_S2x3x64_S1x3x64_0_0_0) shapeCasts_S1x3x64_S3x64 i

/-- The second of the two 3×64 weight matrices. -/
def w1of3 (W : T S2x3x64 .f32) : T S3x64 .f32 :=
  fun i => shapeCast S3x64 (extractStridedSlice S1x3x64 ![1, 0, 0] W slices_S2x3x64_S1x3x64_1_0_0) shapeCasts_S1x3x64_S3x64 i

/-- The first of the two 64×64 weight matrices. -/
def w0of64 (W : T S2x64x64 .f32) : T S64x64 .f32 :=
  fun i => shapeCast S64x64 (extractStridedSlice S1x64x64 ![0, 0, 0] W slices_S2x64x64_S1x64x64_0_0_0) shapeCasts_S1x64x64_S64x64 i

/-- The second of the two 64×64 weight matrices. -/
def w1of64 (W : T S2x64x64 .f32) : T S64x64 .f32 :=
  fun i => shapeCast S64x64 (extractStridedSlice S1x64x64 ![1, 0, 0] W slices_S2x64x64_S1x64x64_1_0_0) shapeCasts_S1x64x64_S64x64 i

/-- The messages summed at the rows an index column names, from zero. -/
def agg (msg : T S1280000x64 .f32) (idx : T S1280000x1 .i32) : T S80000x64 .f32 :=
  ((fun x i u => Host.scatterAdd (F := Ideal) (φ := .f32) scatter_S80000x64_S1280000x1_S1280000x64_1_0_0_1 x i u) : T S80000x64 .f32 → T S1280000x1 .i32 → T S1280000x64 .f32 → T S80000x64 .f32)
    ((broadcastInDim S80000x64 ![] bcast_S_S80000x64 : T S_ .f32 → T S80000x64 .f32) (constant (F := Ideal) S_ .f32 0x00000000#32))
    idx msg

/-- A bias vector as a one-row matrix. -/
def biasRow (b : T S64 .f32) : T S1x64 .f32 :=
  fun i => shapeCast S1x64 b shapeCasts_S64_S1x64 i

/-! ## The head: mean pooling per graph, the linear layer, the log-softmax -/

/-- The batch vector as an index column. -/
def batchIdx (batch : T S80000 .i32) : T S80000x1 .i32 :=
  (broadcastInDim S80000x1 ![0] bcast_S80000_S80000x1_0 : T S80000 .i32 → T S80000x1 .i32) batch

/-- The node features summed per graph. -/
def poolSum (h : T S80000x64 .f32) (batch : T S80000 .i32) : T S512x64 .f32 :=
  ((fun x i u => Host.scatterAdd (F := Ideal) (φ := .f32) scatter_S512x64_S80000x1_S80000x64_1_0_0_1 x i u) : T S512x64 .f32 → T S80000x1 .i32 → T S80000x64 .f32 → T S512x64 .f32)
    ((broadcastInDim S512x64 ![] bcast_S_S512x64 : T S_ .f32 → T S512x64 .f32) (constant (F := Ideal) S_ .f32 0x00000000#32))
    (batchIdx batch) h

/-- The node count of every graph. -/
def poolCnt (batch : T S80000 .i32) : T S512 .f32 :=
  ((fun x i u => Host.scatterAdd (F := Ideal) (φ := .f32) scatter_S512_S80000x1_S80000_n_0_0_1 x i u) : T S512 .f32 → T S80000x1 .i32 → T S80000 .f32 → T S512 .f32)
    ((broadcastInDim S512 ![] bcast_S_S512 : T S_ .f32 → T S512 .f32) (constant (F := Ideal) S_ .f32 0x00000000#32))
    (batchIdx batch)
    ((broadcastInDim S80000 ![] bcast_S_S80000 : T S_ .f32 → T S80000 .f32) (constant (F := Ideal) S_ .f32 0x3F800000#32))

/-- A count vector clipped below at one. -/
def clipOne (cnt : T S512 .f32) : T S512 .f32 :=
  (maximumf (F := Ideal) (φ := .f32) : T S512 .f32 → T S512 .f32 → T S512 .f32) ((broadcastInDim S512 ![] bcast_S_S512 : T S_ .f32 → T S512 .f32) ((id : T S_ .f32 → T S_ .f32) (constant (F := Ideal) S_ .f32 0x3F800000#32))) cnt

/-- The row maxima along the class axis (never below minus infinity). -/
def rowMax (x : T S512x6 .f32) : T S512 .f32 :=
  ((maximumf (F := Ideal) (φ := .f32) : T S512 .f32 → T S512 .f32 → T S512 .f32) ((broadcastInDim S512 ![] bcast_S_S512 : T S_ .f32 → T S512 .f32) (constant (F := Ideal) S_ .f32 0xFF800000#32))
      (((fun x v => Host.reduce (FloatOps.maximumf (F := Ideal) (φ := .f32)) x v reducesTo_S512x6_S512_d1 h_S_) : T S512x6 .f32 → T S_ .f32 → T S512 .f32) x (constant (F := Ideal) S_ .f32 0xFF800000#32)))

/-- An array less its row maxima. -/
def shifted (x : T S512x6 .f32) : T S512x6 .f32 :=
  (subf (F := Ideal) (φ := .f32) : T S512x6 .f32 → T S512x6 .f32 → T S512x6 .f32) x
    ((broadcastInDim S512x6 ![0, 1] bcast_S512x1_S512x6_0_1 : T S512x1 .f32 → T S512x6 .f32) ((broadcastInDim S512x1 ![0] bcast_S512_S512x1_0 : T S512 .f32 → T S512x1 .f32) (rowMax x)))

/-- The log-softmax along the class axis. -/
def logSoftmax (x : T S512x6 .f32) : T S512x6 .f32 :=
  (subf (F := Ideal) (φ := .f32) : T S512x6 .f32 → T S512x6 .f32 → T S512x6 .f32) (shifted x)
    ((broadcastInDim S512x6 ![0, 1] bcast_S512x1_S512x6_0_1 : T S512x1 .f32 → T S512x6 .f32)
      ((Host.log (F := Ideal) (φ := .f32) : T S512x1 .f32 → T S512x1 .f32)
        ((broadcastInDim S512x1 ![0] bcast_S512_S512x1_0 : T S512 .f32 → T S512x1 .f32)
          (((fun x v => Host.reduceAdd (F := Ideal) (φ := .f32) x v reducesTo_S512x6_S512_d1 h_S_) : T S512x6 .f32 → T S_ .f32 → T S512 .f32)
            ((Host.exp (F := Ideal) (φ := .f32) : T S512x6 .f32 → T S512x6 .f32) (shifted x))
            (constant (F := Ideal) S_ .f32 0x00000000#32)))))

/-- The per-graph mean of the node features. -/
def pooled (h : T S80000x64 .f32) (batch : T S80000 .i32) : T S512x64 .f32 :=
  (Host.divf (F := Ideal) (φ := .f32) : T S512x64 .f32 → T S512x64 .f32 → T S512x64 .f32) (poolSum h batch)
    ((broadcastInDim S512x64 ![0, 1] bcast_S512x1_S512x64_0_1 : T S512x1 .f32 → T S512x64 .f32) ((broadcastInDim S512x1 ![0] bcast_S512_S512x1_0 : T S512 .f32 → T S512x1 .f32) (clipOne (poolCnt batch))))

/-- The logits: the per-graph mean through the linear layer. -/
def logits (h : T S80000x64 .f32) (batch : T S80000 .i32) (fcw : T S64x6 .f32) (fcb : T S6 .f32) : T S512x6 .f32 :=
  (addf (F := Ideal) (φ := .f32) : T S512x6 .f32 → T S512x6 .f32 → T S512x6 .f32)
    (((fun l r => Host.dotGeneral (F := Ideal) (φ₁ := .f32) (φ₂ := .f32) dot_S512x64_S64x6_S512x6_1_0_0_1_n_n none l r) : T S512x64 .f32 → T S64x6 .f32 → T S512x6 .f32) (pooled h batch) fcw)
    ((broadcastInDim S512x6 ![0, 1] bcast_S1x6_S512x6_0_1 : T S1x6 .f32 → T S512x6 .f32) ((broadcastInDim S1x6 ![1] bcast_S6_S1x6_1 : T S6 .f32 → T S1x6 .f32) fcb))

/-- The head: the log-softmax of the logits. -/
def head (h : T S80000x64 .f32) (batch : T S80000 .i32) (fcw : T S64x6 .f32) (fcb : T S6 .f32) : T S512x6 .f32 :=
  logSoftmax (logits h batch fcw fcb)

end Cert.KernelIdeal.KerFold

end
-- ==== Proof.KerFoldHostT.lean ====
import proofs.«170515_j51196010168472_1_alg».proof.Proof.Gen.KernelIdeal.Launch
import proofs.«170515_j51196010168472_1_alg».proof.Proof.KerFoldDefs
import Idealize.ShloMosaic.Lib.StableHlo.Run

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (V : Valuation τ sig (Elt Ideal))

/-! ## The four last stretches (pooling, linear layer, log-softmax), from any contents `V` -/

/-- The result: the head of the last node features. -/
theorem tail_v92 : (StableHlo.after (hostOps8_3 (F := Ideal)) (StableHlo.after (hostOps8_2 (F := Ideal)) (StableHlo.after (hostOps8_1 (F := Ideal)) (StableHlo.after (hostOps8 (F := Ideal)) V))) (Proc.devRef .tc main_v92) : T S512x6 .f32) = head (V (Proc.devRef .tc main_v76)) (V (Proc.devRef .tc main_arg3)) (V (Proc.devRef .tc main_arg16)) (V (Proc.devRef .tc main_arg17)) := by
  after_results_simp; rfl

end Cert.KernelIdeal.KerFold

end
-- ==== Proof.KerFoldHostA.lean ====
import proofs.«170515_j51196010168472_1_alg».proof.Proof.Gen.KernelIdeal.Launch
import proofs.«170515_j51196010168472_1_alg».proof.Proof.KerFoldDefs
import Idealize.ShloMosaic.Lib.StableHlo.Run

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (V : Valuation τ sig (Elt Ideal))

/-! ## The stretches before the node regions (aggregation and bias), from any contents `V` -/

/-- Layer 1: the messages summed at the targets. -/
theorem h1_v23 : (StableHlo.after (hostOps1 (F := Ideal)) V (Proc.devRef .tc main_v23) : T S80000x64 .f32) = agg (V (Proc.devRef .tc main_v20)) (colOf (V (Proc.devRef .tc main_v3))) := by
  after_results_simp; rfl

/-- Layer 1: the bias as a row. -/
theorem h1_v24 : (StableHlo.after (hostOps1 (F := Ideal)) V (Proc.devRef .tc main_v24) : T S1x64 .f32) = biasRow (V (Proc.devRef .tc main_arg6)) := by
  after_results_simp; rfl

/-- A buffer none of these operations writes keeps its contents. -/
theorem h1_keep {r : Ref sig .tc} (hr : r ∉ [main_cst_2, main_v21, main_v22, main_v23, main_v24]) :
    StableHlo.after (hostOps1 (F := Ideal)) V (Proc.devRef .tc r) = V (Proc.devRef .tc r) :=
  StableHlo.after_of_writes_sub (W := [main_cst_2, main_v21, main_v22, main_v23, main_v24]) _ V (by
    simp only [hostOps1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary]
    repeat' apply And.intro
    all_goals exact Finset.singleton_subset_iff.mpr (List.mem_toFinset.mpr (List.mem_map_of_mem (by decide)))) hr

/-- Layer 2: the messages summed at the targets. -/
theorem h3_v40 : (StableHlo.after (hostOps3 (F := Ideal)) V (Proc.devRef .tc main_v40) : T S80000x64 .f32) = agg (V (Proc.devRef .tc main_v37)) (colOf (V (Proc.devRef .tc main_v3))) := by
  after_results_simp; rfl

/-- Layer 2: the bias as a row. -/
theorem h3_v41 : (StableHlo.after (hostOps3 (F := Ideal)) V (Proc.devRef .tc main_v41) : T S1x64 .f32) = biasRow (V (Proc.devRef .tc main_arg9)) := by
  after_results_simp; rfl

/-- A buffer none of these operations writes keeps its contents. -/
theorem h3_keep {r : Ref sig .tc} (hr : r ∉ [main_cst_5, main_v38, main_v39, main_v40, main_v41]) :
    StableHlo.after (hostOps3 (F := Ideal)) V (Proc.devRef .tc r) = V (Proc.devRef .tc r) :=
  StableHlo.after_of_writes_sub (W := [main_cst_5, main_v38, main_v39, main_v40, main_v41]) _ V (by
    simp only [hostOps3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary]
    repeat' apply And.intro
    all_goals exact Finset.singleton_subset_iff.mpr (List.mem_toFinset.mpr (List.mem_map_of_mem (by decide)))) hr

/-- Layer 3: the messages summed at the targets. -/
theorem h5_v57 : (StableHlo.after (hostOps5 (F := Ideal)) V (Proc.devRef .tc main_v57) : T S80000x64 .f32) = agg (V (Proc.devRef .tc main_v54)) (colOf (V (Proc.devRef .tc main_v3))) := by
  after_results_simp; rfl

/-- Layer 3: the bias as a row. -/
theorem h5_v58 : (StableHlo.after (hostOps5 (F := Ideal)) V (Proc.devRef .tc main_v58) : T S1x64 .f32) = biasRow (V (Proc.devRef .tc main_arg12)) := by
  after_results_simp; rfl

/-- A buffer none of these operations writes keeps its contents. -/
theorem h5_keep {r : Ref sig .tc} (hr : r ∉ [main_cst_8, main_v55, main_v56, main_v57, main_v58]) :
    StableHlo.after (hostOps5 (F := Ideal)) V (Proc.devRef .tc r) = V (Proc.devRef .tc r) :=
  StableHlo.after_of_writes_sub (W := [main_cst_8, main_v55, main_v56, main_v57, main_v58]) _ V (by
    simp only [hostOps5, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary]
    repeat' apply And.intro
    all_goals exact Finset.singleton_subset_iff.mpr (List.mem_toFinset.mpr (List.mem_map_of_mem (by decide)))) hr

/-- Layer 4: the messages summed at the targets. -/
theorem h7_v74 : (StableHlo.after (hostOps7 (F := Ideal)) V (Proc.devRef .tc main_v74) : T S80000x64 .f32) = agg (V (Proc.devRef .tc main_v71)) (colOf (V (Proc.devRef .tc main_v3))) := by
  after_results_simp; rfl

/-- Layer 4: the bias as a row. -/
theorem h7_v75 : (StableHlo.after (hostOps7 (F := Ideal)) V (Proc.devRef .tc main_v75) : T S1x64 .f32) = biasRow (V (Proc.devRef .tc main_arg15)) := by
  after_results_simp; rfl

/-- A buffer none of these operations writes keeps its contents. -/
theorem h7_keep {r : Ref sig .tc} (hr : r ∉ [main_cst_11, main_v72, main_v73, main_v74, main_v75]) :
    StableHlo.after (hostOps7 (F := Ideal)) V (Proc.devRef .tc r) = V (Proc.devRef .tc r) :=
  StableHlo.after_of_writes_sub (W := [main_cst_11, main_v72, main_v73, main_v74, main_v75]) _ V (by
    simp only [hostOps7, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary]
    repeat' apply And.intro
    all_goals exact Finset.singleton_subset_iff.mpr (List.mem_toFinset.mpr (List.mem_map_of_mem (by decide)))) hr

end Cert.KernelIdeal.KerFold

end
-- ==== Proof.KerFoldHostB.lean ====
import proofs.«170515_j51196010168472_1_alg».proof.Proof.Gen.KernelIdeal.Launch
import proofs.«170515_j51196010168472_1_alg».proof.Proof.KerFoldDefs
import Idealize.ShloMosaic.Lib.StableHlo.Run

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (V : Valuation τ sig (Elt Ideal))

/-! ## The stretches before the message regions of layers 2 to 4 (gather and weight slices), from any contents `V` -/

/-- Layer 2: the node features gathered at the wrapped sources. -/
theorem h2_v32 : (StableHlo.after (hostOps2 (F := Ideal)) V (Proc.devRef .tc main_v32) : T S1280000x64 .f32) = gather64 (V (Proc.devRef .tc main_v25)) (wrapIdx (V (Proc.devRef .tc main_v1))) := by
  after_results_simp; rfl

/-- Layer 2: the first weight matrix. -/
theorem h2_v34 : (StableHlo.after (hostOps2 (F := Ideal)) V (Proc.devRef .tc main_v34) : T S64x64 .f32) = w0of64 (V (Proc.devRef .tc main_arg7)) := by
  after_results_simp; rfl

/-- Layer 2: the second weight matrix. -/
theorem h2_v36 : (StableHlo.after (hostOps2 (F := Ideal)) V (Proc.devRef .tc main_v36) : T S64x64 .f32) = w1of64 (V (Proc.devRef .tc main_arg7)) := by
  after_results_simp; rfl

/-- A buffer none of these operations writes keeps its contents. -/
theorem h2_keep {r : Ref sig .tc} (hr : r ∉ [main_c_3, main_v26, main_v27, main_c_4, main_v28, main_v29, main_v30, main_v31, main_v32, main_v33, main_v34, main_v35, main_v36]) :
    StableHlo.after (hostOps2 (F := Ideal)) V (Proc.devRef .tc r) = V (Proc.devRef .tc r) :=
  StableHlo.after_of_writes_sub (W := [main_c_3, main_v26, main_v27, main_c_4, main_v28, main_v29, main_v30, main_v31, main_v32, main_v33, main_v34, main_v35, main_v36]) _ V (by
    simp only [hostOps2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary]
    repeat' apply And.intro
    all_goals exact Finset.singleton_subset_iff.mpr (List.mem_toFinset.mpr (List.mem_map_of_mem (by decide)))) hr

/-- Layer 3: the node features gathered at the wrapped sources. -/
theorem h4_v49 : (StableHlo.after (hostOps4 (F := Ideal)) V (Proc.devRef .tc main_v49) : T S1280000x64 .f32) = gather64 (V (Proc.devRef .tc main_v42)) (wrapIdx (V (Proc.devRef .tc main_v1))) := by
  after_results_simp; rfl

/-- Layer 3: the first weight matrix. -/
theorem h4_v51 : (StableHlo.after (hostOps4 (F := Ideal)) V (Proc.devRef .tc main_v51) : T S64x64 .f32) = w0of64 (V (Proc.devRef .tc main_arg10)) := by
  after_results_simp; rfl

/-- Layer 3: the second weight matrix. -/
theorem h4_v53 : (StableHlo.after (hostOps4 (F := Ideal)) V (Proc.devRef .tc main_v53) : T S64x64 .f32) = w1of64 (V (Proc.devRef .tc main_arg10)) := by
  after_results_simp; rfl

/-- A buffer none of these operations writes keeps its contents. -/
theorem h4_keep {r : Ref sig .tc} (hr : r ∉ [main_c_6, main_v43, main_v44, main_c_7, main_v45, main_v46, main_v47, main_v48, main_v49, main_v50, main_v51, main_v52, main_v53]) :
    StableHlo.after (hostOps4 (F := Ideal)) V (Proc.devRef .tc r) = V (Proc.devRef .tc r) :=
  StableHlo.after_of_writes_sub (W := [main_c_6, main_v43, main_v44, main_c_7, main_v45, main_v46, main_v47, main_v48, main_v49, main_v50, main_v51, main_v52, main_v53]) _ V (by
    simp only [hostOps4, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary]
    repeat' apply And.intro
    all_goals exact Finset.singleton_subset_iff.mpr (List.mem_toFinset.mpr (List.mem_map_of_mem (by decide)))) hr

/-- Layer 4: the node features gathered at the wrapped sources. -/
theorem h6_v66 : (StableHlo.after (hostOps6 (F := Ideal)) V (Proc.devRef .tc main_v66) : T S1280000x64 .f32) = gather64 (V (Proc.devRef .tc main_v59)) (wrapIdx (V (Proc.devRef .tc main_v1))) := by
  after_results_simp; rfl

/-- Layer 4: the first weight matrix. -/
theorem h6_v68 : (StableHlo.after (hostOps6 (F := Ideal)) V (Proc.devRef .tc main_v68) : T S64x64 .f32) = w0of64 (V (Proc.devRef .tc main_arg13)) := by
  after_results_simp; rfl

/-- Layer 4: the second weight matrix. -/
theorem h6_v70 : (StableHlo.after (hostOps6 (F := Ideal)) V (Proc.devRef .tc main_v70) : T S64x64 .f32) = w1of64 (V (Proc.devRef .tc main_arg13)) := by
  after_results_simp; rfl

/-- A buffer none of these operations writes keeps its contents. -/
theorem h6_keep {r : Ref sig .tc} (hr : r ∉ [main_c_9, main_v60, main_v61, main_c_10, main_v62, main_v63, main_v64, main_v65, main_v66, main_v67, main_v68, main_v69, main_v70]) :
    StableHlo.after (hostOps6 (F := Ideal)) V (Proc.devRef .tc r) = V (Proc.devRef .tc r) :=
  StableHlo.after_of_writes_sub (W := [main_c_9, main_v60, main_v61, main_c_10, main_v62, main_v63, main_v64, main_v65, main_v66, main_v67, main_v68, main_v69, main_v70]) _ V (by
    simp only [hostOps6, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary]
    repeat' apply And.intro
    all_goals exact Finset.singleton_subset_iff.mpr (List.mem_toFinset.mpr (List.mem_map_of_mem (by decide)))) hr

end Cert.KernelIdeal.KerFold

end
-- ==== Proof.KerFoldHost0.lean ====
import proofs.«170515_j51196010168472_1_alg».proof.Proof.Gen.KernelIdeal.Launch
import proofs.«170515_j51196010168472_1_alg».proof.Proof.KerFoldDefs
import Idealize.ShloMosaic.Lib.StableHlo.Run

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (V : Valuation τ sig (Elt Ideal))

/-! ## The first stretch of host operations, from any contents `V` -/

/-- The sources: row 0 of the edge index. -/
theorem h0_v1 : (StableHlo.after (hostOps0 (F := Ideal)) V (Proc.devRef .tc main_v1) : T S1280000 .i32) = row0 (V (Proc.devRef .tc main_arg2)) := by
  after_results_simp; rfl

/-- The targets: row 1 of the edge index. -/
theorem h0_v3 : (StableHlo.after (hostOps0 (F := Ideal)) V (Proc.devRef .tc main_v3) : T S1280000 .i32) = row1 (V (Proc.devRef .tc main_arg2)) := by
  after_results_simp; rfl

/-- The in-degree column. -/
theorem h0_v8 : (StableHlo.after (hostOps0 (F := Ideal)) V (Proc.devRef .tc main_v8) : T S80000x1 .f32) = degCol (V (Proc.devRef .tc main_arg2)) := by
  after_results_simp; rfl

/-- The input features gathered at the wrapped sources. -/
theorem h0_v15 : (StableHlo.after (hostOps0 (F := Ideal)) V (Proc.devRef .tc main_v15) : T S1280000x3 .f32) = gather3 (V (Proc.devRef .tc main_arg0)) (srcIdx (V (Proc.devRef .tc main_arg2))) := by
  after_results_simp; rfl

/-- The first weight matrix of layer 1. -/
theorem h0_v17 : (StableHlo.after (hostOps0 (F := Ideal)) V (Proc.devRef .tc main_v17) : T S3x64 .f32) = w0of3 (V (Proc.devRef .tc main_arg4)) := by
  after_results_simp; rfl

/-- The second weight matrix of layer 1. -/
theorem h0_v19 : (StableHlo.after (hostOps0 (F := Ideal)) V (Proc.devRef .tc main_v19) : T S3x64 .f32) = w1of3 (V (Proc.devRef .tc main_arg4)) := by
  after_results_simp; rfl

/-- A buffer none of these operations writes keeps its contents. -/
theorem h0_keep {r : Ref sig .tc} (hr : r ∉ [main_v0, main_v1, main_v2, main_v3, main_cst, main_v4, main_cst_0, main_v5, main_v6, main_v7, main_v8, main_c, main_v9, main_v10, main_c_1, main_v11, main_v12, main_v13, main_v14, main_v15, main_v16, main_v17, main_v18, main_v19]) :
    StableHlo.after (hostOps0 (F := Ideal)) V (Proc.devRef .tc r) = V (Proc.devRef .tc r) :=
  StableHlo.after_of_writes_sub (W := [main_v0, main_v1, main_v2, main_v3, main_cst, main_v4, main_cst_0, main_v5, main_v6, main_v7, main_v8, main_c, main_v9, main_v10, main_c_1, main_v11, main_v12, main_v13, main_v14, main_v15, main_v16, main_v17, main_v18, main_v19]) _ V (by
    simp only [hostOps0, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary]
    repeat' apply And.intro
    all_goals exact Finset.singleton_subset_iff.mpr (List.mem_toFinset.mpr (List.mem_map_of_mem (by decide)))) hr

end Cert.KernelIdeal.KerFold

end
-- ==== Proof.KerFold1.lean ====
import proofs.«170515_j51196010168472_1_alg».proof.Proof.Gen.KernelIdeal.Frame
import proofs.«170515_j51196010168472_1_alg».proof.Proof.KerFoldDefs
import proofs.«170515_j51196010168472_1_alg».proof.Proof.KerFoldHost0
import proofs.«170515_j51196010168472_1_alg».proof.Proof.KerFoldHostA
import Idealize.ShloMosaic.PureOps.Ideal

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (m : (ℓ : Loc nD τ sig) → Buf (Elt Ideal) ℓ) (ρ : Dev nD → PrngReg) (c : Dev nD)

/-! ### The contents at boundary 0 -/

theorem at0_arg0 : Gen.W0 (F := Ideal) m ρ c (Proc.devRef .tc main_arg0) = (m ((c.tc : Thread nD τ).loc main_arg0)) :=
  rfl

theorem at0_arg1 : Gen.W0 (F := Ideal) m ρ c (Proc.devRef .tc main_arg1) = (m ((c.tc : Thread nD τ).loc main_arg1)) :=
  rfl

theorem at0_arg2 : Gen.W0 (F := Ideal) m ρ c (Proc.devRef .tc main_arg2) = (m ((c.tc : Thread nD τ).loc main_arg2)) :=
  rfl

theorem at0_arg3 : Gen.W0 (F := Ideal) m ρ c (Proc.devRef .tc main_arg3) = (m ((c.tc : Thread nD τ).loc main_arg3)) :=
  rfl

theorem at0_arg4 : Gen.W0 (F := Ideal) m ρ c (Proc.devRef .tc main_arg4) = (m ((c.tc : Thread nD τ).loc main_arg4)) :=
  rfl

theorem at0_arg5 : Gen.W0 (F := Ideal) m ρ c (Proc.devRef .tc main_arg5) = (m ((c.tc : Thread nD τ).loc main_arg5)) :=
  rfl

theorem at0_arg6 : Gen.W0 (F := Ideal) m ρ c (Proc.devRef .tc main_arg6) = (m ((c.tc : Thread nD τ).loc main_arg6)) :=
  rfl

theorem at0_arg7 : Gen.W0 (F := Ideal) m ρ c (Proc.devRef .tc main_arg7) = (m ((c.tc : Thread nD τ).loc main_arg7)) :=
  rfl

theorem at0_arg8 : Gen.W0 (F := Ideal) m ρ c (Proc.devRef .tc main_arg8) = (m ((c.tc : Thread nD τ).loc main_arg8)) :=
  rfl

theorem at0_arg9 : Gen.W0 (F := Ideal) m ρ c (Proc.devRef .tc main_arg9) = (m ((c.tc : Thread nD τ).loc main_arg9)) :=
  rfl

theorem at0_arg10 : Gen.W0 (F := Ideal) m ρ c (Proc.devRef .tc main_arg10) = (m ((c.tc : Thread nD τ).loc main_arg10)) :=
  rfl

theorem at0_arg11 : Gen.W0 (F := Ideal) m ρ c (Proc.devRef .tc main_arg11) = (m ((c.tc : Thread nD τ).loc main_arg11)) :=
  rfl

theorem at0_arg12 : Gen.W0 (F := Ideal) m ρ c (Proc.devRef .tc main_arg12) = (m ((c.tc : Thread nD τ).loc main_arg12)) :=
  rfl

theorem at0_arg13 : Gen.W0 (F := Ideal) m ρ c (Proc.devRef .tc main_arg13) = (m ((c.tc : Thread nD τ).loc main_arg13)) :=
  rfl

theorem at0_arg14 : Gen.W0 (F := Ideal) m ρ c (Proc.devRef .tc main_arg14) = (m ((c.tc : Thread nD τ).loc main_arg14)) :=
  rfl

theorem at0_arg15 : Gen.W0 (F := Ideal) m ρ c (Proc.devRef .tc main_arg15) = (m ((c.tc : Thread nD τ).loc main_arg15)) :=
  rfl

theorem at0_arg16 : Gen.W0 (F := Ideal) m ρ c (Proc.devRef .tc main_arg16) = (m ((c.tc : Thread nD τ).loc main_arg16)) :=
  rfl

theorem at0_arg17 : Gen.W0 (F := Ideal) m ρ c (Proc.devRef .tc main_arg17) = (m ((c.tc : Thread nD τ).loc main_arg17)) :=
  rfl

/-! ### The contents at boundary 1 -/

theorem at1_arg0 : Gen.W1 (F := Ideal) m ρ c (Proc.devRef .tc main_arg0) = (m ((c.tc : Thread nD τ).loc main_arg0)) :=
  (h0_keep (Gen.W0 (F := Ideal) m ρ c) (r := main_arg0) (by decide)).trans (at0_arg0 m ρ c)

theorem at1_arg1 : Gen.W1 (F := Ideal) m ρ c (Proc.devRef .tc main_arg1) = (m ((c.tc : Thread nD τ).loc main_arg1)) :=
  (h0_keep (Gen.W0 (F := Ideal) m ρ c) (r := main_arg1) (by decide)).trans (at0_arg1 m ρ c)

theorem at1_arg3 : Gen.W1 (F := Ideal) m ρ c (Proc.devRef .tc main_arg3) = (m ((c.tc : Thread nD τ).loc main_arg3)) :=
  (h0_keep (Gen.W0 (F := Ideal) m ρ c) (r := main_arg3) (by decide)).trans (at0_arg3 m ρ c)

theorem at1_arg5 : Gen.W1 (F := Ideal) m ρ c (Proc.devRef .tc main_arg5) = (m ((c.tc : Thread nD τ).loc main_arg5)) :=
  (h0_keep (Gen.W0 (F := Ideal) m ρ c) (r := main_arg5) (by decide)).trans (at0_arg5 m ρ c)

theorem at1_arg6 : Gen.W1 (F := Ideal) m ρ c (Proc.devRef .tc main_arg6) = (m ((c.tc : Thread nD τ).loc main_arg6)) :=
  (h0_keep (Gen.W0 (F := Ideal) m ρ c) (r := main_arg6) (by decide)).trans (at0_arg6 m ρ c)

theorem at1_arg7 : Gen.W1 (F := Ideal) m ρ c (Proc.devRef .tc main_arg7) = (m ((c.tc : Thread nD τ).loc main_arg7)) :=
  (h0_keep (Gen.W0 (F := Ideal) m ρ c) (r := main_arg7) (by decide)).trans (at0_arg7 m ρ c)

theorem at1_arg8 : Gen.W1 (F := Ideal) m ρ c (Proc.devRef .tc main_arg8) = (m ((c.tc : Thread nD τ).loc main_arg8)) :=
  (h0_keep (Gen.W0 (F := Ideal) m ρ c) (r := main_arg8) (by decide)).trans (at0_arg8 m ρ c)

theorem at1_arg9 : Gen.W1 (F := Ideal) m ρ c (Proc.devRef .tc main_arg9) = (m ((c.tc : Thread nD τ).loc main_arg9)) :=
  (h0_keep (Gen.W0 (F := Ideal) m ρ c) (r := main_arg9) (by decide)).trans (at0_arg9 m ρ c)

theorem at1_arg10 : Gen.W1 (F := Ideal) m ρ c (Proc.devRef .tc main_arg10) = (m ((c.tc : Thread nD τ).loc main_arg10)) :=
  (h0_keep (Gen.W0 (F := Ideal) m ρ c) (r := main_arg10) (by decide)).trans (at0_arg10 m ρ c)

theorem at1_arg11 : Gen.W1 (F := Ideal) m ρ c (Proc.devRef .tc main_arg11) = (m ((c.tc : Thread nD τ).loc main_arg11)) :=
  (h0_keep (Gen.W0 (F := Ideal) m ρ c) (r := main_arg11) (by decide)).trans (at0_arg11 m ρ c)

theorem at1_arg12 : Gen.W1 (F := Ideal) m ρ c (Proc.devRef .tc main_arg12) = (m ((c.tc : Thread nD τ).loc main_arg12)) :=
  (h0_keep (Gen.W0 (F := Ideal) m ρ c) (r := main_arg12) (by decide)).trans (at0_arg12 m ρ c)

theorem at1_arg13 : Gen.W1 (F := Ideal) m ρ c (Proc.devRef .tc main_arg13) = (m ((c.tc : Thread nD τ).loc main_arg13)) :=
  (h0_keep (Gen.W0 (F := Ideal) m ρ c) (r := main_arg13) (by decide)).trans (at0_arg13 m ρ c)

theorem at1_arg14 : Gen.W1 (F := Ideal) m ρ c (Proc.devRef .tc main_arg14) = (m ((c.tc : Thread nD τ).loc main_arg14)) :=
  (h0_keep (Gen.W0 (F := Ideal) m ρ c) (r := main_arg14) (by decide)).trans (at0_arg14 m ρ c)

theorem at1_arg15 : Gen.W1 (F := Ideal) m ρ c (Proc.devRef .tc main_arg15) = (m ((c.tc : Thread nD τ).loc main_arg15)) :=
  (h0_keep (Gen.W0 (F := Ideal) m ρ c) (r := main_arg15) (by decide)).trans (at0_arg15 m ρ c)

theorem at1_arg16 : Gen.W1 (F := Ideal) m ρ c (Proc.devRef .tc main_arg16) = (m ((c.tc : Thread nD τ).loc main_arg16)) :=
  (h0_keep (Gen.W0 (F := Ideal) m ρ c) (r := main_arg16) (by decide)).trans (at0_arg16 m ρ c)

theorem at1_arg17 : Gen.W1 (F := Ideal) m ρ c (Proc.devRef .tc main_arg17) = (m ((c.tc : Thread nD τ).loc main_arg17)) :=
  (h0_keep (Gen.W0 (F := Ideal) m ρ c) (r := main_arg17) (by decide)).trans (at0_arg17 m ρ c)

theorem at1_v1 : Gen.W1 (F := Ideal) m ρ c (Proc.devRef .tc main_v1) = (row0 (m ((c.tc : Thread nD τ).loc main_arg2))) :=
  (h0_v1 (Gen.W0 (F := Ideal) m ρ c)).trans (by rw [at0_arg2 m ρ c])

theorem at1_v3 : Gen.W1 (F := Ideal) m ρ c (Proc.devRef .tc main_v3) = (row1 (m ((c.tc : Thread nD τ).loc main_arg2))) :=
  (h0_v3 (Gen.W0 (F := Ideal) m ρ c)).trans (by rw [at0_arg2 m ρ c])

theorem at1_v8 : Gen.W1 (F := Ideal) m ρ c (Proc.devRef .tc main_v8) = (degCol (m ((c.tc : Thread nD τ).loc main_arg2))) :=
  (h0_v8 (Gen.W0 (F := Ideal) m ρ c)).trans (by rw [at0_arg2 m ρ c])

theorem at1_v15 : Gen.W1 (F := Ideal) m ρ c (Proc.devRef .tc main_v15) = (gather3 (m ((c.tc : Thread nD τ).loc main_arg0)) (srcIdx (m ((c.tc : Thread nD τ).loc main_arg2)))) :=
  (h0_v15 (Gen.W0 (F := Ideal) m ρ c)).trans (by rw [at0_arg0 m ρ c, at0_arg2 m ρ c])

theorem at1_v17 : Gen.W1 (F := Ideal) m ρ c (Proc.devRef .tc main_v17) = (w0of3 (m ((c.tc : Thread nD τ).loc main_arg4))) :=
  (h0_v17 (Gen.W0 (F := Ideal) m ρ c)).trans (by rw [at0_arg4 m ρ c])

theorem at1_v19 : Gen.W1 (F := Ideal) m ρ c (Proc.devRef .tc main_v19) = (w1of3 (m ((c.tc : Thread nD τ).loc main_arg4))) :=
  (h0_v19 (Gen.W0 (F := Ideal) m ρ c)).trans (by rw [at0_arg4 m ρ c])

/-! ### The contents at boundary 2 -/

theorem at2_arg0 : Gen.W2 (F := Ideal) m ρ c (Proc.devRef .tc main_arg0) = (m ((c.tc : Thread nD τ).loc main_arg0)) :=
  (Gen.W2_of_ne m ρ c main_arg0 (by decide)).trans (at1_arg0 m ρ c)

theorem at2_arg1 : Gen.W2 (F := Ideal) m ρ c (Proc.devRef .tc main_arg1) = (m ((c.tc : Thread nD τ).loc main_arg1)) :=
  ((Gen.W2_arr m ρ c 1).trans (((Gen.dat0 (Gen.V1 m ρ) c).arrAt_in 1 rfl _).trans (Gen.A_eq0 (Gen.V1 m ρ) c 1))).trans (at1_arg1 m ρ c)

theorem at2_arg3 : Gen.W2 (F := Ideal) m ρ c (Proc.devRef .tc main_arg3) = (m ((c.tc : Thread nD τ).loc main_arg3)) :=
  (Gen.W2_of_ne m ρ c main_arg3 (by decide)).trans (at1_arg3 m ρ c)

theorem at2_arg5 : Gen.W2 (F := Ideal) m ρ c (Proc.devRef .tc main_arg5) = (m ((c.tc : Thread nD τ).loc main_arg5)) :=
  (Gen.W2_of_ne m ρ c main_arg5 (by decide)).trans (at1_arg5 m ρ c)

theorem at2_arg6 : Gen.W2 (F := Ideal) m ρ c (Proc.devRef .tc main_arg6) = (m ((c.tc : Thread nD τ).loc main_arg6)) :=
  (Gen.W2_of_ne m ρ c main_arg6 (by decide)).trans (at1_arg6 m ρ c)

theorem at2_arg7 : Gen.W2 (F := Ideal) m ρ c (Proc.devRef .tc main_arg7) = (m ((c.tc : Thread nD τ).loc main_arg7)) :=
  (Gen.W2_of_ne m ρ c main_arg7 (by decide)).trans (at1_arg7 m ρ c)

theorem at2_arg8 : Gen.W2 (F := Ideal) m ρ c (Proc.devRef .tc main_arg8) = (m ((c.tc : Thread nD τ).loc main_arg8)) :=
  (Gen.W2_of_ne m ρ c main_arg8 (by decide)).trans (at1_arg8 m ρ c)

theorem at2_arg9 : Gen.W2 (F := Ideal) m ρ c (Proc.devRef .tc main_arg9) = (m ((c.tc : Thread nD τ).loc main_arg9)) :=
  (Gen.W2_of_ne m ρ c main_arg9 (by decide)).trans (at1_arg9 m ρ c)

theorem at2_arg10 : Gen.W2 (F := Ideal) m ρ c (Proc.devRef .tc main_arg10) = (m ((c.tc : Thread nD τ).loc main_arg10)) :=
  (Gen.W2_of_ne m ρ c main_arg10 (by decide)).trans (at1_arg10 m ρ c)

theorem at2_arg11 : Gen.W2 (F := Ideal) m ρ c (Proc.devRef .tc main_arg11) = (m ((c.tc : Thread nD τ).loc main_arg11)) :=
  (Gen.W2_of_ne m ρ c main_arg11 (by decide)).trans (at1_arg11 m ρ c)

theorem at2_arg12 : Gen.W2 (F := Ideal) m ρ c (Proc.devRef .tc main_arg12) = (m ((c.tc : Thread nD τ).loc main_arg12)) :=
  (Gen.W2_of_ne m ρ c main_arg12 (by decide)).trans (at1_arg12 m ρ c)

theorem at2_arg13 : Gen.W2 (F := Ideal) m ρ c (Proc.devRef .tc main_arg13) = (m ((c.tc : Thread nD τ).loc main_arg13)) :=
  (Gen.W2_of_ne m ρ c main_arg13 (by decide)).trans (at1_arg13 m ρ c)

theorem at2_arg14 : Gen.W2 (F := Ideal) m ρ c (Proc.devRef .tc main_arg14) = (m ((c.tc : Thread nD τ).loc main_arg14)) :=
  (Gen.W2_of_ne m ρ c main_arg14 (by decide)).trans (at1_arg14 m ρ c)

theorem at2_arg15 : Gen.W2 (F := Ideal) m ρ c (Proc.devRef .tc main_arg15) = (m ((c.tc : Thread nD τ).loc main_arg15)) :=
  (Gen.W2_of_ne m ρ c main_arg15 (by decide)).trans (at1_arg15 m ρ c)

theorem at2_arg16 : Gen.W2 (F := Ideal) m ρ c (Proc.devRef .tc main_arg16) = (m ((c.tc : Thread nD τ).loc main_arg16)) :=
  (Gen.W2_of_ne m ρ c main_arg16 (by decide)).trans (at1_arg16 m ρ c)

theorem at2_arg17 : Gen.W2 (F := Ideal) m ρ c (Proc.devRef .tc main_arg17) = (m ((c.tc : Thread nD τ).loc main_arg17)) :=
  (Gen.W2_of_ne m ρ c main_arg17 (by decide)).trans (at1_arg17 m ρ c)

theorem at2_v1 : Gen.W2 (F := Ideal) m ρ c (Proc.devRef .tc main_v1) = (row0 (m ((c.tc : Thread nD τ).loc main_arg2))) :=
  (Gen.W2_of_ne m ρ c main_v1 (by decide)).trans (at1_v1 m ρ c)

theorem at2_v3 : Gen.W2 (F := Ideal) m ρ c (Proc.devRef .tc main_v3) = (row1 (m ((c.tc : Thread nD τ).loc main_arg2))) :=
  (Gen.W2_of_ne m ρ c main_v3 (by decide)).trans (at1_v3 m ρ c)

theorem at2_v8 : Gen.W2 (F := Ideal) m ρ c (Proc.devRef .tc main_v8) = (degCol (m ((c.tc : Thread nD τ).loc main_arg2))) :=
  (Gen.W2_of_ne m ρ c main_v8 (by decide)).trans (at1_v8 m ρ c)

theorem at2_v20 : Gen.W2 (F := Ideal) m ρ c (Proc.devRef .tc main_v20) = ((Gen.dat0 (Gen.V1 m ρ) c).arrAt 4 cfg0.N) :=
  Gen.W2_arr m ρ c 4

/-! ### The contents at boundary 3 -/

theorem at3_arg0 : Gen.W3 (F := Ideal) m ρ c (Proc.devRef .tc main_arg0) = (m ((c.tc : Thread nD τ).loc main_arg0)) :=
  (h1_keep (Gen.W2 (F := Ideal) m ρ c) (r := main_arg0) (by decide)).trans (at2_arg0 m ρ c)

theorem at3_arg1 : Gen.W3 (F := Ideal) m ρ c (Proc.devRef .tc main_arg1) = (m ((c.tc : Thread nD τ).loc main_arg1)) :=
  (h1_keep (Gen.W2 (F := Ideal) m ρ c) (r := main_arg1) (by decide)).trans (at2_arg1 m ρ c)

theorem at3_arg3 : Gen.W3 (F := Ideal) m ρ c (Proc.devRef .tc main_arg3) = (m ((c.tc : Thread nD τ).loc main_arg3)) :=
  (h1_keep (Gen.W2 (F := Ideal) m ρ c) (r := main_arg3) (by decide)).trans (at2_arg3 m ρ c)

theorem at3_arg5 : Gen.W3 (F := Ideal) m ρ c (Proc.devRef .tc main_arg5) = (m ((c.tc : Thread nD τ).loc main_arg5)) :=
  (h1_keep (Gen.W2 (F := Ideal) m ρ c) (r := main_arg5) (by decide)).trans (at2_arg5 m ρ c)

theorem at3_arg7 : Gen.W3 (F := Ideal) m ρ c (Proc.devRef .tc main_arg7) = (m ((c.tc : Thread nD τ).loc main_arg7)) :=
  (h1_keep (Gen.W2 (F := Ideal) m ρ c) (r := main_arg7) (by decide)).trans (at2_arg7 m ρ c)

theorem at3_arg8 : Gen.W3 (F := Ideal) m ρ c (Proc.devRef .tc main_arg8) = (m ((c.tc : Thread nD τ).loc main_arg8)) :=
  (h1_keep (Gen.W2 (F := Ideal) m ρ c) (r := main_arg8) (by decide)).trans (at2_arg8 m ρ c)

theorem at3_arg9 : Gen.W3 (F := Ideal) m ρ c (Proc.devRef .tc main_arg9) = (m ((c.tc : Thread nD τ).loc main_arg9)) :=
  (h1_keep (Gen.W2 (F := Ideal) m ρ c) (r := main_arg9) (by decide)).trans (at2_arg9 m ρ c)

theorem at3_arg10 : Gen.W3 (F := Ideal) m ρ c (Proc.devRef .tc main_arg10) = (m ((c.tc : Thread nD τ).loc main_arg10)) :=
  (h1_keep (Gen.W2 (F := Ideal) m ρ c) (r := main_arg10) (by decide)).trans (at2_arg10 m ρ c)

theorem at3_arg11 : Gen.W3 (F := Ideal) m ρ c (Proc.devRef .tc main_arg11) = (m ((c.tc : Thread nD τ).loc main_arg11)) :=
  (h1_keep (Gen.W2 (F := Ideal) m ρ c) (r := main_arg11) (by decide)).trans (at2_arg11 m ρ c)

theorem at3_arg12 : Gen.W3 (F := Ideal) m ρ c (Proc.devRef .tc main_arg12) = (m ((c.tc : Thread nD τ).loc main_arg12)) :=
  (h1_keep (Gen.W2 (F := Ideal) m ρ c) (r := main_arg12) (by decide)).trans (at2_arg12 m ρ c)

theorem at3_arg13 : Gen.W3 (F := Ideal) m ρ c (Proc.devRef .tc main_arg13) = (m ((c.tc : Thread nD τ).loc main_arg13)) :=
  (h1_keep (Gen.W2 (F := Ideal) m ρ c) (r := main_arg13) (by decide)).trans (at2_arg13 m ρ c)

theorem at3_arg14 : Gen.W3 (F := Ideal) m ρ c (Proc.devRef .tc main_arg14) = (m ((c.tc : Thread nD τ).loc main_arg14)) :=
  (h1_keep (Gen.W2 (F := Ideal) m ρ c) (r := main_arg14) (by decide)).trans (at2_arg14 m ρ c)

theorem at3_arg15 : Gen.W3 (F := Ideal) m ρ c (Proc.devRef .tc main_arg15) = (m ((c.tc : Thread nD τ).loc main_arg15)) :=
  (h1_keep (Gen.W2 (F := Ideal) m ρ c) (r := main_arg15) (by decide)).trans (at2_arg15 m ρ c)

theorem at3_arg16 : Gen.W3 (F := Ideal) m ρ c (Proc.devRef .tc main_arg16) = (m ((c.tc : Thread nD τ).loc main_arg16)) :=
  (h1_keep (Gen.W2 (F := Ideal) m ρ c) (r := main_arg16) (by decide)).trans (at2_arg16 m ρ c)

theorem at3_arg17 : Gen.W3 (F := Ideal) m ρ c (Proc.devRef .tc main_arg17) = (m ((c.tc : Thread nD τ).loc main_arg17)) :=
  (h1_keep (Gen.W2 (F := Ideal) m ρ c) (r := main_arg17) (by decide)).trans (at2_arg17 m ρ c)

theorem at3_v1 : Gen.W3 (F := Ideal) m ρ c (Proc.devRef .tc main_v1) = (row0 (m ((c.tc : Thread nD τ).loc main_arg2))) :=
  (h1_keep (Gen.W2 (F := Ideal) m ρ c) (r := main_v1) (by decide)).trans (at2_v1 m ρ c)

theorem at3_v3 : Gen.W3 (F := Ideal) m ρ c (Proc.devRef .tc main_v3) = (row1 (m ((c.tc : Thread nD τ).loc main_arg2))) :=
  (h1_keep (Gen.W2 (F := Ideal) m ρ c) (r := main_v3) (by decide)).trans (at2_v3 m ρ c)

theorem at3_v8 : Gen.W3 (F := Ideal) m ρ c (Proc.devRef .tc main_v8) = (degCol (m ((c.tc : Thread nD τ).loc main_arg2))) :=
  (h1_keep (Gen.W2 (F := Ideal) m ρ c) (r := main_v8) (by decide)).trans (at2_v8 m ρ c)

theorem at3_v23 : Gen.W3 (F := Ideal) m ρ c (Proc.devRef .tc main_v23) = (agg ((Gen.dat0 (Gen.V1 m ρ) c).arrAt 4 cfg0.N) (dstIdx (m ((c.tc : Thread nD τ).loc main_arg2)))) :=
  (h1_v23 (Gen.W2 (F := Ideal) m ρ c)).trans (by rw [at2_v20 m ρ c, at2_v3 m ρ c]; rfl)

theorem at3_v24 : Gen.W3 (F := Ideal) m ρ c (Proc.devRef .tc main_v24) = (biasRow (m ((c.tc : Thread nD τ).loc main_arg6))) :=
  (h1_v24 (Gen.W2 (F := Ideal) m ρ c)).trans (by rw [at2_arg6 m ρ c])

/-! ### The contents at boundary 4 -/

theorem at4_arg1 : Gen.W4 (F := Ideal) m ρ c (Proc.devRef .tc main_arg1) = (m ((c.tc : Thread nD τ).loc main_arg1)) :=
  (Gen.W4_of_ne m ρ c main_arg1 (by decide)).trans (at3_arg1 m ρ c)

theorem at4_arg3 : Gen.W4 (F := Ideal) m ρ c (Proc.devRef .tc main_arg3) = (m ((c.tc : Thread nD τ).loc main_arg3)) :=
  (Gen.W4_of_ne m ρ c main_arg3 (by decide)).trans (at3_arg3 m ρ c)

theorem at4_arg7 : Gen.W4 (F := Ideal) m ρ c (Proc.devRef .tc main_arg7) = (m ((c.tc : Thread nD τ).loc main_arg7)) :=
  (Gen.W4_of_ne m ρ c main_arg7 (by decide)).trans (at3_arg7 m ρ c)

theorem at4_arg8 : Gen.W4 (F := Ideal) m ρ c (Proc.devRef .tc main_arg8) = (m ((c.tc : Thread nD τ).loc main_arg8)) :=
  (Gen.W4_of_ne m ρ c main_arg8 (by decide)).trans (at3_arg8 m ρ c)

theorem at4_arg9 : Gen.W4 (F := Ideal) m ρ c (Proc.devRef .tc main_arg9) = (m ((c.tc : Thread nD τ).loc main_arg9)) :=
  (Gen.W4_of_ne m ρ c main_arg9 (by decide)).trans (at3_arg9 m ρ c)

theorem at4_arg10 : Gen.W4 (F := Ideal) m ρ c (Proc.devRef .tc main_arg10) = (m ((c.tc : Thread nD τ).loc main_arg10)) :=
  (Gen.W4_of_ne m ρ c main_arg10 (by decide)).trans (at3_arg10 m ρ c)

theorem at4_arg11 : Gen.W4 (F := Ideal) m ρ c (Proc.devRef .tc main_arg11) = (m ((c.tc : Thread nD τ).loc main_arg11)) :=
  (Gen.W4_of_ne m ρ c main_arg11 (by decide)).trans (at3_arg11 m ρ c)

theorem at4_arg12 : Gen.W4 (F := Ideal) m ρ c (Proc.devRef .tc main_arg12) = (m ((c.tc : Thread nD τ).loc main_arg12)) :=
  (Gen.W4_of_ne m ρ c main_arg12 (by decide)).trans (at3_arg12 m ρ c)

theorem at4_arg13 : Gen.W4 (F := Ideal) m ρ c (Proc.devRef .tc main_arg13) = (m ((c.tc : Thread nD τ).loc main_arg13)) :=
  (Gen.W4_of_ne m ρ c main_arg13 (by decide)).trans (at3_arg13 m ρ c)

theorem at4_arg14 : Gen.W4 (F := Ideal) m ρ c (Proc.devRef .tc main_arg14) = (m ((c.tc : Thread nD τ).loc main_arg14)) :=
  (Gen.W4_of_ne m ρ c main_arg14 (by decide)).trans (at3_arg14 m ρ c)

theorem at4_arg15 : Gen.W4 (F := Ideal) m ρ c (Proc.devRef .tc main_arg15) = (m ((c.tc : Thread nD τ).loc main_arg15)) :=
  (Gen.W4_of_ne m ρ c main_arg15 (by decide)).trans (at3_arg15 m ρ c)

theorem at4_arg16 : Gen.W4 (F := Ideal) m ρ c (Proc.devRef .tc main_arg16) = (m ((c.tc : Thread nD τ).loc main_arg16)) :=
  (Gen.W4_of_ne m ρ c main_arg16 (by decide)).trans (at3_arg16 m ρ c)

theorem at4_arg17 : Gen.W4 (F := Ideal) m ρ c (Proc.devRef .tc main_arg17) = (m ((c.tc : Thread nD τ).loc main_arg17)) :=
  (Gen.W4_of_ne m ρ c main_arg17 (by decide)).trans (at3_arg17 m ρ c)

theorem at4_v1 : Gen.W4 (F := Ideal) m ρ c (Proc.devRef .tc main_v1) = (row0 (m ((c.tc : Thread nD τ).loc main_arg2))) :=
  (Gen.W4_of_ne m ρ c main_v1 (by decide)).trans (at3_v1 m ρ c)

theorem at4_v3 : Gen.W4 (F := Ideal) m ρ c (Proc.devRef .tc main_v3) = (row1 (m ((c.tc : Thread nD τ).loc main_arg2))) :=
  (Gen.W4_of_ne m ρ c main_v3 (by decide)).trans (at3_v3 m ρ c)

theorem at4_v8 : Gen.W4 (F := Ideal) m ρ c (Proc.devRef .tc main_v8) = (degCol (m ((c.tc : Thread nD τ).loc main_arg2))) :=
  ((Gen.W4_arr m ρ c 1).trans (((Gen.dat1 (Gen.V3 m ρ) c).arrAt_in 1 rfl _).trans (Gen.A_eq1 (Gen.V3 m ρ) c 1))).trans (at3_v8 m ρ c)

theorem at4_v25 : Gen.W4 (F := Ideal) m ρ c (Proc.devRef .tc main_v25) = ((Gen.dat1 (Gen.V3 m ρ) c).arrAt 5 cfg1.N) :=
  Gen.W4_arr m ρ c 5

/-! ## The regions' entry contents of layer 1 -/

/-- Region 0, input window 0: its array's contents when the region is entered. -/
theorem reg0_w0 : Gen.V1 (F := Ideal) m ρ c (Pipeline.arrRef spec0 0) = (gather3 (m ((c.tc : Thread nD τ).loc main_arg0)) (srcIdx (m ((c.tc : Thread nD τ).loc main_arg2)))) :=
  at1_v15 m ρ c

/-- Region 0, input window 1: its array's contents when the region is entered. -/
theorem reg0_w1 : Gen.V1 (F := Ideal) m ρ c (Pipeline.arrRef spec0 1) = (m ((c.tc : Thread nD τ).loc main_arg1)) :=
  at1_arg1 m ρ c

/-- Region 0, input window 2: its array's contents when the region is entered. -/
theorem reg0_w2 : Gen.V1 (F := Ideal) m ρ c (Pipeline.arrRef spec0 2) = (w0of3 (m ((c.tc : Thread nD τ).loc main_arg4))) :=
  at1_v17 m ρ c

/-- Region 0, input window 3: its array's contents when the region is entered. -/
theorem reg0_w3 : Gen.V1 (F := Ideal) m ρ c (Pipeline.arrRef spec0 3) = (w1of3 (m ((c.tc : Thread nD τ).loc main_arg4))) :=
  at1_v19 m ρ c

/-- Region 1, input window 0: its array's contents when the region is entered. -/
theorem reg1_w0 : Gen.V3 (F := Ideal) m ρ c (Pipeline.arrRef spec1 0) = (agg ((Gen.dat0 (Gen.V1 m ρ) c).arrAt 4 cfg0.N) (dstIdx (m ((c.tc : Thread nD τ).loc main_arg2)))) :=
  at3_v23 m ρ c

/-- Region 1, input window 1: its array's contents when the region is entered. -/
theorem reg1_w1 : Gen.V3 (F := Ideal) m ρ c (Pipeline.arrRef spec1 1) = (degCol (m ((c.tc : Thread nD τ).loc main_arg2))) :=
  at3_v8 m ρ c

/-- Region 1, input window 2: its array's contents when the region is entered. -/
theorem reg1_w2 : Gen.V3 (F := Ideal) m ρ c (Pipeline.arrRef spec1 2) = (m ((c.tc : Thread nD τ).loc main_arg0)) :=
  at3_arg0 m ρ c

/-- Region 1, input window 3: its array's contents when the region is entered. -/
theorem reg1_w3 : Gen.V3 (F := Ideal) m ρ c (Pipeline.arrRef spec1 3) = (m ((c.tc : Thread nD τ).loc main_arg5)) :=
  at3_arg5 m ρ c

/-- Region 1, input window 4: its array's contents when the region is entered. -/
theorem reg1_w4 : Gen.V3 (F := Ideal) m ρ c (Pipeline.arrRef spec1 4) = (biasRow (m ((c.tc : Thread nD τ).loc main_arg6))) :=
  at3_v24 m ρ c

end Cert.KernelIdeal.KerFold

end
-- ==== Proof.KerFold2.lean ====
import proofs.«170515_j51196010168472_1_alg».proof.Proof.Gen.KernelIdeal.Frame
import proofs.«170515_j51196010168472_1_alg».proof.Proof.KerFoldDefs
import proofs.«170515_j51196010168472_1_alg».proof.Proof.KerFoldHostA
import proofs.«170515_j51196010168472_1_alg».proof.Proof.KerFoldHostB
import proofs.«170515_j51196010168472_1_alg».proof.Proof.KerFold1
import Idealize.ShloMosaic.PureOps.Ideal

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (m : (ℓ : Loc nD τ sig) → Buf (Elt Ideal) ℓ) (ρ : Dev nD → PrngReg) (c : Dev nD)

/-! ### The contents at boundary 5 -/

theorem at5_arg1 : Gen.W5 (F := Ideal) m ρ c (Proc.devRef .tc main_arg1) = (m ((c.tc : Thread nD τ).loc main_arg1)) :=
  (h2_keep (Gen.W4 (F := Ideal) m ρ c) (r := main_arg1) (by decide)).trans (at4_arg1 m ρ c)

theorem at5_arg3 : Gen.W5 (F := Ideal) m ρ c (Proc.devRef .tc main_arg3) = (m ((c.tc : Thread nD τ).loc main_arg3)) :=
  (h2_keep (Gen.W4 (F := Ideal) m ρ c) (r := main_arg3) (by decide)).trans (at4_arg3 m ρ c)

theorem at5_arg8 : Gen.W5 (F := Ideal) m ρ c (Proc.devRef .tc main_arg8) = (m ((c.tc : Thread nD τ).loc main_arg8)) :=
  (h2_keep (Gen.W4 (F := Ideal) m ρ c) (r := main_arg8) (by decide)).trans (at4_arg8 m ρ c)

theorem at5_arg9 : Gen.W5 (F := Ideal) m ρ c (Proc.devRef .tc main_arg9) = (m ((c.tc : Thread nD τ).loc main_arg9)) :=
  (h2_keep (Gen.W4 (F := Ideal) m ρ c) (r := main_arg9) (by decide)).trans (at4_arg9 m ρ c)

theorem at5_arg10 : Gen.W5 (F := Ideal) m ρ c (Proc.devRef .tc main_arg10) = (m ((c.tc : Thread nD τ).loc main_arg10)) :=
  (h2_keep (Gen.W4 (F := Ideal) m ρ c) (r := main_arg10) (by decide)).trans (at4_arg10 m ρ c)

theorem at5_arg11 : Gen.W5 (F := Ideal) m ρ c (Proc.devRef .tc main_arg11) = (m ((c.tc : Thread nD τ).loc main_arg11)) :=
  (h2_keep (Gen.W4 (F := Ideal) m ρ c) (r := main_arg11) (by decide)).trans (at4_arg11 m ρ c)

theorem at5_arg12 : Gen.W5 (F := Ideal) m ρ c (Proc.devRef .tc main_arg12) = (m ((c.tc : Thread nD τ).loc main_arg12)) :=
  (h2_keep (Gen.W4 (F := Ideal) m ρ c) (r := main_arg12) (by decide)).trans (at4_arg12 m ρ c)

theorem at5_arg13 : Gen.W5 (F := Ideal) m ρ c (Proc.devRef .tc main_arg13) = (m ((c.tc : Thread nD τ).loc main_arg13)) :=
  (h2_keep (Gen.W4 (F := Ideal) m ρ c) (r := main_arg13) (by decide)).trans (at4_arg13 m ρ c)

theorem at5_arg14 : Gen.W5 (F := Ideal) m ρ c (Proc.devRef .tc main_arg14) = (m ((c.tc : Thread nD τ).loc main_arg14)) :=
  (h2_keep (Gen.W4 (F := Ideal) m ρ c) (r := main_arg14) (by decide)).trans (at4_arg14 m ρ c)

theorem at5_arg15 : Gen.W5 (F := Ideal) m ρ c (Proc.devRef .tc main_arg15) = (m ((c.tc : Thread nD τ).loc main_arg15)) :=
  (h2_keep (Gen.W4 (F := Ideal) m ρ c) (r := main_arg15) (by decide)).trans (at4_arg15 m ρ c)

theorem at5_arg16 : Gen.W5 (F := Ideal) m ρ c (Proc.devRef .tc main_arg16) = (m ((c.tc : Thread nD τ).loc main_arg16)) :=
  (h2_keep (Gen.W4 (F := Ideal) m ρ c) (r := main_arg16) (by decide)).trans (at4_arg16 m ρ c)

theorem at5_arg17 : Gen.W5 (F := Ideal) m ρ c (Proc.devRef .tc main_arg17) = (m ((c.tc : Thread nD τ).loc main_arg17)) :=
  (h2_keep (Gen.W4 (F := Ideal) m ρ c) (r := main_arg17) (by decide)).trans (at4_arg17 m ρ c)

theorem at5_v1 : Gen.W5 (F := Ideal) m ρ c (Proc.devRef .tc main_v1) = (row0 (m ((c.tc : Thread nD τ).loc main_arg2))) :=
  (h2_keep (Gen.W4 (F := Ideal) m ρ c) (r := main_v1) (by decide)).trans (at4_v1 m ρ c)

theorem at5_v3 : Gen.W5 (F := Ideal) m ρ c (Proc.devRef .tc main_v3) = (row1 (m ((c.tc : Thread nD τ).loc main_arg2))) :=
  (h2_keep (Gen.W4 (F := Ideal) m ρ c) (r := main_v3) (by decide)).trans (at4_v3 m ρ c)

theorem at5_v8 : Gen.W5 (F := Ideal) m ρ c (Proc.devRef .tc main_v8) = (degCol (m ((c.tc : Thread nD τ).loc main_arg2))) :=
  (h2_keep (Gen.W4 (F := Ideal) m ρ c) (r := main_v8) (by decide)).trans (at4_v8 m ρ c)

theorem at5_v25 : Gen.W5 (F := Ideal) m ρ c (Proc.devRef .tc main_v25) = ((Gen.dat1 (Gen.V3 m ρ) c).arrAt 5 cfg1.N) :=
  (h2_keep (Gen.W4 (F := Ideal) m ρ c) (r := main_v25) (by decide)).trans (at4_v25 m ρ c)

theorem at5_v32 : Gen.W5 (F := Ideal) m ρ c (Proc.devRef .tc main_v32) = (gather64 ((Gen.dat1 (Gen.V3 m ρ) c).arrAt 5 cfg1.N) (srcIdx (m ((c.tc : Thread nD τ).loc main_arg2)))) :=
  (h2_v32 (Gen.W4 (F := Ideal) m ρ c)).trans (by rw [at4_v25 m ρ c, at4_v1 m ρ c]; rfl)

theorem at5_v34 : Gen.W5 (F := Ideal) m ρ c (Proc.devRef .tc main_v34) = (w0of64 (m ((c.tc : Thread nD τ).loc main_arg7))) :=
  (h2_v34 (Gen.W4 (F := Ideal) m ρ c)).trans (by rw [at4_arg7 m ρ c])

theorem at5_v36 : Gen.W5 (F := Ideal) m ρ c (Proc.devRef .tc main_v36) = (w1of64 (m ((c.tc : Thread nD τ).loc main_arg7))) :=
  (h2_v36 (Gen.W4 (F := Ideal) m ρ c)).trans (by rw [at4_arg7 m ρ c])

/-! ### The contents at boundary 6 -/

theorem at6_arg1 : Gen.W6 (F := Ideal) m ρ c (Proc.devRef .tc main_arg1) = (m ((c.tc : Thread nD τ).loc main_arg1)) :=
  ((Gen.W6_arr m ρ c 1).trans (((Gen.dat2 (Gen.V5 m ρ) c).arrAt_in 1 rfl _).trans (Gen.A_eq2 (Gen.V5 m ρ) c 1))).trans (at5_arg1 m ρ c)

theorem at6_arg3 : Gen.W6 (F := Ideal) m ρ c (Proc.devRef .tc main_arg3) = (m ((c.tc : Thread nD τ).loc main_arg3)) :=
  (Gen.W6_of_ne m ρ c main_arg3 (by decide)).trans (at5_arg3 m ρ c)

theorem at6_arg8 : Gen.W6 (F := Ideal) m ρ c (Proc.devRef .tc main_arg8) = (m ((c.tc : Thread nD τ).loc main_arg8)) :=
  (Gen.W6_of_ne m ρ c main_arg8 (by decide)).trans (at5_arg8 m ρ c)

theorem at6_arg9 : Gen.W6 (F := Ideal) m ρ c (Proc.devRef .tc main_arg9) = (m ((c.tc : Thread nD τ).loc main_arg9)) :=
  (Gen.W6_of_ne m ρ c main_arg9 (by decide)).trans (at5_arg9 m ρ c)

theorem at6_arg10 : Gen.W6 (F := Ideal) m ρ c (Proc.devRef .tc main_arg10) = (m ((c.tc : Thread nD τ).loc main_arg10)) :=
  (Gen.W6_of_ne m ρ c main_arg10 (by decide)).trans (at5_arg10 m ρ c)

theorem at6_arg11 : Gen.W6 (F := Ideal) m ρ c (Proc.devRef .tc main_arg11) = (m ((c.tc : Thread nD τ).loc main_arg11)) :=
  (Gen.W6_of_ne m ρ c main_arg11 (by decide)).trans (at5_arg11 m ρ c)

theorem at6_arg12 : Gen.W6 (F := Ideal) m ρ c (Proc.devRef .tc main_arg12) = (m ((c.tc : Thread nD τ).loc main_arg12)) :=
  (Gen.W6_of_ne m ρ c main_arg12 (by decide)).trans (at5_arg12 m ρ c)

theorem at6_arg13 : Gen.W6 (F := Ideal) m ρ c (Proc.devRef .tc main_arg13) = (m ((c.tc : Thread nD τ).loc main_arg13)) :=
  (Gen.W6_of_ne m ρ c main_arg13 (by decide)).trans (at5_arg13 m ρ c)

theorem at6_arg14 : Gen.W6 (F := Ideal) m ρ c (Proc.devRef .tc main_arg14) = (m ((c.tc : Thread nD τ).loc main_arg14)) :=
  (Gen.W6_of_ne m ρ c main_arg14 (by decide)).trans (at5_arg14 m ρ c)

theorem at6_arg15 : Gen.W6 (F := Ideal) m ρ c (Proc.devRef .tc main_arg15) = (m ((c.tc : Thread nD τ).loc main_arg15)) :=
  (Gen.W6_of_ne m ρ c main_arg15 (by decide)).trans (at5_arg15 m ρ c)

theorem at6_arg16 : Gen.W6 (F := Ideal) m ρ c (Proc.devRef .tc main_arg16) = (m ((c.tc : Thread nD τ).loc main_arg16)) :=
  (Gen.W6_of_ne m ρ c main_arg16 (by decide)).trans (at5_arg16 m ρ c)

theorem at6_arg17 : Gen.W6 (F := Ideal) m ρ c (Proc.devRef .tc main_arg17) = (m ((c.tc : Thread nD τ).loc main_arg17)) :=
  (Gen.W6_of_ne m ρ c main_arg17 (by decide)).trans (at5_arg17 m ρ c)

theorem at6_v1 : Gen.W6 (F := Ideal) m ρ c (Proc.devRef .tc main_v1) = (row0 (m ((c.tc : Thread nD τ).loc main_arg2))) :=
  (Gen.W6_of_ne m ρ c main_v1 (by decide)).trans (at5_v1 m ρ c)

theorem at6_v3 : Gen.W6 (F := Ideal) m ρ c (Proc.devRef .tc main_v3) = (row1 (m ((c.tc : Thread nD τ).loc main_arg2))) :=
  (Gen.W6_of_ne m ρ c main_v3 (by decide)).trans (at5_v3 m ρ c)

theorem at6_v8 : Gen.W6 (F := Ideal) m ρ c (Proc.devRef .tc main_v8) = (degCol (m ((c.tc : Thread nD τ).loc main_arg2))) :=
  (Gen.W6_of_ne m ρ c main_v8 (by decide)).trans (at5_v8 m ρ c)

theorem at6_v25 : Gen.W6 (F := Ideal) m ρ c (Proc.devRef .tc main_v25) = ((Gen.dat1 (Gen.V3 m ρ) c).arrAt 5 cfg1.N) :=
  (Gen.W6_of_ne m ρ c main_v25 (by decide)).trans (at5_v25 m ρ c)

theorem at6_v37 : Gen.W6 (F := Ideal) m ρ c (Proc.devRef .tc main_v37) = ((Gen.dat2 (Gen.V5 m ρ) c).arrAt 4 cfg2.N) :=
  Gen.W6_arr m ρ c 4

/-! ### The contents at boundary 7 -/

theorem at7_arg1 : Gen.W7 (F := Ideal) m ρ c (Proc.devRef .tc main_arg1) = (m ((c.tc : Thread nD τ).loc main_arg1)) :=
  (h3_keep (Gen.W6 (F := Ideal) m ρ c) (r := main_arg1) (by decide)).trans (at6_arg1 m ρ c)

theorem at7_arg3 : Gen.W7 (F := Ideal) m ρ c (Proc.devRef .tc main_arg3) = (m ((c.tc : Thread nD τ).loc main_arg3)) :=
  (h3_keep (Gen.W6 (F := Ideal) m ρ c) (r := main_arg3) (by decide)).trans (at6_arg3 m ρ c)

theorem at7_arg8 : Gen.W7 (F := Ideal) m ρ c (Proc.devRef .tc main_arg8) = (m ((c.tc : Thread nD τ).loc main_arg8)) :=
  (h3_keep (Gen.W6 (F := Ideal) m ρ c) (r := main_arg8) (by decide)).trans (at6_arg8 m ρ c)

theorem at7_arg10 : Gen.W7 (F := Ideal) m ρ c (Proc.devRef .tc main_arg10) = (m ((c.tc : Thread nD τ).loc main_arg10)) :=
  (h3_keep (Gen.W6 (F := Ideal) m ρ c) (r := main_arg10) (by decide)).trans (at6_arg10 m ρ c)

theorem at7_arg11 : Gen.W7 (F := Ideal) m ρ c (Proc.devRef .tc main_arg11) = (m ((c.tc : Thread nD τ).loc main_arg11)) :=
  (h3_keep (Gen.W6 (F := Ideal) m ρ c) (r := main_arg11) (by decide)).trans (at6_arg11 m ρ c)

theorem at7_arg12 : Gen.W7 (F := Ideal) m ρ c (Proc.devRef .tc main_arg12) = (m ((c.tc : Thread nD τ).loc main_arg12)) :=
  (h3_keep (Gen.W6 (F := Ideal) m ρ c) (r := main_arg12) (by decide)).trans (at6_arg12 m ρ c)

theorem at7_arg13 : Gen.W7 (F := Ideal) m ρ c (Proc.devRef .tc main_arg13) = (m ((c.tc : Thread nD τ).loc main_arg13)) :=
  (h3_keep (Gen.W6 (F := Ideal) m ρ c) (r := main_arg13) (by decide)).trans (at6_arg13 m ρ c)

theorem at7_arg14 : Gen.W7 (F := Ideal) m ρ c (Proc.devRef .tc main_arg14) = (m ((c.tc : Thread nD τ).loc main_arg14)) :=
  (h3_keep (Gen.W6 (F := Ideal) m ρ c) (r := main_arg14) (by decide)).trans (at6_arg14 m ρ c)

theorem at7_arg15 : Gen.W7 (F := Ideal) m ρ c (Proc.devRef .tc main_arg15) = (m ((c.tc : Thread nD τ).loc main_arg15)) :=
  (h3_keep (Gen.W6 (F := Ideal) m ρ c) (r := main_arg15) (by decide)).trans (at6_arg15 m ρ c)

theorem at7_arg16 : Gen.W7 (F := Ideal) m ρ c (Proc.devRef .tc main_arg16) = (m ((c.tc : Thread nD τ).loc main_arg16)) :=
  (h3_keep (Gen.W6 (F := Ideal) m ρ c) (r := main_arg16) (by decide)).trans (at6_arg16 m ρ c)

theorem at7_arg17 : Gen.W7 (F := Ideal) m ρ c (Proc.devRef .tc main_arg17) = (m ((c.tc : Thread nD τ).loc main_arg17)) :=
  (h3_keep (Gen.W6 (F := Ideal) m ρ c) (r := main_arg17) (by decide)).trans (at6_arg17 m ρ c)

theorem at7_v1 : Gen.W7 (F := Ideal) m ρ c (Proc.devRef .tc main_v1) = (row0 (m ((c.tc : Thread nD τ).loc main_arg2))) :=
  (h3_keep (Gen.W6 (F := Ideal) m ρ c) (r := main_v1) (by decide)).trans (at6_v1 m ρ c)

theorem at7_v3 : Gen.W7 (F := Ideal) m ρ c (Proc.devRef .tc main_v3) = (row1 (m ((c.tc : Thread nD τ).loc main_arg2))) :=
  (h3_keep (Gen.W6 (F := Ideal) m ρ c) (r := main_v3) (by decide)).trans (at6_v3 m ρ c)

theorem at7_v8 : Gen.W7 (F := Ideal) m ρ c (Proc.devRef .tc main_v8) = (degCol (m ((c.tc : Thread nD τ).loc main_arg2))) :=
  (h3_keep (Gen.W6 (F := Ideal) m ρ c) (r := main_v8) (by decide)).trans (at6_v8 m ρ c)

theorem at7_v25 : Gen.W7 (F := Ideal) m ρ c (Proc.devRef .tc main_v25) = ((Gen.dat1 (Gen.V3 m ρ) c).arrAt 5 cfg1.N) :=
  (h3_keep (Gen.W6 (F := Ideal) m ρ c) (r := main_v25) (by decide)).trans (at6_v25 m ρ c)

theorem at7_v40 : Gen.W7 (F := Ideal) m ρ c (Proc.devRef .tc main_v40) = (agg ((Gen.dat2 (Gen.V5 m ρ) c).arrAt 4 cfg2.N) (dstIdx (m ((c.tc : Thread nD τ).loc main_arg2)))) :=
  (h3_v40 (Gen.W6 (F := Ideal) m ρ c)).trans (by rw [at6_v37 m ρ c, at6_v3 m ρ c]; rfl)

theorem at7_v41 : Gen.W7 (F := Ideal) m ρ c (Proc.devRef .tc main_v41) = (biasRow (m ((c.tc : Thread nD τ).loc main_arg9))) :=
  (h3_v41 (Gen.W6 (F := Ideal) m ρ c)).trans (by rw [at6_arg9 m ρ c])

/-! ### The contents at boundary 8 -/

theorem at8_arg1 : Gen.W8 (F := Ideal) m ρ c (Proc.devRef .tc main_arg1) = (m ((c.tc : Thread nD τ).loc main_arg1)) :=
  (Gen.W8_of_ne m ρ c main_arg1 (by decide)).trans (at7_arg1 m ρ c)

theorem at8_arg3 : Gen.W8 (F := Ideal) m ρ c (Proc.devRef .tc main_arg3) = (m ((c.tc : Thread nD τ).loc main_arg3)) :=
  (Gen.W8_of_ne m ρ c main_arg3 (by decide)).trans (at7_arg3 m ρ c)

theorem at8_arg10 : Gen.W8 (F := Ideal) m ρ c (Proc.devRef .tc main_arg10) = (m ((c.tc : Thread nD τ).loc main_arg10)) :=
  (Gen.W8_of_ne m ρ c main_arg10 (by decide)).trans (at7_arg10 m ρ c)

theorem at8_arg11 : Gen.W8 (F := Ideal) m ρ c (Proc.devRef .tc main_arg11) = (m ((c.tc : Thread nD τ).loc main_arg11)) :=
  (Gen.W8_of_ne m ρ c main_arg11 (by decide)).trans (at7_arg11 m ρ c)

theorem at8_arg12 : Gen.W8 (F := Ideal) m ρ c (Proc.devRef .tc main_arg12) = (m ((c.tc : Thread nD τ).loc main_arg12)) :=
  (Gen.W8_of_ne m ρ c main_arg12 (by decide)).trans (at7_arg12 m ρ c)

theorem at8_arg13 : Gen.W8 (F := Ideal) m ρ c (Proc.devRef .tc main_arg13) = (m ((c.tc : Thread nD τ).loc main_arg13)) :=
  (Gen.W8_of_ne m ρ c main_arg13 (by decide)).trans (at7_arg13 m ρ c)

theorem at8_arg14 : Gen.W8 (F := Ideal) m ρ c (Proc.devRef .tc main_arg14) = (m ((c.tc : Thread nD τ).loc main_arg14)) :=
  (Gen.W8_of_ne m ρ c main_arg14 (by decide)).trans (at7_arg14 m ρ c)

theorem at8_arg15 : Gen.W8 (F := Ideal) m ρ c (Proc.devRef .tc main_arg15) = (m ((c.tc : Thread nD τ).loc main_arg15)) :=
  (Gen.W8_of_ne m ρ c main_arg15 (by decide)).trans (at7_arg15 m ρ c)

theorem at8_arg16 : Gen.W8 (F := Ideal) m ρ c (Proc.devRef .tc main_arg16) = (m ((c.tc : Thread nD τ).loc main_arg16)) :=
  (Gen.W8_of_ne m ρ c main_arg16 (by decide)).trans (at7_arg16 m ρ c)

theorem at8_arg17 : Gen.W8 (F := Ideal) m ρ c (Proc.devRef .tc main_arg17) = (m ((c.tc : Thread nD τ).loc main_arg17)) :=
  (Gen.W8_of_ne m ρ c main_arg17 (by decide)).trans (at7_arg17 m ρ c)

theorem at8_v1 : Gen.W8 (F := Ideal) m ρ c (Proc.devRef .tc main_v1) = (row0 (m ((c.tc : Thread nD τ).loc main_arg2))) :=
  (Gen.W8_of_ne m ρ c main_v1 (by decide)).trans (at7_v1 m ρ c)

theorem at8_v3 : Gen.W8 (F := Ideal) m ρ c (Proc.devRef .tc main_v3) = (row1 (m ((c.tc : Thread nD τ).loc main_arg2))) :=
  (Gen.W8_of_ne m ρ c main_v3 (by decide)).trans (at7_v3 m ρ c)

theorem at8_v8 : Gen.W8 (F := Ideal) m ρ c (Proc.devRef .tc main_v8) = (degCol (m ((c.tc : Thread nD τ).loc main_arg2))) :=
  ((Gen.W8_arr m ρ c 1).trans (((Gen.dat3 (Gen.V7 m ρ) c).arrAt_in 1 rfl _).trans (Gen.A_eq3 (Gen.V7 m ρ) c 1))).trans (at7_v8 m ρ c)

theorem at8_v42 : Gen.W8 (F := Ideal) m ρ c (Proc.devRef .tc main_v42) = ((Gen.dat3 (Gen.V7 m ρ) c).arrAt 5 cfg3.N) :=
  Gen.W8_arr m ρ c 5

/-! ## The regions' entry contents of layer 2 -/

/-- Region 2, input window 0: its array's contents when the region is entered. -/
theorem reg2_w0 : Gen.V5 (F := Ideal) m ρ c (Pipeline.arrRef spec2 0) = (gather64 ((Gen.dat1 (Gen.V3 m ρ) c).arrAt 5 cfg1.N) (srcIdx (m ((c.tc : Thread nD τ).loc main_arg2)))) :=
  at5_v32 m ρ c

/-- Region 2, input window 1: its array's contents when the region is entered. -/
theorem reg2_w1 : Gen.V5 (F := Ideal) m ρ c (Pipeline.arrRef spec2 1) = (m ((c.tc : Thread nD τ).loc main_arg1)) :=
  at5_arg1 m ρ c

/-- Region 2, input window 2: its array's contents when the region is entered. -/
theorem reg2_w2 : Gen.V5 (F := Ideal) m ρ c (Pipeline.arrRef spec2 2) = (w0of64 (m ((c.tc : Thread nD τ).loc main_arg7))) :=
  at5_v34 m ρ c

/-- Region 2, input window 3: its array's contents when the region is entered. -/
theorem reg2_w3 : Gen.V5 (F := Ideal) m ρ c (Pipeline.arrRef spec2 3) = (w1of64 (m ((c.tc : Thread nD τ).loc main_arg7))) :=
  at5_v36 m ρ c

/-- Region 3, input window 0: its array's contents when the region is entered. -/
theorem reg3_w0 : Gen.V7 (F := Ideal) m ρ c (Pipeline.arrRef spec3 0) = (agg ((Gen.dat2 (Gen.V5 m ρ) c).arrAt 4 cfg2.N) (dstIdx (m ((c.tc : Thread nD τ).loc main_arg2)))) :=
  at7_v40 m ρ c

/-- Region 3, input window 1: its array's contents when the region is entered. -/
theorem reg3_w1 : Gen.V7 (F := Ideal) m ρ c (Pipeline.arrRef spec3 1) = (degCol (m ((c.tc : Thread nD τ).loc main_arg2))) :=
  at7_v8 m ρ c

/-- Region 3, input window 2: its array's contents when the region is entered. -/
theorem reg3_w2 : Gen.V7 (F := Ideal) m ρ c (Pipeline.arrRef spec3 2) = ((Gen.dat1 (Gen.V3 m ρ) c).arrAt 5 cfg1.N) :=
  at7_v25 m ρ c

/-- Region 3, input window 3: its array's contents when the region is entered. -/
theorem reg3_w3 : Gen.V7 (F := Ideal) m ρ c (Pipeline.arrRef spec3 3) = (m ((c.tc : Thread nD τ).loc main_arg8)) :=
  at7_arg8 m ρ c

/-- Region 3, input window 4: its array's contents when the region is entered. -/
theorem reg3_w4 : Gen.V7 (F := Ideal) m ρ c (Pipeline.arrRef spec3 4) = (biasRow (m ((c.tc : Thread nD τ).loc main_arg9))) :=
  at7_v41 m ρ c

end Cert.KernelIdeal.KerFold

end
-- ==== Proof.KerFold3.lean ====
import proofs.«170515_j51196010168472_1_alg».proof.Proof.Gen.KernelIdeal.Frame
import proofs.«170515_j51196010168472_1_alg».proof.Proof.KerFoldDefs
import proofs.«170515_j51196010168472_1_alg».proof.Proof.KerFoldHostA
import proofs.«170515_j51196010168472_1_alg».proof.Proof.KerFoldHostB
import proofs.«170515_j51196010168472_1_alg».proof.Proof.KerFold2
import Idealize.ShloMosaic.PureOps.Ideal

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (m : (ℓ : Loc nD τ sig) → Buf (Elt Ideal) ℓ) (ρ : Dev nD → PrngReg) (c : Dev nD)

/-! ### The contents at boundary 9 -/

theorem at9_arg1 : Gen.W9 (F := Ideal) m ρ c (Proc.devRef .tc main_arg1) = (m ((c.tc : Thread nD τ).loc main_arg1)) :=
  (h4_keep (Gen.W8 (F := Ideal) m ρ c) (r := main_arg1) (by decide)).trans (at8_arg1 m ρ c)

theorem at9_arg3 : Gen.W9 (F := Ideal) m ρ c (Proc.devRef .tc main_arg3) = (m ((c.tc : Thread nD τ).loc main_arg3)) :=
  (h4_keep (Gen.W8 (F := Ideal) m ρ c) (r := main_arg3) (by decide)).trans (at8_arg3 m ρ c)

theorem at9_arg11 : Gen.W9 (F := Ideal) m ρ c (Proc.devRef .tc main_arg11) = (m ((c.tc : Thread nD τ).loc main_arg11)) :=
  (h4_keep (Gen.W8 (F := Ideal) m ρ c) (r := main_arg11) (by decide)).trans (at8_arg11 m ρ c)

theorem at9_arg12 : Gen.W9 (F := Ideal) m ρ c (Proc.devRef .tc main_arg12) = (m ((c.tc : Thread nD τ).loc main_arg12)) :=
  (h4_keep (Gen.W8 (F := Ideal) m ρ c) (r := main_arg12) (by decide)).trans (at8_arg12 m ρ c)

theorem at9_arg13 : Gen.W9 (F := Ideal) m ρ c (Proc.devRef .tc main_arg13) = (m ((c.tc : Thread nD τ).loc main_arg13)) :=
  (h4_keep (Gen.W8 (F := Ideal) m ρ c) (r := main_arg13) (by decide)).trans (at8_arg13 m ρ c)

theorem at9_arg14 : Gen.W9 (F := Ideal) m ρ c (Proc.devRef .tc main_arg14) = (m ((c.tc : Thread nD τ).loc main_arg14)) :=
  (h4_keep (Gen.W8 (F := Ideal) m ρ c) (r := main_arg14) (by decide)).trans (at8_arg14 m ρ c)

theorem at9_arg15 : Gen.W9 (F := Ideal) m ρ c (Proc.devRef .tc main_arg15) = (m ((c.tc : Thread nD τ).loc main_arg15)) :=
  (h4_keep (Gen.W8 (F := Ideal) m ρ c) (r := main_arg15) (by decide)).trans (at8_arg15 m ρ c)

theorem at9_arg16 : Gen.W9 (F := Ideal) m ρ c (Proc.devRef .tc main_arg16) = (m ((c.tc : Thread nD τ).loc main_arg16)) :=
  (h4_keep (Gen.W8 (F := Ideal) m ρ c) (r := main_arg16) (by decide)).trans (at8_arg16 m ρ c)

theorem at9_arg17 : Gen.W9 (F := Ideal) m ρ c (Proc.devRef .tc main_arg17) = (m ((c.tc : Thread nD τ).loc main_arg17)) :=
  (h4_keep (Gen.W8 (F := Ideal) m ρ c) (r := main_arg17) (by decide)).trans (at8_arg17 m ρ c)

theorem at9_v1 : Gen.W9 (F := Ideal) m ρ c (Proc.devRef .tc main_v1) = (row0 (m ((c.tc : Thread nD τ).loc main_arg2))) :=
  (h4_keep (Gen.W8 (F := Ideal) m ρ c) (r := main_v1) (by decide)).trans (at8_v1 m ρ c)

theorem at9_v3 : Gen.W9 (F := Ideal) m ρ c (Proc.devRef .tc main_v3) = (row1 (m ((c.tc : Thread nD τ).loc main_arg2))) :=
  (h4_keep (Gen.W8 (F := Ideal) m ρ c) (r := main_v3) (by decide)).trans (at8_v3 m ρ c)

theorem at9_v8 : Gen.W9 (F := Ideal) m ρ c (Proc.devRef .tc main_v8) = (degCol (m ((c.tc : Thread nD τ).loc main_arg2))) :=
  (h4_keep (Gen.W8 (F := Ideal) m ρ c) (r := main_v8) (by decide)).trans (at8_v8 m ρ c)

theorem at9_v42 : Gen.W9 (F := Ideal) m ρ c (Proc.devRef .tc main_v42) = ((Gen.dat3 (Gen.V7 m ρ) c).arrAt 5 cfg3.N) :=
  (h4_keep (Gen.W8 (F := Ideal) m ρ c) (r := main_v42) (by decide)).trans (at8_v42 m ρ c)

theorem at9_v49 : Gen.W9 (F := Ideal) m ρ c (Proc.devRef .tc main_v49) = (gather64 ((Gen.dat3 (Gen.V7 m ρ) c).arrAt 5 cfg3.N) (srcIdx (m ((c.tc : Thread nD τ).loc main_arg2)))) :=
  (h4_v49 (Gen.W8 (F := Ideal) m ρ c)).trans (by rw [at8_v42 m ρ c, at8_v1 m ρ c]; rfl)

theorem at9_v51 : Gen.W9 (F := Ideal) m ρ c (Proc.devRef .tc main_v51) = (w0of64 (m ((c.tc : Thread nD τ).loc main_arg10))) :=
  (h4_v51 (Gen.W8 (F := Ideal) m ρ c)).trans (by rw [at8_arg10 m ρ c])

theorem at9_v53 : Gen.W9 (F := Ideal) m ρ c (Proc.devRef .tc main_v53) = (w1of64 (m ((c.tc : Thread nD τ).loc main_arg10))) :=
  (h4_v53 (Gen.W8 (F := Ideal) m ρ c)).trans (by rw [at8_arg10 m ρ c])

/-! ### The contents at boundary 10 -/

theorem at10_arg1 : Gen.W10 (F := Ideal) m ρ c (Proc.devRef .tc main_arg1) = (m ((c.tc : Thread nD τ).loc main_arg1)) :=
  ((Gen.W10_arr m ρ c 1).trans (((Gen.dat4 (Gen.V9 m ρ) c).arrAt_in 1 rfl _).trans (Gen.A_eq4 (Gen.V9 m ρ) c 1))).trans (at9_arg1 m ρ c)

theorem at10_arg3 : Gen.W10 (F := Ideal) m ρ c (Proc.devRef .tc main_arg3) = (m ((c.tc : Thread nD τ).loc main_arg3)) :=
  (Gen.W10_of_ne m ρ c main_arg3 (by decide)).trans (at9_arg3 m ρ c)

theorem at10_arg11 : Gen.W10 (F := Ideal) m ρ c (Proc.devRef .tc main_arg11) = (m ((c.tc : Thread nD τ).loc main_arg11)) :=
  (Gen.W10_of_ne m ρ c main_arg11 (by decide)).trans (at9_arg11 m ρ c)

theorem at10_arg12 : Gen.W10 (F := Ideal) m ρ c (Proc.devRef .tc main_arg12) = (m ((c.tc : Thread nD τ).loc main_arg12)) :=
  (Gen.W10_of_ne m ρ c main_arg12 (by decide)).trans (at9_arg12 m ρ c)

theorem at10_arg13 : Gen.W10 (F := Ideal) m ρ c (Proc.devRef .tc main_arg13) = (m ((c.tc : Thread nD τ).loc main_arg13)) :=
  (Gen.W10_of_ne m ρ c main_arg13 (by decide)).trans (at9_arg13 m ρ c)

theorem at10_arg14 : Gen.W10 (F := Ideal) m ρ c (Proc.devRef .tc main_arg14) = (m ((c.tc : Thread nD τ).loc main_arg14)) :=
  (Gen.W10_of_ne m ρ c main_arg14 (by decide)).trans (at9_arg14 m ρ c)

theorem at10_arg15 : Gen.W10 (F := Ideal) m ρ c (Proc.devRef .tc main_arg15) = (m ((c.tc : Thread nD τ).loc main_arg15)) :=
  (Gen.W10_of_ne m ρ c main_arg15 (by decide)).trans (at9_arg15 m ρ c)

theorem at10_arg16 : Gen.W10 (F := Ideal) m ρ c (Proc.devRef .tc main_arg16) = (m ((c.tc : Thread nD τ).loc main_arg16)) :=
  (Gen.W10_of_ne m ρ c main_arg16 (by decide)).trans (at9_arg16 m ρ c)

theorem at10_arg17 : Gen.W10 (F := Ideal) m ρ c (Proc.devRef .tc main_arg17) = (m ((c.tc : Thread nD τ).loc main_arg17)) :=
  (Gen.W10_of_ne m ρ c main_arg17 (by decide)).trans (at9_arg17 m ρ c)

theorem at10_v1 : Gen.W10 (F := Ideal) m ρ c (Proc.devRef .tc main_v1) = (row0 (m ((c.tc : Thread nD τ).loc main_arg2))) :=
  (Gen.W10_of_ne m ρ c main_v1 (by decide)).trans (at9_v1 m ρ c)

theorem at10_v3 : Gen.W10 (F := Ideal) m ρ c (Proc.devRef .tc main_v3) = (row1 (m ((c.tc : Thread nD τ).loc main_arg2))) :=
  (Gen.W10_of_ne m ρ c main_v3 (by decide)).trans (at9_v3 m ρ c)

theorem at10_v8 : Gen.W10 (F := Ideal) m ρ c (Proc.devRef .tc main_v8) = (degCol (m ((c.tc : Thread nD τ).loc main_arg2))) :=
  (Gen.W10_of_ne m ρ c main_v8 (by decide)).trans (at9_v8 m ρ c)

theorem at10_v42 : Gen.W10 (F := Ideal) m ρ c (Proc.devRef .tc main_v42) = ((Gen.dat3 (Gen.V7 m ρ) c).arrAt 5 cfg3.N) :=
  (Gen.W10_of_ne m ρ c main_v42 (by decide)).trans (at9_v42 m ρ c)

theorem at10_v54 : Gen.W10 (F := Ideal) m ρ c (Proc.devRef .tc main_v54) = ((Gen.dat4 (Gen.V9 m ρ) c).arrAt 4 cfg4.N) :=
  Gen.W10_arr m ρ c 4

/-! ### The contents at boundary 11 -/

theorem at11_arg1 : Gen.W11 (F := Ideal) m ρ c (Proc.devRef .tc main_arg1) = (m ((c.tc : Thread nD τ).loc main_arg1)) :=
  (h5_keep (Gen.W10 (F := Ideal) m ρ c) (r := main_arg1) (by decide)).trans (at10_arg1 m ρ c)

theorem at11_arg3 : Gen.W11 (F := Ideal) m ρ c (Proc.devRef .tc main_arg3) = (m ((c.tc : Thread nD τ).loc main_arg3)) :=
  (h5_keep (Gen.W10 (F := Ideal) m ρ c) (r := main_arg3) (by decide)).trans (at10_arg3 m ρ c)

theorem at11_arg11 : Gen.W11 (F := Ideal) m ρ c (Proc.devRef .tc main_arg11) = (m ((c.tc : Thread nD τ).loc main_arg11)) :=
  (h5_keep (Gen.W10 (F := Ideal) m ρ c) (r := main_arg11) (by decide)).trans (at10_arg11 m ρ c)

theorem at11_arg13 : Gen.W11 (F := Ideal) m ρ c (Proc.devRef .tc main_arg13) = (m ((c.tc : Thread nD τ).loc main_arg13)) :=
  (h5_keep (Gen.W10 (F := Ideal) m ρ c) (r := main_arg13) (by decide)).trans (at10_arg13 m ρ c)

theorem at11_arg14 : Gen.W11 (F := Ideal) m ρ c (Proc.devRef .tc main_arg14) = (m ((c.tc : Thread nD τ).loc main_arg14)) :=
  (h5_keep (Gen.W10 (F := Ideal) m ρ c) (r := main_arg14) (by decide)).trans (at10_arg14 m ρ c)

theorem at11_arg15 : Gen.W11 (F := Ideal) m ρ c (Proc.devRef .tc main_arg15) = (m ((c.tc : Thread nD τ).loc main_arg15)) :=
  (h5_keep (Gen.W10 (F := Ideal) m ρ c) (r := main_arg15) (by decide)).trans (at10_arg15 m ρ c)

theorem at11_arg16 : Gen.W11 (F := Ideal) m ρ c (Proc.devRef .tc main_arg16) = (m ((c.tc : Thread nD τ).loc main_arg16)) :=
  (h5_keep (Gen.W10 (F := Ideal) m ρ c) (r := main_arg16) (by decide)).trans (at10_arg16 m ρ c)

theorem at11_arg17 : Gen.W11 (F := Ideal) m ρ c (Proc.devRef .tc main_arg17) = (m ((c.tc : Thread nD τ).loc main_arg17)) :=
  (h5_keep (Gen.W10 (F := Ideal) m ρ c) (r := main_arg17) (by decide)).trans (at10_arg17 m ρ c)

theorem at11_v1 : Gen.W11 (F := Ideal) m ρ c (Proc.devRef .tc main_v1) = (row0 (m ((c.tc : Thread nD τ).loc main_arg2))) :=
  (h5_keep (Gen.W10 (F := Ideal) m ρ c) (r := main_v1) (by decide)).trans (at10_v1 m ρ c)

theorem at11_v3 : Gen.W11 (F := Ideal) m ρ c (Proc.devRef .tc main_v3) = (row1 (m ((c.tc : Thread nD τ).loc main_arg2))) :=
  (h5_keep (Gen.W10 (F := Ideal) m ρ c) (r := main_v3) (by decide)).trans (at10_v3 m ρ c)

theorem at11_v8 : Gen.W11 (F := Ideal) m ρ c (Proc.devRef .tc main_v8) = (degCol (m ((c.tc : Thread nD τ).loc main_arg2))) :=
  (h5_keep (Gen.W10 (F := Ideal) m ρ c) (r := main_v8) (by decide)).trans (at10_v8 m ρ c)

theorem at11_v42 : Gen.W11 (F := Ideal) m ρ c (Proc.devRef .tc main_v42) = ((Gen.dat3 (Gen.V7 m ρ) c).arrAt 5 cfg3.N) :=
  (h5_keep (Gen.W10 (F := Ideal) m ρ c) (r := main_v42) (by decide)).trans (at10_v42 m ρ c)

theorem at11_v57 : Gen.W11 (F := Ideal) m ρ c (Proc.devRef .tc main_v57) = (agg ((Gen.dat4 (Gen.V9 m ρ) c).arrAt 4 cfg4.N) (dstIdx (m ((c.tc : Thread nD τ).loc main_arg2)))) :=
  (h5_v57 (Gen.W10 (F := Ideal) m ρ c)).trans (by rw [at10_v54 m ρ c, at10_v3 m ρ c]; rfl)

theorem at11_v58 : Gen.W11 (F := Ideal) m ρ c (Proc.devRef .tc main_v58) = (biasRow (m ((c.tc : Thread nD τ).loc main_arg12))) :=
  (h5_v58 (Gen.W10 (F := Ideal) m ρ c)).trans (by rw [at10_arg12 m ρ c])

/-! ### The contents at boundary 12 -/

theorem at12_arg1 : Gen.W12 (F := Ideal) m ρ c (Proc.devRef .tc main_arg1) = (m ((c.tc : Thread nD τ).loc main_arg1)) :=
  (Gen.W12_of_ne m ρ c main_arg1 (by decide)).trans (at11_arg1 m ρ c)

theorem at12_arg3 : Gen.W12 (F := Ideal) m ρ c (Proc.devRef .tc main_arg3) = (m ((c.tc : Thread nD τ).loc main_arg3)) :=
  (Gen.W12_of_ne m ρ c main_arg3 (by decide)).trans (at11_arg3 m ρ c)

theorem at12_arg13 : Gen.W12 (F := Ideal) m ρ c (Proc.devRef .tc main_arg13) = (m ((c.tc : Thread nD τ).loc main_arg13)) :=
  (Gen.W12_of_ne m ρ c main_arg13 (by decide)).trans (at11_arg13 m ρ c)

theorem at12_arg14 : Gen.W12 (F := Ideal) m ρ c (Proc.devRef .tc main_arg14) = (m ((c.tc : Thread nD τ).loc main_arg14)) :=
  (Gen.W12_of_ne m ρ c main_arg14 (by decide)).trans (at11_arg14 m ρ c)

theorem at12_arg15 : Gen.W12 (F := Ideal) m ρ c (Proc.devRef .tc main_arg15) = (m ((c.tc : Thread nD τ).loc main_arg15)) :=
  (Gen.W12_of_ne m ρ c main_arg15 (by decide)).trans (at11_arg15 m ρ c)

theorem at12_arg16 : Gen.W12 (F := Ideal) m ρ c (Proc.devRef .tc main_arg16) = (m ((c.tc : Thread nD τ).loc main_arg16)) :=
  (Gen.W12_of_ne m ρ c main_arg16 (by decide)).trans (at11_arg16 m ρ c)

theorem at12_arg17 : Gen.W12 (F := Ideal) m ρ c (Proc.devRef .tc main_arg17) = (m ((c.tc : Thread nD τ).loc main_arg17)) :=
  (Gen.W12_of_ne m ρ c main_arg17 (by decide)).trans (at11_arg17 m ρ c)

theorem at12_v1 : Gen.W12 (F := Ideal) m ρ c (Proc.devRef .tc main_v1) = (row0 (m ((c.tc : Thread nD τ).loc main_arg2))) :=
  (Gen.W12_of_ne m ρ c main_v1 (by decide)).trans (at11_v1 m ρ c)

theorem at12_v3 : Gen.W12 (F := Ideal) m ρ c (Proc.devRef .tc main_v3) = (row1 (m ((c.tc : Thread nD τ).loc main_arg2))) :=
  (Gen.W12_of_ne m ρ c main_v3 (by decide)).trans (at11_v3 m ρ c)

theorem at12_v8 : Gen.W12 (F := Ideal) m ρ c (Proc.devRef .tc main_v8) = (degCol (m ((c.tc : Thread nD τ).loc main_arg2))) :=
  ((Gen.W12_arr m ρ c 1).trans (((Gen.dat5 (Gen.V11 m ρ) c).arrAt_in 1 rfl _).trans (Gen.A_eq5 (Gen.V11 m ρ) c 1))).trans (at11_v8 m ρ c)

theorem at12_v59 : Gen.W12 (F := Ideal) m ρ c (Proc.devRef .tc main_v59) = ((Gen.dat5 (Gen.V11 m ρ) c).arrAt 5 cfg5.N) :=
  Gen.W12_arr m ρ c 5

/-! ## The regions' entry contents of layer 3 -/

/-- Region 4, input window 0: its array's contents when the region is entered. -/
theorem reg4_w0 : Gen.V9 (F := Ideal) m ρ c (Pipeline.arrRef spec4 0) = (gather64 ((Gen.dat3 (Gen.V7 m ρ) c).arrAt 5 cfg3.N) (srcIdx (m ((c.tc : Thread nD τ).loc main_arg2)))) :=
  at9_v49 m ρ c

/-- Region 4, input window 1: its array's contents when the region is entered. -/
theorem reg4_w1 : Gen.V9 (F := Ideal) m ρ c (Pipeline.arrRef spec4 1) = (m ((c.tc : Thread nD τ).loc main_arg1)) :=
  at9_arg1 m ρ c

/-- Region 4, input window 2: its array's contents when the region is entered. -/
theorem reg4_w2 : Gen.V9 (F := Ideal) m ρ c (Pipeline.arrRef spec4 2) = (w0of64 (m ((c.tc : Thread nD τ).loc main_arg10))) :=
  at9_v51 m ρ c

/-- Region 4, input window 3: its array's contents when the region is entered. -/
theorem reg4_w3 : Gen.V9 (F := Ideal) m ρ c (Pipeline.arrRef spec4 3) = (w1of64 (m ((c.tc : Thread nD τ).loc main_arg10))) :=
  at9_v53 m ρ c

/-- Region 5, input window 0: its array's contents when the region is entered. -/
theorem reg5_w0 : Gen.V11 (F := Ideal) m ρ c (Pipeline.arrRef spec5 0) = (agg ((Gen.dat4 (Gen.V9 m ρ) c).arrAt 4 cfg4.N) (dstIdx (m ((c.tc : Thread nD τ).loc main_arg2)))) :=
  at11_v57 m ρ c

/-- Region 5, input window 1: its array's contents when the region is entered. -/
theorem reg5_w1 : Gen.V11 (F := Ideal) m ρ c (Pipeline.arrRef spec5 1) = (degCol (m ((c.tc : Thread nD τ).loc main_arg2))) :=
  at11_v8 m ρ c

/-- Region 5, input window 2: its array's contents when the region is entered. -/
theorem reg5_w2 : Gen.V11 (F := Ideal) m ρ c (Pipeline.arrRef spec5 2) = ((Gen.dat3 (Gen.V7 m ρ) c).arrAt 5 cfg3.N) :=
  at11_v42 m ρ c

/-- Region 5, input window 3: its array's contents when the region is entered. -/
theorem reg5_w3 : Gen.V11 (F := Ideal) m ρ c (Pipeline.arrRef spec5 3) = (m ((c.tc : Thread nD τ).loc main_arg11)) :=
  at11_arg11 m ρ c

/-- Region 5, input window 4: its array's contents when the region is entered. -/
theorem reg5_w4 : Gen.V11 (F := Ideal) m ρ c (Pipeline.arrRef spec5 4) = (biasRow (m ((c.tc : Thread nD τ).loc main_arg12))) :=
  at11_v58 m ρ c

end Cert.KernelIdeal.KerFold

end
-- ==== Proof.KerFold4.lean ====
import proofs.«170515_j51196010168472_1_alg».proof.Proof.Gen.KernelIdeal.Frame
import proofs.«170515_j51196010168472_1_alg».proof.Proof.KerFoldDefs
import proofs.«170515_j51196010168472_1_alg».proof.Proof.KerFoldHostA
import proofs.«170515_j51196010168472_1_alg».proof.Proof.KerFoldHostB
import proofs.«170515_j51196010168472_1_alg».proof.Proof.KerFold3
import Idealize.ShloMosaic.PureOps.Ideal

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (m : (ℓ : Loc nD τ sig) → Buf (Elt Ideal) ℓ) (ρ : Dev nD → PrngReg) (c : Dev nD)

/-! ### The contents at boundary 13 -/

theorem at13_arg1 : Gen.W13 (F := Ideal) m ρ c (Proc.devRef .tc main_arg1) = (m ((c.tc : Thread nD τ).loc main_arg1)) :=
  (h6_keep (Gen.W12 (F := Ideal) m ρ c) (r := main_arg1) (by decide)).trans (at12_arg1 m ρ c)

theorem at13_arg3 : Gen.W13 (F := Ideal) m ρ c (Proc.devRef .tc main_arg3) = (m ((c.tc : Thread nD τ).loc main_arg3)) :=
  (h6_keep (Gen.W12 (F := Ideal) m ρ c) (r := main_arg3) (by decide)).trans (at12_arg3 m ρ c)

theorem at13_arg14 : Gen.W13 (F := Ideal) m ρ c (Proc.devRef .tc main_arg14) = (m ((c.tc : Thread nD τ).loc main_arg14)) :=
  (h6_keep (Gen.W12 (F := Ideal) m ρ c) (r := main_arg14) (by decide)).trans (at12_arg14 m ρ c)

theorem at13_arg15 : Gen.W13 (F := Ideal) m ρ c (Proc.devRef .tc main_arg15) = (m ((c.tc : Thread nD τ).loc main_arg15)) :=
  (h6_keep (Gen.W12 (F := Ideal) m ρ c) (r := main_arg15) (by decide)).trans (at12_arg15 m ρ c)

theorem at13_arg16 : Gen.W13 (F := Ideal) m ρ c (Proc.devRef .tc main_arg16) = (m ((c.tc : Thread nD τ).loc main_arg16)) :=
  (h6_keep (Gen.W12 (F := Ideal) m ρ c) (r := main_arg16) (by decide)).trans (at12_arg16 m ρ c)

theorem at13_arg17 : Gen.W13 (F := Ideal) m ρ c (Proc.devRef .tc main_arg17) = (m ((c.tc : Thread nD τ).loc main_arg17)) :=
  (h6_keep (Gen.W12 (F := Ideal) m ρ c) (r := main_arg17) (by decide)).trans (at12_arg17 m ρ c)

theorem at13_v3 : Gen.W13 (F := Ideal) m ρ c (Proc.devRef .tc main_v3) = (row1 (m ((c.tc : Thread nD τ).loc main_arg2))) :=
  (h6_keep (Gen.W12 (F := Ideal) m ρ c) (r := main_v3) (by decide)).trans (at12_v3 m ρ c)

theorem at13_v8 : Gen.W13 (F := Ideal) m ρ c (Proc.devRef .tc main_v8) = (degCol (m ((c.tc : Thread nD τ).loc main_arg2))) :=
  (h6_keep (Gen.W12 (F := Ideal) m ρ c) (r := main_v8) (by decide)).trans (at12_v8 m ρ c)

theorem at13_v59 : Gen.W13 (F := Ideal) m ρ c (Proc.devRef .tc main_v59) = ((Gen.dat5 (Gen.V11 m ρ) c).arrAt 5 cfg5.N) :=
  (h6_keep (Gen.W12 (F := Ideal) m ρ c) (r := main_v59) (by decide)).trans (at12_v59 m ρ c)

theorem at13_v66 : Gen.W13 (F := Ideal) m ρ c (Proc.devRef .tc main_v66) = (gather64 ((Gen.dat5 (Gen.V11 m ρ) c).arrAt 5 cfg5.N) (srcIdx (m ((c.tc : Thread nD τ).loc main_arg2)))) :=
  (h6_v66 (Gen.W12 (F := Ideal) m ρ c)).trans (by rw [at12_v59 m ρ c, at12_v1 m ρ c]; rfl)

theorem at13_v68 : Gen.W13 (F := Ideal) m ρ c (Proc.devRef .tc main_v68) = (w0of64 (m ((c.tc : Thread nD τ).loc main_arg13))) :=
  (h6_v68 (Gen.W12 (F := Ideal) m ρ c)).trans (by rw [at12_arg13 m ρ c])

theorem at13_v70 : Gen.W13 (F := Ideal) m ρ c (Proc.devRef .tc main_v70) = (w1of64 (m ((c.tc : Thread nD τ).loc main_arg13))) :=
  (h6_v70 (Gen.W12 (F := Ideal) m ρ c)).trans (by rw [at12_arg13 m ρ c])

/-! ### The contents at boundary 14 -/

theorem at14_arg3 : Gen.W14 (F := Ideal) m ρ c (Proc.devRef .tc main_arg3) = (m ((c.tc : Thread nD τ).loc main_arg3)) :=
  (Gen.W14_of_ne m ρ c main_arg3 (by decide)).trans (at13_arg3 m ρ c)

theorem at14_arg14 : Gen.W14 (F := Ideal) m ρ c (Proc.devRef .tc main_arg14) = (m ((c.tc : Thread nD τ).loc main_arg14)) :=
  (Gen.W14_of_ne m ρ c main_arg14 (by decide)).trans (at13_arg14 m ρ c)

theorem at14_arg15 : Gen.W14 (F := Ideal) m ρ c (Proc.devRef .tc main_arg15) = (m ((c.tc : Thread nD τ).loc main_arg15)) :=
  (Gen.W14_of_ne m ρ c main_arg15 (by decide)).trans (at13_arg15 m ρ c)

theorem at14_arg16 : Gen.W14 (F := Ideal) m ρ c (Proc.devRef .tc main_arg16) = (m ((c.tc : Thread nD τ).loc main_arg16)) :=
  (Gen.W14_of_ne m ρ c main_arg16 (by decide)).trans (at13_arg16 m ρ c)

theorem at14_arg17 : Gen.W14 (F := Ideal) m ρ c (Proc.devRef .tc main_arg17) = (m ((c.tc : Thread nD τ).loc main_arg17)) :=
  (Gen.W14_of_ne m ρ c main_arg17 (by decide)).trans (at13_arg17 m ρ c)

theorem at14_v3 : Gen.W14 (F := Ideal) m ρ c (Proc.devRef .tc main_v3) = (row1 (m ((c.tc : Thread nD τ).loc main_arg2))) :=
  (Gen.W14_of_ne m ρ c main_v3 (by decide)).trans (at13_v3 m ρ c)

theorem at14_v8 : Gen.W14 (F := Ideal) m ρ c (Proc.devRef .tc main_v8) = (degCol (m ((c.tc : Thread nD τ).loc main_arg2))) :=
  (Gen.W14_of_ne m ρ c main_v8 (by decide)).trans (at13_v8 m ρ c)

theorem at14_v59 : Gen.W14 (F := Ideal) m ρ c (Proc.devRef .tc main_v59) = ((Gen.dat5 (Gen.V11 m ρ) c).arrAt 5 cfg5.N) :=
  (Gen.W14_of_ne m ρ c main_v59 (by decide)).trans (at13_v59 m ρ c)

theorem at14_v71 : Gen.W14 (F := Ideal) m ρ c (Proc.devRef .tc main_v71) = ((Gen.dat6 (Gen.V13 m ρ) c).arrAt 4 cfg6.N) :=
  Gen.W14_arr m ρ c 4

/-! ### The contents at boundary 15 -/

theorem at15_arg3 : Gen.W15 (F := Ideal) m ρ c (Proc.devRef .tc main_arg3) = (m ((c.tc : Thread nD τ).loc main_arg3)) :=
  (h7_keep (Gen.W14 (F := Ideal) m ρ c) (r := main_arg3) (by decide)).trans (at14_arg3 m ρ c)

theorem at15_arg14 : Gen.W15 (F := Ideal) m ρ c (Proc.devRef .tc main_arg14) = (m ((c.tc : Thread nD τ).loc main_arg14)) :=
  (h7_keep (Gen.W14 (F := Ideal) m ρ c) (r := main_arg14) (by decide)).trans (at14_arg14 m ρ c)

theorem at15_arg16 : Gen.W15 (F := Ideal) m ρ c (Proc.devRef .tc main_arg16) = (m ((c.tc : Thread nD τ).loc main_arg16)) :=
  (h7_keep (Gen.W14 (F := Ideal) m ρ c) (r := main_arg16) (by decide)).trans (at14_arg16 m ρ c)

theorem at15_arg17 : Gen.W15 (F := Ideal) m ρ c (Proc.devRef .tc main_arg17) = (m ((c.tc : Thread nD τ).loc main_arg17)) :=
  (h7_keep (Gen.W14 (F := Ideal) m ρ c) (r := main_arg17) (by decide)).trans (at14_arg17 m ρ c)

theorem at15_v8 : Gen.W15 (F := Ideal) m ρ c (Proc.devRef .tc main_v8) = (degCol (m ((c.tc : Thread nD τ).loc main_arg2))) :=
  (h7_keep (Gen.W14 (F := Ideal) m ρ c) (r := main_v8) (by decide)).trans (at14_v8 m ρ c)

theorem at15_v59 : Gen.W15 (F := Ideal) m ρ c (Proc.devRef .tc main_v59) = ((Gen.dat5 (Gen.V11 m ρ) c).arrAt 5 cfg5.N) :=
  (h7_keep (Gen.W14 (F := Ideal) m ρ c) (r := main_v59) (by decide)).trans (at14_v59 m ρ c)

theorem at15_v74 : Gen.W15 (F := Ideal) m ρ c (Proc.devRef .tc main_v74) = (agg ((Gen.dat6 (Gen.V13 m ρ) c).arrAt 4 cfg6.N) (dstIdx (m ((c.tc : Thread nD τ).loc main_arg2)))) :=
  (h7_v74 (Gen.W14 (F := Ideal) m ρ c)).trans (by rw [at14_v71 m ρ c, at14_v3 m ρ c]; rfl)

theorem at15_v75 : Gen.W15 (F := Ideal) m ρ c (Proc.devRef .tc main_v75) = (biasRow (m ((c.tc : Thread nD τ).loc main_arg15))) :=
  (h7_v75 (Gen.W14 (F := Ideal) m ρ c)).trans (by rw [at14_arg15 m ρ c])

/-! ### The contents at boundary 16 -/

theorem at16_arg3 : Gen.W16 (F := Ideal) m ρ c (Proc.devRef .tc main_arg3) = (m ((c.tc : Thread nD τ).loc main_arg3)) :=
  (Gen.W16_of_ne m ρ c main_arg3 (by decide)).trans (at15_arg3 m ρ c)

theorem at16_arg16 : Gen.W16 (F := Ideal) m ρ c (Proc.devRef .tc main_arg16) = (m ((c.tc : Thread nD τ).loc main_arg16)) :=
  (Gen.W16_of_ne m ρ c main_arg16 (by decide)).trans (at15_arg16 m ρ c)

theorem at16_arg17 : Gen.W16 (F := Ideal) m ρ c (Proc.devRef .tc main_arg17) = (m ((c.tc : Thread nD τ).loc main_arg17)) :=
  (Gen.W16_of_ne m ρ c main_arg17 (by decide)).trans (at15_arg17 m ρ c)

theorem at16_v76 : Gen.W16 (F := Ideal) m ρ c (Proc.devRef .tc main_v76) = ((Gen.dat7 (Gen.V15 m ρ) c).arrAt 5 cfg7.N) :=
  Gen.W16_arr m ρ c 5

/-! ## The regions' entry contents of layer 4 -/

/-- Region 6, input window 0: its array's contents when the region is entered. -/
theorem reg6_w0 : Gen.V13 (F := Ideal) m ρ c (Pipeline.arrRef spec6 0) = (gather64 ((Gen.dat5 (Gen.V11 m ρ) c).arrAt 5 cfg5.N) (srcIdx (m ((c.tc : Thread nD τ).loc main_arg2)))) :=
  at13_v66 m ρ c

/-- Region 6, input window 1: its array's contents when the region is entered. -/
theorem reg6_w1 : Gen.V13 (F := Ideal) m ρ c (Pipeline.arrRef spec6 1) = (m ((c.tc : Thread nD τ).loc main_arg1)) :=
  at13_arg1 m ρ c

/-- Region 6, input window 2: its array's contents when the region is entered. -/
theorem reg6_w2 : Gen.V13 (F := Ideal) m ρ c (Pipeline.arrRef spec6 2) = (w0of64 (m ((c.tc : Thread nD τ).loc main_arg13))) :=
  at13_v68 m ρ c

/-- Region 6, input window 3: its array's contents when the region is entered. -/
theorem reg6_w3 : Gen.V13 (F := Ideal) m ρ c (Pipeline.arrRef spec6 3) = (w1of64 (m ((c.tc : Thread nD τ).loc main_arg13))) :=
  at13_v70 m ρ c

/-- Region 7, input window 0: its array's contents when the region is entered. -/
theorem reg7_w0 : Gen.V15 (F := Ideal) m ρ c (Pipeline.arrRef spec7 0) = (agg ((Gen.dat6 (Gen.V13 m ρ) c).arrAt 4 cfg6.N) (dstIdx (m ((c.tc : Thread nD τ).loc main_arg2)))) :=
  at15_v74 m ρ c

/-- Region 7, input window 1: its array's contents when the region is entered. -/
theorem reg7_w1 : Gen.V15 (F := Ideal) m ρ c (Pipeline.arrRef spec7 1) = (degCol (m ((c.tc : Thread nD τ).loc main_arg2))) :=
  at15_v8 m ρ c

/-- Region 7, input window 2: its array's contents when the region is entered. -/
theorem reg7_w2 : Gen.V15 (F := Ideal) m ρ c (Pipeline.arrRef spec7 2) = ((Gen.dat5 (Gen.V11 m ρ) c).arrAt 5 cfg5.N) :=
  at15_v59 m ρ c

/-- Region 7, input window 3: its array's contents when the region is entered. -/
theorem reg7_w3 : Gen.V15 (F := Ideal) m ρ c (Pipeline.arrRef spec7 3) = (m ((c.tc : Thread nD τ).loc main_arg14)) :=
  at15_arg14 m ρ c

/-- Region 7, input window 4: its array's contents when the region is entered. -/
theorem reg7_w4 : Gen.V15 (F := Ideal) m ρ c (Pipeline.arrRef spec7 4) = (biasRow (m ((c.tc : Thread nD τ).loc main_arg15))) :=
  at15_v75 m ρ c

end Cert.KernelIdeal.KerFold

end
-- ==== Proof.KerFoldTail.lean ====
import proofs.«170515_j51196010168472_1_alg».proof.Proof.Gen.KernelIdeal.Frame
import proofs.«170515_j51196010168472_1_alg».proof.Proof.KerFoldDefs
import proofs.«170515_j51196010168472_1_alg».proof.Proof.KerFoldHostT
import proofs.«170515_j51196010168472_1_alg».proof.Proof.KerFold4
import Idealize.ShloMosaic.PureOps.Ideal

set_option maxRecDepth 16384

noncomputable section

namespace Cert.KernelIdeal.KerFold

open Idealize.ShloMosaic Idealize.ShloMosaic.TcCoe Idealize.SL.Sem
open Cert.KernelIdeal Cert.KernelIdeal.Facts₀ Cert.KernelIdeal.Gen

variable (m : (ℓ : Loc nD τ sig) → Buf (Elt Ideal) ℓ) (ρ : Dev nD → PrngReg) (c : Dev nD)

/-! ### The contents at boundary 20 -/

theorem at20_v92 : Gen.W20 (F := Ideal) m ρ c (Proc.devRef .tc main_v92) = (head ((Gen.dat7 (Gen.V15 m ρ) c).arrAt 5 cfg7.N) (m ((c.tc : Thread nD τ).loc main_arg3)) (m ((c.tc : Thread nD τ).loc main_arg16)) (m ((c.tc : Thread nD τ).loc main_arg17))) :=
  (tail_v92 (Gen.W16 (F := Ideal) m ρ c)).trans (by rw [at16_v76 m ρ c, at16_arg3 m ρ c, at16_arg16 m ρ c, at16_arg17 m ρ c])

/-- The result buffer at the last boundary: the head of the last node region's output. -/
theorem result : Gen.W20 (F := Ideal) m ρ c (Proc.devRef .tc main_v92) = (head ((Gen.dat7 (Gen.V15 m ρ) c).arrAt 5 cfg7.N) (m ((c.tc : Thread nD τ).loc main_arg3)) (m ((c.tc : Thread nD τ).loc main_arg16)) (m ((c.tc : Thread nD τ).loc main_arg17))) :=
  at20_v92 m ρ c

end Cert.KernelIdeal.KerFold

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.LibKeepdimsCols.lean ====
/-
  Column vectors read at an index.

  A row reduction with `keepdims` leaves an `[a]` array that is then viewed as the column `[a, 1]` and broadcast along
  the rows of an `[a, b]` array. Read at an index:

  * an `[a]` array cast to `[a, 1]` reads, at `(p, u)`, the operand at `p` (`shapeCast_a_a1_apply`);
  * an `[a, 1]` column broadcast to `[a, b]` reads, at `(p, c)`, the column at `(p, 0)` (`broadcastTo_a1_ab_apply`).

  Both are generic in the extents and in the element type.
-/
import Idealize.ShloMosaic.Lib.Pipeline.Value
import Idealize.ShloMosaic.Lib.ValueIdx

namespace Cert.LibKeepdimsCols

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsCols
-- ==== Proof.SplinePay.lean ====
/-
  The two block computations of a spline convolution layer, entry by entry, over the extended reals.

  A message block: for a block of `B` edges with gathered source features `xj` (`B × K`), spline coordinate `u`
  (`B × 1`) and the two weight matrices `w0`, `w1` (`K × 64`), entry `(p, q)` is
  `(∑ k, xj (p, k) * w0 (k, q)) * (1 - u (p, 0)) + (∑ k, xj (p, k) * w1 (k, q)) * u (p, 0)`
  (the constant `1` kept as its float word).

  A node block: for a block of `B` nodes with aggregated messages `a` (`B × 64`), degree column `d` (`B × 1`),
  node features `x` (`B × K`), root weights `r` (`K × 64`) and bias row `b` (`1 × 64`), entry `(p, q)` is
  `act (a (p, q) / max (d (p, 0)) 1 + ∑ k, x (p, k) * r (k, q) + b (0, q))`, where `act z` is `z` above zero and
  `exp z - 1` otherwise (the comparison against the float word of `0`, the `1`s the float word of `1`).

  Both are read off the corresponding trees of vector operations (a matrix product into the zero accumulator,
  column and row broadcasts, pointwise arithmetic), stated once as `msgTree` and `nodeTree` over the operands of
  the two products in whatever float format they arrive: a change of format is the identity at these values.
-/
import Idealize.ShloMosaic.Lib.ValueIdx
import Idealize.ShloMosaic.Lib.Pipeline.Value
import Idealize.ShloMosaic.Lib.ValueLayout
import Idealize.ShloMosaic.PureOps.Ideal.Laws
import proofs.«170515_j51196010168472_1_alg».proof.Proof.LibPlainDot
import proofs.«170515_j51196010168472_1_alg».proof.Proof.LibKeepdimsCols

open Idealize.ShloMosaic Idealize.ShloMosaic.ValueIdx
open scoped BigOperators

noncomputable section

namespace Cert.Spline

variable {B K : ℕ}

/-- The float word of `1.0` at the ideal values. -/
abbrev oneW : EReal := Ideal.ofBits .f32 0x3F800000#32
/-- The float word of `+0.0` at the ideal values. -/
abbrev zeroW : EReal := Ideal.ofBits .f32 0x00000000#32

/-! ## The message block -/

/-- Entry `(p, q)` of a message block. -/
def msgEntry {φ ψ : FTy} (xj : FVec Ideal ⟨2, ![B, K]⟩ φ) (u : FVec Ideal ⟨2, ![B, 1]⟩ .f32)
    (w0 w1 : FVec Ideal ⟨2, ![K, 64]⟩ ψ) (p : Fin B) (q : Fin 64) : EReal :=
  (∑ k : Fin K, xj (ix2 p k) * w0 (ix2 k q)) * (oneW - u (ix2 p (0 : Fin 1)))
    + (∑ k : Fin K, xj (ix2 p k) * w1 (ix2 k q)) * u (ix2 p (0 : Fin 1))

/-- The messages of all `E` edges as one array: entry `i` is the message entry of edge `i 0`, channel `i 1`. -/
def msgAll {E : ℕ} (xj : FVec Ideal ⟨2, ![E, K]⟩ .f32) (u : FVec Ideal ⟨2, ![E, 1]⟩ .f32)
    (w0 w1 : FVec Ideal ⟨2, ![K, 64]⟩ .f32) : FVec Ideal ⟨2, ![E, 64]⟩ .f32 :=
  fun i => msgEntry xj u w0 w1 (i 0) (i 1)

/-- The message block's tree of vector operations over the two products' operands. -/
def msgTree {φ ψ : FTy} (D : DotDims ⟨2, ![B, K]⟩ ⟨2, ![K, 64]⟩ ⟨2, ![B, 64]⟩)
    (xb : FVec Ideal ⟨2, ![B, K]⟩ φ) (w0b w1b : FVec Ideal ⟨2, ![K, 64]⟩ ψ) (v9 : FVec Ideal ⟨2, ![B, 1]⟩ .f32)
    (hbr : (⟨2, ![B, 1]⟩ : Shape).Broadcasts ⟨2, ![B, 64]⟩) : FVec Ideal ⟨2, ![B, 64]⟩ .f32 :=
  addf
    (mulf (FloatOps.matmul D none xb w0b (constant ⟨2, ![B, 64]⟩ .f32 0x00000000#32))
      (broadcastTo ⟨2, ![B, 64]⟩ (subf (broadcast ⟨2, ![B, 1]⟩ (Scalar.ofBits (F := Ideal) .f32 0x3F800000#32)) v9) hbr))
    (mulf (FloatOps.matmul D none xb w1b (constant ⟨2, ![B, 64]⟩ .f32 0x00000000#32))
      (broadcastTo ⟨2, ![B, 64]⟩ v9 hbr))

/-- The tree read at entry `(p, q)`. -/
theorem msgTree_apply {φ ψ : FTy} (D : DotDims ⟨2, ![B, K]⟩ ⟨2, ![K, 64]⟩ ⟨2, ![B, 64]⟩) (hD : D = DotDims.plain B K 64)
    (xb : FVec Ideal ⟨2, ![B, K]⟩ φ) (w0b w1b : FVec Ideal ⟨2, ![K, 64]⟩ ψ) (v9 : FVec Ideal ⟨2, ![B, 1]⟩ .f32)
    (hbr : (⟨2, ![B, 1]⟩ : Shape).Broadcasts ⟨2, ![B, 64]⟩) (p : Fin B) (q : Fin 64) :
    msgTree D xb w0b w1b v9 hbr (ix2 p q) = msgEntry xb v9 w0b w1b p q := by
  subst hD
  show FloatOps.addf (FloatOps.mulf (FloatOps.matmul _ none xb w0b _ (ix2 p q)) (broadcastTo _ _ hbr (ix2 p q)))
      (FloatOps.mulf (FloatOps.matmul _ none xb w1b _ (ix2 p q)) (broadcastTo _ _ hbr (ix2 p q))) = _
  rw [Cert.LibPlainDot.matmul_zero_plain, Cert.LibPlainDot.matmul_zero_plain,
    Cert.LibKeepdimsCols.broadcastTo_a1_ab_apply, Cert.LibKeepdimsCols.broadcastTo_a1_ab_apply]
  rfl

/-! ## The node block -/

/-- The activation as the block computes it: the argument above zero, `exp - 1` otherwise. -/
def actK (z : EReal) : EReal := Scalar.select (Ideal.cmp .ogt z zeroW) z (Ideal.exp z - oneW)

/-- Entry `(p, q)` of a node block before the activation. -/
def nodePre {φ ψ : FTy} (a : FVec Ideal ⟨2, ![B, 64]⟩ .f32) (d : FVec Ideal ⟨2, ![B, 1]⟩ .f32) (x : FVec Ideal ⟨2, ![B, K]⟩ φ)
    (r : FVec Ideal ⟨2, ![K, 64]⟩ ψ) (b : FVec Ideal ⟨2, ![1, 64]⟩ .f32) (p : Fin B) (q : Fin 64) : EReal :=
  Ideal.div (a (ix2 p q)) (max (d (ix2 p (0 : Fin 1))) oneW) + (∑ k : Fin K, x (ix2 p k) * r (ix2 k q))
    + b (ix2 (0 : Fin 1) q)

/-- Entry `(p, q)` of a node block. -/
def nodeEntry {φ ψ : FTy} (a : FVec Ideal ⟨2, ![B, 64]⟩ .f32) (d : FVec Ideal ⟨2, ![B, 1]⟩ .f32) (x : FVec Ideal ⟨2, ![B, K]⟩ φ)
    (r : FVec Ideal ⟨2, ![K, 64]⟩ ψ) (b : FVec Ideal ⟨2, ![1, 64]⟩ .f32) (p : Fin B) (q : Fin 64) : EReal :=
  actK (nodePre a d x r b p q)

/-- The updated features of all `N` nodes as one array. -/
def nodeAll {N : ℕ} (a : FVec Ideal ⟨2, ![N, 64]⟩ .f32) (d : FVec Ideal ⟨2, ![N, 1]⟩ .f32) (x : FVec Ideal ⟨2, ![N, K]⟩ .f32)
    (r : FVec Ideal ⟨2, ![K, 64]⟩ .f32) (b : FVec Ideal ⟨2, ![1, 64]⟩ .f32) : FVec Ideal ⟨2, ![N, 64]⟩ .f32 :=
  fun i => nodeEntry a d x r b (i 0) (i 1)

/-- The node block's tree before the activation, over the product's operands. -/
def nodePreTree {φ ψ : FTy} (D : DotDims ⟨2, ![B, K]⟩ ⟨2, ![K, 64]⟩ ⟨2, ![B, 64]⟩)
    (v1 : FVec Ideal ⟨2, ![B, 64]⟩ .f32) (v3 : FVec Ideal ⟨2, ![B, 1]⟩ .f32) (xb : FVec Ideal ⟨2, ![B, K]⟩ φ)
    (rb : FVec Ideal ⟨2, ![K, 64]⟩ ψ) (v12 : FVec Ideal ⟨2, ![1, 64]⟩ .f32)
    (hbc : (⟨2, ![B, 1]⟩ : Shape).Broadcasts ⟨2, ![B, 64]⟩) (hbr : (⟨2, ![1, 64]⟩ : Shape).Broadcasts ⟨2, ![B, 64]⟩) :
    FVec Ideal ⟨2, ![B, 64]⟩ .f32 :=
  addf (addf (divf v1
        (broadcastTo ⟨2, ![B, 64]⟩ (maximumf v3 (broadcast ⟨2, ![B, 1]⟩ (Scalar.ofBits (F := Ideal) .f32 0x3F800000#32))) hbc))
      (FloatOps.matmul D none xb rb (constant ⟨2, ![B, 64]⟩ .f32 0x00000000#32)))
    (broadcastTo ⟨2, ![B, 64]⟩ v12 hbr)

/-- The activation applied to a whole block, as the block spells it. -/
def actTree (z : FVec Ideal ⟨2, ![B, 64]⟩ .f32) : FVec Ideal ⟨2, ![B, 64]⟩ .f32 :=
  select (cmpf .ogt z (broadcast ⟨2, ![B, 64]⟩ (Scalar.ofBits (F := Ideal) .f32 0x00000000#32))) z
    (subf (exp z) (broadcast ⟨2, ![B, 64]⟩ (Scalar.ofBits (F := Ideal) .f32 0x3F800000#32)))

theorem nodePreTree_apply {φ ψ : FTy} (D : DotDims ⟨2, ![B, K]⟩ ⟨2, ![K, 64]⟩ ⟨2, ![B, 64]⟩) (hD : D = DotDims.plain B K 64)
    (v1 : FVec Ideal ⟨2, ![B, 64]⟩ .f32) (v3 : FVec Ideal ⟨2, ![B, 1]⟩ .f32) (xb : FVec Ideal ⟨2, ![B, K]⟩ φ)
    (rb : FVec Ideal ⟨2, ![K, 64]⟩ ψ) (v12 : FVec Ideal ⟨2, ![1, 64]⟩ .f32)
    (hbc : (⟨2, ![B, 1]⟩ : Shape).Broadcasts ⟨2, ![B, 64]⟩) (hbr : (⟨2, ![1, 64]⟩ : Shape).Broadcasts ⟨2, ![B, 64]⟩)
    (p : Fin B) (q : Fin 64) :
    nodePreTree D v1 v3 xb rb v12 hbc hbr (ix2 p q) = nodePre v1 v3 xb rb v12 p q := by
  subst hD
  show FloatOps.addf (FloatOps.addf (FloatOps.divf (v1 (ix2 p q)) (broadcastTo _ _ hbc (ix2 p q)))
      (FloatOps.matmul _ none xb rb _ (ix2 p q))) (broadcastTo _ v12 hbr (ix2 p q)) = _
  rw [Cert.LibPlainDot.matmul_zero_plain, Cert.LibKeepdimsCols.broadcastTo_a1_ab_apply, broadcastTo_1b_ab_apply]
  rfl

theorem actTree_apply (z : FVec Ideal ⟨2, ![B, 64]⟩ .f32) (i : (⟨2, ![B, 64]⟩ : Shape).Idx) : actTree z i = actK (z i) := rfl

end Cert.Spline

end
-- ==== Proof.Reg0.lean ====
/-
  The first layer's message stage as one array.

  The stage runs over 128 blocks of 10000 edges. Block `t` reads rows `10000 t … 10000 t + 9999` of the gathered
  source features and of the spline coordinate, and both weight matrices whole, and writes rows
  `10000 t … 10000 t + 9999` of the message array; a row of the result depends only on the same row of the two
  edge-indexed operands. So every block written back is the corresponding block of ONE function of the whole operand
  arrays — `Cert.Spline.msgAll` —, the 128 blocks tile the message array, and the array ends holding that function.
-/
import proofs.«170515_j51196010168472_1_alg».proof.Proof.Gen.KernelIdeal.Frame
import proofs.«170515_j51196010168472_1_alg».proof.Proof.SplinePay

set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block computation at entry `(p, q)` is the message entry of the loaded blocks. -/
theorem pay_eq (x0 : Vec Ideal S10000x3 .f32) (x1 : Vec Ideal S10000x1 .f32) (x2 x3 : Vec Ideal S3x64 .f32)
    (p : Fin 10000) (q : Fin 64) : k0_pay1 x0 x2 x3 x1 (ix2 p q) = Cert.Spline.msgEntry (φ := .f32) (ψ := .f32) x0 x1 x2 x3 p q := by
  unfold k0_pay1
  simp only [shapeCast_self]
  exact (Cert.Spline.msgTree_apply _ rfl (truncf .bf16 x0 _) (truncf .bf16 x2 _) (truncf .bf16 x3 _) x1 _ p q).trans rfl

/-- The index maps over the grid: the edge-indexed windows move with the output window along the rows, the weight
    windows stay, and the output's block index along the rows is the point's number. -/
theorem idx_facts : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

/-- The array row that row `p` of block `t` is. -/
def row (t : Fin cfg0.N) (p : Fin 10000) : Fin 1280000 :=
  ⟨t.val * 10000 + p.val, by have h1 := t.isLt; have hN : cfg0.N = 128 := N_0; have h2 := p.isLt; omega⟩

/-- Entry `(p, q)` of the output's block `t` sits at row `row t p`, column `q` of the message array. -/
theorem emb_out (t : Fin cfg0.N) (p : Fin 10000) (q : Fin 64) :
    ((cfg0.win 4).blk t).view.emb (ix2 p q) = ix2 (row t p) q := by
  obtain ⟨-, -, -, -, -, -, -, -, e8, e9⟩ := idx_facts t
  refine funext fun a => Fin.ext ?_
  match a with
  | ⟨0, _⟩ => show win0_4.index t (0 : Fin 2) * 10000 + 1 * p.val = t.val * 10000 + p.val; omega
  | ⟨1, _⟩ => show win0_4.index t (1 : Fin 2) * 64 + 1 * q.val = q.val; omega

/-- Block `t` of the gathered features, read at `(p, k)`: the array at row `row t p`. -/
theorem read0 (c : Dev nD) (t : Fin cfg0.N) (p : Fin 10000) (k : Fin 3) :
    iblk0 V c 0 t (ix2 p k) = V c (Pipeline.arrRef spec0 0) (ix2 (row t p) k) := by
  obtain ⟨e0, e1, -, -, -, -, -, -, e8, e9⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 3 + 1 * k.val = k.val; omega

/-- Block `t` of the spline coordinate, read at `(p, 0)`: the array at row `row t p`. -/
theorem read1 (c : Dev nD) (t : Fin cfg0.N) (p : Fin 10000) :
    iblk0 V c 1 t (ix2 p (0 : Fin 1)) = V c (Pipeline.arrRef spec0 1) (ix2 (row t p) (0 : Fin 1)) := by
  obtain ⟨-, -, e2, e3, -, -, -, -, e8, e9⟩ := idx_facts t
  show V c (Pipeline.arrRef spec0 1) (((cfg0.win 1).blk t).view.emb (ix2 p (0 : Fin 1))) = _
  refine congrArg _ (funext fun a => Fin.ext ?_)
  match a with
  | ⟨0, _⟩ => show win0_1.index t (0 : Fin 2) * 10000 + 1 * p.val = t.val * 10000 + p.val; omega
  | ⟨1, _⟩ => show win0_1.index t (1 : Fin 2) * 1 + 1 * 0 = 0; omega

/-- The first weight matrix is staged whole at every point. -/
theorem read2 (c : Dev nD) (t : Fin cfg0.N) (k : Fin 3) (q : Fin 64) :
    iblk0 V c 2 t (ix2 k q) = V c (Pipeline.arrRef spec0 2) (ix2 k q) := by
  obtain ⟨-, -, -, -, e4, e5, -, -, -, -⟩ := idx_facts t
  show V c (Pipeline.arrRef spec0 2) (((cfg0.win 2).blk t).view.emb (ix2 k q)) = _
  refine congrArg _ (funext fun a => Fin.ext ?_)
  match a with
  | ⟨0, _⟩ => show win0_2.index t (0 : Fin 2) * 3 + 1 * k.val = k.val; omega
  | ⟨1, _⟩ => show win0_2.index t (1 : Fin 2) * 64 + 1 * q.val = q.val; omega

/-- The second weight matrix is staged whole at every point. -/
theorem read3 (c : Dev nD) (t : Fin cfg0.N) (k : Fin 3) (q : Fin 64) :
    iblk0 V c 3 t (ix2 k q) = V c (Pipeline.arrRef spec0 3) (ix2 k q) := by
  obtain ⟨-, -, -, -, -, -, e6, e7, -, -⟩ := idx_facts t
  show V c (Pipeline.arrRef spec0 3) (((cfg0.win 3).blk t).view.emb (ix2 k q)) = _
  refine congrArg _ (funext fun a => Fin.ext ?_)
  match a with
  | ⟨0, _⟩ => show win0_3.index t (0 : Fin 2) * 3 + 1 * k.val = k.val; omega
  | ⟨1, _⟩ => show win0_3.index t (1 : Fin 2) * 64 + 1 * q.val = q.val; omega

/-- The message entry of the blocks at point `t` is the message entry of the whole operands at the block's row. -/
theorem entry_eq (c : Dev nD) (t : Fin cfg0.N) (p : Fin 10000) (q : Fin 64) :
    Cert.Spline.msgEntry (φ := .f32) (ψ := .f32) (iblk0 V c 0 t) (iblk0 V c 1 t) (iblk0 V c 2 t) (iblk0 V c 3 t) p q
      = Cert.Spline.msgEntry (φ := .f32) (ψ := .f32) (V c (Pipeline.arrRef spec0 0)) (V c (Pipeline.arrRef spec0 1))
          (V c (Pipeline.arrRef spec0 2)) (V c (Pipeline.arrRef spec0 3)) (row t p) q := by
  unfold Cert.Spline.msgEntry
  simp only [read0 V c t p, read1 V c t p, read2 V c t, read3 V c t]

/-- What point `t` writes back is block `t` of the message array of the operands as the stage finds them. -/
theorem flushed_eq (c : Dev nD) (t : Fin cfg0.N) :
    (dat0 V c).flushed 4 t = ((cfg0.win 4).blk t).view.read (Elt Ideal)
      (Cert.Spline.msgAll (V c (Pipeline.arrRef spec0 0)) (V c (Pipeline.arrRef spec0 1))
        (V c (Pipeline.arrRef spec0 2)) (V c (Pipeline.arrRef spec0 3))) := by
  show (cfg0.win 4).cut (grid0.coords t) ((dat0 V c).after 4 t) = _
  rw [after0_4]
  unfold out0_4
  rw [View.canon_unit_zero hz]
  simp only [View.ld_unit_zero (S := S10000x3) hz, View.ld_unit_zero (S := S3x64) hz, View.ld_unit_zero (S := S10000x1) hz]
  funext j
  obtain ⟨p, q, rfl⟩ : ∃ (p : Fin 10000) (q : Fin 64), j = ix2 p q := ⟨j 0, j 1, eq_ix2 j⟩
  show k0_pay1 (iblk0 V c 0 t) (iblk0 V c 2 t) (iblk0 V c 3 t) (iblk0 V c 1 t) (ix2 p q)
    = Cert.Spline.msgAll (V c (Pipeline.arrRef spec0 0)) (V c (Pipeline.arrRef spec0 1)) (V c (Pipeline.arrRef spec0 2))
        (V c (Pipeline.arrRef spec0 3)) (((cfg0.win 4).blk t).view.emb (ix2 p q))
  rw [emb_out t p q]
  exact (pay_eq _ _ _ _ p q).trans (entry_eq V c t p q)

/-- An index of the message array is in point `t`'s block iff each coordinate is in the block's range on its axis. -/
theorem mem_blk (t : Fin cfg0.N) (i : S1280000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v20).slice (win0_4.rect t)).set ↔ _
  rw [View.set_slice_whole, Rect.mem_set_unit]
  exact Iff.rfl

/-- The 128 blocks tile the message array: row `r` is in the block of point `r / 10000`. -/
theorem cover (i : S1280000x64.Idx) :
    ∃ t : Fin cfg0.N, (cfg0.win 4).flush t = true ∧ i ∈ ((cfg0.win 4).blk t).view.set := by
  have hi0 : (i 0).val < 1280000 := (i 0).isLt
  have hi1 : (i 1).val < 64 := (i 1).isLt
  have hN : cfg0.N = 128 := N_0
  let t : Fin cfg0.N := ⟨(i 0).val / 10000, by rw [hN]; omega⟩
  obtain ⟨-, -, -, -, -, -, -, -, e8, e9⟩ := idx_facts t
  have e9' : win0_4.index t (0 : Fin 2) = (i 0).val / 10000 := e9
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 64 ≤ (i 1).val ∧ (i 1).val < win0_4.index t (1 : Fin 2) * 64 + 64; omega

/-- THE MESSAGE ARRAY after the stage: the message function of the operand arrays as the stage finds them. -/
theorem final (c : Dev nD) : (dat0 V c).arrAt 4 cfg0.N
    = Cert.Spline.msgAll (V c (Pipeline.arrRef spec0 0)) (V c (Pipeline.arrRef spec0 1))
        (V c (Pipeline.arrRef spec0 2)) (V c (Pipeline.arrRef spec0 3)) :=
  (dat0 V c).arrAt_eq_of_cover 4 _ (fun t _ => flushed_eq V c t) cover

end Cert.KernelIdeal.Reg0

end
-- ==== Proof.Reg1.lean ====
/-
  The first layer's node stage as one array.

  The stage runs over 10 blocks of 8000 nodes. Block `t` reads rows `8000 t … 8000 t + 7999` of the aggregated
  messages, of the degree column and of the node features, and the root weights and the bias row whole, and writes rows
  `8000 t … 8000 t + 7999` of the updated features; a row of the result depends only on the same row of the three
  node-indexed operands. So every block written back is the corresponding block of ONE function of the whole operand
  arrays — `Cert.Spline.nodeAll` —, the 10 blocks tile the feature array, and the array ends holding that function.
-/
import proofs.«170515_j51196010168472_1_alg».proof.Proof.Gen.KernelIdeal.Frame
import proofs.«170515_j51196010168472_1_alg».proof.Proof.SplinePay

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block computation at entry `(p, q)` is the node entry of the loaded blocks. -/
theorem pay_eq (x0 : Vec Ideal S8000x64 .f32) (x1 : Vec Ideal S8000x1 .f32) (x2 : Vec Ideal S8000x3 .f32)
    (x3 : Vec Ideal S3x64 .f32) (x4 : Vec Ideal S1x64 .f32) (p : Fin 8000) (q : Fin 64) :
    k1_pay1 x0 x1 x2 x3 x4 (ix2 p q) = Cert.Spline.nodeEntry (φ := .f32) (ψ := .f32) x0 x1 x2 x3 x4 p q := by
  unfold k1_pay1
  simp only [shapeCast_self]
  show Cert.Spline.actTree (Cert.Spline.nodePreTree _ x0 x1 (truncf .bf16 x2 _) (truncf .bf16 x3 _) x4 _ _) (ix2 p q) = _
  rw [Cert.Spline.actTree_apply]
  exact congrArg Cert.Spline.actK
    ((Cert.Spline.nodePreTree_apply dot_S8000x3_S3x64_S8000x64_1_0_0_1_n_n rfl x0 x1 _ _ x4 _ _ p q).trans rfl)

/-- The index maps over the grid: the node-indexed windows move with the output window along the rows, the root
    weights and the bias stay, and the output's block index along the rows is the point's number. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val :=
  (by decide +kernel : ∀ t : Fin grid1.N, _)

/-- The array row that row `p` of block `t` is. -/
def row (t : Fin cfg1.N) (p : Fin 8000) : Fin 80000 :=
  ⟨t.val * 8000 + p.val, by have h1 := t.isLt; have hN : cfg1.N = 10 := N_1; have h2 := p.isLt; omega⟩

/-- Entry `(p, q)` of the output's block `t` sits at row `row t p`, column `q` of the feature array. -/
theorem emb_out (t : Fin cfg1.N) (p : Fin 8000) (q : Fin 64) :
    ((cfg1.win 5).blk t).view.emb (ix2 p q) = ix2 (row t p) q := by
  obtain ⟨-, -, -, -, -, -, -, -, -, -, e10, e11⟩ := idx_facts t
  refine funext fun a => Fin.ext ?_
  match a with
  | ⟨0, _⟩ => show win1_5.index t (0 : Fin 2) * 8000 + 1 * p.val = t.val * 8000 + p.val; omega
  | ⟨1, _⟩ => show win1_5.index t (1 : Fin 2) * 64 + 1 * q.val = q.val; omega

/-- Block `t` of the aggregated messages, read at `(p, q)`: the array at row `row t p`. -/
theorem read0 (c : Dev nD) (t : Fin cfg1.N) (p : Fin 8000) (q : Fin 64) :
    iblk1 V c 0 t (ix2 p q) = V c (Pipeline.arrRef spec1 0) (ix2 (row t p) q) := by
  obtain ⟨e0, e1, -, -, -, -, -, -, -, -, e10, e11⟩ := idx_facts t
  show V c (Pipeline.arrRef spec1 0) (((cfg1.win 0).blk t).view.emb (ix2 p q)) = _
  refine congrArg _ (funext fun a => Fin.ext ?_)
  match a with
  | ⟨0, _⟩ => show win1_0.index t (0 : Fin 2) * 8000 + 1 * p.val = t.val * 8000 + p.val; omega
  | ⟨1, _⟩ => show win1_0.index t (1 : Fin 2) * 64 + 1 * q.val = q.val; omega

/-- Block `t` of the degree column, read at `(p, 0)`: the array at row `row t p`. -/
theorem read1 (c : Dev nD) (t : Fin cfg1.N) (p : Fin 8000) :
    iblk1 V c 1 t (ix2 p (0 : Fin 1)) = V c (Pipeline.arrRef spec1 1) (ix2 (row t p) (0 : Fin 1)) := by
  obtain ⟨-, -, e2, e3, -, -, -, -, -, -, e10, e11⟩ := idx_facts t
  show V c (Pipeline.arrRef spec1 1) (((cfg1.win 1).blk t).view.emb (ix2 p (0 : Fin 1))) = _
  refine congrArg _ (funext fun a => Fin.ext ?_)
  match a with
  | ⟨0, _⟩ => show win1_1.index t (0 : Fin 2) * 8000 + 1 * p.val = t.val * 8000 + p.val; omega
  | ⟨1, _⟩ => show win1_1.index t (1 : Fin 2) * 1 + 1 * 0 = 0; omega

/-- Block `t` of the node features, read at `(p, k)`: the array at row `row t p`. -/
theorem read2 (c : Dev nD) (t : Fin cfg1.N) (p : Fin 8000) (k : Fin 3) :
    iblk1 V c 2 t (ix2 p k) = V c (Pipeline.arrRef spec1 2) (ix2 (row t p) k) := by
  obtain ⟨-, -, -, -, e4, e5, -, -, -, -, e10, e11⟩ := idx_facts t
  show V c (Pipeline.arrRef spec1 2) (((cfg1.win 2).blk t).view.emb (ix2 p k)) = _
  refine congrArg _ (funext fun a => Fin.ext ?_)
  match a with
  | ⟨0, _⟩ => show win1_2.index t (0 : Fin 2) * 8000 + 1 * p.val = t.val * 8000 + p.val; omega
  | ⟨1, _⟩ => show win1_2.index t (1 : Fin 2) * 3 + 1 * k.val = k.val; omega

/-- The root weights are staged whole at every point. -/
theorem read3 (c : Dev nD) (t : Fin cfg1.N) (k : Fin 3) (q : Fin 64) :
    iblk1 V c 3 t (ix2 k q) = V c (Pipeline.arrRef spec1 3) (ix2 k q) := by
  obtain ⟨-, -, -, -, -, -, e6, e7, -, -, -, -⟩ := idx_facts t
  show V c (Pipeline.arrRef spec1 3) (((cfg1.win 3).blk t).view.emb (ix2 k q)) = _
  refine congrArg _ (funext fun a => Fin.ext ?_)
  match a with
  | ⟨0, _⟩ => show win1_3.index t (0 : Fin 2) * 3 + 1 * k.val = k.val; omega
  | ⟨1, _⟩ => show win1_3.index t (1 : Fin 2) * 64 + 1 * q.val = q.val; omega

/-- The bias row is staged whole at every point. -/
theorem read4 (c : Dev nD) (t : Fin cfg1.N) (q : Fin 64) :
    iblk1 V c 4 t (ix2 (0 : Fin 1) q) = V c (Pipeline.arrRef spec1 4) (ix2 (0 : Fin 1) q) := by
  obtain ⟨-, -, -, -, -, -, -, -, e8, e9, -, -⟩ := idx_facts t
  show V c (Pipeline.arrRef spec1 4) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The node entry of the blocks at point `t` is the node entry of the whole operands at the block's row. -/
theorem entry_eq (c : Dev nD) (t : Fin cfg1.N) (p : Fin 8000) (q : Fin 64) :
    Cert.Spline.nodeEntry (φ := .f32) (ψ := .f32) (iblk1 V c 0 t) (iblk1 V c 1 t) (iblk1 V c 2 t) (iblk1 V c 3 t)
        (iblk1 V c 4 t) p q
      = Cert.Spline.nodeEntry (φ := .f32) (ψ := .f32) (V c (Pipeline.arrRef spec1 0)) (V c (Pipeline.arrRef spec1 1))
          (V c (Pipeline.arrRef spec1 2)) (V c (Pipeline.arrRef spec1 3)) (V c (Pipeline.arrRef spec1 4)) (row t p) q := by
  unfold Cert.Spline.nodeEntry Cert.Spline.nodePre
  simp only [read0 V c t p, read1 V c t p, read2 V c t p, read3 V c t, read4 V c t]

/-- What point `t` writes back is block `t` of the updated features of the operands as the stage finds them. -/
theorem flushed_eq (c : Dev nD) (t : Fin cfg1.N) :
    (dat1 V c).flushed 5 t = ((cfg1.win 5).blk t).view.read (Elt Ideal)
      (Cert.Spline.nodeAll (V c (Pipeline.arrRef spec1 0)) (V c (Pipeline.arrRef spec1 1))
        (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S8000x64) hz, View.ld_unit_zero (S := S8000x1) hz, View.ld_unit_zero (S := S8000x3) hz,
    View.ld_unit_zero (S := S3x64) hz, View.ld_unit_zero (S := S1x64) hz]
  funext j
  obtain ⟨p, q, rfl⟩ : ∃ (p : Fin 8000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = Cert.Spline.nodeAll (V c (Pipeline.arrRef spec1 0)) (V c (Pipeline.arrRef spec1 1)) (V c (Pipeline.arrRef spec1 2))
        (V c (Pipeline.arrRef spec1 3)) (V c (Pipeline.arrRef spec1 4)) (((cfg1.win 5).blk t).view.emb (ix2 p q))
  rw [emb_out t p q]
  exact (pay_eq _ _ _ _ _ p q).trans (entry_eq V c t p q)

/-- An index of the feature array is in point `t`'s block iff each coordinate is in the block's range on its axis. -/
theorem mem_blk (t : Fin cfg1.N) (i : S80000x64.Idx) :
    i ∈ ((cfg1.win 5).blk t).view.set ↔ ∀ a : Fin 2, win1_5.index t a * S8000x64.size a ≤ (i a).val
      ∧ (i a).val < win1_5.index t a * S8000x64.size a + S8000x64.size a := by
  show i ∈ ((View.whole main_v25).slice (win1_5.rect t)).set ↔ _
  rw [View.set_slice_whole, Rect.mem_set_unit]
  exact Iff.rfl

/-- The 10 blocks tile the feature array: row `r` is in the block of point `r / 8000`. -/
theorem cover (i : S80000x64.Idx) :
    ∃ t : Fin cfg1.N, (cfg1.win 5).flush t = true ∧ i ∈ ((cfg1.win 5).blk t).view.set := by
  have hi0 : (i 0).val < 80000 := (i 0).isLt
  have hi1 : (i 1).val < 64 := (i 1).isLt
  have hN : cfg1.N = 10 := N_1
  let t : Fin cfg1.N := ⟨(i 0).val / 8000, by rw [hN]; omega⟩
  obtain ⟨-, -, -, -, -, -, -, -, -, -, e10, e11⟩ := idx_facts t
  have e11' : win1_5.index t (0 : Fin 2) = (i 0).val / 8000 := e11
  refine ⟨t, flush1_5 t, ?_⟩
  rw [mem_blk]
  intro a
  match a with
  | ⟨0, _⟩ => show win1_5.index t (0 : Fin 2) * 8000 ≤ (i 0).val ∧ (i 0).val < win1_5.index t (0 : Fin 2) * 8000 + 8000; omega
  | ⟨1, _⟩ => show win1_5.index t (1 : Fin 2) * 64 ≤ (i 1).val ∧ (i 1).val < win1_5.index t (1 : Fin 2) * 64 + 64; omega

/-- THE FEATURE ARRAY after the stage: the node function of the operand arrays as the stage finds them. -/
theorem final (c : Dev nD) : (dat1 V c).arrAt 5 cfg1.N
    = Cert.Spline.nodeAll (V c (Pipeline.arrRef spec1 0)) (V c (Pipeline.arrRef spec1 1))
        (V c (Pipeline.arrRef spec1 2)) (V c (Pipeline.arrRef spec1 3)) (V c (Pipeline.arrRef spec1 4)) :=
  (dat1 V c).arrAt_eq_of_cover 5 _ (fun t _ => flushed_eq V c t) cover

end Cert.KernelIdeal.Reg1

end
-- ==== Proof.Reg2.lean ====
/-
  The second layer's message stage as one array.

  The stage runs over 128 blocks of 10000 edges. Block `t` reads rows `10000 t … 10000 t + 9999` of the gathered
  source features and of the spline coordinate, and both weight matrices whole, and writes rows
  `10000 t … 10000 t + 9999` of the message array; a row of the result depends only on the same row of the two
  edge-indexed operands. So every block written back is the corresponding block of ONE function of the whole operand
  arrays — `Cert.Spline.msgAll` —, the 128 blocks tile the message array, and the array ends holding that function.
-/
import proofs.«170515_j51196010168472_1_alg».proof.Proof.Gen.KernelIdeal.Frame
import proofs.«170515_j51196010168472_1_alg».proof.Proof.SplinePay

set_option maxRecDepth 16384

noncomputable section

namespace Cert.KernelIdeal.Reg2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block computation at entry `(p, q)` is the message entry of the loaded blocks. -/
theorem pay_eq (x0 : Vec Ideal S10000x64 .f32) (x1 : Vec Ideal S10000x1 .f32) (x2 x3 : Vec Ideal S64x64 .f32)
    (p : Fin 10000) (q : Fin 64) : k2_pay1 x0 x2 x3 x1 (ix2 p q) = Cert.Spline.msgEntry (φ := .f32) (ψ := .f32) x0 x1 x2 x3 p q := by
  unfold k2_pay1
  simp only [shapeCast_self]
  exact (Cert.Spline.msgTree_apply _ rfl (truncf .bf16 x0 _) (truncf .bf16 x2 _) (truncf .bf16 x3 _) x1 _ p q).trans rfl

/-- The index maps over the grid: the edge-indexed windows move with the output window along the rows, the weight
    windows stay, and the output's block index along the rows is the point's number. -/
theorem idx_facts : ∀ t : Fin cfg2.N, win2_0.index t (0 : Fin 2) = win2_4.index t (0 : Fin 2)
    ∧ win2_0.index t (1 : Fin 2) = 0
    ∧ win2_1.index t (0 : Fin 2) = win2_4.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) = t.val :=
  (by decide +kernel : ∀ t : Fin grid2.N, _)

/-- The array row that row `p` of block `t` is. -/
def row (t : Fin cfg2.N) (p : Fin 10000) : Fin 1280000 :=
  ⟨t.val * 10000 + p.val, by have h1 := t.isLt; have hN : cfg2.N = 128 := N_2; have h2 := p.isLt; omega⟩

/-- Entry `(p, q)` of the output's block `t` sits at row `row t p`, column `q` of the message array. -/
theorem emb_out (t : Fin cfg2.N) (p : Fin 10000) (q : Fin 64) :
    ((cfg2.win 4).blk t).view.emb (ix2 p q) = ix2 (row t p) q := by
  obtain ⟨-, -, -, -, -, -, -, -, e8, e9⟩ := idx_facts t
  refine funext fun a => Fin.ext ?_
  match a with
  | ⟨0, _⟩ => show win2_4.index t (0 : Fin 2) * 10000 + 1 * p.val = t.val * 10000 + p.val; omega
  | ⟨1, _⟩ => show win2_4.index t (1 : Fin 2) * 64 + 1 * q.val = q.val; omega

/-- Block `t` of the gathered features, read at `(p, k)`: the array at row `row t p`. -/
theorem read0 (c : Dev nD) (t : Fin cfg2.N) (p : Fin 10000) (k : Fin 64) :
    iblk2 V c 0 t (ix2 p k) = V c (Pipeline.arrRef spec2 0) (ix2 (row t p) k) := by
  obtain ⟨e0, e1, -, -, -, -, -, -, e8, e9⟩ := idx_facts t
  show V c (Pipeline.arrRef spec2 0) (((cfg2.win 0).blk t).view.emb (ix2 p k)) = _
  refine congrArg _ (funext fun a => Fin.ext ?_)
  match a with
  | ⟨0, _⟩ => show win2_0.index t (0 : Fin 2) * 10000 + 1 * p.val = t.val * 10000 + p.val; omega
  | ⟨1, _⟩ => show win2_0.index t (1 : Fin 2) * 64 + 1 * k.val = k.val; omega

/-- Block `t` of the spline coordinate, read at `(p, 0)`: the array at row `row t p`. -/
theorem read1 (c : Dev nD) (t : Fin cfg2.N) (p : Fin 10000) :
    iblk2 V c 1 t (ix2 p (0 : Fin 1)) = V c (Pipeline.arrRef spec2 1) (ix2 (row t p) (0 : Fin 1)) := by
  obtain ⟨-, -, e2, e3, -, -, -, -, e8, e9⟩ := idx_facts t
  show V c (Pipeline.arrRef spec2 1) (((cfg2.win 1).blk t).view.emb (ix2 p (0 : Fin 1))) = _
  refine congrArg _ (funext fun a => Fin.ext ?_)
  match a with
  | ⟨0, _⟩ => show win2_1.index t (0 : Fin 2) * 10000 + 1 * p.val = t.val * 10000 + p.val; omega
  | ⟨1, _⟩ => show win2_1.index t (1 : Fin 2) * 1 + 1 * 0 = 0; omega

/-- The first weight matrix is staged whole at every point. -/
theorem read2 (c : Dev nD) (t : Fin cfg2.N) (k : Fin 64) (q : Fin 64) :
    iblk2 V c 2 t (ix2 k q) = V c (Pipeline.arrRef spec2 2) (ix2 k q) := by
  obtain ⟨-, -, -, -, e4, e5, -, -, -, -⟩ := idx_facts t
  show V c (Pipeline.arrRef spec2 2) (((cfg2.win 2).blk t).view.emb (ix2 k q)) = _
  refine congrArg _ (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The second weight matrix is staged whole at every point. -/
theorem read3 (c : Dev nD) (t : Fin cfg2.N) (k : Fin 64) (q : Fin 64) :
    iblk2 V c 3 t (ix2 k q) = V c (Pipeline.arrRef spec2 3) (ix2 k q) := by
  obtain ⟨-, -, -, -, -, -, e6, e7, -, -⟩ := idx_facts t
  show V c (Pipeline.arrRef spec2 3) (((cfg2.win 3).blk t).view.emb (ix2 k q)) = _
  refine congrArg _ (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- The message entry of the blocks at point `t` is the message entry of the whole operands at the block's row. -/
theorem entry_eq (c : Dev nD) (t : Fin cfg2.N) (p : Fin 10000) (q : Fin 64) :
    Cert.Spline.msgEntry (φ := .f32) (ψ := .f32) (iblk2 V c 0 t) (iblk2 V c 1 t) (iblk2 V c 2 t) (iblk2 V c 3 t) p q
      = Cert.Spline.msgEntry (φ := .f32) (ψ := .f32) (V c (Pipeline.arrRef spec2 0)) (V c (Pipeline.arrRef spec2 1))
          (V c (Pipeline.arrRef spec2 2)) (V c (Pipeline.arrRef spec2 3)) (row t p) q := by
  unfold Cert.Spline.msgEntry
  simp only [read0 V c t p, read1 V c t p, read2 V c t, read3 V c t]

/-- What point `t` writes back is block `t` of the message array of the operands as the stage finds them. -/
theorem flushed_eq (c : Dev nD) (t : Fin cfg2.N) :
    (dat2 V c).flushed 4 t = ((cfg2.win 4).blk t).view.read (Elt Ideal)
      (Cert.Spline.msgAll (V c (Pipeline.arrRef spec2 0)) (V c (Pipeline.arrRef spec2 1))
        (V c (Pipeline.arrRef spec2 2)) (V c (Pipeline.arrRef spec2 3))) := by
  show (cfg2.win 4).cut (grid2.coords t) ((dat2 V c).after 4 t) = _
  rw [after2_4]
  unfold out2_4
  rw [View.canon_unit_zero hz]
  simp only [View.ld_unit_zero (S := S10000x64) hz, View.ld_unit_zero (S := S64x64) hz, View.ld_unit_zero (S := S10000x1) hz]
  funext j
  obtain ⟨p, q, rfl⟩ : ∃ (p : Fin 10000) (q : Fin 64), j = ix2 p q := ⟨j 0, j 1, eq_ix2 j⟩
  show k2_pay1 (iblk2 V c 0 t) (iblk2 V c 2 t) (iblk2 V c 3 t) (iblk2 V c 1 t) (ix2 p q)
    = Cert.Spline.msgAll (V c (Pipeline.arrRef spec2 0)) (V c (Pipeline.arrRef spec2 1)) (V c (Pipeline.arrRef spec2 2))
        (V c (Pipeline.arrRef spec2 3)) (((cfg2.win 4).blk t).view.emb (ix2 p q))
  rw [emb_out t p q]
  exact (pay_eq _ _ _ _ p q).trans (entry_eq V c t p q)

/-- An index of the message array is in point `t`'s block iff each coordinate is in the block's range on its axis. -/
theorem mem_blk (t : Fin cfg2.N) (i : S1280000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v37).slice (win2_4.rect t)).set ↔ _
  rw [View.set_slice_whole, Rect.mem_set_unit]
  exact Iff.rfl

/-- The 128 blocks tile the message array: row `r` is in the block of point `r / 10000`. -/
theorem cover (i : S1280000x64.Idx) :
    ∃ t : Fin cfg2.N, (cfg2.win 4).flush t = true ∧ i ∈ ((cfg2.win 4).blk t).view.set := by
  have hi0 : (i 0).val < 1280000 := (i 0).isLt
  have hi1 : (i 1).val < 64 := (i 1).isLt
  have hN : cfg2.N = 128 := N_2
  let t : Fin cfg2.N := ⟨(i 0).val / 10000, by rw [hN]; omega⟩
  obtain ⟨-, -, -, -, -, -, -, -, e8, e9⟩ := idx_facts t
  have e9' : win2_4.index t (0 : Fin 2) = (i 0).val / 10000 := e9
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- THE MESSAGE ARRAY after the stage: the message function of the operand arrays as the stage finds them. -/
theorem final (c : Dev nD) : (dat2 V c).arrAt 4 cfg2.N
    = Cert.Spline.msgAll (V c (Pipeline.arrRef spec2 0)) (V c (Pipeline.arrRef spec2 1))
        (V c (Pipeline.arrRef spec2 2)) (V c (Pipeline.arrRef spec2 3)) :=
  (dat2 V c).arrAt_eq_of_cover 4 _ (fun t _ => flushed_eq V c t) cover

end Cert.KernelIdeal.Reg2

end
-- ==== Proof.Reg3.lean ====
/-
  The second layer's node stage as one array.

  The stage runs over 10 blocks of 8000 nodes. Block `t` reads rows `8000 t … 8000 t + 7999` of the aggregated
  messages, of the degree column and of the node features, and the root weights and the bias row whole, and writes rows
  `8000 t … 8000 t + 7999` of the updated features; a row of the result depends only on the same row of the three
  node-indexed operands. So every block written back is the corresponding block of ONE function of the whole operand
  arrays — `Cert.Spline.nodeAll` —, the 10 blocks tile the feature array, and the array ends holding that function.
-/
import proofs.«170515_j51196010168472_1_alg».proof.Proof.Gen.KernelIdeal.Frame
import proofs.«170515_j51196010168472_1_alg».proof.Proof.SplinePay

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block computation at entry `(p, q)` is the node entry of the loaded blocks. -/
theorem pay_eq (x0 : Vec Ideal S8000x64 .f32) (x1 : Vec Ideal S8000x1 .f32) (x2 : Vec Ideal S8000x64 .f32)
    (x3 : Vec Ideal S64x64 .f32) (x4 : Vec Ideal S1x64 .f32) (p : Fin 8000) (q : Fin 64) :
    k3_pay1 x0 x1 x2 x3 x4 (ix2 p q) = Cert.Spline.nodeEntry (φ := .f32) (ψ := .f32) x0 x1 x2 x3 x4 p q := by
  unfold k3_pay1
  simp only [shapeCast_self]
  show Cert.Spline.actTree (Cert.Spline.nodePreTree _ x0 x1 (truncf .bf16 x2 _) (truncf .bf16 x3 _) x4 _ _) (ix2 p q) = _
  rw [Cert.Spline.actTree_apply]
  exact congrArg Cert.Spline.actK
    ((Cert.Spline.nodePreTree_apply dot_S8000x64_S64x64_S8000x64_1_0_0_1_n_n rfl x0 x1 _ _ x4 _ _ p q).trans rfl)

/-- The index maps over the grid: the node-indexed windows move with the output window along the rows, the root
    weights and the bias stay, and the output's block index along the rows is the point's number. -/
theorem idx_facts : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = win3_5.index t (0 : Fin 2)
    ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) = t.val :=
  (by decide +kernel : ∀ t : Fin grid3.N, _)

/-- The array row that row `p` of block `t` is. -/
def row (t : Fin cfg3.N) (p : Fin 8000) : Fin 80000 :=
  ⟨t.val * 8000 + p.val, by have h1 := t.isLt; have hN : cfg3.N = 10 := N_3; have h2 := p.isLt; omega⟩

/-- Entry `(p, q)` of the output's block `t` sits at row `row t p`, column `q` of the feature array. -/
theorem emb_out (t : Fin cfg3.N) (p : Fin 8000) (q : Fin 64) :
    ((cfg3.win 5).blk t).view.emb (ix2 p q) = ix2 (row t p) q := by
  obtain ⟨-, -, -, -, -, -, -, -, -, -, e10, e11⟩ := idx_facts t
  refine funext fun a => Fin.ext ?_
  match a with
  | ⟨0, _⟩ => show win3_5.index t (0 : Fin 2) * 8000 + 1 * p.val = t.val * 8000 + p.val; omega
  | ⟨1, _⟩ => show win3_5.index t (1 : Fin 2) * 64 + 1 * q.val = q.val; omega

/-- Block `t` of the aggregated messages, read at `(p, q)`: the array at row `row t p`. -/
theorem read0 (c : Dev nD) (t : Fin cfg3.N) (p : Fin 8000) (q : Fin 64) :
    iblk3 V c 0 t (ix2 p q) = V c (Pipeline.arrRef spec3 0) (ix2 (row t p) q) := by
  obtain ⟨e0, e1, -, -, -, -, -, -, -, -, e10, e11⟩ := idx_facts t
  show V c (Pipeline.arrRef spec3 0) (((cfg3.win 0).blk t).view.emb (ix2 p q)) = _
  refine congrArg _ (funext fun a => Fin.ext ?_)
  match a with
  | ⟨0, _⟩ => show win3_0.index t (0 : Fin 2) * 8000 + 1 * p.val = t.val * 8000 + p.val; omega
  | ⟨1, _⟩ => show win3_0.index t (1 : Fin 2) * 64 + 1 * q.val = q.val; omega

/-- Block `t` of the degree column, read at `(p, 0)`: the array at row `row t p`. -/
theorem read1 (c : Dev nD) (t : Fin cfg3.N) (p : Fin 8000) :
    iblk3 V c 1 t (ix2 p (0 : Fin 1)) = V c (Pipeline.arrRef spec3 1) (ix2 (row t p) (0 : Fin 1)) := by
  obtain ⟨-, -, e2, e3, -, -, -, -, -, -, e10, e11⟩ := idx_facts t
  show V c (Pipeline.arrRef spec3 1) (((cfg3.win 1).blk t).view.emb (ix2 p (0 : Fin 1))) = _
  refine congrArg _ (funext fun a => Fin.ext ?_)
  match a with
  | ⟨0, _⟩ => show win3_1.index t (0 : Fin 2) * 8000 + 1 * p.val = t.val * 8000 + p.val; omega
  | ⟨1, _⟩ => show win3_1.index t (1 : Fin 2) * 1 + 1 * 0 = 0; omega

/-- Block `t` of the node features, read at `(p, k)`: the array at row `row t p`. -/
theorem read2 (c : Dev nD) (t : Fin cfg3.N) (p : Fin 8000) (k : Fin 64) :
    iblk3 V c 2 t (ix2 p k) = V c (Pipeline.arrRef spec3 2) (ix2 (row t p) k) := by
  obtain ⟨-, -, -, -, e4, e5, -, -, -, -, e10, e11⟩ := idx_facts t
  show V c (Pipeline.arrRef spec3 2) (((cfg3.win 2).blk t).view.emb (ix2 p k)) = _
  refine congrArg _ (funext fun a => Fin.ext ?_)
  match a with
  | ⟨0, _⟩ => show win3_2.index t (0 : Fin 2) * 8000 + 1 * p.val = t.val * 8000 + p.val; omega
  | ⟨1, _⟩ => show win3_2.index t (1 : Fin 2) * 64 + 1 * k.val = k.val; omega

/-- The root weights are staged whole at every point. -/
theorem read3 (c : Dev nD) (t : Fin cfg3.N) (k : Fin 64) (q : Fin 64) :
    iblk3 V c 3 t (ix2 k q) = V c (Pipeline.arrRef spec3 3) (ix2 k q) := by
  obtain ⟨-, -, -, -, -, -, e6, e7, -, -, -, -⟩ := idx_facts t
  show V c (Pipeline.arrRef spec3 3) (((cfg3.win 3).blk t).view.emb (ix2 k q)) = _
  refine congrArg _ (funext fun a => Fin.ext ?_)
  match a with
  | ⟨0, _⟩ => show win3_3.index t (0 : Fin 2) * 64 + 1 * k.val = k.val; omega
  | ⟨1, _⟩ => show win3_3.index t (1 : Fin 2) * 64 + 1 * q.val = q.val; omega

/-- The bias row is staged whole at every point. -/
theorem read4 (c : Dev nD) (t : Fin cfg3.N) (q : Fin 64) :
    iblk3 V c 4 t (ix2 (0 : Fin 1) q) = V c (Pipeline.arrRef spec3 4) (ix2 (0 : Fin 1) q) := by
  obtain ⟨-, -, -, -, -, -, -, -, e8, e9, -, -⟩ := idx_facts t
  show V c (Pipeline.arrRef spec3 4) (((cfg3.win 4).blk t).view.emb (ix2 (0 : Fin 1) q)) = _
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * q.val = q.val; omega

/-- The node entry of the blocks at point `t` is the node entry of the whole operands at the block's row. -/
theorem entry_eq (c : Dev nD) (t : Fin cfg3.N) (p : Fin 8000) (q : Fin 64) :
    Cert.Spline.nodeEntry (φ := .f32) (ψ := .f32) (iblk3 V c 0 t) (iblk3 V c 1 t) (iblk3 V c 2 t) (iblk3 V c 3 t)
        (iblk3 V c 4 t) p q
      = Cert.Spline.nodeEntry (φ := .f32) (ψ := .f32) (V c (Pipeline.arrRef spec3 0)) (V c (Pipeline.arrRef spec3 1))
          (V c (Pipeline.arrRef spec3 2)) (V c (Pipeline.arrRef spec3 3)) (V c (Pipeline.arrRef spec3 4)) (row t p) q := by
  unfold Cert.Spline.nodeEntry Cert.Spline.nodePre
  simp only [read0 V c t p, read1 V c t p, read2 V c t p, read3 V c t, read4 V c t]

/-- What point `t` writes back is block `t` of the updated features of the operands as the stage finds them. -/
theorem flushed_eq (c : Dev nD) (t : Fin cfg3.N) :
    (dat3 V c).flushed 5 t = ((cfg3.win 5).blk t).view.read (Elt Ideal)
      (Cert.Spline.nodeAll (V c (Pipeline.arrRef spec3 0)) (V c (Pipeline.arrRef spec3 1))
        (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S8000x64) hz, View.ld_unit_zero (S := S8000x1) hz, View.ld_unit_zero (S := S8000x64) hz,
    View.ld_unit_zero (S := S64x64) hz, View.ld_unit_zero (S := S1x64) hz]
  funext j
  obtain ⟨p, q, rfl⟩ : ∃ (p : Fin 8000) (q : Fin 64), j = ix2 p q := ⟨j 0, j 1, eq_ix2 j⟩
  show k3_pay1 (iblk3 V c 0 t) (iblk3 V c 1 t) (iblk3 V c 2 t) (iblk3 V c 3 t) (iblk3 V c 4 t) (ix2 p q)
    = Cert.Spline.nodeAll (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  rw [emb_out t p q]
  exact (pay_eq _ _ _ _ _ p q).trans (entry_eq V c t p q)

/-- An index of the feature array is in point `t`'s block iff each coordinate is in the block's range on its axis. -/
theorem mem_blk (t : Fin cfg3.N) (i : S80000x64.Idx) :
    i ∈ ((cfg3.win 5).blk t).view.set ↔ ∀ a : Fin 2, win3_5.index t a * S8000x64.size a ≤ (i a).val
      ∧ (i a).val < win3_5.index t a * S8000x64.size a + S8000x64.size a := by
  show i ∈ ((View.whole main_v42).slice (win3_5.rect t)).set ↔ _
  rw [View.set_slice_whole, Rect.mem_set_unit]
  exact Iff.rfl

/-- The 10 blocks tile the feature array: row `r` is in the block of point `r / 8000`. -/
theorem cover (i : S80000x64.Idx) :
    ∃ t : Fin cfg3.N, (cfg3.win 5).flush t = true ∧ i ∈ ((cfg3.win 5).blk t).view.set := by
  have hi0 : (i 0).val < 80000 := (i 0).isLt
  have hi1 : (i 1).val < 64 := (i 1).isLt
  have hN : cfg3.N = 10 := N_3
  let t : Fin cfg3.N := ⟨(i 0).val / 8000, by rw [hN]; omega⟩
  obtain ⟨-, -, -, -, -, -, -, -, -, -, e10, e11⟩ := idx_facts t
  have e11' : win3_5.index t (0 : Fin 2) = (i 0).val / 8000 := e11
  refine ⟨t, flush3_5 t, ?_⟩
  rw [mem_blk]
  intro a
  match a with
  | ⟨0, _⟩ => show win3_5.index t (0 : Fin 2) * 8000 ≤ (i 0).val ∧ (i 0).val < win3_5.index t (0 : Fin 2) * 8000 + 8000; omega
  | ⟨1, _⟩ => show win3_5.index t (1 : Fin 2) * 64 ≤ (i 1).val ∧ (i 1).val < win3_5.index t (1 : Fin 2) * 64 + 64; omega

/-- THE FEATURE ARRAY after the stage: the node function of the operand arrays as the stage finds them. -/
theorem final (c : Dev nD) : (dat3 V c).arrAt 5 cfg3.N
    = Cert.Spline.nodeAll (V c (Pipeline.arrRef spec3 0)) (V c (Pipeline.arrRef spec3 1))
        (V c (Pipeline.arrRef spec3 2)) (V c (Pipeline.arrRef spec3 3)) (V c (Pipeline.arrRef spec3 4)) :=
  (dat3 V c).arrAt_eq_of_cover 5 _ (fun t _ => flushed_eq V c t) cover

end Cert.KernelIdeal.Reg3

end
-- ==== Proof.Reg4.lean ====
/-
  The third layer's message stage as one array.

  The stage runs over 128 blocks of 10000 edges. Block `t` reads rows `10000 t … 10000 t + 9999` of the gathered
  source features and of the spline coordinate, and both weight matrices whole, and writes rows
  `10000 t … 10000 t + 9999` of the message array; a row of the result depends only on the same row of the two
  edge-indexed operands. So every block written back is the corresponding block of ONE function of the whole operand
  arrays — `Cert.Spline.msgAll` —, the 128 blocks tile the message array, and the array ends holding that function.
-/
import proofs.«170515_j51196010168472_1_alg».proof.Proof.Gen.KernelIdeal.Frame
import proofs.«170515_j51196010168472_1_alg».proof.Proof.SplinePay

set_option maxRecDepth 16384

noncomputable section

namespace Cert.KernelIdeal.Reg4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block computation at entry `(p, q)` is the message entry of the loaded blocks. -/
theorem pay_eq (x0 : Vec Ideal S10000x64 .f32) (x1 : Vec Ideal S10000x1 .f32) (x2 x3 : Vec Ideal S64x64 .f32)
    (p : Fin 10000) (q : Fin 64) : k4_pay1 x0 x2 x3 x1 (ix2 p q) = Cert.Spline.msgEntry (φ := .f32) (ψ := .f32) x0 x1 x2 x3 p q := by
  unfold k4_pay1
  simp only [shapeCast_self]
  exact (Cert.Spline.msgTree_apply _ rfl (truncf .bf16 x0 _) (truncf .bf16 x2 _) (truncf .bf16 x3 _) x1 _ p q).trans rfl

/-- The index maps over the grid: the edge-indexed windows move with the output window along the rows, the weight
    windows stay, and the output's block index along the rows is the point's number. -/
theorem idx_facts : ∀ t : Fin cfg4.N, win4_0.index t (0 : Fin 2) = win4_4.index t (0 : Fin 2)
    ∧ win4_0.index t (1 : Fin 2) = 0
    ∧ win4_1.index t (0 : Fin 2) = win4_4.index t (0 : Fin 2)
    ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (1 : Fin 2) = 0 ∧ win4_4.index t (0 : Fin 2) = t.val :=
  (by decide +kernel : ∀ t : Fin grid4.N, _)

/-- The array row that row `p` of block `t` is. -/
def row (t : Fin cfg4.N) (p : Fin 10000) : Fin 1280000 :=
  ⟨t.val * 10000 + p.val, by have h1 := t.isLt; have hN : cfg4.N = 128 := N_4; have h2 := p.isLt; omega⟩

/-- Entry `(p, q)` of the output's block `t` sits at row `row t p`, column `q` of the message array. -/
theorem emb_out (t : Fin cfg4.N) (p : Fin 10000) (q : Fin 64) :
    ((cfg4.win 4).blk t).view.emb (ix2 p q) = ix2 (row t p) q := by
  obtain ⟨-, -, -, -, -, -, -, -, e8, e9⟩ := idx_facts t
  refine funext fun a => Fin.ext ?_
  match a with
  | ⟨0, _⟩ => show win4_4.index t (0 : Fin 2) * 10000 + 1 * p.val = t.val * 10000 + p.val; omega
  | ⟨1, _⟩ => show win4_4.index t (1 : Fin 2) * 64 + 1 * q.val = q.val; omega

/-- Block `t` of the gathered features, read at `(p, k)`: the array at row `row t p`. -/
theorem read0 (c : Dev nD) (t : Fin cfg4.N) (p : Fin 10000) (k : Fin 64) :
    iblk4 V c 0 t (ix2 p k) = V c (Pipeline.arrRef spec4 0) (ix2 (row t p) k) := by
  obtain ⟨e0, e1, -, -, -, -, -, -, e8, e9⟩ := idx_facts t
  show V c (Pipeline.arrRef spec4 0) (((cfg4.win 0).blk t).view.emb (ix2 p k)) = _
  refine congrArg _ (funext fun a => Fin.ext ?_)
  match a with
  | ⟨0, _⟩ => show win4_0.index t (0 : Fin 2) * 10000 + 1 * p.val = t.val * 10000 + p.val; omega
  | ⟨1, _⟩ => show win4_0.index t (1 : Fin 2) * 64 + 1 * k.val = k.val; omega

/-- Block `t` of the spline coordinate, read at `(p, 0)`: the array at row `row t p`. -/
theorem read1 (c : Dev nD) (t : Fin cfg4.N) (p : Fin 10000) :
    iblk4 V c 1 t (ix2 p (0 : Fin 1)) = V c (Pipeline.arrRef spec4 1) (ix2 (row t p) (0 : Fin 1)) := by
  obtain ⟨-, -, e2, e3, -, -, -, -, e8, e9⟩ := idx_facts t
  show V c (Pipeline.arrRef spec4 1) (((cfg4.win 1).blk t).view.emb (ix2 p (0 : Fin 1))) = _
  refine congrArg _ (funext fun a => Fin.ext ?_)
  match a with
  | ⟨0, _⟩ => show win4_1.index t (0 : Fin 2) * 10000 + 1 * p.val = t.val * 10000 + p.val; omega
  | ⟨1, _⟩ => show win4_1.index t (1 : Fin 2) * 1 + 1 * 0 = 0; omega

/-- The first weight matrix is staged whole at every point. -/
theorem read2 (c : Dev nD) (t : Fin cfg4.N) (k : Fin 64) (q : Fin 64) :
    iblk4 V c 2 t (ix2 k q) = V c (Pipeline.arrRef spec4 2) (ix2 k q) := by
  obtain ⟨-, -, -, -, e4, e5, -, -, -, -⟩ := idx_facts t
  show V c (Pipeline.arrRef spec4 2) (((cfg4.win 2).blk t).view.emb (ix2 k q)) = _
  refine congrArg _ (funext fun a => Fin.ext ?_)
  match a with
  | ⟨0, _⟩ => show win4_2.index t (0 : Fin 2) * 64 + 1 * k.val = k.val; omega
  | ⟨1, _⟩ => show win4_2.index t (1 : Fin 2) * 64 + 1 * q.val = q.val; omega

/-- The second weight matrix is staged whole at every point. -/
theorem read3 (c : Dev nD) (t : Fin cfg4.N) (k : Fin 64) (q : Fin 64) :
    iblk4 V c 3 t (ix2 k q) = V c (Pipeline.arrRef spec4 3) (ix2 k q) := by
  obtain ⟨-, -, -, -, -, -, e6, e7, -, -⟩ := idx_facts t
  show V c (Pipeline.arrRef spec4 3) (((cfg4.win 3).blk t).view.emb (ix2 k q)) = _
  refine congrArg _ (funext fun a => Fin.ext ?_)
  match a with
  | ⟨0, _⟩ => show win4_3.index t (0 : Fin 2) * 64 + 1 * k.val = k.val; omega
  | ⟨1, _⟩ => show win4_3.index t (1 : Fin 2) * 64 + 1 * q.val = q.val; omega

/-- The message entry of the blocks at point `t` is the message entry of the whole operands at the block's row. -/
theorem entry_eq (c : Dev nD) (t : Fin cfg4.N) (p : Fin 10000) (q : Fin 64) :
    Cert.Spline.msgEntry (φ := .f32) (ψ := .f32) (iblk4 V c 0 t) (iblk4 V c 1 t) (iblk4 V c 2 t) (iblk4 V c 3 t) p q
      = Cert.Spline.msgEntry (φ := .f32) (ψ := .f32) (V c (Pipeline.arrRef spec4 0)) (V c (Pipeline.arrRef spec4 1))
          (V c (Pipeline.arrRef spec4 2)) (V c (Pipeline.arrRef spec4 3)) (row t p) q := by
  unfold Cert.Spline.msgEntry
  simp only [read0 V c t p, read1 V c t p, read2 V c t, read3 V c t]

/-- What point `t` writes back is block `t` of the message array of the operands as the stage finds them. -/
theorem flushed_eq (c : Dev nD) (t : Fin cfg4.N) :
    (dat4 V c).flushed 4 t = ((cfg4.win 4).blk t).view.read (Elt Ideal)
      (Cert.Spline.msgAll (V c (Pipeline.arrRef spec4 0)) (V c (Pipeline.arrRef spec4 1))
        (V c (Pipeline.arrRef spec4 2)) (V c (Pipeline.arrRef spec4 3))) := by
  show (cfg4.win 4).cut (grid4.coords t) ((dat4 V c).after 4 t) = _
  rw [after4_4]
  unfold out4_4
  rw [View.canon_unit_zero hz]
  simp only [View.ld_unit_zero (S := S10000x64) hz, View.ld_unit_zero (S := S64x64) hz, View.ld_unit_zero (S := S10000x1) hz]
  funext j
  obtain ⟨p, q, rfl⟩ : ∃ (p : Fin 10000) (q : Fin 64), j = ix2 p q := ⟨j 0, j 1, eq_ix2 j⟩
  show k4_pay1 (iblk4 V c 0 t) (iblk4 V c 2 t) (iblk4 V c 3 t) (iblk4 V c 1 t) (ix2 p q)
    = Cert.Spline.msgAll (V c (Pipeline.arrRef spec4 0)) (V c (Pipeline.arrRef spec4 1)) (V c (Pipeline.arrRef spec4 2))
        (V c (Pipeline.arrRef spec4 3)) (((cfg4.win 4).blk t).view.emb (ix2 p q))
  rw [emb_out t p q]
  exact (pay_eq _ _ _ _ p q).trans (entry_eq V c t p q)

/-- An index of the message array is in point `t`'s block iff each coordinate is in the block's range on its axis. -/
theorem mem_blk (t : Fin cfg4.N) (i : S1280000x64.Idx) :
    i ∈ ((cfg4.win 4).blk t).view.set ↔ ∀ a : Fin 2, win4_4.index t a * S10000x64.size a ≤ (i a).val
      ∧ (i a).val < win4_4.index t a * S10000x64.size a + S10000x64.size a := by
  show i ∈ ((View.whole main_v54).slice (win4_4.rect t)).set ↔ _
  rw [View.set_slice_whole, Rect.mem_set_unit]
  exact Iff.rfl

/-- The 128 blocks tile the message array: row `r` is in the block of point `r / 10000`. -/
theorem cover (i : S1280000x64.Idx) :
    ∃ t : Fin cfg4.N, (cfg4.win 4).flush t = true ∧ i ∈ ((cfg4.win 4).blk t).view.set := by
  have hi0 : (i 0).val < 1280000 := (i 0).isLt
  have hi1 : (i 1).val < 64 := (i 1).isLt
  have hN : cfg4.N = 128 := N_4
  let t : Fin cfg4.N := ⟨(i 0).val / 10000, by rw [hN]; omega⟩
  obtain ⟨-, -, -, -, -, -, -, -, e8, e9⟩ := idx_facts t
  have e9' : win4_4.index t (0 : Fin 2) = (i 0).val / 10000 := e9
  refine ⟨t, flush4_4 t, ?_⟩
  rw [mem_blk]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 64 ≤ (i 1).val ∧ (i 1).val < win4_4.index t (1 : Fin 2) * 64 + 64; omega

/-- THE MESSAGE ARRAY after the stage: the message function of the operand arrays as the stage finds them. -/
theorem final (c : Dev nD) : (dat4 V c).arrAt 4 cfg4.N
    = Cert.Spline.msgAll (V c (Pipeline.arrRef spec4 0)) (V c (Pipeline.arrRef spec4 1))
        (V c (Pipeline.arrRef spec4 2)) (V c (Pipeline.arrRef spec4 3)) :=
  (dat4 V c).arrAt_eq_of_cover 4 _ (fun t _ => flushed_eq V c t) cover

end Cert.KernelIdeal.Reg4

end
-- ==== Proof.Reg5.lean ====
/-
  The third layer's node stage as one array.

  The stage runs over 10 blocks of 8000 nodes. Block `t` reads rows `8000 t … 8000 t + 7999` of the aggregated
  messages, of the degree column and of the node features, and the root weights and the bias row whole, and writes rows
  `8000 t … 8000 t + 7999` of the updated features; a row of the result depends only on the same row of the three
  node-indexed operands. So every block written back is the corresponding block of ONE function of the whole operand
  arrays — `Cert.Spline.nodeAll` —, the 10 blocks tile the feature array, and the array ends holding that function.
-/
import proofs.«170515_j51196010168472_1_alg».proof.Proof.Gen.KernelIdeal.Frame
import proofs.«170515_j51196010168472_1_alg».proof.Proof.SplinePay

set_option maxRecDepth 16384

noncomputable section

namespace Cert.KernelIdeal.Reg5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block computation at entry `(p, q)` is the node entry of the loaded blocks. -/
theorem pay_eq (x0 : Vec Ideal S8000x64 .f32) (x1 : Vec Ideal S8000x1 .f32) (x2 : Vec Ideal S8000x64 .f32)
    (x3 : Vec Ideal S64x64 .f32) (x4 : Vec Ideal S1x64 .f32) (p : Fin 8000) (q : Fin 64) :
    k5_pay1 x0 x1 x2 x3 x4 (ix2 p q) = Cert.Spline.nodeEntry (φ := .f32) (ψ := .f32) x0 x1 x2 x3 x4 p q := by
  unfold k5_pay1
  simp only [shapeCast_self]
  show Cert.Spline.actTree (Cert.Spline.nodePreTree _ x0 x1 (truncf .bf16 x2 _) (truncf .bf16 x3 _) x4 _ _) (ix2 p q) = _
  rw [Cert.Spline.actTree_apply]
  exact congrArg Cert.Spline.actK
    ((Cert.Spline.nodePreTree_apply dot_S8000x64_S64x64_S8000x64_1_0_0_1_n_n rfl x0 x1 _ _ x4 _ _ p q).trans rfl)

/-- The index maps over the grid: the node-indexed windows move with the output window along the rows, the root
    weights and the bias stay, and the output's block index along the rows is the point's number. -/
theorem idx_facts : ∀ t : Fin cfg5.N, win5_0.index t (0 : Fin 2) = win5_5.index t (0 : Fin 2)
    ∧ win5_0.index t (1 : Fin 2) = 0
    ∧ win5_1.index t (0 : Fin 2) = win5_5.index t (0 : Fin 2)
    ∧ win5_1.index t (1 : Fin 2) = 0
    ∧ win5_2.index t (0 : Fin 2) = win5_5.index t (0 : Fin 2)
    ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (1 : Fin 2) = 0 ∧ win5_5.index t (0 : Fin 2) = t.val :=
  (by decide +kernel : ∀ t : Fin grid5.N, _)

/-- The array row that row `p` of block `t` is. -/
def row (t : Fin cfg5.N) (p : Fin 8000) : Fin 80000 :=
  ⟨t.val * 8000 + p.val, by have h1 := t.isLt; have hN : cfg5.N = 10 := N_5; have h2 := p.isLt; omega⟩

/-- Entry `(p, q)` of the output's block `t` sits at row `row t p`, column `q` of the feature array. -/
theorem emb_out (t : Fin cfg5.N) (p : Fin 8000) (q : Fin 64) :
    ((cfg5.win 5).blk t).view.emb (ix2 p q) = ix2 (row t p) q := by
  obtain ⟨-, -, -, -, -, -, -, -, -, -, e10, e11⟩ := idx_facts t
  refine funext fun a => Fin.ext ?_
  match a with
  | ⟨0, _⟩ => show win5_5.index t (0 : Fin 2) * 8000 + 1 * p.val = t.val * 8000 + p.val; omega
  | ⟨1, _⟩ => show win5_5.index t (1 : Fin 2) * 64 + 1 * q.val = q.val; omega

/-- Block `t` of the aggregated messages, read at `(p, q)`: the array at row `row t p`. -/
theorem read0 (c : Dev nD) (t : Fin cfg5.N) (p : Fin 8000) (q : Fin 64) :
    iblk5 V c 0 t (ix2 p q) = V c (Pipeline.arrRef spec5 0) (ix2 (row t p) q) := by
  obtain ⟨e0, e1, -, -, -, -, -, -, -, -, e10, e11⟩ := idx_facts t
  show V c (Pipeline.arrRef spec5 0) (((cfg5.win 0).blk t).view.emb (ix2 p q)) = _
  refine congrArg _ (funext fun a => Fin.ext ?_)
  match a with
  | ⟨0, _⟩ => show win5_0.index t (0 : Fin 2) * 8000 + 1 * p.val = t.val * 8000 + p.val; omega
  | ⟨1, _⟩ => show win5_0.index t (1 : Fin 2) * 64 + 1 * q.val = q.val; omega

/-- Block `t` of the degree column, read at `(p, 0)`: the array at row `row t p`. -/
theorem read1 (c : Dev nD) (t : Fin cfg5.N) (p : Fin 8000) :
    iblk5 V c 1 t (ix2 p (0 : Fin 1)) = V c (Pipeline.arrRef spec5 1) (ix2 (row t p) (0 : Fin 1)) := by
  obtain ⟨-, -, e2, e3, -, -, -, -, -, -, e10, e11⟩ := idx_facts t
  show V c (Pipeline.arrRef spec5 1) (((cfg5.win 1).blk t).view.emb (ix2 p (0 : Fin 1))) = _
  refine congrArg _ (funext fun a => Fin.ext ?_)
  match a with
  | ⟨0, _⟩ => show win5_1.index t (0 : Fin 2) * 8000 + 1 * p.val = t.val * 8000 + p.val; omega
  | ⟨1, _⟩ => show win5_1.index t (1 : Fin 2) * 1 + 1 * 0 = 0; omega

/-- Block `t` of the node features, read at `(p, k)`: the array at row `row t p`. -/
theorem read2 (c : Dev nD) (t : Fin cfg5.N) (p : Fin 8000) (k : Fin 64) :
    iblk5 V c 2 t (ix2 p k) = V c (Pipeline.arrRef spec5 2) (ix2 (row t p) k) := by
  obtain ⟨-, -, -, -, e4, e5, -, -, -, -, e10, e11⟩ := idx_facts t
  show V c (Pipeline.arrRef spec5 2) (((cfg5.win 2).blk t).view.emb (ix2 p k)) = _
  refine congrArg _ (funext fun a => Fin.ext ?_)
  match a with
  | ⟨0, _⟩ => show win5_2.index t (0 : Fin 2) * 8000 + 1 * p.val = t.val * 8000 + p.val; omega
  | ⟨1, _⟩ => show win5_2.index t (1 : Fin 2) * 64 + 1 * k.val = k.val; omega

/-- The root weights are staged whole at every point. -/
theorem read3 (c : Dev nD) (t : Fin cfg5.N) (k : Fin 64) (q : Fin 64) :
    iblk5 V c 3 t (ix2 k q) = V c (Pipeline.arrRef spec5 3) (ix2 k q) := by
  obtain ⟨-, -, -, -, -, -, e6, e7, -, -, -, -⟩ := idx_facts t
  show V c (Pipeline.arrRef spec5 3) (((cfg5.win 3).blk t).view.emb (ix2 k q)) = _
  refine congrArg _ (funext fun a => Fin.ext ?_)
  match a with
  | ⟨0, _⟩ => show win5_3.index t (0 : Fin 2) * 64 + 1 * k.val = k.val; omega
  | ⟨1, _⟩ => show win5_3.index t (1 : Fin 2) * 64 + 1 * q.val = q.val; omega

/-- The bias row is staged whole at every point. -/
theorem read4 (c : Dev nD) (t : Fin cfg5.N) (q : Fin 64) :
    iblk5 V c 4 t (ix2 (0 : Fin 1) q) = V c (Pipeline.arrRef spec5 4) (ix2 (0 : Fin 1) q) := by
  obtain ⟨-, -, -, -, -, -, -, -, e8, e9, -, -⟩ := idx_facts t
  show V c (Pipeline.arrRef spec5 4) (((cfg5.win 4).blk t).view.emb (ix2 (0 : Fin 1) q)) = _
  refine congrArg _ (funext fun a => Fin.ext ?_)
  match a with
  | ⟨0, _⟩ => show win5_4.index t (0 : Fin 2) * 1 + 1 * 0 = 0; omega
  | ⟨1, _⟩ => show win5_4.index t (1 : Fin 2) * 64 + 1 * q.val = q.val; omega

/-- The node entry of the blocks at point `t` is the node entry of the whole operands at the block's row. -/
theorem entry_eq (c : Dev nD) (t : Fin cfg5.N) (p : Fin 8000) (q : Fin 64) :
    Cert.Spline.nodeEntry (φ := .f32) (ψ := .f32) (iblk5 V c 0 t) (iblk5 V c 1 t) (iblk5 V c 2 t) (iblk5 V c 3 t)
        (iblk5 V c 4 t) p q
      = Cert.Spline.nodeEntry (φ := .f32) (ψ := .f32) (V c (Pipeline.arrRef spec5 0)) (V c (Pipeline.arrRef spec5 1))
          (V c (Pipeline.arrRef spec5 2)) (V c (Pipeline.arrRef spec5 3)) (V c (Pipeline.arrRef spec5 4)) (row t p) q := by
  unfold Cert.Spline.nodeEntry Cert.Spline.nodePre
  simp only [read0 V c t p, read1 V c t p, read2 V c t p, read3 V c t, read4 V c t]

/-- What point `t` writes back is block `t` of the updated features of the operands as the stage finds them. -/
theorem flushed_eq (c : Dev nD) (t : Fin cfg5.N) :
    (dat5 V c).flushed 5 t = ((cfg5.win 5).blk t).view.read (Elt Ideal)
      (Cert.Spline.nodeAll (V c (Pipeline.arrRef spec5 0)) (V c (Pipeline.arrRef spec5 1))
        (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S8000x64) hz, View.ld_unit_zero (S := S8000x1) hz, View.ld_unit_zero (S := S8000x64) hz,
    View.ld_unit_zero (S := S64x64) hz, View.ld_unit_zero (S := S1x64) hz]
  funext j
  obtain ⟨p, q, rfl⟩ : ∃ (p : Fin 8000) (q : Fin 64), j = ix2 p q := ⟨j 0, j 1, eq_ix2 j⟩
  show k5_pay1 (iblk5 V c 0 t) (iblk5 V c 1 t) (iblk5 V c 2 t) (iblk5 V c 3 t) (iblk5 V c 4 t) (ix2 p q)
    = Cert.Spline.nodeAll (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 p q))
  rw [emb_out t p q]
  exact (pay_eq _ _ _ _ _ p q).trans (entry_eq V c t p q)

/-- An index of the feature array is in point `t`'s block iff each coordinate is in the block's range on its axis. -/
theorem mem_blk (t : Fin cfg5.N) (i : S80000x64.Idx) :
    i ∈ ((cfg5.win 5).blk t).view.set ↔ ∀ a : Fin 2, win5_5.index t a * S8000x64.size a ≤ (i a).val
      ∧ (i a).val < win5_5.index t a * S8000x64.size a + S8000x64.size a := by
  show i ∈ ((View.whole main_v59).slice (win5_5.rect t)).set ↔ _
  rw [View.set_slice_whole, Rect.mem_set_unit]
  exact Iff.rfl

/-- The 10 blocks tile the feature array: row `r` is in the block of point `r / 8000`. -/
theorem cover (i : S80000x64.Idx) :
    ∃ t : Fin cfg5.N, (cfg5.win 5).flush t = true ∧ i ∈ ((cfg5.win 5).blk t).view.set := by
  have hi0 : (i 0).val < 80000 := (i 0).isLt
  have hi1 : (i 1).val < 64 := (i 1).isLt
  have hN : cfg5.N = 10 := N_5
  let t : Fin cfg5.N := ⟨(i 0).val / 8000, by rw [hN]; omega⟩
  obtain ⟨-, -, -, -, -, -, -, -, -, -, e10, e11⟩ := idx_facts t
  have e11' : win5_5.index t (0 : Fin 2) = (i 0).val / 8000 := e11
  refine ⟨t, flush5_5 t, ?_⟩
  rw [mem_blk]
  intro a
  match a with
  | ⟨0, _⟩ => show win5_5.index t (0 : Fin 2) * 8000 ≤ (i 0).val ∧ (i 0).val < win5_5.index t (0 : Fin 2) * 8000 + 8000; omega
  | ⟨1, _⟩ => show win5_5.index t (1 : Fin 2) * 64 ≤ (i 1).val ∧ (i 1).val < win5_5.index t (1 : Fin 2) * 64 + 64; omega

/-- THE FEATURE ARRAY after the stage: the node function of the operand arrays as the stage finds them. -/
theorem final (c : Dev nD) : (dat5 V c).arrAt 5 cfg5.N
    = Cert.Spline.nodeAll (V c (Pipeline.arrRef spec5 0)) (V c (Pipeline.arrRef spec5 1))
        (V c (Pipeline.arrRef spec5 2)) (V c (Pipeline.arrRef spec5 3)) (V c (Pipeline.arrRef spec5 4)) :=
  (dat5 V c).arrAt_eq_of_cover 5 _ (fun t _ => flushed_eq V c t) cover

end Cert.KernelIdeal.Reg5

end
-- ==== Proof.Reg6.lean ====
/-
  The fourth layer's message stage as one array.

  The stage runs over 128 blocks of 10000 edges. Block `t` reads rows `10000 t … 10000 t + 9999` of the gathered
  source features and of the spline coordinate, and both weight matrices whole, and writes rows
  `10000 t … 10000 t + 9999` of the message array; a row of the result depends only on the same row of the two
  edge-indexed operands. So every block written back is the corresponding block of ONE function of the whole operand
  arrays — `Cert.Spline.msgAll` —, the 128 blocks tile the message array, and the array ends holding that function.
-/
import proofs.«170515_j51196010168472_1_alg».proof.Proof.Gen.KernelIdeal.Frame
import proofs.«170515_j51196010168472_1_alg».proof.Proof.SplinePay

set_option maxRecDepth 16384

noncomputable section

namespace Cert.KernelIdeal.Reg6

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block computation at entry `(p, q)` is the message entry of the loaded blocks. -/
theorem pay_eq (x0 : Vec Ideal S10000x64 .f32) (x1 : Vec Ideal S10000x1 .f32) (x2 x3 : Vec Ideal S64x64 .f32)
    (p : Fin 10000) (q : Fin 64) : k6_pay1 x0 x2 x3 x1 (ix2 p q) = Cert.Spline.msgEntry (φ := .f32) (ψ := .f32) x0 x1 x2 x3 p q := by
  unfold k6_pay1
  simp only [shapeCast_self]
  exact (Cert.Spline.msgTree_apply _ rfl (truncf .bf16 x0 _) (truncf .bf16 x2 _) (truncf .bf16 x3 _) x1 _ p q).trans rfl

/-- The index maps over the grid: the edge-indexed windows move with the output window along the rows, the weight
    windows stay, and the output's block index along the rows is the point's number. -/
theorem idx_facts : ∀ t : Fin cfg6.N, win6_0.index t (0 : Fin 2) = win6_4.index t (0 : Fin 2)
    ∧ win6_0.index t (1 : Fin 2) = 0
    ∧ win6_1.index t (0 : Fin 2) = win6_4.index t (0 : Fin 2)
    ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (1 : Fin 2) = 0 ∧ win6_4.index t (0 : Fin 2) = t.val :=
  (by decide +kernel : ∀ t : Fin grid6.N, _)

/-- The array row that row `p` of block `t` is. -/
def row (t : Fin cfg6.N) (p : Fin 10000) : Fin 1280000 :=
  ⟨t.val * 10000 + p.val, by have h1 := t.isLt; have hN : cfg6.N = 128 := N_6; have h2 := p.isLt; omega⟩

/-- Entry `(p, q)` of the output's block `t` sits at row `row t p`, column `q` of the message array. -/
theorem emb_out (t : Fin cfg6.N) (p : Fin 10000) (q : Fin 64) :
    ((cfg6.win 4).blk t).view.emb (ix2 p q) = ix2 (row t p) q := by
  obtain ⟨-, -, -, -, -, -, -, -, e8, e9⟩ := idx_facts t
  refine funext fun a => Fin.ext ?_
  match a with
  | ⟨0, _⟩ => show win6_4.index t (0 : Fin 2) * 10000 + 1 * p.val = t.val * 10000 + p.val; omega
  | ⟨1, _⟩ => show win6_4.index t (1 : Fin 2) * 64 + 1 * q.val = q.val; omega

/-- Block `t` of the gathered features, read at `(p, k)`: the array at row `row t p`. -/
theorem read0 (c : Dev nD) (t : Fin cfg6.N) (p : Fin 10000) (k : Fin 64) :
    iblk6 V c 0 t (ix2 p k) = V c (Pipeline.arrRef spec6 0) (ix2 (row t p) k) := by
  obtain ⟨e0, e1, -, -, -, -, -, -, e8, e9⟩ := idx_facts t
  show V c (Pipeline.arrRef spec6 0) (((cfg6.win 0).blk t).view.emb (ix2 p k)) = _
  refine congrArg _ (funext fun a => Fin.ext ?_)
  match a with
  | ⟨0, _⟩ => show win6_0.index t (0 : Fin 2) * 10000 + 1 * p.val = t.val * 10000 + p.val; omega
  | ⟨1, _⟩ => show win6_0.index t (1 : Fin 2) * 64 + 1 * k.val = k.val; omega

/-- Block `t` of the spline coordinate, read at `(p, 0)`: the array at row `row t p`. -/
theorem read1 (c : Dev nD) (t : Fin cfg6.N) (p : Fin 10000) :
    iblk6 V c 1 t (ix2 p (0 : Fin 1)) = V c (Pipeline.arrRef spec6 1) (ix2 (row t p) (0 : Fin 1)) := by
  obtain ⟨-, -, e2, e3, -, -, -, -, e8, e9⟩ := idx_facts t
  show V c (Pipeline.arrRef spec6 1) (((cfg6.win 1).blk t).view.emb (ix2 p (0 : Fin 1))) = _
  refine congrArg _ (funext fun a => Fin.ext ?_)
  match a with
  | ⟨0, _⟩ => show win6_1.index t (0 : Fin 2) * 10000 + 1 * p.val = t.val * 10000 + p.val; omega
  | ⟨1, _⟩ => show win6_1.index t (1 : Fin 2) * 1 + 1 * 0 = 0; omega

/-- The first weight matrix is staged whole at every point. -/
theorem read2 (c : Dev nD) (t : Fin cfg6.N) (k : Fin 64) (q : Fin 64) :
    iblk6 V c 2 t (ix2 k q) = V c (Pipeline.arrRef spec6 2) (ix2 k q) := by
  obtain ⟨-, -, -, -, e4, e5, -, -, -, -⟩ := idx_facts t
  show V c (Pipeline.arrRef spec6 2) (((cfg6.win 2).blk t).view.emb (ix2 k q)) = _
  refine congrArg _ (funext fun a => Fin.ext ?_)
  match a with
  | ⟨0, _⟩ => show win6_2.index t (0 : Fin 2) * 64 + 1 * k.val = k.val; omega
  | ⟨1, _⟩ => show win6_2.index t (1 : Fin 2) * 64 + 1 * q.val = q.val; omega

/-- The second weight matrix is staged whole at every point. -/
theorem read3 (c : Dev nD) (t : Fin cfg6.N) (k : Fin 64) (q : Fin 64) :
    iblk6 V c 3 t (ix2 k q) = V c (Pipeline.arrRef spec6 3) (ix2 k q) := by
  obtain ⟨-, -, -, -, -, -, e6, e7, -, -⟩ := idx_facts t
  show V c (Pipeline.arrRef spec6 3) (((cfg6.win 3).blk t).view.emb (ix2 k q)) = _
  refine congrArg _ (funext fun a => Fin.ext ?_)
  match a with
  | ⟨0, _⟩ => show win6_3.index t (0 : Fin 2) * 64 + 1 * k.val = k.val; omega
  | ⟨1, _⟩ => show win6_3.index t (1 : Fin 2) * 64 + 1 * q.val = q.val; omega

/-- The message entry of the blocks at point `t` is the message entry of the whole operands at the block's row. -/
theorem entry_eq (c : Dev nD) (t : Fin cfg6.N) (p : Fin 10000) (q : Fin 64) :
    Cert.Spline.msgEntry (φ := .f32) (ψ := .f32) (iblk6 V c 0 t) (iblk6 V c 1 t) (iblk6 V c 2 t) (iblk6 V c 3 t) p q
      = Cert.Spline.msgEntry (φ := .f32) (ψ := .f32) (V c (Pipeline.arrRef spec6 0)) (V c (Pipeline.arrRef spec6 1))
          (V c (Pipeline.arrRef spec6 2)) (V c (Pipeline.arrRef spec6 3)) (row t p) q := by
  unfold Cert.Spline.msgEntry
  simp only [read0 V c t p, read1 V c t p, read2 V c t, read3 V c t]

/-- What point `t` writes back is block `t` of the message array of the operands as the stage finds them. -/
theorem flushed_eq (c : Dev nD) (t : Fin cfg6.N) :
    (dat6 V c).flushed 4 t = ((cfg6.win 4).blk t).view.read (Elt Ideal)
      (Cert.Spline.msgAll (V c (Pipeline.arrRef spec6 0)) (V c (Pipeline.arrRef spec6 1))
        (V c (Pipeline.arrRef spec6 2)) (V c (Pipeline.arrRef spec6 3))) := by
  show (cfg6.win 4).cut (grid6.coords t) ((dat6 V c).after 4 t) = _
  rw [after6_4]
  unfold out6_4
  rw [View.canon_unit_zero hz]
  simp only [View.ld_unit_zero (S := S10000x64) hz, View.ld_unit_zero (S := S64x64) hz, View.ld_unit_zero (S := S10000x1) hz]
  funext j
  obtain ⟨p, q, rfl⟩ : ∃ (p : Fin 10000) (q : Fin 64), j = ix2 p q := ⟨j 0, j 1, eq_ix2 j⟩
  show k6_pay1 (iblk6 V c 0 t) (iblk6 V c 2 t) (iblk6 V c 3 t) (iblk6 V c 1 t) (ix2 p q)
    = Cert.Spline.msgAll (V c (Pipeline.arrRef spec6 0)) (V c (Pipeline.arrRef spec6 1)) (V c (Pipeline.arrRef spec6 2))
        (V c (Pipeline.arrRef spec6 3)) (((cfg6.win 4).blk t).view.emb (ix2 p q))
  rw [emb_out t p q]
  exact (pay_eq _ _ _ _ p q).trans (entry_eq V c t p q)

/-- An index of the message array is in point `t`'s block iff each coordinate is in the block's range on its axis. -/
theorem mem_blk (t : Fin cfg6.N) (i : S1280000x64.Idx) :
    i ∈ ((cfg6.win 4).blk t).view.set ↔ ∀ a : Fin 2, win6_4.index t a * S10000x64.size a ≤ (i a).val
      ∧ (i a).val < win6_4.index t a * S10000x64.size a + S10000x64.size a := by
  show i ∈ ((View.whole main_v71).slice (win6_4.rect t)).set ↔ _
  rw [View.set_slice_whole, Rect.mem_set_unit]
  exact Iff.rfl

/-- The 128 blocks tile the message array: row `r` is in the block of point `r / 10000`. -/
theorem cover (i : S1280000x64.Idx) :
    ∃ t : Fin cfg6.N, (cfg6.win 4).flush t = true ∧ i ∈ ((cfg6.win 4).blk t).view.set := by
  have hi0 : (i 0).val < 1280000 := (i 0).isLt
  have hi1 : (i 1).val < 64 := (i 1).isLt
  have hN : cfg6.N = 128 := N_6
  let t : Fin cfg6.N := ⟨(i 0).val / 10000, by rw [hN]; omega⟩
  obtain ⟨-, -, -, -, -, -, -, -, e8, e9⟩ := idx_facts t
  have e9' : win6_4.index t (0 : Fin 2) = (i 0).val / 10000 := e9
  refine ⟨t, flush6_4 t, ?_⟩
  rw [mem_blk]
  intro a
  match a with
  | ⟨0, _⟩ => show win6_4.index t (0 : Fin 2) * 10000 ≤ (i 0).val ∧ (i 0).val < win6_4.index t (0 : Fin 2) * 10000 + 10000; omega
  | ⟨1, _⟩ => show win6_4.index t (1 : Fin 2) * 64 ≤ (i 1).val ∧ (i 1).val < win6_4.index t (1 : Fin 2) * 64 + 64; omega

/-- THE MESSAGE ARRAY after the stage: the message function of the operand arrays as the stage finds them. -/
theorem final (c : Dev nD) : (dat6 V c).arrAt 4 cfg6.N
    = Cert.Spline.msgAll (V c (Pipeline.arrRef spec6 0)) (V c (Pipeline.arrRef spec6 1))
        (V c (Pipeline.arrRef spec6 2)) (V c (Pipeline.arrRef spec6 3)) :=
  (dat6 V c).arrAt_eq_of_cover 4 _ (fun t _ => flushed_eq V c t) cover

end Cert.KernelIdeal.Reg6

end
-- ==== Proof.Reg7.lean ====
/-
  The fourth layer's node stage as one array.

  The stage runs over 10 blocks of 8000 nodes. Block `t` reads rows `8000 t … 8000 t + 7999` of the aggregated
  messages, of the degree column and of the node features, and the root weights and the bias row whole, and writes rows
  `8000 t … 8000 t + 7999` of the updated features; a row of the result depends only on the same row of the three
  node-indexed operands. So every block written back is the corresponding block of ONE function of the whole operand
  arrays — `Cert.Spline.nodeAll` —, the 10 blocks tile the feature array, and the array ends holding that function.
-/
import proofs.«170515_j51196010168472_1_alg».proof.Proof.Gen.KernelIdeal.Frame
import proofs.«170515_j51196010168472_1_alg».proof.Proof.SplinePay

set_option maxRecDepth 16384

noncomputable section

namespace Cert.KernelIdeal.Reg7

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block computation at entry `(p, q)` is the node entry of the loaded blocks. -/
theorem pay_eq (x0 : Vec Ideal S8000x64 .f32) (x1 : Vec Ideal S8000x1 .f32) (x2 : Vec Ideal S8000x64 .f32)
    (x3 : Vec Ideal S64x64 .f32) (x4 : Vec Ideal S1x64 .f32) (p : Fin 8000) (q : Fin 64) :
    k7_pay1 x0 x1 x2 x3 x4 (ix2 p q) = Cert.Spline.nodeEntry (φ := .f32) (ψ := .f32) x0 x1 x2 x3 x4 p q := by
  unfold k7_pay1
  simp only [shapeCast_self]
  show Cert.Spline.actTree (Cert.Spline.nodePreTree _ x0 x1 (truncf .bf16 x2 _) (truncf .bf16 x3 _) x4 _ _) (ix2 p q) = _
  rw [Cert.Spline.actTree_apply]
  exact congrArg Cert.Spline.actK
    ((Cert.Spline.nodePreTree_apply dot_S8000x64_S64x64_S8000x64_1_0_0_1_n_n rfl x0 x1 _ _ x4 _ _ p q).trans rfl)

/-- The index maps over the grid: the node-indexed windows move with the output window along the rows, the root
    weights and the bias stay, and the output's block index along the rows is the point's number. -/
theorem idx_facts : ∀ t : Fin cfg7.N, win7_0.index t (0 : Fin 2) = win7_5.index t (0 : Fin 2)
    ∧ win7_0.index t (1 : Fin 2) = 0
    ∧ win7_1.index t (0 : Fin 2) = win7_5.index t (0 : Fin 2)
    ∧ win7_1.index t (1 : Fin 2) = 0
    ∧ win7_2.index t (0 : Fin 2) = win7_5.index t (0 : Fin 2)
    ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (1 : Fin 2) = 0 ∧ win7_5.index t (0 : Fin 2) = t.val :=
  (by decide +kernel : ∀ t : Fin grid7.N, _)

/-- The array row that row `p` of block `t` is. -/
def row (t : Fin cfg7.N) (p : Fin 8000) : Fin 80000 :=
  ⟨t.val * 8000 + p.val, by have h1 := t.isLt; have hN : cfg7.N = 10 := N_7; have h2 := p.isLt; omega⟩

/-- Entry `(p, q)` of the output's block `t` sits at row `row t p`, column `q` of the feature array. -/
theorem emb_out (t : Fin cfg7.N) (p : Fin 8000) (q : Fin 64) :
    ((cfg7.win 5).blk t).view.emb (ix2 p q) = ix2 (row t p) q := by
  obtain ⟨-, -, -, -, -, -, -, -, -, -, e10, e11⟩ := idx_facts t
  refine funext fun a => Fin.ext ?_
  match a with
  | ⟨0, _⟩ => show win7_5.index t (0 : Fin 2) * 8000 + 1 * p.val = t.val * 8000 + p.val; omega
  | ⟨1, _⟩ => show win7_5.index t (1 : Fin 2) * 64 + 1 * q.val = q.val; omega

/-- Block `t` of the aggregated messages, read at `(p, q)`: the array at row `row t p`. -/
theorem read0 (c : Dev nD) (t : Fin cfg7.N) (p : Fin 8000) (q : Fin 64) :
    iblk7 V c 0 t (ix2 p q) = V c (Pipeline.arrRef spec7 0) (ix2 (row t p) q) := by
  obtain ⟨e0, e1, -, -, -, -, -, -, -, -, e10, e11⟩ := idx_facts t
  show V c (Pipeline.arrRef spec7 0) (((cfg7.win 0).blk t).view.emb (ix2 p q)) = _
  refine congrArg _ (funext fun a => Fin.ext ?_)
  match a with
  | ⟨0, _⟩ => show win7_0.index t (0 : Fin 2) * 8000 + 1 * p.val = t.val * 8000 + p.val; omega
  | ⟨1, _⟩ => show win7_0.index t (1 : Fin 2) * 64 + 1 * q.val = q.val; omega

/-- Block `t` of the degree column, read at `(p, 0)`: the array at row `row t p`. -/
theorem read1 (c : Dev nD) (t : Fin cfg7.N) (p : Fin 8000) :
    iblk7 V c 1 t (ix2 p (0 : Fin 1)) = V c (Pipeline.arrRef spec7 1) (ix2 (row t p) (0 : Fin 1)) := by
  obtain ⟨-, -, e2, e3, -, -, -, -, -, -, e10, e11⟩ := idx_facts t
  show V c (Pipeline.arrRef spec7 1) (((cfg7.win 1).blk t).view.emb (ix2 p (0 : Fin 1))) = _
  refine congrArg _ (funext fun a => Fin.ext ?_)
  match a with
  | ⟨0, _⟩ => show win7_1.index t (0 : Fin 2) * 8000 + 1 * p.val = t.val * 8000 + p.val; omega
  | ⟨1, _⟩ => show win7_1.index t (1 : Fin 2) * 1 + 1 * 0 = 0; omega

/-- Block `t` of the node features, read at `(p, k)`: the array at row `row t p`. -/
theorem read2 (c : Dev nD) (t : Fin cfg7.N) (p : Fin 8000) (k : Fin 64) :
    iblk7 V c 2 t (ix2 p k) = V c (Pipeline.arrRef spec7 2) (ix2 (row t p) k) := by
  obtain ⟨-, -, -, -, e4, e5, -, -, -, -, e10, e11⟩ := idx_facts t
  show V c (Pipeline.arrRef spec7 2) (((cfg7.win 2).blk t).view.emb (ix2 p k)) = _
  refine congrArg _ (funext fun a => Fin.ext ?_)
  match a with
  | ⟨0, _⟩ => show win7_2.index t (0 : Fin 2) * 8000 + 1 * p.val = t.val * 8000 + p.val; omega
  | ⟨1, _⟩ => show win7_2.index t (1 : Fin 2) * 64 + 1 * k.val = k.val; omega

/-- The root weights are staged whole at every point. -/
theorem read3 (c : Dev nD) (t : Fin cfg7.N) (k : Fin 64) (q : Fin 64) :
    iblk7 V c 3 t (ix2 k q) = V c (Pipeline.arrRef spec7 3) (ix2 k q) := by
  obtain ⟨-, -, -, -, -, -, e6, e7, -, -, -, -⟩ := idx_facts t
  show V c (Pipeline.arrRef spec7 3) (((cfg7.win 3).blk t).view.emb (ix2 k q)) = _
  refine congrArg _ (funext fun a => Fin.ext ?_)
  match a with
  | ⟨0, _⟩ => show win7_3.index t (0 : Fin 2) * 64 + 1 * k.val = k.val; omega
  | ⟨1, _⟩ => show win7_3.index t (1 : Fin 2) * 64 + 1 * q.val = q.val; omega

/-- The bias row is staged whole at every point. -/
theorem read4 (c : Dev nD) (t : Fin cfg7.N) (q : Fin 64) :
    iblk7 V c 4 t (ix2 (0 : Fin 1) q) = V c (Pipeline.arrRef spec7 4) (ix2 (0 : Fin 1) q) := by
  obtain ⟨-, -, -, -, -, -, -, -, e8, e9, -, -⟩ := idx_facts t
  show V c (Pipeline.arrRef spec7 4) (((cfg7.win 4).blk t).view.emb (ix2 (0 : Fin 1) q)) = _
  refine congrArg _ (funext fun a => Fin.ext ?_)
  match a with
  | ⟨0, _⟩ => show win7_4.index t (0 : Fin 2) * 1 + 1 * 0 = 0; omega
  | ⟨1, _⟩ => show win7_4.index t (1 : Fin 2) * 64 + 1 * q.val = q.val; omega

/-- The node entry of the blocks at point `t` is the node entry of the whole operands at the block's row. -/
theorem entry_eq (c : Dev nD) (t : Fin cfg7.N) (p : Fin 8000) (q : Fin 64) :
    Cert.Spline.nodeEntry (φ := .f32) (ψ := .f32) (iblk7 V c 0 t) (iblk7 V c 1 t) (iblk7 V c 2 t) (iblk7 V c 3 t)
        (iblk7 V c 4 t) p q
      = Cert.Spline.nodeEntry (φ := .f32) (ψ := .f32) (V c (Pipeline.arrRef spec7 0)) (V c (Pipeline.arrRef spec7 1))
          (V c (Pipeline.arrRef spec7 2)) (V c (Pipeline.arrRef spec7 3)) (V c (Pipeline.arrRef spec7 4)) (row t p) q := by
  unfold Cert.Spline.nodeEntry Cert.Spline.nodePre
  simp only [read0 V c t p, read1 V c t p, read2 V c t p, read3 V c t, read4 V c t]

/-- What point `t` writes back is block `t` of the updated features of the operands as the stage finds them. -/
theorem flushed_eq (c : Dev nD) (t : Fin cfg7.N) :
    (dat7 V c).flushed 5 t = ((cfg7.win 5).blk t).view.read (Elt Ideal)
      (Cert.Spline.nodeAll (V c (Pipeline.arrRef spec7 0)) (V c (Pipeline.arrRef spec7 1))
        (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero hz]
  simp only [View.ld_unit_zero (S := S8000x64) hz, View.ld_unit_zero (S := S8000x1) hz, View.ld_unit_zero (S := S8000x64) hz,
    View.ld_unit_zero (S := S64x64) hz, View.ld_unit_zero (S := S1x64) hz]
  funext j
  obtain ⟨p, q, rfl⟩ : ∃ (p : Fin 8000) (q : Fin 64), j = ix2 p q := ⟨j 0, j 1, eq_ix2 j⟩
  show k7_pay1 (iblk7 V c 0 t) (iblk7 V c 1 t) (iblk7 V c 2 t) (iblk7 V c 3 t) (iblk7 V c 4 t) (ix2 p q)
    = Cert.Spline.nodeAll (V c (Pipeline.arrRef spec7 0)) (V c (Pipeline.arrRef spec7 1)) (V c (Pipeline.arrRef spec7 2))
        (V c (Pipeline.arrRef spec7 3)) (V c (Pipeline.arrRef spec7 4)) (((cfg7.win 5).blk t).view.emb (ix2 p q))
  rw [emb_out t p q]
  exact (pay_eq _ _ _ _ _ p q).trans (entry_eq V c t p q)

/-- An index of the feature array is in point `t`'s block iff each coordinate is in the block's range on its axis. -/
theorem mem_blk (t : Fin cfg7.N) (i : S80000x64.Idx) :
    i ∈ ((cfg7.win 5).blk t).view.set ↔ ∀ a : Fin 2, win7_5.index t a * S8000x64.size a ≤ (i a).val
      ∧ (i a).val < win7_5.index t a * S8000x64.size a + S8000x64.size a := by
  show i ∈ ((View.whole main_v76).slice (win7_5.rect t)).set ↔ _
  rw [View.set_slice_whole, Rect.mem_set_unit]
  exact Iff.rfl

/-- The 10 blocks tile the feature array: row `r` is in the block of point `r / 8000`. -/
theorem cover (i : S80000x64.Idx) :
    ∃ t : Fin cfg7.N, (cfg7.win 5).flush t = true ∧ i ∈ ((cfg7.win 5).blk t).view.set := by
  have hi0 : (i 0).val < 80000 := (i 0).isLt
  have hi1 : (i 1).val < 64 := (i 1).isLt
  have hN : cfg7.N = 10 := N_7
  let t : Fin cfg7.N := ⟨(i 0).val / 8000, by rw [hN]; omega⟩
  obtain ⟨-, -, -, -, -, -, -, -, -, -, e10, e11⟩ := idx_facts t
  have e11' : win7_5.index t (0 : Fin 2) = (i 0).val / 8000 := e11
  refine ⟨t, flush7_5 t, ?_⟩
  rw [mem_blk]
  intro a
  match a with
  | ⟨0, _⟩ => show win7_5.index t (0 : Fin 2) * 8000 ≤ (i 0).val ∧ (i 0).val < win7_5.index t (0 : Fin 2) * 8000 + 8000; omega
  | ⟨1, _⟩ => show win7_5.index t (1 : Fin 2) * 64 ≤ (i 1).val ∧ (i 1).val < win7_5.index t (1 : Fin 2) * 64 + 64; omega

/-- THE FEATURE ARRAY after the stage: the node function of the operand arrays as the stage finds them. -/
theorem final (c : Dev nD) : (dat7 V c).arrAt 5 cfg7.N
    = Cert.Spline.nodeAll (V c (Pipeline.arrRef spec7 0)) (V c (Pipeline.arrRef spec7 1))
        (V c (Pipeline.arrRef spec7 2)) (V c (Pipeline.arrRef spec7 3)) (V c (Pipeline.arrRef spec7 4)) :=
  (dat7 V c).arrAt_eq_of_cover 5 _ (fun t _ => flushed_eq V c t) cover

end Cert.KernelIdeal.Reg7

end
-- ==== Proof.LibBcastInDim.lean ====
/-
  `broadcast_in_dim` of small ranks read at an index.

  The host's `broadcast_in_dim` names, for each axis of its operand, the axis of the result it is laid along. Read at
  an index of the result:

  * a scalar broadcast to any shape reads the scalar (`scalar_apply`);
  * an `[a, 1]` column laid along axes `[0, 1]` of `[a, b]` reads, at `(p, q)`, the column at `(p, 0)` (`col_apply`);
  * a `[1, b]` row laid along axes `[0, 1]` of `[a, b]` reads, at `(p, q)`, the row at `(0, q)` (`row_apply`);
  * an `[a]` vector laid along axis `0` of `[a, 1]` reads, at `(p, u)`, the vector at `p` (`vec_col_apply`);
  * a `[b]` vector laid along axis `1` of `[1, b]` reads, at `(u, q)`, the vector at `q` (`vec_row_apply`).

  All are generic in the extents and the element type; the axis map is a variable with its values as hypotheses,
  so that a map spelt as a literal vector discharges them by `rfl`.
-/
import Idealize.ShloMosaic.Lib.Pipeline.Value
import Idealize.ShloMosaic.Lib.ValueIdx

namespace Cert.LibBcastInDim

open Idealize.ShloMosaic Idealize.ShloMosaic.ValueIdx

variable {α : Type}

/-- A scalar broadcast to any shape reads the scalar, at whatever index the scalar's empty index is written. -/
theorem scalar_apply {t : Shape} (dims : Fin 0 → Fin t.rank) (h : (⟨0, ![]⟩ : Shape).BroadcastsInDim t dims)
    (x : (⟨0, ![]⟩ : Shape).Idx → α) (j : t.Idx) (k : (⟨0, ![]⟩ : Shape).Idx) :
    broadcastInDim t dims h x j = x k :=
  broadcastInDim_apply dims h x j k fun ax => ax.elim0

/-- An `[a, 1]` column laid along axes `[0, 1]` of `[a, b]`. -/
theorem col_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α)
    (p : Fin a) (q : Fin b) :
    broadcastInDim ⟨2, ![a, b]⟩ dims h x (ix2 p q) = x (ix2 p (0 : Fin 1)) := by
  refine broadcastInDim_apply dims h x (ix2 p q) (ix2 p (0 : Fin 1)) fun ax => ?_
  match ax with
  | ⟨0, _⟩ =>
    show p.val = if a = 1 then 0 else ((ix2 p q) (dims 0)).val
    rw [hd0]
    show p.val = if a = 1 then 0 else p.val
    split
    · have := p.isLt; omega
    · rfl
  | ⟨1, _⟩ => rfl

/-- A `[1, b]` row laid along axes `[0, 1]` of `[a, b]`. -/
theorem row_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α)
    (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => rfl
  | ⟨1, _⟩ =>
    show q.val = if b = 1 then 0 else ((ix2 p q) (dims 1)).val
    rw [hd1]
    show q.val = if b = 1 then 0 else q.val
    split
    · have := q.isLt; omega
    · rfl

/-- An `[a]` vector laid along axis `0` of `[a, 1]`. -/
theorem vec_col_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u) (dims 0)).val
    rw [hd]
    show p.val = if a = 1 then 0 else p.val
    split
    · have := p.isLt; omega
    · rfl

/-- A `[b]` vector laid along axis `1` of `[1, b]`. -/
theorem vec_row_apply {b : ℕ} (dims : Fin 1 → Fin 2) (hd : dims 0 = 1)
    (h : (⟨1, ![b]⟩ : Shape).BroadcastsInDim ⟨2, ![1, b]⟩ dims) (x : (⟨1, ![b]⟩ : Shape).Idx → α)
    (u : Fin 1) (q : Fin b) :
    broadcastInDim ⟨2, ![1, b]⟩ dims h x (ix2 u q) = x (ix1 q) := by
  refine broadcastInDim_apply dims h x (ix2 u q) (ix1 q) fun ax => ?_
  match ax with
  | ⟨0, _⟩ =>
    show q.val = if b = 1 then 0 else ((ix2 u q) (dims 0)).val
    rw [hd]
    show q.val = if b = 1 then 0 else q.val
    split
    · have := q.isLt; omega
    · rfl

end Cert.LibBcastInDim
-- ==== Proof.BridgeMsg.lean ====
/-
  The reference's message term is the message function.

  The reference computes the messages of all edges with two host products, `xj · w0` and `xj · w1`, each scaled by a
  column (`1 - u`, resp. `u`) broadcast along the 64 channels, and added. Read at entry `(p, q)`: a host product of a
  `[E, K]` by a `[K, 64]` matrix is the sum over `k` of `xj (p, k) * w (k, q)`; a column broadcast reads the column
  at `(p, 0)`; the scalar `1` broadcast reads its float word. That is `Cert.Spline.msgEntry` at `(p, q)`, term by term.
-/
import proofs.«170515_j51196010168472_1_alg».proof.Proof.RefSpec
import proofs.«170515_j51196010168472_1_alg».proof.Proof.SplinePay
import proofs.«170515_j51196010168472_1_alg».proof.Proof.LibBcastInDim

open Idealize.ShloMosaic Idealize.ShloMosaic.ValueIdx
open scoped BigOperators

noncomputable section

namespace Cert.ReferenceIdeal.Bridge

open Cert.ReferenceIdeal

variable [Facts]
open Facts₀ Facts

/-- A host product under the dimension numbers of an ordinary matrix product, at entry `(p, q)`. -/
theorem dotGeneral_at {M K N : ℕ} {φ₁ φ₂ : FTy} (D : DotDims ⟨2, ![M, K]⟩ ⟨2, ![K, N]⟩ ⟨2, ![M, N]⟩)
    (hD : D = DotDims.plain M K N) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  subst hD
  exact Cert.LibPlainDot.dotGeneral_plain prec sched l r p q

/-- Layer 1: the reference's messages are the message function of the same operands. -/
theorem msg3_eq (xj : FVec Ideal S1280000x3 .f32) (u : FVec Ideal S1280000x1 .f32) (w0 w1 : FVec Ideal S3x64 .f32) :
    RefSpec.msg3 xj u w0 w1 = Cert.Spline.msgAll xj u w0 w1 := by
  funext i
  obtain ⟨p, q, rfl⟩ : ∃ (p : Fin 1280000) (q : Fin 64), i = ix2 p q := ⟨i 0, i 1, eq_ix2 i⟩
  unfold RefSpec.msg3 RefSpec.G.msg3
  show FloatOps.addf
      (FloatOps.mulf (FloatOps.dotGeneral dot_S1280000x3_S3x64_S1280000x64_1_0_0_1_n_n none .single xj w0 (ix2 p q))
        (broadcastInDim S1280000x64 ![0, 1] bcast_S1280000x1_S1280000x64_0_1
          (subf (broadcastInDim S1280000x1 ![] bcast_S_S1280000x1 (constant (F := Ideal) S_ .f32 0x3F800000#32)) u) (ix2 p q)))
      (FloatOps.mulf (FloatOps.dotGeneral dot_S1280000x3_S3x64_S1280000x64_1_0_0_1_n_n none .single xj w1 (ix2 p q))
        (broadcastInDim S1280000x64 ![0, 1] bcast_S1280000x1_S1280000x64_0_1 u (ix2 p q))) = _
  rw [dotGeneral_at dot_S1280000x3_S3x64_S1280000x64_1_0_0_1_n_n rfl, dotGeneral_at dot_S1280000x3_S3x64_S1280000x64_1_0_0_1_n_n rfl,
    Cert.LibBcastInDim.col_apply ![0, 1] rfl rfl, Cert.LibBcastInDim.col_apply ![0, 1] rfl rfl]
  show _ * FloatOps.subf (broadcastInDim S1280000x1 ![] bcast_S_S1280000x1 (constant (F := Ideal) S_ .f32 0x3F800000#32) (ix2 p (0 : Fin 1)))
      (u (ix2 p (0 : Fin 1))) + _ = _
  rw [Cert.LibBcastInDim.scalar_apply ![] _ _ _ ix0]
  rfl

/-- Layers 2 to 4: the reference's messages are the message function of the same operands. -/
theorem msg64_eq (xj : FVec Ideal S1280000x64 .f32) (u : FVec Ideal S1280000x1 .f32) (w0 w1 : FVec Ideal S64x64 .f32) :
    RefSpec.msg64 xj u w0 w1 = Cert.Spline.msgAll xj u w0 w1 := by
  funext i
  obtain ⟨p, q, rfl⟩ : ∃ (p : Fin 1280000) (q : Fin 64), i = ix2 p q := ⟨i 0, i 1, eq_ix2 i⟩
  unfold RefSpec.msg64 RefSpec.G.msg64
  show FloatOps.addf
      (FloatOps.mulf (FloatOps.dotGeneral dot_S1280000x64_S64x64_S1280000x64_1_0_0_1_n_n none .single xj w0 (ix2 p q))
        (broadcastInDim S1280000x64 ![0, 1] bcast_S1280000x1_S1280000x64_0_1
          (subf (broadcastInDim S1280000x1 ![] bcast_S_S1280000x1 (constant (F := Ideal) S_ .f32 0x3F800000#32)) u) (ix2 p q)))
      (FloatOps.mulf (FloatOps.dotGeneral dot_S1280000x64_S64x64_S1280000x64_1_0_0_1_n_n none .single xj w1 (ix2 p q))
        (broadcastInDim S1280000x64 ![0, 1] bcast_S1280000x1_S1280000x64_0_1 u (ix2 p q))) = _
  rw [dotGeneral_at dot_S1280000x64_S64x64_S1280000x64_1_0_0_1_n_n rfl, dotGeneral_at dot_S1280000x64_S64x64_S1280000x64_1_0_0_1_n_n rfl,
    Cert.LibBcastInDim.col_apply ![0, 1] rfl rfl, Cert.LibBcastInDim.col_apply ![0, 1] rfl rfl]
  show _ * FloatOps.subf (broadcastInDim S1280000x1 ![] bcast_S_S1280000x1 (constant (F := Ideal) S_ .f32 0x3F800000#32) (ix2 p (0 : Fin 1)))
      (u (ix2 p (0 : Fin 1))) + _ = _
  rw [Cert.LibBcastInDim.scalar_apply ![] _ _ _ ix0]
  rfl

end Cert.ReferenceIdeal.Bridge

end
-- ==== Proof.BridgeNode.lean ====
/-
  The reference's node update is the node function.

  The reference divides the aggregated messages by `max 1 deg` (the degree vector clipped below at one, laid out as a
  column and broadcast along the 64 channels), adds the host product `x · root` and the bias (laid out as a row and
  broadcast along the nodes), and applies the activation spelt as
  `select (y > 0) y (1 * expm1 (select (y > 0) 0 y))`. Read at entry `(p, q)` the pre-activation is
  `a (p, q) / max 1 (d p) + ∑ k, x (p, k) * root (k, q) + b q`; `max` is symmetric; and the activation is the one the
  node function uses: above zero both return `y`; otherwise the guarded argument is `y` itself, `expm1 y` is
  `exp y - 1`, the float word of `1.0` is `1` and `1 * z = z`.
-/
import proofs.«170515_j51196010168472_1_alg».proof.Proof.RefSpec
import proofs.«170515_j51196010168472_1_alg».proof.Proof.SplinePay
import proofs.«170515_j51196010168472_1_alg».proof.Proof.LibBcastInDim
import proofs.«170515_j51196010168472_1_alg».proof.Proof.BridgeMsg

open Idealize.ShloMosaic Idealize.ShloMosaic.ValueIdx
open scoped BigOperators

noncomputable section

namespace Cert.ReferenceIdeal.Bridge

open Cert.ReferenceIdeal Cert.Spline

variable [Facts]
open Facts₀ Facts

/-- The float word of `1.0` denotes `1`. -/
theorem oneW_eq : oneW = 1 := by
  simp [Ideal.ofBits, Ideal.ieee, -EReal.coe_mul]; norm_num

/-- The reference's spelling of the activation, at one value. -/
def actR (z : EReal) : EReal :=
  Scalar.select (Ideal.cmp .ogt z zeroW) z
    (oneW * (Ideal.exp (Scalar.select (Ideal.cmp .ogt z zeroW) zeroW z) - 1))

/-- The two spellings of the activation agree at every extended real. -/
theorem actR_eq (z : EReal) : actR z = actK z := by
  unfold actR actK Scalar.select
  by_cases h : Ideal.cmp .ogt z zeroW = 1
  · rw [if_pos h, if_pos h]
  · rw [if_neg h, if_neg h, if_neg h, oneW_eq, one_mul]

/-- Layer 1: the reference's pre-activation as one array. -/
def pre3 (a : FVec Ideal S80000x64 .f32) (d : FVec Ideal S80000 .f32) (x : FVec Ideal S80000x3 .f32)
    (root : FVec Ideal S3x64 .f32) (b : FVec Ideal S64 .f32) : FVec Ideal S80000x64 .f32 :=
  addf (addf (Host.divf a (broadcastInDim S80000x64 ![0, 1] bcast_S80000x1_S80000x64_0_1
      (broadcastInDim S80000x1 ![0] bcast_S80000_S80000x1_0
        (maximumf (broadcastInDim S80000 ![] bcast_S_S80000 (id (constant (F := Ideal) S_ .f32 0x3F800000#32))) d))))
      (Host.dotGeneral dot_S80000x3_S3x64_S80000x64_1_0_0_1_n_n none x root))
    (broadcastInDim S80000x64 ![0, 1] bcast_S1x64_S80000x64_0_1 (broadcastInDim S1x64 ![1] bcast_S64_S1x64_1 b))

/-- The reference's activation applied to a whole feature array. -/
def actAll (y : FVec Ideal S80000x64 .f32) : FVec Ideal S80000x64 .f32 :=
  select (cmpf .ogt y (broadcastInDim S80000x64 ![] bcast_S_S80000x64 (constant (F := Ideal) S_ .f32 0x00000000#32))) y
    (mulf (broadcastInDim S80000x64 ![] bcast_S_S80000x64 (constant (F := Ideal) S_ .f32 0x3F800000#32))
      (Host.expm1 (select (cmpf .ogt y (broadcastInDim S80000x64 ![] bcast_S_S80000x64 (constant (F := Ideal) S_ .f32 0x00000000#32)))
        (broadcastInDim S80000x64 ![] bcast_S_S80000x64 (id (constant (F := Ideal) S_ .f32 0x00000000#32))) y)))

theorem node3_unfold (a : FVec Ideal S80000x64 .f32) (d : FVec Ideal S80000 .f32) (x : FVec Ideal S80000x3 .f32)
    (root : FVec Ideal S3x64 .f32) (b : FVec Ideal S64 .f32) :
    RefSpec.node3 a d x root b = actAll (pre3 a d x root b) := rfl

theorem actAll_apply (y : FVec Ideal S80000x64 .f32) (i : S80000x64.Idx) : actAll y i = actR (y i) := by
  unfold actAll actR
  show Scalar.select (FloatOps.cmpf .ogt (y i) (broadcastInDim S80000x64 ![] bcast_S_S80000x64 (constant (F := Ideal) S_ .f32 0x00000000#32) i)) (y i)
    (FloatOps.mulf (broadcastInDim S80000x64 ![] bcast_S_S80000x64 (constant (F := Ideal) S_ .f32 0x3F800000#32) i)
      (FloatOps.hostUnary .expm1 (Scalar.select (FloatOps.cmpf .ogt (y i) (broadcastInDim S80000x64 ![] bcast_S_S80000x64 (constant (F := Ideal) S_ .f32 0x00000000#32) i))
        (broadcastInDim S80000x64 ![] bcast_S_S80000x64 (id (constant (F := Ideal) S_ .f32 0x00000000#32)) i) (y i)))) = _
  rw [Cert.LibBcastInDim.scalar_apply ![] bcast_S_S80000x64 (constant (F := Ideal) S_ .f32 0x00000000#32) i ix0,
    Cert.LibBcastInDim.scalar_apply ![] bcast_S_S80000x64 (constant (F := Ideal) S_ .f32 0x3F800000#32) i ix0,
    Cert.LibBcastInDim.scalar_apply ![] bcast_S_S80000x64 (id (constant (F := Ideal) S_ .f32 0x00000000#32)) i ix0]
  rfl

theorem pre3_apply (a : FVec Ideal S80000x64 .f32) (d : FVec Ideal S80000 .f32) (x : FVec Ideal S80000x3 .f32)
    (root : FVec Ideal S3x64 .f32) (b : FVec Ideal S64 .f32) (p : Fin 80000) (q : Fin 64) :
    pre3 a d x root b (ix2 p q)
      = Ideal.div (a (ix2 p q)) (max oneW (d (ix1 p))) + (∑ k : Fin 3, x (ix2 p k) * root (ix2 k q)) + b (ix1 q) := by
  unfold pre3
  show FloatOps.addf (FloatOps.addf (FloatOps.hostDivf (a (ix2 p q))
        (broadcastInDim S80000x64 ![0, 1] bcast_S80000x1_S80000x64_0_1
          (broadcastInDim S80000x1 ![0] bcast_S80000_S80000x1_0
            (maximumf (broadcastInDim S80000 ![] bcast_S_S80000 (id (constant (F := Ideal) S_ .f32 0x3F800000#32))) d)) (ix2 p q)))
      (FloatOps.dotGeneral dot_S80000x3_S3x64_S80000x64_1_0_0_1_n_n none .single x root (ix2 p q)))
    (broadcastInDim S80000x64 ![0, 1] bcast_S1x64_S80000x64_0_1 (broadcastInDim S1x64 ![1] bcast_S64_S1x64_1 b) (ix2 p q)) = _
  rw [dotGeneral_at dot_S80000x3_S3x64_S80000x64_1_0_0_1_n_n rfl, Cert.LibBcastInDim.col_apply ![0, 1] rfl rfl,
    Cert.LibBcastInDim.row_apply ![0, 1] rfl rfl, Cert.LibBcastInDim.vec_col_apply ![0] rfl, Cert.LibBcastInDim.vec_row_apply ![1] rfl]
  show FloatOps.addf (FloatOps.addf (FloatOps.hostDivf (a (ix2 p q))
        (FloatOps.maximumf (broadcastInDim S80000 ![] bcast_S_S80000 (id (constant (F := Ideal) S_ .f32 0x3F800000#32)) (ix1 p)) (d (ix1 p)))) _) _ = _
  rw [Cert.LibBcastInDim.scalar_apply ![] bcast_S_S80000 (id (constant (F := Ideal) S_ .f32 0x3F800000#32)) (ix1 p) ix0]
  rfl

/-- Layer 1: the reference's node update is the node function of the same operands, the degree vector laid out as
    any column `D` that reads it and the bias as any row `Bv` that reads it. -/
theorem node3_eq (a : FVec Ideal S80000x64 .f32) (d : FVec Ideal S80000 .f32) (x : FVec Ideal S80000x3 .f32)
    (root : FVec Ideal S3x64 .f32) (b : FVec Ideal S64 .f32) (D : FVec Ideal S80000x1 .f32) (Bv : FVec Ideal S1x64 .f32)
    (hD : ∀ p : Fin 80000, D (ix2 p (0 : Fin 1)) = d (ix1 p)) (hB : ∀ q : Fin 64, Bv (ix2 (0 : Fin 1) q) = b (ix1 q)) :
    RefSpec.node3 a d x root b = nodeAll a D x root Bv := by
  rw [node3_unfold]
  funext i
  obtain ⟨p, q, rfl⟩ : ∃ (p : Fin 80000) (q : Fin 64), i = ix2 p q := ⟨i 0, i 1, eq_ix2 i⟩
  rw [actAll_apply, actR_eq, pre3_apply]
  show _ = actK (nodePre a D x root Bv p q)
  unfold nodePre
  rw [hD, hB, max_comm]

/-- Layers 2 to 4: the reference's pre-activation as one array. -/
def pre64 (a : FVec Ideal S80000x64 .f32) (d : FVec Ideal S80000 .f32) (x : FVec Ideal S80000x64 .f32)
    (root : FVec Ideal S64x64 .f32) (b : FVec Ideal S64 .f32) : FVec Ideal S80000x64 .f32 :=
  addf (addf (Host.divf a (broadcastInDim S80000x64 ![0, 1] bcast_S80000x1_S80000x64_0_1
      (broadcastInDim S80000x1 ![0] bcast_S80000_S80000x1_0
        (maximumf (broadcastInDim S80000 ![] bcast_S_S80000 (id (constant (F := Ideal) S_ .f32 0x3F800000#32))) d))))
      (Host.dotGeneral dot_S80000x64_S64x64_S80000x64_1_0_0_1_n_n none x root))
    (broadcastInDim S80000x64 ![0, 1] bcast_S1x64_S80000x64_0_1 (broadcastInDim S1x64 ![1] bcast_S64_S1x64_1 b))

theorem node64_unfold (a : FVec Ideal S80000x64 .f32) (d : FVec Ideal S80000 .f32) (x : FVec Ideal S80000x64 .f32)
    (root : FVec Ideal S64x64 .f32) (b : FVec Ideal S64 .f32) :
    RefSpec.node64 a d x root b = actAll (pre64 a d x root b) := rfl

theorem pre64_apply (a : FVec Ideal S80000x64 .f32) (d : FVec Ideal S80000 .f32) (x : FVec Ideal S80000x64 .f32)
    (root : FVec Ideal S64x64 .f32) (b : FVec Ideal S64 .f32) (p : Fin 80000) (q : Fin 64) :
    pre64 a d x root b (ix2 p q)
      = Ideal.div (a (ix2 p q)) (max oneW (d (ix1 p))) + (∑ k : Fin 64, x (ix2 p k) * root (ix2 k q)) + b (ix1 q) := by
  unfold pre64
  show FloatOps.addf (FloatOps.addf (FloatOps.hostDivf (a (ix2 p q))
        (broadcastInDim S80000x64 ![0, 1] bcast_S80000x1_S80000x64_0_1
          (broadcastInDim S80000x1 ![0] bcast_S80000_S80000x1_0
            (maximumf (broadcastInDim S80000 ![] bcast_S_S80000 (id (constant (F := Ideal) S_ .f32 0x3F800000#32))) d)) (ix2 p q)))
      (FloatOps.dotGeneral dot_S80000x64_S64x64_S80000x64_1_0_0_1_n_n none .single x root (ix2 p q)))
    (broadcastInDim S80000x64 ![0, 1] bcast_S1x64_S80000x64_0_1 (broadcastInDim S1x64 ![1] bcast_S64_S1x64_1 b) (ix2 p q)) = _
  rw [dotGeneral_at dot_S80000x64_S64x64_S80000x64_1_0_0_1_n_n rfl, Cert.LibBcastInDim.col_apply ![0, 1] rfl rfl,
    Cert.LibBcastInDim.row_apply ![0, 1] rfl rfl, Cert.LibBcastInDim.vec_col_apply ![0] rfl, Cert.LibBcastInDim.vec_row_apply ![1] rfl]
  show FloatOps.addf (FloatOps.addf (FloatOps.hostDivf (a (ix2 p q))
        (FloatOps.maximumf (broadcastInDim S80000 ![] bcast_S_S80000 (id (constant (F := Ideal) S_ .f32 0x3F800000#32)) (ix1 p)) (d (ix1 p)))) _) _ = _
  rw [Cert.LibBcastInDim.scalar_apply ![] bcast_S_S80000 (id (constant (F := Ideal) S_ .f32 0x3F800000#32)) (ix1 p) ix0]
  rfl

/-- Layers 2 to 4: the reference's node update is the node function of the same operands, the degree vector laid out as
    any column `D` that reads it and the bias as any row `Bv` that reads it. -/
theorem node64_eq (a : FVec Ideal S80000x64 .f32) (d : FVec Ideal S80000 .f32) (x : FVec Ideal S80000x64 .f32)
    (root : FVec Ideal S64x64 .f32) (b : FVec Ideal S64 .f32) (D : FVec Ideal S80000x1 .f32) (Bv : FVec Ideal S1x64 .f32)
    (hD : ∀ p : Fin 80000, D (ix2 p (0 : Fin 1)) = d (ix1 p)) (hB : ∀ q : Fin 64, Bv (ix2 (0 : Fin 1) q) = b (ix1 q)) :
    RefSpec.node64 a d x root b = nodeAll a D x root Bv := by
  rw [node64_unfold]
  funext i
  obtain ⟨p, q, rfl⟩ : ∃ (p : Fin 80000) (q : Fin 64), i = ix2 p q := ⟨i 0, i 1, eq_ix2 i⟩
  rw [actAll_apply, actR_eq, pre64_apply]
  show _ = actK (nodePre a D x root Bv p q)
  unfold nodePre
  rw [hD, hB, max_comm]

end Cert.ReferenceIdeal.Bridge

end
-- ==== Proof.GlueEq.lean ====
/-
  The host operations around the stages are the reference's.

  Outside its eight stages the program under proof applies the same host operations as the reference: the edge index
  split into its source and target rows, the negative-index wrap of the sources, the degree count, the gathers, the
  slices of the weight tensors, the scatter-add of the messages, and the pooling head. Each pair of definitions lists
  the same operations with the same static data, so each equation holds by unfolding both sides. The degree column and
  the bias row, which only the program under proof materialises, are read at an index.
-/
import proofs.«170515_j51196010168472_1_alg».proof.Proof.KerFoldDefs
import proofs.«170515_j51196010168472_1_alg».proof.Proof.RefSpec
import proofs.«170515_j51196010168472_1_alg».proof.Proof.LibBcastInDim
import Idealize.ShloMosaic.Lib.ValueLayout

open Idealize.ShloMosaic Idealize.ShloMosaic.ValueIdx

noncomputable section

namespace Cert.GlueEq

open Cert.KernelIdeal.KerFold

variable [Cert.KernelIdeal.Facts] [Cert.ReferenceIdeal.Facts]

theorem srcIdx_eq (ei : T Cert.KernelIdeal.S2x1280000 .i32) : srcIdx ei = Cert.ReferenceIdeal.RefSpec.srcIdx ei := rfl
theorem dstIdx_eq (ei : T Cert.KernelIdeal.S2x1280000 .i32) : dstIdx ei = Cert.ReferenceIdeal.RefSpec.dstIdx ei := rfl
theorem degRow_eq (ei : T Cert.KernelIdeal.S2x1280000 .i32) : degRow ei = Cert.ReferenceIdeal.RefSpec.degRow ei := rfl
theorem gather3_eq (x : T Cert.KernelIdeal.S80000x3 .f32) (idx : T Cert.KernelIdeal.S1280000x1 .i32) :
    gather3 x idx = Cert.ReferenceIdeal.RefSpec.gather3 x idx := rfl
theorem gather64_eq (h : T Cert.KernelIdeal.S80000x64 .f32) (idx : T Cert.KernelIdeal.S1280000x1 .i32) :
    gather64 h idx = Cert.ReferenceIdeal.RefSpec.gather64 h idx := rfl
theorem w0of3_eq (W : T Cert.KernelIdeal.S2x3x64 .f32) : w0of3 W = Cert.ReferenceIdeal.RefSpec.w0of3 W := rfl
theorem w1of3_eq (W : T Cert.KernelIdeal.S2x3x64 .f32) : w1of3 W = Cert.ReferenceIdeal.RefSpec.w1of3 W := rfl
theorem w0of64_eq (W : T Cert.KernelIdeal.S2x64x64 .f32) : w0of64 W = Cert.ReferenceIdeal.RefSpec.w0of64 W := rfl
theorem w1of64_eq (W : T Cert.KernelIdeal.S2x64x64 .f32) : w1of64 W = Cert.ReferenceIdeal.RefSpec.w1of64 W := rfl
theorem agg_eq (msg : T Cert.KernelIdeal.S1280000x64 .f32) (idx : T Cert.KernelIdeal.S1280000x1 .i32) :
    agg msg idx = Cert.ReferenceIdeal.RefSpec.agg msg idx := rfl
theorem head_eq (h : T Cert.KernelIdeal.S80000x64 .f32) (batch : T Cert.KernelIdeal.S80000 .i32)
    (fcw : T Cert.KernelIdeal.S64x6 .f32) (fcb : T Cert.KernelIdeal.S6 .f32) :
    head h batch fcw fcb = Cert.ReferenceIdeal.RefSpec.head h batch fcw fcb := rfl

/-- The degree column reads the degree vector. -/
theorem degCol_apply (ei : T Cert.KernelIdeal.S2x1280000 .i32) (p : Fin 80000) :
    degCol ei (ix2 p (0 : Fin 1)) = Cert.ReferenceIdeal.RefSpec.degRow ei (ix1 p) := by
  rw [← degRow_eq]
  unfold degCol
  exact Cert.LibBcastInDim.vec_col_apply ![0] rfl _ _ p 0

/-- The bias row reads the bias vector. -/
theorem biasRow_apply (b : T Cert.KernelIdeal.S64 .f32) (q : Fin 64) : biasRow b (ix2 (0 : Fin 1) q) = b (ix1 q) := by
  unfold biasRow
  exact shapeCast_a_1a_apply b _ 0 q

end Cert.GlueEq

end
-- ==== Proof.KerValue.lean ====
/-
  The program's result is the reference's result.

  Through the program's eight stages and the host operations between them: the first message stage ends holding the
  message function of the gathered inputs, which is the reference's message term; scattered at the targets and fed,
  with the degree column, the inputs, the root weights and the bias row, to the first node stage, it gives the
  reference's first layer; and so on for the three 64-wide layers, each consuming the previous layer's features. The
  pooling head applied to the fourth layer's features is the reference's head. Every step is one of: a stage's array
  as one function of its operands; the contents the stage finds, read through the host operations before it; the
  reference's message or node term being that function; the host operations being the reference's.
-/
import proofs.«170515_j51196010168472_1_alg».proof.Proof.KerFoldTail
import proofs.«170515_j51196010168472_1_alg».proof.Proof.Reg0
import proofs.«170515_j51196010168472_1_alg».proof.Proof.Reg1
import proofs.«170515_j51196010168472_1_alg».proof.Proof.Reg2
import proofs.«170515_j51196010168472_1_alg».proof.Proof.Reg3
import proofs.«170515_j51196010168472_1_alg».proof.Proof.Reg4
import proofs.«170515_j51196010168472_1_alg».proof.Proof.Reg5
import proofs.«170515_j51196010168472_1_alg».proof.Proof.Reg6
import proofs.«170515_j51196010168472_1_alg».proof.Proof.Reg7
import proofs.«170515_j51196010168472_1_alg».proof.Proof.BridgeMsg
import proofs.«170515_j51196010168472_1_alg».proof.Proof.BridgeNode
import proofs.«170515_j51196010168472_1_alg».proof.Proof.GlueEq
import proofs.«170515_j51196010168472_1_alg».proof.Proof.Gen.ReferenceIdeal

noncomputable section

namespace Cert.KerValue

open Cert.KernelIdeal Cert.KernelIdeal.Gen Cert.KernelIdeal.KerFold Idealize.ShloMosaic Idealize.ShloMosaic.TcCoe Idealize.SL.Sem
open Cert.ReferenceIdeal.Bridge

variable (m : (ℓ : Loc nD τ sig) → Buf (Elt Ideal) ℓ) (ρ : Dev nD → PrngReg) (c : Dev nD)

/-- The reference's features after layer 1, of the program's argument arrays. -/
def H1 : T S80000x64 .f32 :=
  Cert.ReferenceIdeal.RefSpec.layer1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6))
/-- … after layer 2. -/
def H2 : T S80000x64 .f32 := Cert.ReferenceIdeal.RefSpec.layer64 (H1 m c) (m ((c.tc : Thread nD τ).loc main_arg1)) (m ((c.tc : Thread nD τ).loc main_arg2)) (m ((c.tc : Thread nD τ).loc main_arg7)) (m ((c.tc : Thread nD τ).loc main_arg8)) (m ((c.tc : Thread nD τ).loc main_arg9))
/-- … after layer 3. -/
def H3 : T S80000x64 .f32 := Cert.ReferenceIdeal.RefSpec.layer64 (H2 m c) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12))
/-- … after layer 4. -/
def H4 : T S80000x64 .f32 := Cert.ReferenceIdeal.RefSpec.layer64 (H3 m c) (m ((c.tc : Thread nD τ).loc main_arg1)) (m ((c.tc : Thread nD τ).loc main_arg2)) (m ((c.tc : Thread nD τ).loc main_arg13)) (m ((c.tc : Thread nD τ).loc main_arg14)) (m ((c.tc : Thread nD τ).loc main_arg15))

/-- The first message stage's array is the reference's first message term. -/
theorem M1_eq : (dat0 (V1 (F := Ideal) m ρ) c).arrAt 4 cfg0.N
    = Cert.ReferenceIdeal.RefSpec.msg3 (Cert.ReferenceIdeal.RefSpec.gather3 (m ((c.tc : Thread nD τ).loc main_arg0)) (Cert.ReferenceIdeal.RefSpec.srcIdx (m ((c.tc : Thread nD τ).loc main_arg2)))) (m ((c.tc : Thread nD τ).loc main_arg1)) (Cert.ReferenceIdeal.RefSpec.w0of3 (m ((c.tc : Thread nD τ).loc main_arg4))) (Cert.ReferenceIdeal.RefSpec.w1of3 (m ((c.tc : Thread nD τ).loc main_arg4))) := by
  rw [Reg0.final (V1 (F := Ideal) m ρ) c, reg0_w0 m ρ c, reg0_w1 m ρ c, reg0_w2 m ρ c, reg0_w3 m ρ c,
    Cert.GlueEq.gather3_eq, Cert.GlueEq.srcIdx_eq, Cert.GlueEq.w0of3_eq, Cert.GlueEq.w1of3_eq]
  exact (msg3_eq _ _ _ _).symm

/-- The first node stage's array is the reference's first layer. -/
theorem L1_eq : (dat1 (V3 (F := Ideal) m ρ) c).arrAt 5 cfg1.N = H1 m c := by
  rw [Reg1.final (V3 (F := Ideal) m ρ) c, reg1_w0 m ρ c, reg1_w1 m ρ c, reg1_w2 m ρ c, reg1_w3 m ρ c, reg1_w4 m ρ c,
    M1_eq m ρ c, Cert.GlueEq.agg_eq, Cert.GlueEq.dstIdx_eq]
  unfold H1 Cert.ReferenceIdeal.RefSpec.layer1
  exact (node3_eq _ _ _ _ _ _ _ (Cert.GlueEq.degCol_apply _) (Cert.GlueEq.biasRow_apply _)).symm

/-- The second message stage's array is the reference's second message term. -/
theorem M2_eq : (dat2 (V5 (F := Ideal) m ρ) c).arrAt 4 cfg2.N
    = Cert.ReferenceIdeal.RefSpec.msg64 (Cert.ReferenceIdeal.RefSpec.gather64 (H1 m c) (Cert.ReferenceIdeal.RefSpec.srcIdx (m ((c.tc : Thread nD τ).loc main_arg2)))) (m ((c.tc : Thread nD τ).loc main_arg1)) (Cert.ReferenceIdeal.RefSpec.w0of64 (m ((c.tc : Thread nD τ).loc main_arg7))) (Cert.ReferenceIdeal.RefSpec.w1of64 (m ((c.tc : Thread nD τ).loc main_arg7))) := by
  rw [Reg2.final (V5 (F := Ideal) m ρ) c, reg2_w0 m ρ c, reg2_w1 m ρ c, reg2_w2 m ρ c, reg2_w3 m ρ c, L1_eq m ρ c,
    Cert.GlueEq.gather64_eq, Cert.GlueEq.srcIdx_eq, Cert.GlueEq.w0of64_eq, Cert.GlueEq.w1of64_eq]
  exact (msg64_eq _ _ _ _).symm

/-- The second node stage's array is the reference's second layer. -/
theorem L2_eq : (dat3 (V7 (F := Ideal) m ρ) c).arrAt 5 cfg3.N = H2 m c := by
  rw [Reg3.final (V7 (F := Ideal) m ρ) c, reg3_w0 m ρ c, reg3_w1 m ρ c, reg3_w2 m ρ c, reg3_w3 m ρ c, reg3_w4 m ρ c,
    M2_eq m ρ c, L1_eq m ρ c, Cert.GlueEq.agg_eq, Cert.GlueEq.dstIdx_eq]
  unfold H2 Cert.ReferenceIdeal.RefSpec.layer64
  exact (node64_eq _ _ _ _ _ _ _ (Cert.GlueEq.degCol_apply _) (Cert.GlueEq.biasRow_apply _)).symm

theorem M3_eq : (dat4 (V9 (F := Ideal) m ρ) c).arrAt 4 cfg4.N
    = Cert.ReferenceIdeal.RefSpec.msg64 (Cert.ReferenceIdeal.RefSpec.gather64 (H2 m c) (Cert.ReferenceIdeal.RefSpec.srcIdx (m ((c.tc : Thread nD τ).loc main_arg2)))) (m ((c.tc : Thread nD τ).loc main_arg1)) (Cert.ReferenceIdeal.RefSpec.w0of64 (m ((c.tc : Thread nD τ).loc main_arg10))) (Cert.ReferenceIdeal.RefSpec.w1of64 (m ((c.tc : Thread nD τ).loc main_arg10))) := by
  rw [Reg4.final (V9 (F := Ideal) m ρ) c, reg4_w0 m ρ c, reg4_w1 m ρ c, reg4_w2 m ρ c, reg4_w3 m ρ c, L2_eq m ρ c,
    Cert.GlueEq.gather64_eq, Cert.GlueEq.srcIdx_eq, Cert.GlueEq.w0of64_eq, Cert.GlueEq.w1of64_eq]
  exact (msg64_eq _ _ _ _).symm

theorem L3_eq : (dat5 (V11 (F := Ideal) m ρ) c).arrAt 5 cfg5.N = H3 m c := by
  rw [Reg5.final (V11 (F := Ideal) m ρ) c, reg5_w0 m ρ c, reg5_w1 m ρ c, reg5_w2 m ρ c, reg5_w3 m ρ c, reg5_w4 m ρ c,
    M3_eq m ρ c, L2_eq m ρ c, Cert.GlueEq.agg_eq, Cert.GlueEq.dstIdx_eq]
  unfold H3 Cert.ReferenceIdeal.RefSpec.layer64
  exact (node64_eq _ _ _ _ _ _ _ (Cert.GlueEq.degCol_apply _) (Cert.GlueEq.biasRow_apply _)).symm

theorem M4_eq : (dat6 (V13 (F := Ideal) m ρ) c).arrAt 4 cfg6.N
    = Cert.ReferenceIdeal.RefSpec.msg64 (Cert.ReferenceIdeal.RefSpec.gather64 (H3 m c) (Cert.ReferenceIdeal.RefSpec.srcIdx (m ((c.tc : Thread nD τ).loc main_arg2)))) (m ((c.tc : Thread nD τ).loc main_arg1)) (Cert.ReferenceIdeal.RefSpec.w0of64 (m ((c.tc : Thread nD τ).loc main_arg13))) (Cert.ReferenceIdeal.RefSpec.w1of64 (m ((c.tc : Thread nD τ).loc main_arg13))) := by
  rw [Reg6.final (V13 (F := Ideal) m ρ) c, reg6_w0 m ρ c, reg6_w1 m ρ c, reg6_w2 m ρ c, reg6_w3 m ρ c, L3_eq m ρ c,
    Cert.GlueEq.gather64_eq, Cert.GlueEq.srcIdx_eq, Cert.GlueEq.w0of64_eq, Cert.GlueEq.w1of64_eq]
  exact (msg64_eq _ _ _ _).symm

set_option maxHeartbeats 1000000 in
theorem L4_eq : (dat7 (V15 (F := Ideal) m ρ) c).arrAt 5 cfg7.N = H4 m c := by
  rw [Reg7.final (V15 (F := Ideal) m ρ) c, reg7_w0 m ρ c, reg7_w1 m ρ c, reg7_w2 m ρ c, reg7_w3 m ρ c, reg7_w4 m ρ c,
    M4_eq m ρ c, L3_eq m ρ c, Cert.GlueEq.agg_eq, Cert.GlueEq.dstIdx_eq]
  unfold H4 Cert.ReferenceIdeal.RefSpec.layer64
  exact (node64_eq _ _ _ _ _ _ _ (Cert.GlueEq.degCol_apply _) (Cert.GlueEq.biasRow_apply _)).symm

/-- THE RESULT: what the program leaves in its result array is the reference's result of the same arguments. -/
theorem value : W20 (F := Ideal) m ρ c (Proc.devRef .tc main_v92)
    = Cert.ReferenceIdeal.RefSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [KerFold.result m ρ c, L4_eq m ρ c, Cert.GlueEq.head_eq]
  rfl

end Cert.KerValue

end
-- ==== Proof.lean ====
/-
  The certificate of a four-layer spline convolution network with mean pooling and a log-softmax head: the program
  under proof runs each layer's message computation and node update as tiled stages and leaves the gathers, the
  scatter-adds and the pooling head to the host; the reference is the same network written with host operations only.

  The three frames: the two tiled programs' are the generated frame theorems; the reference's is its run with the
  result dropped. Nothing was rewritten in passing to the ideal values, so that conjunct is trivial. The equivalence:
  both programs run; the tiled program's result array ends at the fold of its segments read at the result buffer,
  the reference's at its composed term of the arguments, and the two agree (`Cert.KerValue.value`): every stage's
  array is one function of the arrays it finds — the message function, the node function —, those functions are the
  reference's message and node terms entry by entry (a matrix product into zero against a host product; `max`
  symmetric; the two spellings of the activation equal at every extended real), and the host operations around the
  stages are the reference's own. No law used needs the inputs to be finite.
-/
import proofs.«170515_j51196010168472_1_alg».proof.Defs
import proofs.«170515_j51196010168472_1_alg».proof.Proof.Gen.Kernel
import proofs.«170515_j51196010168472_1_alg».proof.Proof.Gen.Kernel.Frame
import proofs.«170515_j51196010168472_1_alg».proof.Proof.Gen.KernelIdeal
import proofs.«170515_j51196010168472_1_alg».proof.Proof.Gen.KernelIdeal.Frame
import proofs.«170515_j51196010168472_1_alg».proof.Proof.Gen.ReferenceIdeal
import proofs.«170515_j51196010168472_1_alg».proof.Proof.Gen.Pre_finite_inputs
import proofs.«170515_j51196010168472_1_alg».proof.Proof.KerRun
import proofs.«170515_j51196010168472_1_alg».proof.Proof.RefRun
import proofs.«170515_j51196010168472_1_alg».proof.Proof.KerValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both programs run, from memories agreeing on the arguments, to the same result array. -/
theorem algebraic : Cert.algebraic_KernelIdeal_ReferenceIdeal := by
  intro m ρ m' ρ' _ hagree
  refine ⟨fun c => Cert.KernelIdeal.Gen.W20 (F := Ideal) m ρ c (Proc.devRef .tc Cert.KernelIdeal.main_v92),
    Cert.KernelIdeal.KerRun.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]
  exact (Cert.KerValue.value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
